-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S1002x128 : Shape := ⟨2, ![1002, 128]⟩
abbrev S_ : Shape := ⟨0, ![]⟩

class Facts : Prop where
  bcast_S_S1002x128 : S_.BroadcastsInDim S1002x128 (![] : Fin 0 → Fin S1002x128.rank)
  reducesTo_S1002x128_S_d0_1 : S1002x128.ReducesTo [0, 1] S_
  h_S_ : 0 < S_.numel
  bcast_S_S4096x50 : S_.BroadcastsInDim S4096x50 (![] : Fin 0 → Fin S4096x50.rank)
  reducesTo_S4096x50_S_d0_1 : S4096x50.ReducesTo [0, 1] S_

variable [Facts]

def fn {F : FTy → Type} [FloatOps F] (main_arg0 : IVec S4096x50 32) (main_arg1 : FVec F S1002x128 .f32) : IVec S_ 1 :=
  let main_v0 : FVec F S1002x128 .f32 := Host.absf main_arg1
  let main_cst : FVec F S_ .f32 := constant S_ .f32 0x7F800000#32
  let main_v1 : FVec F S1002x128 .f32 := broadcastInDim S1002x128 ![] bcast_S_S1002x128 main_cst
  let main_v2 : IVec S1002x128 1 := cmpf .olt main_v0 main_v1
  let main_c : IVec S_ 1 := constantI S_ 1 1#1
  let main_v3 : IVec S_ 1 := (fun x v => Host.reduce IntOp.andi x v reducesTo_S1002x128_S_d0_1 h_S_) main_v2 main_c
  let main_c_0 : IVec S_ 32 := constantI S_ 32 0#32
  let main_v4 : IVec S4096x50 32 := broadcastInDim S4096x50 ![] bcast_S_S4096x50 main_c_0
  let main_v5 : IVec S4096x50 1 := cmpi .sge main_arg0 main_v4
  let main_c_1 : IVec S_ 32 := constantI S_ 32 999#32
  let main_v6 : IVec S4096x50 32 := broadcastInDim S4096x50 ![] bcast_S_S4096x50 main_c_1
  let main_v7 : IVec S4096x50 1 := cmpi .sle main_arg0 main_v6
  let main_v8 : IVec S4096x50 1 := andi main_v5 main_v7
  let main_c_2 : IVec S_ 1 := constantI S_ 1 1#1
  let main_v9 : IVec S_ 1 := (fun x v => Host.reduce IntOp.andi x v reducesTo_S4096x50_S_d0_1 h_S_) main_v8 main_c_2
  let main_v10 : IVec S_ 1 := andi main_v3 main_v9
  main_v10
-- ==== Kernel.lean ====
abbrev S4096x50 : Shape := ⟨2, ![4096, 50]⟩
abbrev S1002x128 : Shape := ⟨2, ![1002, 128]⟩
abbrev S50x4096 : Shape := ⟨2, ![50, 4096]⟩
abbrev S32x6400 : Shape := ⟨2, ![32, 6400]⟩
abbrev S204800x128 : Shape := ⟨2, ![204800, 128]⟩
abbrev S6400 : Shape := ⟨1, ![6400]⟩
abbrev S6x128x128 : Shape := ⟨3, ![6, 128, 128]⟩
abbrev S6 : Shape := ⟨1, ![6]⟩
abbrev S_ : Shape := ⟨0, ![]⟩
abbrev S1x6400 : Shape := ⟨2, ![1, 6400]⟩
abbrev S1x128x128 : Shape := ⟨3, ![1, 128, 128]⟩
abbrev S128x128 : Shape := ⟨2, ![128, 128]⟩
abbrev S128 : Shape := ⟨1, ![128]⟩
abbrev S1 : Shape := ⟨1, ![1]⟩
abbrev S50x4096x128 : Shape := ⟨3, ![50, 4096, 128]⟩
abbrev S4096x50x128 : Shape := ⟨3, ![4096, 50, 128]⟩

abbrev nBuf : Table → Nat
  | .hbm => 7
  | .shared => 1
  | .local .scVector .vmem => 2
  | _ => 0

abbrev bufTy : (tb : Table) → Fin (nBuf tb) → BufTy
  | .hbm, ⟨0, _⟩ => ⟨S4096x50, .i32⟩
  | .hbm, ⟨1, _⟩ => ⟨S1002x128, .f32⟩
  | .hbm, ⟨2, _⟩ => ⟨S50x4096, .i32⟩
  | .hbm, ⟨3, _⟩ => ⟨S32x6400, .i32⟩
  | .hbm, ⟨4, _⟩ => ⟨S204800x128, .f32⟩
  | .hbm, ⟨5, _⟩ => ⟨S50x4096x128, .f32⟩
  | .hbm, ⟨6, _⟩ => ⟨S4096x50x128, .f32⟩
  | .shared, ⟨0, _⟩ => ⟨S1002x128, .f32⟩
  | .local .scVector .vmem, ⟨0, _⟩ => ⟨S6400, .i32⟩
  | .local .scVector .vmem, ⟨1, _⟩ => ⟨S6x128x128, .f32⟩
  | _, _ => ⟨S4096x50, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 5 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v1_scv : Ref sig .scVector := ⟨.hbm, 3, rfl⟩
abbrev main_arg1_scv : Ref sig .scVector := ⟨.hbm, 1, rfl⟩
abbrev main_v2_scv : Ref sig .scVector := ⟨.hbm, 4, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_62_r1 : BitVec 32 := 0#32
  ![v1.toNat, 0]
@[reducible] def k0_t1_loop : Scf.Loop 32 :=
  let c0_i32_14 : BitVec 32 := 0#32
  let c50_i32 : BitVec 32 := 50#32
  let v18 : BitVec 32 := Scalar.addi c0_i32_14 c50_i32
  let c1_i32_15 : BitVec 32 := 1#32
  ⟨c0_i32_14, v18, c1_i32_15⟩
def k0_cond2 (k0_t1 : Fin k0_t1_loop.trips) : BitVec 1 :=
  let c0_i32_14 : BitVec 32 := 0#32
  let c1_i32_15 : BitVec 32 := 1#32
  let arg10 : BitVec 32 := Scf.iv c0_i32_14 c1_i32_15 k0_t1
  let c2_i32_62 : BitVec 32 := 2#32
  let v74 : BitVec 32 := Scalar.addi arg10 c2_i32_62
  let c50_i32_63 : BitVec 32 := 50#32
  let v75 : BitVec 1 := Scalar.cmpi .slt v74 c50_i32_63
  let v76 : BitVec 32 := Scalar.extui v75
  let c0_i32_64 : BitVec 32 := 0#32
  let v77 : BitVec 1 := Scalar.cmpi .ne v76 c0_i32_64
  v77

def k0_cond3 (k0_t1 : Fin k0_t1_loop.trips) : BitVec 1 :=
  let c0_i32_14 : BitVec 32 := 0#32
  let c1_i32_15 : BitVec 32 := 1#32
  let arg10 : BitVec 32 := Scf.iv c0_i32_14 c1_i32_15 k0_t1
  let c4_i32_79 : BitVec 32 := 4#32
  let v97 : BitVec 1 := Scalar.cmpi .sge arg10 c4_i32_79
  let v98 : BitVec 32 := Scalar.extui v97
  let c0_i32_80 : BitVec 32 := 0#32
  let v99 : BitVec 1 := Scalar.cmpi .ne v98 c0_i32_80
  v99

def k0_off2 (k0_t1 : Fin k0_t1_loop.trips) : Fin 3 → Nat :=
  let c0_i32_14 : BitVec 32 := 0#32
  let c1_i32_15 : BitVec 32 := 1#32
  let arg10 : BitVec 32 := Scf.iv c0_i32_14 c1_i32_15 k0_t1
  let c2_i32_77 : BitVec 32 := 2#32
  let v95 : BitVec 32 := Scalar.addi arg10 c2_i32_77
  let c6_i32_78 : BitVec 32 := 6#32
  let v96 : BitVec 32 := Scalar.remsi v95 c6_i32_78
  let c0_i32_90 : BitVec 32 := 0#32
  let c0_i32_91 : BitVec 32 := 0#32
  ![v96.toNat, 0, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v5 : BitVec 32 := Scalar.muli v1 c6400_i32
  let c0_i32_14 : BitVec 32 := 0#32
  let c1_i32_15 : BitVec 32 := 1#32
  let arg10 : BitVec 32 := Scf.iv c0_i32_14 c1_i32_15 k0_t1
  let c2_i32_87 : BitVec 32 := 2#32
  let v108 : BitVec 32 := Scalar.addi arg10 c2_i32_87
  let c6_i32_88 : BitVec 32 := 6#32
  let v109 : BitVec 32 := Scalar.subi v108 c6_i32_88
  let c128_i32_89 : BitVec 32 := 128#32
  let v110 : BitVec 32 := Scalar.muli v109 c128_i32_89
  let v111 : BitVec 32 := Scalar.addi v5 v110
  let c0_i32_92 : BitVec 32 := 0#32
  ![v111.toNat, 0]
def k0_off4 (k0_t1 : Fin k0_t1_loop.trips) : Fin 1 → Nat :=
  let c0_i32_14 : BitVec 32 := 0#32
  let c1_i32_15 : BitVec 32 := 1#32
  let arg10 : BitVec 32 := Scf.iv c0_i32_14 c1_i32_15 k0_t1
  let c2_i32_77 : BitVec 32 := 2#32
  let v95 : BitVec 32 := Scalar.addi arg10 c2_i32_77
  let c6_i32_78 : BitVec 32 := 6#32
  let v96 : BitVec 32 := Scalar.remsi v95 c6_i32_78
  ![v96.toNat]
def k0_off5 (k0_t1 : Fin k0_t1_loop.trips) : Fin 3 → Nat :=
  let c0_i32_14 : BitVec 32 := 0#32
  let c1_i32_15 : BitVec 32 := 1#32
  let arg10 : BitVec 32 := Scf.iv c0_i32_14 c1_i32_15 k0_t1
  let c2_i32_77 : BitVec 32 := 2#32
  let v95 : BitVec 32 := Scalar.addi arg10 c2_i32_77
  let c6_i32_78 : BitVec 32 := 6#32
  let v96 : BitVec 32 := Scalar.remsi v95 c6_i32_78
  let c0_i32_83 : BitVec 32 := 0#32
  let c0_i32_84 : BitVec 32 := 0#32
  ![v96.toNat, 0, 0]
def k0_off6 (k0_t1 : Fin k0_t1_loop.trips) : Fin 1 → Nat :=
  let c0_i32_14 : BitVec 32 := 0#32
  let c1_i32_15 : BitVec 32 := 1#32
  let arg10 : BitVec 32 := Scf.iv c0_i32_14 c1_i32_15 k0_t1
  let c2_i32_81 : BitVec 32 := 2#32
  let v100 : BitVec 32 := Scalar.addi arg10 c2_i32_81
  let c128_i32_82 : BitVec 32 := 128#32
  let v101 : BitVec 32 := Scalar.muli v100 c128_i32_82
  ![v101.toNat]
def k0_off7 (k0_t1 : Fin k0_t1_loop.trips) : Fin 1 → Nat :=
  let c0_i32_14 : BitVec 32 := 0#32
  let c1_i32_15 : BitVec 32 := 1#32
  let arg10 : BitVec 32 := Scf.iv c0_i32_14 c1_i32_15 k0_t1
  let c2_i32_77 : BitVec 32 := 2#32
  let v95 : BitVec 32 := Scalar.addi arg10 c2_i32_77
  let c6_i32_78 : BitVec 32 := 6#32
  let v96 : BitVec 32 := Scalar.remsi v95 c6_i32_78
  ![v96.toNat]
def k0_off8 (k0_t1 : Fin k0_t1_loop.trips) : Fin 3 → Nat :=
  let c0_i32_14 : BitVec 32 := 0#32
  let c1_i32_15 : BitVec 32 := 1#32
  let arg10 : BitVec 32 := Scf.iv c0_i32_14 c1_i32_15 k0_t1
  let c6_i32 : BitVec 32 := 6#32
  let v73 : BitVec 32 := Scalar.remsi arg10 c6_i32
  let c0_i32_66 : BitVec 32 := 0#32
  let c0_i32_67 : BitVec 32 := 0#32
  ![v73.toNat, 0, 0]
def k0_off9 (k0_t1 : Fin k0_t1_loop.trips) : Fin 1 → Nat :=
  let c0_i32_14 : BitVec 32 := 0#32
  let c1_i32_15 : BitVec 32 := 1#32
  let arg10 : BitVec 32 := Scf.iv c0_i32_14 c1_i32_15 k0_t1
  let c128_i32_65 : BitVec 32 := 128#32
  let v78 : BitVec 32 := Scalar.muli arg10 c128_i32_65
  ![v78.toNat]
def k0_off10 (k0_t1 : Fin k0_t1_loop.trips) : Fin 1 → Nat :=
  let c0_i32_14 : BitVec 32 := 0#32
  let c1_i32_15 : BitVec 32 := 1#32
  let arg10 : BitVec 32 := Scf.iv c0_i32_14 c1_i32_15 k0_t1
  let c6_i32 : BitVec 32 := 6#32
  let v73 : BitVec 32 := Scalar.remsi arg10 c6_i32
  ![v73.toNat]
def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v5 : BitVec 32 := Scalar.muli v1 c6400_i32
  let c0_i32_14 : BitVec 32 := 0#32
  let c1_i32_15 : BitVec 32 := 1#32
  let arg10 : BitVec 32 := Scf.iv c0_i32_14 c1_i32_15 k0_t1
  let c128_i32_70 : BitVec 32 := 128#32
  let v85 : BitVec 32 := Scalar.muli arg10 c128_i32_70
  let v86 : BitVec 32 := Scalar.addi v5 v85
  let c0_i32_73 : BitVec 32 := 0#32
  ![v86.toNat, 0]
def k0_off12 (i : grid0.Coords) (c5632_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v5 : BitVec 32 := Scalar.muli v1 c6400_i32
  let v19 : BitVec 32 := Scalar.addi v5 c5632_i32
  let c0_i32_21 : BitVec 32 := 0#32
  ![v19.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x50_S50x4096_1_0 : S4096x50.Transposes [1, 0] S50x4096
  shapeCasts_S50x4096_S32x6400 : S50x4096.ShapeCasts S32x6400
  squeezes_S1x6400_S6400 : S1x6400.Squeezes S6400
  inb_S6x128x128_S1x128x128_0_0_0 : ∀ a, (![0, 0, 0] : Fin 3 → Nat) a + S1x128x128.size a ≤ S6x128x128.size a
  squeezes_S1x128x128_S128x128 : S1x128x128.Squeezes S128x128
  inb_S6400_S128_0 : ∀ a, (![0] : Fin 1 → Nat) a + S128.size a ≤ S6400.size a
  inb_S1002x128_S1002x128_0_0 : ∀ a, (![0, 0] : Fin 2 → Nat) a + S1002x128.size a ≤ S1002x128.size a
  inb_S6_S1_0 : ∀ a, (![0] : Fin 1 → Nat) a + S1.size a ≤ S6.size a
  squeezes_S1_S_ : S1.Squeezes S_
  gathers_S1002x128_S128x128 : S1002x128.Gathers 0 S128x128
  inb_S6x128x128_S1x128x128_1_0_0 : ∀ a, (![1, 0, 0] : Fin 3 → Nat) a + S1x128x128.size a ≤ S6x128x128.size a
  inb_S6400_S128_128 : ∀ a, (![128] : Fin 1 → Nat) a + S128.size a ≤ S6400.size a
  inb_S6_S1_1 : ∀ a, (![1] : Fin 1 → Nat) a + S1.size a ≤ S6.size a
  inb_S6x128x128_S1x128x128_2_0_0 : ∀ a, (![2, 0, 0] : Fin 3 → Nat) a + S1x128x128.size a ≤ S6x128x128.size a
  inb_S6_S1_2 : ∀ a, (![2] : Fin 1 → Nat) a + S1.size a ≤ S6.size a
  inb_S6x128x128_S1x128x128_3_0_0 : ∀ a, (![3, 0, 0] : Fin 3 → Nat) a + S1x128x128.size a ≤ S6x128x128.size a
  inb_S6_S1_3 : ∀ a, (![3] : Fin 1 → Nat) a + S1.size a ≤ S6.size a
  inb_S6x128x128_S1x128x128_4_0_0 : ∀ a, (![4, 0, 0] : Fin 3 → Nat) a + S1x128x128.size a ≤ S6x128x128.size a
  inb_S6_S1_4 : ∀ a, (![4] : Fin 1 → Nat) a + S1.size a ≤ S6.size a
  inb_S6x128x128_S1x128x128_5_0_0 : ∀ a, (![5, 0, 0] : Fin 3 → Nat) a + S1x128x128.size a ≤ S6x128x128.size a
  inb_S6_S1_5 : ∀ a, (![5] : Fin 1 → Nat) a + S1.size a ≤ S6.size a
  shapeCasts_S204800x128_S50x4096x128 : S204800x128.ShapeCasts S50x4096x128
  transposes_S50x4096x128_S4096x50x128_1_0_2 : S50x4096x128.Transposes [1, 0, 2] S4096x50x128
  hcc0_scratch3 : 0 + S6.numel ≤ 14
  hcc0_scratch4 : 6 + S6.numel ≤ 14
  hcc0_scoped0 : 12 + S_.numel ≤ 14
  hcc0_scoped1 : 13 + S_.numel ≤ 14
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x6400.size a ≤ S32x6400.size a
  k0_t1_ok : k0_t1_loop.OK
  k0_off2_inb : ∀ k0_t1 : Fin k0_t1_loop.trips, ∀ (k0_h2 : k0_cond2 k0_t1 = 1#1), ∀ (k0_h3 : k0_cond3 k0_t1 = 1#1), ∀ a, (k0_off2 k0_t1) a + S1x128x128.size a ≤ S6x128x128.size a
  k0_off3_inb : ∀ (i : grid0.Coords) (k0_t1 : Fin k0_t1_loop.trips), ∀ (k0_h2 : k0_cond2 k0_t1 = 1#1), ∀ (k0_h3 : k0_cond3 k0_t1 = 1#1), ∀ a, (k0_off3 i k0_t1) a + S128x128.size a ≤ S204800x128.size a
  k0_off4_inb : ∀ k0_t1 : Fin k0_t1_loop.trips, ∀ (k0_h2 : k0_cond2 k0_t1 = 1#1), ∀ (k0_h3 : k0_cond3 k0_t1 = 1#1), ∀ a, (k0_off4 k0_t1) a + S1.size a ≤ S6.size a
  k0_off5_inb : ∀ k0_t1 : Fin k0_t1_loop.trips, ∀ (k0_h2 : k0_cond2 k0_t1 = 1#1), ∀ a, (k0_off5 k0_t1) a + S1x128x128.size a ≤ S6x128x128.size a
  k0_off6_inb : ∀ k0_t1 : Fin k0_t1_loop.trips, ∀ (k0_h2 : k0_cond2 k0_t1 = 1#1), ∀ a, (k0_off6 k0_t1) a + S128.size a ≤ S6400.size a
  k0_off7_inb : ∀ k0_t1 : Fin k0_t1_loop.trips, ∀ (k0_h2 : k0_cond2 k0_t1 = 1#1), ∀ a, (k0_off7 k0_t1) a + S1.size a ≤ S6.size a
  k0_off8_inb : ∀ k0_t1 : Fin k0_t1_loop.trips, ∀ a, (k0_off8 k0_t1) a + S1x128x128.size a ≤ S6x128x128.size a
  k0_off9_inb : ∀ k0_t1 : Fin k0_t1_loop.trips, ∀ a, (k0_off9 k0_t1) a + S128.size a ≤ S6400.size a
  k0_off10_inb : ∀ k0_t1 : Fin k0_t1_loop.trips, ∀ a, (k0_off10 k0_t1) a + S1.size a ≤ S6.size a
  k0_off11_inb : ∀ (i : grid0.Coords) (k0_t1 : Fin k0_t1_loop.trips), ∀ a, (k0_off11 i k0_t1) a + S128x128.size a ≤ S204800x128.size a
  k0_off12_inb : ∀ i : grid0.Coords, ∀ (r : Fin 6), ∀ a, (k0_off12 i (BitVec.ofNat 32 (5632 + 128 * r.val))) a + S128x128.size a ≤ S204800x128.size a

variable [Facts₀]

abbrev cc0_scratch3 : DmaSems sig S6 := SemArray.consecutive 0 S6 hcc0_scratch3
abbrev cc0_scratch4 : DmaSems sig S6 := SemArray.consecutive 6 S6 hcc0_scratch4
abbrev cc0_scoped0 : DmaSems sig S_ := SemArray.consecutive 12 S_ hcc0_scoped0
abbrev cc0_scoped1 : DmaSems sig S_ := SemArray.consecutive 13 S_ hcc0_scoped1

class Facts : Prop extends Facts₀ where

variable [Facts]
-- ==== ReferenceIdeal.lean ====
abbrev S4096x50 : Shape := ⟨2, ![4096, 50]⟩
abbrev S1002x128 : Shape := ⟨2, ![1002, 128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S1002x128, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x128, .f32⟩
  | .hbm, ⟨21, _⟩ => ⟨S4096x50x128, .i1⟩
  | .hbm, ⟨22, _⟩ => ⟨S_, .f32⟩
  | .hbm, ⟨23, _⟩ => ⟨S4096x50x128, .f32⟩
  | .hbm, ⟨24, _⟩ => ⟨S4096x50x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x128_0_1 : S4096x50.BroadcastsInDim S4096x50x128 (![0, 1] : Fin 2 → Fin S4096x50x128.rank)
  bcast_S_S4096x50x128 : S_.BroadcastsInDim S4096x50x128 (![] : Fin 0 → Fin S4096x50x128.rank)
  gather_S1002x128_S4096x50x1_S4096x50x128_2_0_n_n_0_2_1128_wf : GatherDims.WF S1002x128 S4096x50x1 S4096x50x128 [2] [0] [] [0] [] 2 ![1, 128]

variable [Facts₀]

def gather_S1002x128_S4096x50x1_S4096x50x128_2_0_n_n_0_2_1128 : GatherDims S1002x128 S4096x50x1 S4096x50x128 where
  offsetDims := [2]
  collapsedSliceDims := [0]
  operandBatchingDims := []
  startIndicesBatchingDims := []
  startIndexMap := [0]
  indexVectorDim := 2
  sliceSizes := ![1, 128]
  wf := gather_S1002x128_S4096x50x1_S4096x50x128_2_0_n_n_0_2_1128_wf

class Facts : Prop extends Facts₀ where

variable [Facts]
-- ==== Proof.Spec.lean ====
/-
  What the embedding lookup computes, stated once and independently of either program.

  The inputs are a list of index words `idx : [4096, 50]` and a table `tab : [1002, 128]`. The result has, at position
  (b, h, q), entry q of the table row that the word idx(b, h) names. A word names the row whose number is the word read as a
  natural number; words beyond the last row are capped at the last row, so that the function is total (under the
  certificate's precondition every word is at most 999, and the cap is never reached).

  The kernel works on a rearrangement of the index list: the list is transposed to [50, 4096], and its 204800 words in
  row-major order are cut into 32 runs of 6400. Run w, word p of the rearranged list is therefore word number 6400 w + p of
  the transposed list. The kernel produces a flat array of 204800 rows, row r being the table row named by word number r,
  and the host then reads this flat array as [50, 4096, 128] and transposes it back to [4096, 50, 128].
-/
import Idealize.ShloMosaic.PureOps
import Idealize.ShloMosaic.Lib.ValueIdx
import Idealize.ShloMosaic.Lib.Pipeline.Value

namespace Cert.Spec

open Idealize.ShloMosaic Idealize.ShloMosaic.ValueIdx

abbrev SIdx : Shape := ⟨2, ![4096, 50]⟩
abbrev STab : Shape := ⟨2, ![1002, 128]⟩
abbrev SIdxT : Shape := ⟨2, ![50, 4096]⟩
abbrev SIdxW : Shape := ⟨2, ![32, 6400]⟩
abbrev SOutW : Shape := ⟨2, ![204800, 128]⟩
abbrev SOutT : Shape := ⟨3, ![50, 4096, 128]⟩
abbrev SOut : Shape := ⟨3, ![4096, 50, 128]⟩

/-- The table row an index word names: the word as a natural number, capped at the last row. -/
def rowOf (w : BitVec 32) : Fin 1002 := ⟨min w.toNat 1001, by omega⟩

theorem rowOf_of_lt {w : BitVec 32} (h : w.toNat < 1002) : rowOf w = ⟨w.toNat, h⟩ :=
  Fin.ext (by show min w.toNat 1001 = w.toNat; omega)

/-- The embedding lookup: position (b, h, q) holds entry q of the table row named by index word (b, h). -/
def lookup {α : Type} (idx : SIdx.Idx → BitVec 32) (tab : STab.Idx → α) : SOut.Idx → α :=
  fun x => tab (ix2 (rowOf (idx (ix2 (x 0) (x 1)))) (x 2))

/-- The rearranged index list: transposed, then its words in row-major order cut into 32 runs of 6400. -/
def idxW (idx : SIdx.Idx → BitVec 32) : SIdxW.Idx → BitVec 32 :=
  shapeCast SIdxW (transpose SIdxT [1, 0] idx (by decide)) (by decide)

/-- The flat lookup over a rearranged list: row r = 6400 w + p holds the table row named by word (w, p). -/
def flatLookup {α : Type} (iw : SIdxW.Idx → BitVec 32) (tab : STab.Idx → α) : SOutW.Idx → α :=
  fun x => tab (ix2 (rowOf (iw (ix2 (⟨(x 0).val / 6400, by have h : (x 0).val < 204800 := (x 0).isLt; omega⟩ : Fin 32)
    (⟨(x 0).val % 6400, Nat.mod_lt _ (by decide)⟩ : Fin 6400)))) (x 1))

/-- The flat result read as [50, 4096, 128] and transposed to [4096, 50, 128]. -/
def unflat {α : Type} (y : SOutW.Idx → α) : SOut.Idx → α :=
  transpose SOut [1, 0, 2] (shapeCast SOutT y (by decide)) (by decide)

end Cert.Spec
-- ==== Proof.KISetup.lean ====
/-
  The embedding-lookup kernel on the SparseCores: the program as the launch theorem sees it, and what its threads exchange.

  Thirty-two tiles (sixteen on each of two SparseCores) each look up 6400 rows. Tile s of SparseCore c is worker
  w = 2 s + c: it reads run w of the rearranged index list and writes rows 6400 w … 6400 w + 6399 of the flat result.
  Tile 0 of each SparseCore first copies the table into the SparseCore's shared vector memory; all sixteen tiles then meet
  at the subcore barrier, after which each of them reads the shared copy. So the barrier carries the table: tile 0's
  arrival on tile j's barrier cell hands over a read share of the shared copy holding the table; the other arrivals hand
  over nothing.

  What the call is handed: every run of the rearranged index list and every 6400-row part of the flat result (each to its
  worker), a read share of the table per SparseCore (to its tile 0), and the SparseCore's shared memory (to its tile 0).
  What comes back: the same, the parts of the flat result now holding the looked-up rows, the shared memory holding the
  table.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«203285_g23708219474275_cont_8to1_227_19_alg».proof.Proof.Gen.KernelIdeal
import proofs.«203285_g23708219474275_cont_8to1_227_19_alg».proof.Proof.Gen.KernelIdeal.Skeleton
import proofs.«203285_g23708219474275_cont_8to1_227_19_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and their pieces -/

variable (m : (ℓ : Loc nD τ sig) → Buf (Elt F) ℓ) (ρ : Dev nD → PrngReg)

theorem nSub_eq : τ.nSub = 16 := rfl
theorem nSC_eq : τ.nSC = 2 := rfl

/-- The index list, the table, the rearranged index list, the flat result, and the two arrays the host makes of it. -/
abbrev a0Loc (d : Dev nD) : Loc nD τ sig := (SparseCore.T d).loc main_arg0
abbrev tabLoc (d : Dev nD) : Loc nD τ sig := (SparseCore.T d).loc main_arg1
abbrev v0Loc (d : Dev nD) : Loc nD τ sig := (SparseCore.T d).loc main_v0
abbrev iwLoc (d : Dev nD) : Loc nD τ sig := (SparseCore.T d).loc main_v1
abbrev outLoc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4

/-- SparseCore `c`'s shared vector memory, as every tile of it addresses it. -/
abbrev shRef (c : Fin τ.nSC) : DevRef τ sig := ⟨.shared, ⟨0, by decide⟩, c⟩
abbrev shLoc (d : Dev nD) (c : Fin τ.nSC) : Loc nD τ sig := (d, shRef c)

/-- What the rearranged index list holds when the kernel is called, and what the flat result holds when it ends. -/
def IW (d : Dev nD) : Buf (Elt F) (iwLoc d) := Cert.Spec.idxW (m (a0Loc d))
def OUT (d : Dev nD) : Buf (Elt F) (outLoc d) := Cert.Spec.flatLookup (IW m d) (m (tabLoc d))
/-- The table, as the contents of a SparseCore's shared memory. -/
def TABsh (d : Dev nD) (c : Fin τ.nSC) : Buf (Elt F) (shLoc d c) := fun i => m (tabLoc d) i

local notation "iwV" => (Memref.whole Cert.KernelIdeal.main_v1_scv : Memref Cert.KernelIdeal.sig Kind.scVector Space.hbm Cert.KernelIdeal.S32x6400 EltTy.i32)
local notation "tabV" => (Memref.whole Cert.KernelIdeal.main_arg1_scv : Memref Cert.KernelIdeal.sig Kind.scVector Space.hbm Cert.KernelIdeal.S1002x128 EltTy.f32)
local notation "outV" => (Memref.whole Cert.KernelIdeal.main_v2_scv : Memref Cert.KernelIdeal.sig Kind.scVector Space.hbm Cert.KernelIdeal.S204800x128 EltTy.f32)
local notation "shV" => (Memref.whole Cert.KernelIdeal.cc0_scratch2 : Memref Cert.KernelIdeal.sig Kind.scVector Space.shared Cert.KernelIdeal.S1002x128 EltTy.f32)
local notation "ivV" => (Memref.whole Cert.KernelIdeal.cc0_scratch0 : Memref Cert.KernelIdeal.sig Kind.scVector Space.vmem Cert.KernelIdeal.S6400 EltTy.i32)
local notation "rvV" => (Memref.whole Cert.KernelIdeal.cc0_scratch1 : Memref Cert.KernelIdeal.sig Kind.scVector Space.vmem Cert.KernelIdeal.S6x128x128 EltTy.f32)

theorem hdivIw : 32 ∣ S32x6400.size 0 := ⟨1, rfl⟩
theorem hdivOut : 32 ∣ S204800x128.size 0 := ⟨6400, rfl⟩
/-- Run `w` of the rearranged index list; part `w` (6400 rows) of the flat result. -/
abbrev iwRow (w : Fin 32) : Rect S32x6400 := Rect.part (s := S32x6400) (a₀ := 0) hdivIw w
abbrev outPart (w : Fin 32) : Rect S204800x128 := Rect.part (s := S204800x128) (a₀ := 0) hdivOut w
abbrev iwRowSet (w : Fin 32) : Finset S32x6400.Idx := ((iwV).view.slice (iwRow w)).set
abbrev outPartSet (w : Fin 32) : Finset S204800x128.Idx := ((outV).view.slice (outPart w)).set

/-- The worker number of tile `i` of SparseCore `c`. -/
def wid (c : Fin τ.nSC) (i : Fin 16) : Fin 32 := ⟨2 * i.val + c.val, by have h : c.val < 2 := c.isLt; omega⟩

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile `j`'s read share of its SparseCore's shared memory, holding the table. -/
abbrev shTokPts (d : Dev nD) (c : Fin τ.nSC) (j : Fin 16) : sProp 𝕄 :=
  shLoc d c ↦{Transfers.shareTok fullShare 16 j} TABsh m d c

/-- What a duty in tile `j`'s round hands over: tile 0's, tile `j`'s read share of the shared memory holding the table;
    the others', nothing. -/
def bPay (g : GSem nD τ sig) (n : ℕ) : sProp 𝕄 :=
  match g with
  | ((d, .scVector c j), _) => if n = 0 then shTokPts m d c (Fin.cast nSub_eq j) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's barrier kit: what the launch deals its proof -/

/-- Tile `(c, i)`'s barrier kit: every tile's cell invariant of its SparseCore and that each has reached round 0, its own
    position at the origin of round 0, its duty token in every tile's round 0, and the credit for the sixteen units of its
    own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

abbrev iwRowPts (d : Dev nD) (w : Fin 32) : sProp 𝕄 := iwLoc d ↦[iwRowSet w]{fullShare} IW m d
abbrev outPartPts (d : Dev nD) (w : Fin 32) (f : Buf (Elt F) (outLoc d)) : sProp 𝕄 := outLoc d ↦[outPartSet w]{fullShare} f
/-- SparseCore `c`'s read share of the table. -/
abbrev tabTokPts (d : Dev nD) (c : Fin τ.nSC) : sProp 𝕄 := tabLoc d ↦{Transfers.shareTok fullShare 2 (Fin.cast nSC_eq c)} m (tabLoc d)

/-- What tile 0 of a SparseCore is handed beyond its run and part: the table's share and the shared memory. -/
def lead0 (d : Dev nD) (c : Fin τ.nSC) (i : Fin 16) : sProp 𝕄 :=
  if i.val = 0 then iprop(tabTokPts m d c ∗ ∃ f, shLoc d c ↦{fullShare} f) else iprop(emp)
/-- What it hands back: the table's share, and what is left of the shared memory beside the sixteen read shares. -/
def lead1 (d : Dev nD) (c : Fin τ.nSC) (i : Fin 16) : sProp 𝕄 :=
  if i.val = 0 then iprop(tabTokPts m d c ∗ shLoc d c ↦{Transfers.shareDrop fullShare 16} TABsh m d c) else iprop(emp)

/-- What a tile's task starts from, and what it ends with. -/
def goRes (d : Dev nD) (c : Fin τ.nSC) (i : Fin 16) : sProp 𝕄 :=
  iprop(iwRowPts m d (wid c i) ∗ outPartPts d (wid c i) (m (outLoc d)) ∗ lead0 m d c i)
def tdRes (d : Dev nD) (c : Fin τ.nSC) (i : Fin 16) : sProp 𝕄 :=
  iprop(iwRowPts m d (wid c i) ∗ outPartPts d (wid c i) (OUT m d) ∗ shTokPts m d c i ∗ lead1 m d c i)
/-- What a SparseCore's part of the call starts from, and what it ends with. -/
def stRes (d : Dev nD) (c : Fin τ.nSC) : sProp 𝕄 :=
  iprop((bigSep Finset.univ fun i : Fin 16 => iprop(iwRowPts m d (wid c i) ∗ outPartPts d (wid c i) (m (outLoc d)))) ∗ tabTokPts m d c)
def dnRes (d : Dev nD) (c : Fin τ.nSC) : sProp 𝕄 :=
  iprop((bigSep Finset.univ fun i : Fin 16 => iprop(iwRowPts m d (wid c i) ∗ outPartPts d (wid c i) (OUT m d))) ∗ tabTokPts m d c)

/-- The one call: each SparseCore its workers' runs and parts and its share of the table; each task its run and part
    (tile 0 also the table's share and the shared memory); each task's proof consumes its barrier kit; each tile owes its
    arrivals. -/
def P : (K (F := F)).Pay (nD := nD) (Val := Elt F) (Name := ℕ) (U := UU) where
  st := fun q d c => match q with | 0 => stRes m d (coreOf c)
  dn := fun q d c => match q with | 0 => dnRes m d (coreOf c)
  go := fun q d c i => match q with | 0 => goRes m d (coreOf c) (Fin.cast nSub_zero i)
  td := fun q d c i => match q with | 0 => tdRes m d (coreOf c) (Fin.cast nSub_zero i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance lead0_storable (d : Dev nD) (c : Fin τ.nSC) (i : Fin 16) : BI.Storable (upEmb : UEmb _ 𝕄) (lead0 m d c i) := by
  unfold lead0; split <;> infer_instance
instance lead1_storable (d : Dev nD) (c : Fin τ.nSC) (i : Fin 16) : BI.Storable (upEmb : UEmb _ 𝕄) (lead1 m d c i) := by
  unfold lead1; split <;> infer_instance

instance P_storable : (P (F := F) m).IsStorable where
  st q d c := match q with
    | 0 => by show BI.Storable upEmb (stRes m d (coreOf c)); unfold stRes; infer_instance
  dn q d c := match q with
    | 0 => by show BI.Storable upEmb (dnRes m d (coreOf c)); unfold dnRes; infer_instance
  go q d c i := match q with
    | 0 => by show BI.Storable upEmb (goRes m d (coreOf c) (Fin.cast nSub_zero i)); unfold goRes; infer_instance
  td q d c i := match q with
    | 0 => by show BI.Storable upEmb (tdRes m d (coreOf c) (Fin.cast nSub_zero i)); unfold tdRes; infer_instance

end Cert.Proof.KI

end
-- ==== Proof.KILaunchA.lean ====
/-
  The launch of the embedding-lookup kernel, first half: how a SparseCore's share of the call is dealt to its sixteen tasks
  and gathered from them, and the launch element of the ghost state (the barrier cells' rounds, funded and dealt to the tiles).
-/
import proofs.«203285_g23708219474275_cont_8to1_227_19_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## A SparseCore's operands to its tasks, and back -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- What only tile 0 is handed, summed over the sixteen tiles, is that. -/
theorem bigSep_lead (X : sProp 𝕄) : (bigSep Finset.univ fun i : Fin 16 => if i.val = 0 then X else iprop(emp)) = X := by
  have h : (bigSep ((Finset.univ : Finset (Fin 16)).erase 0) fun i : Fin 16 => if i.val = 0 then X else iprop(emp))
      = bigSep ((Finset.univ : Finset (Fin 16)).erase 0) fun _ => iprop(emp) :=
    bigSep_congr fun i hi => if_neg (fun h => (Finset.mem_erase.mp hi).1 (Fin.ext h))
  rw [show (Finset.univ : Finset (Fin 16)) = insert 0 (Finset.univ.erase 0) from (Finset.insert_erase (Finset.mem_univ _)).symm,
    SparseCore.bigSep_insert' (Finset.notMem_erase _ _), h, bigSep_emp', if_pos (show ((0 : Fin 16).val = 0) from rfl)]
  exact equiv_iff.mp Idealize.SL.BI.sep_emp

omit [FloatOps F] in
theorem lead0_all (d : Dev nD) (c : Fin τ.nSC) :
    (bigSep Finset.univ fun i : Fin 16 => lead0 m d c i) = iprop(tabTokPts m d c ∗ ∃ f, shLoc d c ↦{fullShare} f) := by
  unfold lead0; exact bigSep_lead _
omit [FloatOps F] in
theorem lead1_all (d : Dev nD) (c : Fin τ.nSC) :
    (bigSep Finset.univ fun i : Fin 16 => lead1 m d c i) = iprop(tabTokPts m d c ∗ shLoc d c ↦{Transfers.shareDrop fullShare 16} TABsh m d c) := by
  unfold lead1; exact bigSep_lead _

omit [FloatOps F] in
/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop(stRes m d (coreOf c) ∗ ownBufs (S d (coreOf c))) ⊢ |={Set.univ}=> iprop(
      (bigSep Finset.univ fun i : Fin ((K (F := F)).nSub 0) => goRes m d (coreOf c) (Fin.cast nSub_zero i))
      ∗ ((bigSep Finset.univ fun i : Fin ((K (F := F)).nSub 0) => tdRes m d (coreOf c) (Fin.cast nSub_zero i))
          -∗ iprop(dnRes m d (coreOf c) ∗ ownBufs (S d (coreOf c)))))
  rw [bigSep_tasks (F := F) (goRes m d (coreOf c)), bigSep_tasks (F := F) (tdRes m d (coreOf c))]
  generalize coreOf c = c'
  unfold stRes dnRes goRes tdRes
  simp only [bigSep_sep']
  rw [ownBufs_S, lead0_all, lead1_all]
  iintro ⟨⟨⟨Hiw, Hout⟩, Htab⟩, Hsh, Hrest⟩; imodintro
  isplitl [Hiw Hout Htab Hsh]
  · isplitl [Hiw]; · iexact Hiw
    isplitl [Hout]; · iexact Hout
    isplitl [Htab]; · iexact Htab
    iexact Hsh
  iintro ⟨Hiw, Hout, Htoks, Htab, Hdrop⟩
  isplitl [Hiw Hout Htab]
  · isplitl [Hiw Hout]
    · isplitl [Hiw]; · iexact Hiw
      iexact Hout
    iexact Htab
  isplitl [Htoks Hdrop]
  · iexists (TABsh m d c')
    iapply (Transfers.pointsTo_toks_join (ℓ := shLoc d c') (S := Finset.univ) (f := TABsh m d c') fullShare 16)
    isplitl [Hdrop]; · iexact Hdrop
    iexact Htoks
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each tile the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

end Cert.Proof.KI

end
-- ==== Proof.KILaunch.lean ====
/-
  The launch of the embedding-lookup kernel, second half: @main on the TensorCore (the two host operations that rearrange
  the index list, the call, the two that rearrange the flat result), what the final memory says, and the program's run.
-/
import proofs.«203285_g23708219474275_cont_8to1_227_19_alg».proof.Proof.KILaunchA

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The runs of the rearranged index list and the parts of the flat result: split and join -/

omit [FloatOps F] in
theorem iwRowSet_eq (w : Fin 32) : iwRowSet w = (iwRow w).set := by
  show ((View.whole (main_v1_scv : Ref sig .scVector)).slice (iwRow w)).set = _
  rw [View.set_slice]; exact Finset.map_refl
omit [FloatOps F] in
theorem outPartSet_eq (w : Fin 32) : outPartSet w = (outPart w).set := by
  show ((View.whole (main_v2_scv : Ref sig .scVector)).slice (outPart w)).set = _
  rw [View.set_slice]; exact Finset.map_refl
omit [FloatOps F] in
theorem iw_disjoint : ∀ i ∈ (Finset.univ : Finset (Fin 32)), ∀ j ∈ (Finset.univ : Finset (Fin 32)), i ≠ j → Disjoint (iwRowSet i) (iwRowSet j) :=
  fun i _ j _ h => by rw [iwRowSet_eq, iwRowSet_eq]; exact Rect.part_disjoint hdivIw h
omit [FloatOps F] in
theorem out_disjoint : ∀ i ∈ (Finset.univ : Finset (Fin 32)), ∀ j ∈ (Finset.univ : Finset (Fin 32)), i ≠ j → Disjoint (outPartSet i) (outPartSet j) :=
  fun i _ j _ h => by rw [outPartSet_eq, outPartSet_eq]; exact Rect.part_disjoint hdivOut h
omit [FloatOps F] in
theorem iw_cover : (Finset.univ : Finset (Fin 32)).biUnion iwRowSet = Finset.univ :=
  (Finset.biUnion_congr rfl fun i _ => iwRowSet_eq i).trans (Rect.biUnion_part hdivIw)
omit [FloatOps F] in
theorem out_cover : (Finset.univ : Finset (Fin 32)).biUnion outPartSet = Finset.univ :=
  (Finset.biUnion_congr rfl fun i _ => outPartSet_eq i).trans (Rect.biUnion_part hdivOut)

omit [FloatOps F] in
theorem iwPts_rows (d : Dev nD) (f : Buf (Elt F) (iwLoc d)) :
    (iwLoc d ↦{fullShare} f : sProp 𝕄) = bigSep Finset.univ fun w : Fin 32 => iwLoc d ↦[iwRowSet w]{fullShare} f := by
  rw [← pointsTo_biUnion Finset.univ (ℓ := iwLoc d) iwRowSet iw_disjoint, iw_cover]; try rfl
omit [FloatOps F] in
theorem outPts_parts (d : Dev nD) (f : Buf (Elt F) (outLoc d)) :
    (outLoc d ↦{fullShare} f : sProp 𝕄) = bigSep Finset.univ fun w : Fin 32 => outLoc d ↦[outPartSet w]{fullShare} f := by
  rw [← pointsTo_biUnion Finset.univ (ℓ := outLoc d) outPartSet out_disjoint, out_cover]; try rfl

/-- Workers by SparseCore and tile: the pair (c, i) is worker 2 i + c. -/
def widEquiv : Fin τ.nSC × Fin 16 ≃ Fin 32 where
  toFun p := wid p.1 p.2
  invFun w := (⟨w.val % 2, Nat.mod_lt _ (by decide)⟩, ⟨w.val / 2, by have h : w.val < 32 := w.isLt; omega⟩)
  left_inv p := by
    obtain ⟨c, i⟩ := p
    have hc : c.val < 2 := c.isLt
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

omit [FloatOps F] in
theorem bigSep_wid (Φ : Fin 32 → sProp 𝕄) :
    bigSep Finset.univ Φ = bigSep Finset.univ fun c : Fin τ.nSC => bigSep Finset.univ fun i : Fin 16 => Φ (wid c i) := by
  rw [bigSep_univ_equiv widEquiv Φ, bigSep_univ_prod]; rfl

/-- Every SparseCore's runs, parts and share of the table are the rearranged index list whole, the flat result whole and
    the two shares of the table. -/
theorem res_all (d : Dev nD) (f : Buf (Elt F) (outLoc d)) :
    (bigSep Finset.univ fun c : Fin τ.nSC => iprop((bigSep Finset.univ fun i : Fin 16 => iprop(iwRowPts m d (wid c i) ∗ outPartPts d (wid c i) f)) ∗ tabTokPts m d c))
      = iprop((iwLoc d ↦{fullShare} IW m d) ∗ (outLoc d ↦{fullShare} f) ∗ bigSep Finset.univ fun c : Fin τ.nSC => tabTokPts m d c) := by
  rw [iwPts_rows, outPts_parts, bigSep_wid (fun w => iwLoc d ↦[iwRowSet w]{fullShare} IW m d), bigSep_wid (fun w => outLoc d ↦[outPartSet w]{fullShare} f)]
  simp only [bigSep_sep']
  exact equiv_iff.mp ⟨Idealize.SL.BI.sep_assoc, Idealize.SL.BI.sep_assoc'⟩

theorem st0_eq (d : Dev nD) : (bigSep Finset.univ fun c : Fin ((K (F := F)).nCore 0) => (P m).st 0 d c)
    = iprop((iwLoc d ↦{fullShare} IW m d) ∗ (outLoc d ↦{fullShare} m (outLoc d)) ∗ bigSep Finset.univ fun c : Fin τ.nSC => tabTokPts m d c) := by
  rw [← res_all m d (m (outLoc d))]
  exact bigSep_congr fun c _ => congrArg (stRes m d) (Fin.ext rfl)
theorem dn0_eq (d : Dev nD) : (bigSep Finset.univ fun c : Fin ((K (F := F)).nCore 0) => (P m).dn 0 d c)
    = iprop((iwLoc d ↦{fullShare} IW m d) ∗ (outLoc d ↦{fullShare} OUT m d) ∗ bigSep Finset.univ fun c : Fin τ.nSC => tabTokPts m d c) := by
  rw [← res_all m d (OUT m d)]
  exact bigSep_congr fun c _ => congrArg (dnRes m d) (Fin.ext rfl)

omit [FloatOps F] in
theorem tabToks_eq (d : Dev nD) :
    (bigSep Finset.univ fun i : Fin 2 => (tabLoc d ↦{Transfers.shareTok fullShare 2 i} m (tabLoc d) : sProp 𝕄)) = bigSep Finset.univ fun c : Fin τ.nSC => tabTokPts m d c :=
  bigSep_congr fun _ _ => rfl

/-! ## @main on the TensorCore -/

abbrev a0' : DevRef τ sig := Proc.devRef .tc (main_arg0 : Ref sig .tc)
abbrev tab' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev opT1 : HloOp τ sig (Elt F) := StableHlo.unary main_arg0 main_v0 ((transpose S50x4096 [1, 0] · transposes_S4096x50_S50x4096_1_0) : (⟨S4096x50, .i32⟩ : BufTy).Contents (Elt F) → (⟨S50x4096, .i32⟩ : BufTy).Contents (Elt F))
abbrev opR1 : HloOp τ sig (Elt F) := StableHlo.reshape main_v0 main_v1 rfl shapeCasts_S50x4096_S32x6400
abbrev opR2 : HloOp τ sig (Elt F) := StableHlo.reshape main_v2 main_v3 rfl shapeCasts_S204800x128_S50x4096x128
abbrev opT2 : HloOp τ sig (Elt F) := StableHlo.unary main_v3 main_v4 ((transpose S4096x50x128 [1, 0, 2] · transposes_S50x4096x128_S4096x50x128_1_0_2) : (⟨S50x4096x128, .f32⟩ : BufTy).Contents (Elt F) → (⟨S4096x50x128, .f32⟩ : BufTy).Contents (Elt F))

/-- The TensorCore's arrays, all unscoped. -/
abbrev S7 : Finset (DevRef τ sig) := {a0', tab', v0', v1', v2', v3', v4'}

omit [FloatOps F] in
theorem held_S7 (d : Dev nD) (W : Valuation τ sig (Elt F)) :
    (held (T d) S7 W : sProp 𝕄)
      = iprop((a0Loc d ↦{fullShare} W a0') ∗ (tabLoc d ↦{fullShare} W tab') ∗ (v0Loc d ↦{fullShare} W v0') ∗ (iwLoc d ↦{fullShare} W v1')
          ∗ (outLoc d ↦{fullShare} W v2') ∗ (v3Loc d ↦{fullShare} W v3') ∗ v4Loc d ↦{fullShare} W v4') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (tabLoc d ↦{fullShare} W main_arg1) ∗ (v0Loc d ↦{fullShare} W main_v0) ∗ (iwLoc d ↦{fullShare} W main_v1)
          ∗ (outLoc d ↦{fullShare} W main_v2) ∗ (v3Loc d ↦{fullShare} W main_v3) ∗ v4Loc d ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation; the one before the call (the index list transposed, then cut into runs); the one after the call
    (the flat result at the lookup); the one at the end. -/
def V0 (d : Dev nD) : Valuation τ sig (Elt F) := fun b => m (d, b)
def V2 (d : Dev nD) : Valuation τ sig (Elt F) := (opR1 (F := F)).result ((opT1 (F := F)).result (V0 m d))
def V3 (d : Dev nD) : Valuation τ sig (Elt F) := Function.update (V2 m d) v2' (OUT m d)
def V5 (d : Dev nD) : Valuation τ sig (Elt F) := (opT2 (F := F)).result ((opR2 (F := F)).result (V3 m d))

theorem unscoped_held (d : Dev nD) : (unscopedBufs d (fun b => m ((SparseCore.T d).loc b)) : sProp 𝕄) = held (T d) S7 (V0 m d) := by
  rw [unscopedBufs_eq, held_S7]; rfl

theorem V2_of_ne {b : DevRef τ sig} (d : Dev nD) (h0 : b ≠ v0') (h1 : b ≠ v1') : V2 m d b = m (d, b) := by
  unfold V2
  rw [(opR1 (F := F)).result_of_not_mem _ (show b ∉ ({v1'} : Finset (DevRef τ sig)) from fun h => h1 (Finset.mem_singleton.mp h)),
    (opT1 (F := F)).result_of_not_mem _ (show b ∉ ({v0'} : Finset (DevRef τ sig)) from fun h => h0 (Finset.mem_singleton.mp h))]
  rfl
theorem V2_a0 (d : Dev nD) : V2 m d a0' = m (a0Loc d) := V2_of_ne m d (by decide) (by decide)
theorem V2_tab (d : Dev nD) : V2 m d tab' = m (tabLoc d) := V2_of_ne m d (by decide) (by decide)
theorem V2_out (d : Dev nD) : V2 m d v2' = m (outLoc d) := V2_of_ne m d (by decide) (by decide)
/-- Before the call the rearranged index list is the index list transposed and cut into runs. -/
theorem V2_v1 (d : Dev nD) : V2 m d v1' = IW m d := by
  unfold V2 IW
  rw [show (opR1 (F := F)).result ((opT1 (F := F)).result (V0 m d)) v1' = _ from StableHlo.reshape_result main_v0 main_v1 rfl shapeCasts_S50x4096_S32x6400 _ _ _,
    show (opT1 (F := F)).result (V0 m d) v0' = _ from StableHlo.unary_result main_arg0 main_v0 _ _ _ _]
  rfl

theorem held_V2 (d : Dev nD) :
    (held (T d) S7 ((opR1 (F := F)).result ((opT1 (F := F)).result (V0 m d))) : sProp 𝕄)
      = iprop((a0Loc d ↦{fullShare} m (a0Loc d)) ∗ (tabLoc d ↦{fullShare} m (tabLoc d)) ∗ (v0Loc d ↦{fullShare} V2 m d v0') ∗ (iwLoc d ↦{fullShare} IW m d)
          ∗ (outLoc d ↦{fullShare} m (outLoc d)) ∗ (v3Loc d ↦{fullShare} V2 m d v3') ∗ v4Loc d ↦{fullShare} V2 m d v4') := by
  show held (SparseCore.T d) S7 (V2 m d) = _
  rw [held_S7, V2_a0, V2_tab, V2_v1, V2_out]

theorem V3_of_ne {b : DevRef τ sig} (d : Dev nD) (h : b ≠ v2') : V3 m d b = V2 m d b := Function.update_of_ne h _ _
theorem V3_v2 (d : Dev nD) : V3 m d v2' = OUT m d := Function.update_self _ _ _
theorem V3_a0 (d : Dev nD) : V3 m d a0' = m (a0Loc d) := (V3_of_ne m d (by decide)).trans (V2_a0 m d)
theorem V3_tab (d : Dev nD) : V3 m d tab' = m (tabLoc d) := (V3_of_ne m d (by decide)).trans (V2_tab m d)
theorem V3_v0 (d : Dev nD) : V3 m d v0' = V2 m d v0' := V3_of_ne m d (by decide)
theorem V3_v1 (d : Dev nD) : V3 m d v1' = IW m d := (V3_of_ne m d (by decide)).trans (V2_v1 m d)
theorem V3_v3 (d : Dev nD) : V3 m d v3' = V2 m d v3' := V3_of_ne m d (by decide)
theorem V3_v4 (d : Dev nD) : V3 m d v4' = V2 m d v4' := V3_of_ne m d (by decide)

theorem held_V3 (d : Dev nD) :
    (held (T d) S7 (V3 m d) : sProp 𝕄)
      = iprop((a0Loc d ↦{fullShare} m (a0Loc d)) ∗ (tabLoc d ↦{fullShare} m (tabLoc d)) ∗ (v0Loc d ↦{fullShare} V2 m d v0') ∗ (iwLoc d ↦{fullShare} IW m d)
          ∗ (outLoc d ↦{fullShare} OUT m d) ∗ (v3Loc d ↦{fullShare} V2 m d v3') ∗ v4Loc d ↦{fullShare} V2 m d v4') := by
  rw [held_S7, V3_a0, V3_tab, V3_v0, V3_v1, V3_v2, V3_v3, V3_v4]

theorem V5_of_ne {b : DevRef τ sig} (d : Dev nD) (h3 : b ≠ v3') (h4 : b ≠ v4') : V5 m d b = V3 m d b := by
  unfold V5
  rw [(opT2 (F := F)).result_of_not_mem _ (show b ∉ ({v4'} : Finset (DevRef τ sig)) from fun h => h4 (Finset.mem_singleton.mp h)),
    (opR2 (F := F)).result_of_not_mem _ (show b ∉ ({v3'} : Finset (DevRef τ sig)) from fun h => h3 (Finset.mem_singleton.mp h))]
theorem V5_a0 (d : Dev nD) : V5 m d a0' = m (a0Loc d) := (V5_of_ne m d (by decide) (by decide)).trans (V3_a0 m d)
theorem V5_tab (d : Dev nD) : V5 m d tab' = m (tabLoc d) := (V5_of_ne m d (by decide) (by decide)).trans (V3_tab m d)
/-- At the end the result is the flat result read as a three-dimensional array and transposed. -/
theorem V5_v4 (d : Dev nD) : V5 m d v4' = (Cert.Spec.unflat (OUT m d) : Buf (Elt F) (v4Loc d)) := by
  unfold V5
  rw [show (opT2 (F := F)).result ((opR2 (F := F)).result (V3 m d)) v4' = _ from StableHlo.unary_result main_v3 main_v4 _ _ _ _,
    show (opR2 (F := F)).result (V3 m d) v3' = _ from StableHlo.reshape_result main_v2 main_v3 rfl shapeCasts_S204800x128_S50x4096x128 _ _ _,
    V3_v2 m d]
  rfl

/-- What @main leaves the claim: the index list and the table as launched, the result at the lookup. -/
abbrev FIN (d : Dev nD) : sProp 𝕄 :=
  iprop((a0Loc d ↦{fullShare} m (a0Loc d)) ∗ (tabLoc d ↦{fullShare} m (tabLoc d)) ∗ (v4Loc d ↦{fullShare} (Cert.Spec.unflat (OUT m d) : Buf (Elt F) (v4Loc d))))

theorem held_V5 (d : Dev nD) :
    (held (T d) S7 ((opT2 (F := F)).result ((opR2 (F := F)).result (V3 m d))) : sProp 𝕄)
      = iprop(FIN m d ∗ held (T d) (S7 \ {a0', tab', v4'}) (V5 m d)) := by
  show held (SparseCore.T d) S7 (V5 m d) = _
  have h : (held (T d) ({a0', tab', v4'} : Finset (DevRef τ sig)) (V5 m d) : sProp 𝕄) = FIN m d := by
    unfold held
    rw [SparseCore.bigSep_insert' (by decide), SparseCore.bigSep_insert' (by decide), bigSep_singleton, V5_a0, V5_tab, V5_v4]
  rw [held_sub_split (T d) (show ({a0', tab', v4'} : Finset (DevRef τ sig)) ⊆ S7 by decide), h]

theorem hT1 : (opT1 (F := F)).bufs ⊆ S7 := show ({a0', v0'} : Finset (DevRef τ sig)) ⊆ S7 by decide
theorem hR1 : (opR1 (F := F)).bufs ⊆ S7 := show ({v0', v1'} : Finset (DevRef τ sig)) ⊆ S7 by decide
theorem hR2 : (opR2 (F := F)).bufs ⊆ S7 := show ({v2', v3'} : Finset (DevRef τ sig)) ⊆ S7 by decide
theorem hT2 : (opT2 (F := F)).bufs ⊆ S7 := show ({v3', v4'} : Finset (DevRef τ sig)) ⊆ S7 by decide

/-- @main on device `d`'s TensorCore: the index list transposed and cut into runs; the call, handed every run and every
    part of the flat result by SparseCore and tile and the table's two read shares; the flat result read as a
    three-dimensional array and transposed. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opT1) (S := S7) hT1 (V := V0 m d)) $$ [Hb Hheld]
  · isplitl [Hb] <;> iassumption
  iintro ⟨Hb, Hheld⟩
  rw [wp_ret]; imodintro
  iapply (wp_hlo_within 𝒱 (SparseCore.T d) none Set.univ (op := opR1) (S := S7) hR1 (V := (opT1 (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ha0, Htab, Hv0, Hiw, Hout, Hv3, Hv4⟩
  ihave Htab' := (Transfers.pointsTo_toks_split (ℓ := tabLoc d) (S := Finset.univ) (f := m (tabLoc d)) fullShare 2) $$ Htab
  icases Htab' with ⟨Hdrop, Htoks⟩
  ihave Htoks' := (Entails.of_eq (tabToks_eq (F := F) m d)) $$ Htoks
  iapply ((K (F := F)).wp_run (D (F := F)) 𝒱 (EH := EH) (P := P m) κ d 0) $$ [Hst Hiw Hout Htoks' Hb Ha0 Hv0 Hv3 Hv4 Hdrop]
  isplitr; · iexact Hctx
  isplitl [Hst]; · iexact Hst
  isplitl [Hiw Hout Htoks']
  · rw [st0_eq]
    isplitl [Hiw]; · iexact Hiw
    isplitl [Hout]; · iexact Hout
    iexact Htoks'
  iintro ⟨Hst, Hdn⟩
  ihave Hdn' := (Entails.of_eq (dn0_eq m d)) $$ Hdn
  icases Hdn' with ⟨Hiw, Hout, Htoks⟩
  ihave Htoks' := (Entails.of_eq (tabToks_eq (F := F) m d).symm) $$ Htoks
  ihave Htab := (Transfers.pointsTo_toks_join (ℓ := tabLoc d) (S := Finset.univ) (f := m (tabLoc d)) fullShare 2) $$ [Hdrop Htoks']
  · isplitl [Hdrop] <;> iassumption
  iapply (wp_hlo_within 𝒱 (SparseCore.T d) none Set.univ (op := opR2) (S := S7) hR2 (V := V3 m d)) $$ [Hb Ha0 Htab Hv0 Hiw Hout Hv3 Hv4]
  · isplitl [Hb]; · iexact Hb
    rw [held_V3]
    isplitl [Ha0]; · iexact Ha0
    isplitl [Htab]; · iexact Htab
    isplitl [Hv0]; · iexact Hv0
    isplitl [Hiw]; · iexact Hiw
    isplitl [Hout]; · iexact Hout
    isplitl [Hv3]; · iexact Hv3
    iexact Hv4
  iintro ⟨Hb, Hheld⟩
  rw [wp_ret]; imodintro
  iapply (wp_hlo_within 𝒱 (SparseCore.T d) none Set.univ (op := opT2) (S := S7) hT2 (V := (opR2 (F := F)).result (V3 m d))) $$ [Hb Hheld]
  · isplitl [Hb] <;> iassumption
  iintro ⟨Hb, Hheld⟩
  ihave Hh := (Entails.of_eq (held_V5 (F := F) m d)) $$ Hheld
  icases Hh with ⟨Hfin, -⟩
  rw [wp_ret]; imodintro; imodintro
  isplitl [Hst]; · iexact Hst
  iexact Hfin

/-! ## What the final memory says -/

def fq (d : Dev nD) (s' : Phys nD τ sig (Elt F)) : Prop :=
  s'.mem.mem (v4Loc d) = (Cert.Spec.unflat (OUT m d) : Buf (Elt F) (v4Loc d)) ∧ s'.mem.mem (a0Loc d) = m (a0Loc d) ∧ s'.mem.mem (tabLoc d) = m (tabLoc d)

theorem hfin (d : Dev nD) (s' : Phys nD τ sig (Elt F)) : iprop(FIN m d ∗ SI s') ⊢ (⌜fq m d s'⌝ : sProp 𝕄) := by
  iintro ⟨⟨Ha0, Htab, Hv4⟩, HSI⟩
  icombine HSI Ha0 gives %h0
  icombine HSI Htab gives %h1
  icombine HSI Hv4 gives %h4
  ipureintro
  exact ⟨funext fun i => h4 i (Finset.mem_univ i), funext fun i => h0 i (Finset.mem_univ i), funext fun i => h1 i (Finset.mem_univ i)⟩

/-! ## The program's run -/

abbrev QC : PUnit × MemSt nD τ sig (Elt F) → Prop := fun r =>
  ∀ c : Dev nD, r.2.mem (v4Loc c) = (Cert.Spec.unflat (OUT m c) : Buf (Elt F) (v4Loc c)) ∧ r.2.mem (a0Loc c) = m (a0Loc c) ∧ r.2.mem (tabLoc c) = m (tabLoc c)

theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩
      (fun r => ∀ c : Dev nD, r.2.mem (v4Loc c) = (Cert.Spec.unflat (OUT m c) : Buf (Elt F) (v4Loc c)) ∧ r.2.mem (a0Loc c) = m (a0Loc c) ∧ r.2.mem (tabLoc c) = m (tabLoc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main (fun _ => iprop(emp)) (FIN m) (u₀ (F := F)) (hu₀ m) (hmain m ρ) (fq m) (hfin m) (QC m) (fun _ h => h)

end Cert.Proof.KI

end
-- ==== Proof.KIIdx.lean ====
/-
  The one fact the kernel needs of its index list: every word names a row of the table.
-/
import proofs.«203285_g23708219474275_cont_8to1_227_19_alg».proof.Proof.KISetup

noncomputable section

namespace Cert.Proof.KI

open Cert.KernelIdeal Cert.KernelIdeal.Gen
open Idealize.ShloMosaic

variable {F : FTy → Type}
variable (m : (ℓ : Loc nD τ sig) → Buf (Elt F) ℓ)

/-- The index words are in range: every word of the rearranged list names a row of the table. -/
def IdxOK : Prop := ∀ (d : Dev nD) p, (IW m d p).toNat < 1002

end Cert.Proof.KI

end
-- ==== Proof.KIViews.lean ====
/-
  The pieces one tile works on, named as the program slices them.

  A tile's row buffer has six slots of 128 rows; its index buffer of 6400 words is read in fifty windows of 128 words;
  its part of the flat result is written in fifty chunks of 128 rows. Chunk j of worker w = 2 s + c starts at row
  6400 w + 128 j = 12800 s + 6400 c + 128 j of the flat result. The tile's twelve ring semaphores are six for the gathers
  and six for the copies out, one of each per slot.
-/
import proofs.«203285_g23708219474275_cont_8to1_227_19_alg».proof.Proof.KISetup

noncomputable section

namespace Cert.Proof.KI

open Cert.KernelIdeal Cert.KernelIdeal.Gen
open Idealize.ShloMosaic

theorem inbSlot (b : ℕ) (h : b < 6) : ∀ a, (![b, 0, 0] : Fin 3 → Nat) a + S1x128x128.size a ≤ S6x128x128.size a := by
  intro a; fin_cases a
  · show b + 1 ≤ 6; omega
  · show 0 + 128 ≤ 128; omega
  · show 0 + 128 ≤ 128; omega
theorem inbWin (j : ℕ) (h : j < 50) : ∀ a, (![128 * j] : Fin 1 → Nat) a + S128.size a ≤ S6400.size a := by
  intro a; fin_cases a; show 128 * j + 128 ≤ 6400; omega
theorem inbChunk (L : grid0.Coords) (j : ℕ) (h : j < 50) :
    ∀ a, (![12800 * (L 1).val + 6400 * (L 0).val + 128 * j, 0] : Fin 2 → Nat) a + S128x128.size a ≤ S204800x128.size a := by
  have h0 : (L 0).val < 2 := (L 0).isLt
  have h1 : (L 1).val < 16 := (L 1).isLt
  intro a; fin_cases a
  · show 12800 * (L 1).val + 6400 * (L 0).val + 128 * j + 128 ≤ 204800; omega
  · show 0 + 128 ≤ 128; omega
theorem inbSem (b : ℕ) (h : b < 6) : ∀ a, (![b] : Fin 1 → Nat) a + S1.size a ≤ S6.size a := by
  intro a; fin_cases a; show b + 1 ≤ 6; omega

/-- Slot `b` of the row buffer, as a 128 × 128 array. -/
abbrev slotR (b : ℕ) (h : b < 6) : Rect S6x128x128 := Rect.unit (s := S6x128x128) ![b, 0, 0] S1x128x128.size (inbSlot b h)
abbrev slotM (b : ℕ) (h : b < 6) : Memref sig .scVector .vmem S128x128 .f32 :=
  (((Memref.whole cc0_scratch1 : Memref sig .scVector .vmem S6x128x128 .f32).slice (slotR b h) (fun _ => rfl)).squeeze S128x128 squeezes_S1x128x128_S128x128)
/-- Window `j` of the index buffer: words 128 j … 128 j + 127. -/
abbrev winR (j : ℕ) (h : j < 50) : Rect S6400 := Rect.unit (s := S6400) ![128 * j] S128.size (inbWin j h)
abbrev winM (j : ℕ) (h : j < 50) : Memref sig .scVector .vmem S128 .i32 :=
  (Memref.whole cc0_scratch0 : Memref sig .scVector .vmem S6400 .i32).slice (winR j h) (fun _ => rfl)
/-- Chunk `j` of the tile's part of the flat result. -/
abbrev chunkR (L : grid0.Coords) (j : ℕ) (h : j < 50) : Rect S204800x128 :=
  Rect.unit (s := S204800x128) ![12800 * (L 1).val + 6400 * (L 0).val + 128 * j, 0] S128x128.size (inbChunk L j h)
abbrev chunkM (L : grid0.Coords) (j : ℕ) (h : j < 50) : Memref sig .scVector .hbm S128x128 .f32 :=
  (Memref.whole main_v2_scv : Memref sig .scVector .hbm S204800x128 .f32).slice (chunkR L j h) (fun _ => rfl)
/-- The shared copy of the table, as the gathers address it. -/
abbrev shAllM : Memref sig .scVector .shared S1002x128 .f32 :=
  (Memref.whole cc0_scratch2 : Memref sig .scVector .shared S1002x128 .f32).slice (Rect.unit (s := S1002x128) ![0, 0] S1002x128.size inb_S1002x128_S1002x128_0_0) (fun _ => rfl)
/-- The tile's run of the rearranged index list, as the index fetch addresses it. -/
abbrev iwRowM (L : grid0.Coords) : Memref sig .scVector .hbm S6400 .i32 :=
  ((Memref.whole main_v1_scv : Memref sig .scVector .hbm S32x6400 .i32).slice (Rect.unit (s := S32x6400) (k0_off1 L) S1x6400.size (k0_off1_inb L)) (fun _ => rfl)).squeeze S6400 squeezes_S1x6400_S6400
/-- The gather semaphore and the copy-out semaphore of slot `b`. -/
abbrev gSem (b : ℕ) (h : b < 6) : DmaSem sig := ((cc0_scratch3.slice (Rect.unit (s := S6) ![b] S1.size (inbSem b h))).squeeze S_ squeezes_S1_S_).sem
abbrev sSem (b : ℕ) (h : b < 6) : DmaSem sig := ((cc0_scratch4.slice (Rect.unit (s := S6) ![b] S1.size (inbSem b h))).squeeze S_ squeezes_S1_S_).sem

end Cert.Proof.KI

end
-- ==== Proof.KICtx.lean ====
/-
  The state of one tile's ring between trips.

  The tile looks up its 6400 rows in fifty chunks of 128. Chunk j is gathered from the shared copy of the table into slot
  j mod 6 of the row buffer (its row numbers window j of the index buffer) and then copied out to chunk j of the tile's
  part of the flat result. Gathers run two chunks ahead of the trip; a slot is reused for chunk j + 6 once the copy-out of
  chunk j has been waited for, which happens at trip j + 4 (or, for the last six chunks, after the loop). So before trip k
  a chunk is in one of four states:
    fresh      (k + 2 ≤ j):            nothing started; its window and its chunk of the result are held;
    gathering  (k ≤ j < k + 2):        the gather is in flight; it holds the slot, the window and a read share of the table;
    storing    (min k 48 ≤ j + 4, j < k): the copy-out is in flight; it holds the slot and the chunk of the result;
    done       (j + 4 < min k 48):     the chunk of the result holds the looked-up rows.
  Slots numbered k + 2 and above (only while k < 4) have not been used yet.
-/
import proofs.«203285_g23708219474275_cont_8to1_227_19_alg».proof.Proof.KIViews

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iwV" => (Memref.whole Cert.KernelIdeal.main_v1_scv : Memref Cert.KernelIdeal.sig Kind.scVector Space.hbm Cert.KernelIdeal.S32x6400 EltTy.i32)
local notation "tabV" => (Memref.whole Cert.KernelIdeal.main_arg1_scv : Memref Cert.KernelIdeal.sig Kind.scVector Space.hbm Cert.KernelIdeal.S1002x128 EltTy.f32)
local notation "outV" => (Memref.whole Cert.KernelIdeal.main_v2_scv : Memref Cert.KernelIdeal.sig Kind.scVector Space.hbm Cert.KernelIdeal.S204800x128 EltTy.f32)
local notation "shV" => (Memref.whole Cert.KernelIdeal.cc0_scratch2 : Memref Cert.KernelIdeal.sig Kind.scVector Space.shared Cert.KernelIdeal.S1002x128 EltTy.f32)
local notation "ivV" => (Memref.whole Cert.KernelIdeal.cc0_scratch0 : Memref Cert.KernelIdeal.sig Kind.scVector Space.vmem Cert.KernelIdeal.S6400 EltTy.i32)
local notation "rvV" => (Memref.whole Cert.KernelIdeal.cc0_scratch1 : Memref Cert.KernelIdeal.sig Kind.scVector Space.vmem Cert.KernelIdeal.S6x128x128 EltTy.f32)

variable [FloatOps F]

section Ring

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)
abbrev wL (L : grid0.Coords) : Fin 32 := wid (cV L) (jL L)
/-- The tile's thread. -/
abbrev thrL (d : Dev nD) (L : grid0.Coords) : Thread nD τ := V d (cV L) (jV L)

/-- What the tile's index buffer holds once its run of the rearranged index list has been fetched: word p of the run. -/
def IVf : Buf (Elt F) ((ivV).view.loc (thrL d L)) :=
  fun y => IW m d (ValueIdx.ix2 (wL L) (y 0))

/-- The 128 table rows chunk `j` names: row r of them is the table row named by word 128 j + r of the tile's run. -/
def rowsOf (j : ℕ) (hj : j < 50) : S128x128.Idx → Elt F .f32 :=
  fun x => m (tabLoc d) (ValueIdx.ix2 (Cert.Spec.rowOf (IW m d (ValueIdx.ix2 (wL L) (⟨128 * j + (x 0).val, by have h : (x 0).val < 128 := (x 0).isLt; show 128 * j + (x 0).val < 6400; omega⟩ : Fin 6400)))) (x 1))

/-- The tile's read share of the shared copy of the table, and the part of it a gather into slot `b` borrows. -/
abbrev shQ (L : grid0.Coords) : PosShare TreeShare := Transfers.shareTok fullShare 16 (jL L)
abbrev shTokQ (L : grid0.Coords) (b : ℕ) : PosShare TreeShare := Transfers.shareTokN (shQ L) b
/-- The table, as the contents of the shared memory the tile's gathers address. -/
def TabS : Buf (Elt F) ((shAllM).view.loc (thrL d L)) := fun i => m (tabLoc d) i

abbrev slotPts (b : ℕ) (hb : b < 6) (f : Buf (Elt F) ((slotM b hb).view.loc (thrL d L))) : sProp 𝕄 :=
  (slotM b hb).view.loc (thrL d L) ↦[(slotM b hb).view.set]{fullShare} f
abbrev winPts (j : ℕ) (hj : j < 50) : sProp 𝕄 :=
  (winM j hj).view.loc (thrL d L) ↦[(winM j hj).view.set]{fullShare} IVf m d L
abbrev chunkPts (j : ℕ) (hj : j < 50) (f : Buf (Elt F) ((chunkM L j hj).view.loc (thrL d L))) : sProp 𝕄 :=
  (chunkM L j hj).view.loc (thrL d L) ↦[(chunkM L j hj).view.set]{fullShare} f
abbrev shPts (b : ℕ) : sProp 𝕄 :=
  (shAllM).view.loc (thrL d L) ↦[(shAllM).view.set]{shTokQ L b} TabS m d L
abbrev gSemPts (b : ℕ) (hb : b < 6) : sProp 𝕄 := semVal (thrL d L, SemLoc.dma (gSem b hb)) 0
abbrev sSemPts (b : ℕ) (hb : b < 6) : sProp 𝕄 := semVal (thrL d L, SemLoc.dma (sSem b hb)) 0

theorem mod6 (j : ℕ) : j % 6 < 6 := Nat.mod_lt _ (by decide)

/-- The gather of chunk `j` into slot `b` in flight: at its wait it delivers the slot holding the chunk's rows, the window,
    and the read share of the table. -/
def gFlight (j : ℕ) (hj : j < 50) (b : ℕ) (hb : b < 6) : sProp 𝕄 :=
  iprop(∃ fd : Buf (Elt F) ((slotM b hb).view.loc (thrL d L)), ⌜(slotM b hb).view.read (Elt F) fd = rowsOf m d L j hj⌝
    ∗ Transfers.Flight countersEmb (thrL d L) (SemLoc.dma (gSem b hb)) (default : HIx 1) (slotM b hb).view.dmaCredit
        iprop((slotPts d L b hb fd ∗ winPts m d L j hj) ∗ shPts m d L b))

/-- The copy-out of chunk `j` from slot `b` in flight: at its wait it delivers the chunk of the result holding the chunk's
    rows, and the slot. -/
def sFlight (j : ℕ) (hj : j < 50) (b : ℕ) (hb : b < 6) : sProp 𝕄 :=
  iprop(∃ (fo : Buf (Elt F) ((chunkM L j hj).view.loc (thrL d L))) (fd : Buf (Elt F) ((slotM b hb).view.loc (thrL d L))),
    ⌜(chunkM L j hj).view.read (Elt F) fo = rowsOf m d L j hj⌝
    ∗ Transfers.Flight countersEmb (thrL d L) (SemLoc.dma (sSem b hb)) (default : HIx 1) (chunkM L j hj).view.dmaCredit
        iprop(chunkPts d L j hj fo ∗ slotPts d L b hb fd))

/-- A chunk of the result holding its rows, at some contents elsewhere. -/
def chunkDone (j : ℕ) (hj : j < 50) : sProp 𝕄 :=
  iprop(∃ fo : Buf (Elt F) ((chunkM L j hj).view.loc (thrL d L)), ⌜(chunkM L j hj).view.read (Elt F) fo = rowsOf m d L j hj⌝ ∗ chunkPts d L j hj fo)

/-- The four states of chunk `j` (its slot `b`) before trip `k`. -/
def fresh (j : ℕ) (hj : j < 50) : sProp 𝕄 := iprop(winPts m d L j hj ∗ chunkPts d L j hj (m (outLoc d)))
def gathering (j : ℕ) (hj : j < 50) (b : ℕ) (hb : b < 6) : sProp 𝕄 := iprop(gFlight m d L j hj b hb ∗ chunkPts d L j hj (m (outLoc d)) ∗ sSemPts d L b hb)
def storing (j : ℕ) (hj : j < 50) (b : ℕ) (hb : b < 6) : sProp 𝕄 := iprop(sFlight m d L j hj b hb ∗ winPts m d L j hj ∗ gSemPts d L b hb ∗ shPts m d L b)
def finished (j : ℕ) (hj : j < 50) : sProp 𝕄 := iprop(chunkDone m d L j hj ∗ winPts m d L j hj)

/-- The slot is a number: a state named at an equal slot number is the same state. -/
theorem gathering_slot (j : ℕ) (hj : j < 50) (b b' : ℕ) (hb : b < 6) (hb' : b' < 6) (e : b = b') :
    gathering m d L j hj b hb = gathering m d L j hj b' hb' := by subst e; rfl
theorem storing_slot (j : ℕ) (hj : j < 50) (b b' : ℕ) (hb : b < 6) (hb' : b' < 6) (e : b = b') :
    storing m d L j hj b hb = storing m d L j hj b' hb' := by subst e; rfl

def phase (k : ℕ) (j : Fin 50) : sProp 𝕄 :=
  if k + 2 ≤ j.val then fresh m d L j.val j.isLt
  else if k ≤ j.val then gathering m d L j.val j.isLt (j.val % 6) (mod6 j.val)
  else if min k 48 ≤ j.val + 4 then storing m d L j.val j.isLt (j.val % 6) (mod6 j.val)
  else finished m d L j.val j.isLt

/-- A slot not yet used: its rows at some contents, its two semaphores at zero, its read share of the table. -/
def freeSlot (b : Fin 6) : sProp 𝕄 :=
  iprop((∃ f, slotPts d L b.val b.isLt f) ∗ gSemPts d L b.val b.isLt ∗ sSemPts d L b.val b.isLt ∗ shPts m d L b.val)

/-- The ring before trip `k`. -/
def Ring (k : ℕ) : sProp 𝕄 :=
  iprop((bigSep Finset.univ fun j : Fin 50 => phase m d L k j)
    ∗ (bigSep Finset.univ fun b : Fin 6 => if k + 2 ≤ b.val then freeSlot m d L b else iprop(emp)))

/-- After the loop the copies out of chunks 44 … 49 are waited for in order; after `t` of these waits chunks below 44 + t
    are done and the slots of chunks 44 … 44 + t - 1 are free again (chunk 44 + i uses slot (2 + i) mod 6). -/
def tailPhase (t : ℕ) (j : Fin 50) : sProp 𝕄 :=
  if j.val < 44 + t then finished m d L j.val j.isLt else storing m d L j.val j.isLt (j.val % 6) (mod6 j.val)
def Tail (t : ℕ) : sProp 𝕄 :=
  iprop((bigSep Finset.univ fun j : Fin 50 => tailPhase m d L t j)
    ∗ (bigSep Finset.univ fun b : Fin 6 => if (b.val + 4) % 6 < t then freeSlot m d L b else iprop(emp)))

/-- What passes through the ring unchanged: the tile's run of the index list, what tile 0 holds beside (its share of the
    table in HBM and the rest of the shared memory), the rest of the tile's read share of the shared copy, the two
    semaphores of the fetches, and the tile's other buffers. -/
def Carry : sProp 𝕄 :=
  iprop((iwLoc d ↦[iwRowSet (wL L)]{fullShare} IW m d)
    ∗ lead1 m d (cV L) (jL L)
    ∗ ((shAllM).view.loc (thrL d L) ↦[(shAllM).view.set]{Transfers.shareDrop (shQ L) 6} TabS m d L)
    ∗ semVal (thrL d L, SemLoc.dma cc0_scoped0.sem) 0 ∗ semVal (thrL d L, SemLoc.dma cc0_scoped1.sem) 0
    ∗ bigSep (((ownRefs (τ := τ) (.scVector (cV L) (jV L))).erase ((Proc.scVector (cV L) (jV L)).devRef cc0_scratch0)).erase ((Proc.scVector (cV L) (jV L)).devRef cc0_scratch1))
        fun b => iprop(∃ f, ((d, b) : Loc nD τ sig) ↦{fullShare} f))

/-- The tile between two parts of its program: the levels, the ring in state `R`, what passes through, and what the tile
    owes with the waits recorded so far. -/
def Mid (R : sProp 𝕄) (O : CellTallies nD τ sig (HIx 1)) (W : Waits sig (HIx 1)) : sProp 𝕄 :=
  iprop(levAts (K (F := F)).L (K (F := F)).lev ∗ R ∗ Carry m d L
    ∗ ∃ W', ⌜∀ p ∈ W', p ∈ W ∨ p.2 = none ∨ p.2 = some (0 : Fin 1)⌝ ∗ owes (thrL d L) O W')

end Ring

end Cert.Proof.KI

end
-- ==== Proof.KISems.lean ====
/-
  What a tile owns when its task starts: its fourteen transfer semaphores at zero, and its two scratch buffers.

  A thread's own scoped cells are those of its semaphores that are scoped on its kind of processor. On a vector subcore
  every transfer semaphore is scoped and no regular semaphore is, so the own cells of tile (c, i) are exactly its fourteen
  transfer semaphores. Its own buffers include the index buffer and the row buffer.
-/
import proofs.«203285_g23708219474275_cont_8to1_227_19_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- On a vector subcore no regular semaphore is scoped, and every transfer semaphore is. -/
theorem reg_not_scoped : ∀ s : Sem sig, (SemLoc.reg s : SemLoc sig).isScoped .scVector = false := by decide
theorem dma_scoped : ∀ k : DmaSem sig, (SemLoc.dma k : SemLoc sig).isScoped .scVector = true := by decide

/-- The own scoped cells of a tile are its fourteen transfer semaphores. -/
theorem ownCells_V (d : Dev nD) (c : Fin τ.nSC) (i : Fin τ.nSub) :
    (ownCells (V d c i) : Finset (GSem nD τ sig)) = Finset.univ.image fun k : Fin 14 => ((V d c i, SemLoc.dma k) : GSem nD τ sig) := by
  ext g
  rw [mem_ownCells, Finset.mem_image]
  obtain ⟨thr, sm⟩ := g
  constructor
  · rintro ⟨h1, h2⟩
    obtain rfl : thr = V d c i := h1
    cases sm with
    | reg s =>
      have h3 : (SemLoc.reg s : SemLoc sig).isScoped .scVector = true := h2
      rw [reg_not_scoped s] at h3
      exact absurd h3 (by decide)
    | dma k => exact ⟨k, Finset.mem_univ _, rfl⟩
  · rintro ⟨k, -, e⟩
    obtain ⟨rfl, rfl⟩ := Prod.mk.inj e
    exact ⟨rfl, dma_scoped k⟩

/-- A tile's own scoped cells at zero: its fourteen transfer semaphores at zero. -/
theorem ownSems0_V_dma (d : Dev nD) (c : Fin τ.nSC) (i : Fin τ.nSub) :
    (ownSems0 (V d c i) : sProp 𝕄) = bigSep Finset.univ fun k : Fin 14 => semVal (V d c i, SemLoc.dma k) 0 := by
  unfold SparseCore.Cfg.ownSems0
  rw [ownCells_V]
  exact SparseCore.bigSep_image_of_injOn (fun a _ b _ e => SemLoc.dma.inj (Prod.mk.inj e).2) _

/-- All of the fourteen indices, one by one. -/
theorem bigSep_fin14 (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-- The same, the fourteen semaphores one by one. -/
theorem ownSems0_V_list (d : Dev nD) (c : Fin τ.nSC) (i : Fin τ.nSub) :
    (ownSems0 (V d c i) : sProp 𝕄)
      = iprop(semVal (V d c i, SemLoc.dma 0) 0 ∗ semVal (V d c i, SemLoc.dma 1) 0 ∗ semVal (V d c i, SemLoc.dma 2) 0
          ∗ semVal (V d c i, SemLoc.dma 3) 0 ∗ semVal (V d c i, SemLoc.dma 4) 0 ∗ semVal (V d c i, SemLoc.dma 5) 0
          ∗ semVal (V d c i, SemLoc.dma 6) 0 ∗ semVal (V d c i, SemLoc.dma 7) 0 ∗ semVal (V d c i, SemLoc.dma 8) 0
          ∗ semVal (V d c i, SemLoc.dma 9) 0 ∗ semVal (V d c i, SemLoc.dma 10) 0 ∗ semVal (V d c i, SemLoc.dma 11) 0
          ∗ semVal (V d c i, SemLoc.dma 12) 0 ∗ semVal (V d c i, SemLoc.dma 13) 0) := by
  rw [ownSems0_V_dma, bigSep_fin14]

/-- The two scratch buffers are among the tile's own: they are them, at some contents, and the rest. -/
theorem ownBufs_V2 (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase
              ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩)]

end Cert.Proof.KI

end
-- ==== Proof.KIGeom.lean ====
/-
  The program's offsets and conditions in closed form, and its pieces as the named slots, windows and chunks.

  The loop has fifty trips. At trip k the program gathers into slot k mod 6 from window k, copies slot k mod 6 out to chunk
  k, and, while k + 2 < 50, first waits (when 4 ≤ k) for the copy of slot (k + 2) mod 6 out to chunk k − 4 and then gathers
  window k + 2 into that slot. After the loop the copies to chunks 44 … 49 are awaited. The pieces partition the buffers:
  the six slots the row buffer, the fifty windows the index buffer, the fifty chunks the tile's part of the flat result.
-/
import proofs.«203285_g23708219474275_cont_8to1_227_19_alg».proof.Proof.KIViews

set_option synthInstance.maxSize 4096
set_option Elab.async false

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The loop's trips and conditions -/

theorem trips_eq : k0_t1_loop.trips = 50 := by decide +kernel
theorem trip_lt (k : Fin k0_t1_loop.trips) : k.val < 50 := Nat.lt_of_lt_of_le k.isLt (Nat.le_of_eq trips_eq)
theorem cond2_iff : ∀ k : Fin k0_t1_loop.trips, k0_cond2 k = 1#1 ↔ k.val + 2 < 50 := by decide +kernel
theorem cond3_iff : ∀ k : Fin k0_t1_loop.trips, k0_cond3 k = 1#1 ↔ 4 ≤ k.val := by decide +kernel

/-! ## The awaited chunk's offsets -/

theorem k0_off3_eq' : ∀ (i : grid0.Coords) (k : Fin k0_t1_loop.trips), 4 ≤ k.val →
    k0_off3 i k = ![12800 * (i 1).val + 6400 * (i 0).val + 128 * (k.val - 4), 0] := by decide +kernel

/-! ## The program's rectangles are the named pieces -/

/-- The slot gathered into and copied out at trip k. -/
theorem rect_off8 (k : Fin k0_t1_loop.trips) :
    Rect.unit (s := S6x128x128) (k0_off8 k) S1x128x128.size (k0_off8_inb k) = slotR (k.val % 6) (Nat.mod_lt _ (by decide)) :=
  Rect.unit_congr (k0_off8_eq k) _ _
/-- The slot gathered into two trips ahead. -/
theorem rect_off5 (k : Fin k0_t1_loop.trips) (h2 : k0_cond2 k = 1#1) :
    Rect.unit (s := S6x128x128) (k0_off5 k) S1x128x128.size (k0_off5_inb k h2) = slotR ((k.val + 2) % 6) (Nat.mod_lt _ (by decide)) :=
  Rect.unit_congr (k0_off5_eq k) _ _
/-- The slot whose copy out is awaited before that. -/
theorem rect_off2 (k : Fin k0_t1_loop.trips) (h2 : k0_cond2 k = 1#1) (h3 : k0_cond3 k = 1#1) :
    Rect.unit (s := S6x128x128) (k0_off2 k) S1x128x128.size (k0_off2_inb k h2 h3) = slotR ((k.val + 2) % 6) (Nat.mod_lt _ (by decide)) :=
  Rect.unit_congr (k0_off2_eq k) _ _
/-- The window of trip k. -/
theorem rect_off9 (k : Fin k0_t1_loop.trips) :
    Rect.unit (s := S6400) (k0_off9 k) S128.size (k0_off9_inb k) = winR k.val (trip_lt k) :=
  Rect.unit_congr (k0_off9_eq k) _ _
/-- The window two trips ahead. -/
theorem rect_off6 (k : Fin k0_t1_loop.trips) (h2 : k0_cond2 k = 1#1) :
    Rect.unit (s := S6400) (k0_off6 k) S128.size (k0_off6_inb k h2) = winR (k.val + 2) ((cond2_iff k).mp h2) :=
  Rect.unit_congr ((k0_off6_eq k).trans (by rw [show 128 * k.val + 256 = 128 * (k.val + 2) by omega])) _ _
/-- The chunk of trip k. -/
theorem rect_off11 (L : grid0.Coords) (k : Fin k0_t1_loop.trips) :
    Rect.unit (s := S204800x128) (k0_off11 L k) S128x128.size (k0_off11_inb L k) = chunkR L k.val (trip_lt k) :=
  Rect.unit_congr (k0_off11_eq L k) _ _
/-- The chunk whose copy is awaited at trip k: chunk k − 4. -/
theorem rect_off3 (L : grid0.Coords) (k : Fin k0_t1_loop.trips) (h2 : k0_cond2 k = 1#1) (h3 : k0_cond3 k = 1#1) :
    Rect.unit (s := S204800x128) (k0_off3 L k) S128x128.size (k0_off3_inb L k h2 h3)
      = chunkR L (k.val - 4) (Nat.lt_of_le_of_lt (Nat.sub_le _ _) (trip_lt k)) :=
  Rect.unit_congr (k0_off3_eq' L k ((cond3_iff k).mp h3)) _ _
/-- The chunks awaited after the loop: chunk 44 + r. -/
theorem rect_off12 (L : grid0.Coords) (r : Fin 6) :
    Rect.unit (s := S204800x128) (k0_off12 L (BitVec.ofNat 32 (5632 + 128 * r.val))) S128x128.size (k0_off12_inb L r)
      = chunkR L (44 + r.val) (by have := r.isLt; omega) :=
  Rect.unit_congr ((k0_off12_eq L r).trans (by
    rw [show 12800 * (L 1).val + 6400 * (L 0).val + 128 * r.val + 5632 = 12800 * (L 1).val + 6400 * (L 0).val + 128 * (44 + r.val) by omega])) _ _
theorem rect_off12_0 (L : grid0.Coords) : Rect.unit (s := S204800x128) (k0_off12 L 5632#32) S128x128.size (k0_off12_inb L 0) = chunkR L 44 (by decide) := rect_off12 L 0
theorem rect_off12_1 (L : grid0.Coords) : Rect.unit (s := S204800x128) (k0_off12 L 5760#32) S128x128.size (k0_off12_inb L 1) = chunkR L 45 (by decide) := rect_off12 L 1
theorem rect_off12_2 (L : grid0.Coords) : Rect.unit (s := S204800x128) (k0_off12 L 5888#32) S128x128.size (k0_off12_inb L 2) = chunkR L 46 (by decide) := rect_off12 L 2
theorem rect_off12_3 (L : grid0.Coords) : Rect.unit (s := S204800x128) (k0_off12 L 6016#32) S128x128.size (k0_off12_inb L 3) = chunkR L 47 (by decide) := rect_off12 L 3
theorem rect_off12_4 (L : grid0.Coords) : Rect.unit (s := S204800x128) (k0_off12 L 6144#32) S128x128.size (k0_off12_inb L 4) = chunkR L 48 (by decide) := rect_off12 L 4
theorem rect_off12_5 (L : grid0.Coords) : Rect.unit (s := S204800x128) (k0_off12 L 6272#32) S128x128.size (k0_off12_inb L 5) = chunkR L 49 (by decide) := rect_off12 L 5

/-- The semaphores of trip k's slot, and of the slot two trips ahead. -/
theorem sem_off10 (arg : DmaSems sig S6) (k : Fin k0_t1_loop.trips) :
    arg.slice (Rect.unit (s := S6) (k0_off10 k) S1.size (k0_off10_inb k))
      = arg.slice (Rect.unit (s := S6) ![k.val % 6] S1.size (inbSem (k.val % 6) (Nat.mod_lt _ (by decide)))) :=
  SemArray.slice_unit_congr arg (k0_off10_eq k) _ _
theorem sem_off7 (arg : DmaSems sig S6) (k : Fin k0_t1_loop.trips) (h2 : k0_cond2 k = 1#1) :
    arg.slice (Rect.unit (s := S6) (k0_off7 k) S1.size (k0_off7_inb k h2))
      = arg.slice (Rect.unit (s := S6) ![(k.val + 2) % 6] S1.size (inbSem ((k.val + 2) % 6) (Nat.mod_lt _ (by decide)))) :=
  SemArray.slice_unit_congr arg (k0_off7_eq k) _ _
theorem sem_off4 (arg : DmaSems sig S6) (k : Fin k0_t1_loop.trips) (h2 : k0_cond2 k = 1#1) (h3 : k0_cond3 k = 1#1) :
    arg.slice (Rect.unit (s := S6) (k0_off4 k) S1.size (k0_off4_inb k h2 h3))
      = arg.slice (Rect.unit (s := S6) ![(k.val + 2) % 6] S1.size (inbSem ((k.val + 2) % 6) (Nat.mod_lt _ (by decide)))) :=
  SemArray.slice_unit_congr arg (k0_off4_eq k) _ _

end Cert.Proof.KI

end
-- ==== Proof.KIParts.lean ====
/-
  The pieces partition the buffers, and where each piece's elements sit.

  Slot b of the row buffer is the set of elements whose first coordinate is b; window j of the index buffer the words
  128 j … 128 j + 127; chunk j of a tile's part of the flat result the rows base + 128 j … base + 128 j + 127, where
  base = 12800 s + 6400 c = 6400 w is the first row of worker w = 2 s + c. So the six slots are pairwise disjoint and
  cover the row buffer, the fifty windows the index buffer, and the fifty chunks the worker's 6400 rows; a points-to
  assertion over the whole is the separating conjunction of those over the pieces.
-/
import proofs.«203285_g23708219474275_cont_8to1_227_19_alg».proof.Proof.KIGeom
import Idealize.ShloMosaic.Lib.ValueLayout

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iwV" => (Memref.whole Cert.KernelIdeal.main_v1_scv : Memref Cert.KernelIdeal.sig Kind.scVector Space.hbm Cert.KernelIdeal.S32x6400 EltTy.i32)
local notation "outV" => (Memref.whole Cert.KernelIdeal.main_v2_scv : Memref Cert.KernelIdeal.sig Kind.scVector Space.hbm Cert.KernelIdeal.S204800x128 EltTy.f32)
local notation "ivV" => (Memref.whole Cert.KernelIdeal.cc0_scratch0 : Memref Cert.KernelIdeal.sig Kind.scVector Space.vmem Cert.KernelIdeal.S6400 EltTy.i32)
local notation "rvV" => (Memref.whole Cert.KernelIdeal.cc0_scratch1 : Memref Cert.KernelIdeal.sig Kind.scVector Space.vmem Cert.KernelIdeal.S6x128x128 EltTy.f32)

/-! ## The tile of a grid point, and its worker number -/

abbrev pC (L : grid0.Coords) : Fin τ.nSC := (L 0).castLE hcore0
abbrev pJ (L : grid0.Coords) : Fin τ.nSub := (L 1).castLE hsub0
abbrev pW (L : grid0.Coords) : Fin 32 := wid (pC L) (Fin.cast (show grid0.bound 1 = 16 from rfl) (L 1))
theorem pW_val (L : grid0.Coords) : (pW L).val = 2 * (L 1).val + (L 0).val := rfl

/-! ## Which elements a piece holds -/

theorem mem_slotR (b : ℕ) (h : b < 6) (x : S6x128x128.Idx) : x ∈ (slotR b h).set ↔ (x 0).val = b := by
  rw [Rect.mem_set_unit]
  have h1 : (x 1).val < 128 := (x 1).isLt
  have h2 : (x 2).val < 128 := (x 2).isLt
  constructor
  · intro H
    have h0 : b ≤ (x 0).val ∧ (x 0).val < b + 1 := H 0
    omega
  · intro e a
    match a with
    | ⟨0, _⟩ => show b ≤ (x 0).val ∧ (x 0).val < b + 1; omega
    | ⟨1, _⟩ => show 0 ≤ (x 1).val ∧ (x 1).val < 0 + 128; omega
    | ⟨2, _⟩ => show 0 ≤ (x 2).val ∧ (x 2).val < 0 + 128; omega

theorem mem_winR (j : ℕ) (h : j < 50) (x : S6400.Idx) : x ∈ (winR j h).set ↔ 128 * j ≤ (x 0).val ∧ (x 0).val < 128 * j + 128 := by
  rw [Rect.mem_set_unit]
  constructor
  · intro H
    exact H 0
  · intro e a
    match a with
    | ⟨0, _⟩ => exact e

theorem mem_chunkR (L : grid0.Coords) (j : ℕ) (h : j < 50) (x : S204800x128.Idx) :
    x ∈ (chunkR L j h).set ↔ 12800 * (L 1).val + 6400 * (L 0).val + 128 * j ≤ (x 0).val
      ∧ (x 0).val < 12800 * (L 1).val + 6400 * (L 0).val + 128 * j + 128 := by
  rw [Rect.mem_set_unit]
  have h1 : (x 1).val < 128 := (x 1).isLt
  constructor
  · intro H
    exact H 0
  · intro e a
    match a with
    | ⟨0, _⟩ => exact e
    | ⟨1, _⟩ => show 0 ≤ (x 1).val ∧ (x 1).val < 0 + 128; omega

theorem mem_outPart (w : Fin 32) (x : S204800x128.Idx) :
    x ∈ (outPart w).set ↔ 6400 * w.val ≤ (x 0).val ∧ (x 0).val < 6400 * w.val + 6400 := by
  rw [Rect.mem_set_unit]
  have h1 : (x 1).val < 128 := (x 1).isLt
  constructor
  · intro H
    have h0 : w.val * (204800 / 32) ≤ (x 0).val ∧ (x 0).val < w.val * (204800 / 32) + 204800 / 32 := H 0
    omega
  · intro e a
    match a with
    | ⟨0, _⟩ => show w.val * (204800 / 32) ≤ (x 0).val ∧ (x 0).val < w.val * (204800 / 32) + 204800 / 32; omega
    | ⟨1, _⟩ => show 0 * 128 ≤ (x 1).val ∧ (x 1).val < 0 * 128 + 128; omega

theorem mem_iwRow (w : Fin 32) (x : S32x6400.Idx) : x ∈ (iwRow w).set ↔ (x 0).val = w.val := by
  rw [Rect.mem_set_unit]
  have h1 : (x 1).val < 6400 := (x 1).isLt
  constructor
  · intro H
    have h0 : w.val * (32 / 32) ≤ (x 0).val ∧ (x 0).val < w.val * (32 / 32) + 32 / 32 := H 0
    omega
  · intro e a
    match a with
    | ⟨0, _⟩ => show w.val * (32 / 32) ≤ (x 0).val ∧ (x 0).val < w.val * (32 / 32) + 32 / 32; omega
    | ⟨1, _⟩ => show 0 * 6400 ≤ (x 1).val ∧ (x 1).val < 0 * 6400 + 6400; omega

theorem mem_iwRowK (L : grid0.Coords) (x : S32x6400.Idx) :
    x ∈ (Rect.unit (s := S32x6400) (k0_off1 L) S1x6400.size (k0_off1_inb L)).set ↔ (x 0).val = 2 * (L 1).val + (L 0).val := by
  rw [Rect.mem_set_unit, k0_off1_eq]
  have h1 : (x 1).val < 6400 := (x 1).isLt
  constructor
  · intro H
    have h0 : 2 * (L 1).val + (L 0).val ≤ (x 0).val ∧ (x 0).val < 2 * (L 1).val + (L 0).val + 1 := H 0
    omega
  · intro e a
    match a with
    | ⟨0, _⟩ => show 2 * (L 1).val + (L 0).val ≤ (x 0).val ∧ (x 0).val < 2 * (L 1).val + (L 0).val + 1; omega
    | ⟨1, _⟩ => show 0 ≤ (x 1).val ∧ (x 1).val < 0 + 6400; omega

/-! ## The element sets of the pieces' views -/

abbrev slotSet (b : Fin 6) : Finset S6x128x128.Idx := (slotM b.val b.isLt).view.set
abbrev winSet (j : Fin 50) : Finset S6400.Idx := (winM j.val j.isLt).view.set
abbrev chunkSet (L : grid0.Coords) (j : Fin 50) : Finset S204800x128.Idx := (chunkM L j.val j.isLt).view.set

theorem set_slotM (b : ℕ) (h : b < 6) : ((slotM b h).view.set : Finset S6x128x128.Idx) = (slotR b h).set := by
  show (((rvV).view.slice (slotR b h)).reshape S128x128 squeezes_S1x128x128_S128x128.numel_eq).set = _
  rw [View.set_reshape]
  exact View.set_slice_whole cc0_scratch1 (slotR b h)
theorem set_winM (j : ℕ) (h : j < 50) : ((winM j h).view.set : Finset S6400.Idx) = (winR j h).set :=
  View.set_slice_whole cc0_scratch0 (winR j h)
theorem set_chunkM (L : grid0.Coords) (j : ℕ) (h : j < 50) : ((chunkM L j h).view.set : Finset S204800x128.Idx) = (chunkR L j h).set :=
  View.set_slice_whole main_v2_scv (chunkR L j h)
theorem slotSet_eq (b : Fin 6) : slotSet b = (slotR b.val b.isLt).set := set_slotM _ _
theorem winSet_eq (j : Fin 50) : winSet j = (winR j.val j.isLt).set := set_winM _ _
theorem chunkSet_eq (L : grid0.Coords) (j : Fin 50) : chunkSet L j = (chunkR L j.val j.isLt).set := set_chunkM _ _ _
theorem outPartSet_eq (w : Fin 32) : outPartSet w = (outPart w).set := View.set_slice_whole main_v2_scv (outPart w)
theorem iwRowSet_eq (w : Fin 32) : iwRowSet w = (iwRow w).set := View.set_slice_whole main_v1_scv (iwRow w)

/-- The tile's run of the rearranged index list, as the index fetch addresses it, is run w of its worker. -/
theorem set_iwRowM (L : grid0.Coords) : ((iwRowM L).view.set : Finset S32x6400.Idx) = iwRowSet (pW L) := by
  show (((iwV).view.slice (Rect.unit (s := S32x6400) (k0_off1 L) S1x6400.size (k0_off1_inb L))).reshape S6400 squeezes_S1x6400_S6400.numel_eq).set = _
  rw [View.set_reshape, iwRowSet_eq]
  refine (View.set_slice_whole main_v1_scv _).trans ?_
  show ((Rect.unit (s := S32x6400) (k0_off1 L) S1x6400.size (k0_off1_inb L)).set : Finset S32x6400.Idx) = (iwRow (pW L)).set
  ext x
  rw [mem_iwRowK, mem_iwRow, pW_val]

/-! ## The pieces are disjoint and cover -/

theorem slots_disjoint : ∀ b ∈ (Finset.univ : Finset (Fin 6)), ∀ b' ∈ (Finset.univ : Finset (Fin 6)), b ≠ b' → Disjoint (slotSet b) (slotSet b') := by
  intro b _ b' _ hne
  rw [Finset.disjoint_left]
  intro x hx hx'
  rw [slotSet_eq, mem_slotR] at hx hx'
  exact hne (Fin.ext (hx.symm.trans hx'))
theorem slots_cover : (Finset.univ : Finset (Fin 6)).biUnion slotSet = Finset.univ := by
  ext x
  simp only [Finset.mem_biUnion, Finset.mem_univ, true_and, iff_true]
  refine ⟨⟨(x 0).val, show (x 0).val < 6 from (x 0).isLt⟩, ?_⟩
  rw [slotSet_eq, mem_slotR]

theorem wins_disjoint : ∀ j ∈ (Finset.univ : Finset (Fin 50)), ∀ j' ∈ (Finset.univ : Finset (Fin 50)), j ≠ j' → Disjoint (winSet j) (winSet j') := by
  intro j _ j' _ hne
  rw [Finset.disjoint_left]
  intro x hx hx'
  rw [winSet_eq, mem_winR] at hx hx'
  exact hne (Fin.ext (by omega))
theorem wins_cover : (Finset.univ : Finset (Fin 50)).biUnion winSet = Finset.univ := by
  ext x
  simp only [Finset.mem_biUnion, Finset.mem_univ, true_and, iff_true]
  have hx : (x 0).val < 6400 := (x 0).isLt
  refine ⟨⟨(x 0).val / 128, by omega⟩, ?_⟩
  rw [winSet_eq, mem_winR]
  show 128 * ((x 0).val / 128) ≤ (x 0).val ∧ (x 0).val < 128 * ((x 0).val / 128) + 128
  omega

theorem chunks_disjoint (L : grid0.Coords) :
    ∀ j ∈ (Finset.univ : Finset (Fin 50)), ∀ j' ∈ (Finset.univ : Finset (Fin 50)), j ≠ j' → Disjoint (chunkSet L j) (chunkSet L j') := by
  intro j _ j' _ hne
  rw [Finset.disjoint_left]
  intro x hx hx'
  rw [chunkSet_eq, mem_chunkR] at hx hx'
  exact hne (Fin.ext (by omega))
theorem chunks_cover (L : grid0.Coords) : (Finset.univ : Finset (Fin 50)).biUnion (chunkSet L) = outPartSet (pW L) := by
  ext x
  rw [outPartSet_eq, mem_outPart, pW_val]
  simp only [Finset.mem_biUnion, Finset.mem_univ, true_and]
  constructor
  · rintro ⟨j, hj⟩
    rw [chunkSet_eq, mem_chunkR] at hj
    have hj50 : j.val < 50 := j.isLt
    omega
  · intro hx
    refine ⟨⟨((x 0).val - (12800 * (L 1).val + 6400 * (L 0).val)) / 128, by omega⟩, ?_⟩
    rw [chunkSet_eq, mem_chunkR]
    show 12800 * (L 1).val + 6400 * (L 0).val + 128 * (((x 0).val - (12800 * (L 1).val + 6400 * (L 0).val)) / 128) ≤ (x 0).val
      ∧ (x 0).val < 12800 * (L 1).val + 6400 * (L 0).val + 128 * (((x 0).val - (12800 * (L 1).val + 6400 * (L 0).val)) / 128) + 128
    omega

/-! ## A points-to over the whole is the pieces' -/

/-- The row buffer is its six slots. -/
theorem pts_slots (d : Dev nD) (c : Fin τ.nSC) (i : Fin τ.nSub) (q : PosShare TreeShare) (f : Buf (Elt F) ((V d c i).loc cc0_scratch1)) :
    ((rvV).view.loc (V d c i) ↦{q} f : sProp 𝕄)
      = bigSep Finset.univ fun b : Fin 6 => (slotM b.val b.isLt).view.loc (V d c i) ↦[(slotM b.val b.isLt).view.set]{q} f := by
  have key := pointsTo_biUnion (Val := Elt F) (Ix := HIx 1) (Name := ℕ) (U := UU) (Lvl := ℕ) (ℓ := (V d c i).loc cc0_scratch1) (q := q) (f := f)
    Finset.univ slotSet slots_disjoint
  exact (congrArg (fun A : Finset S6x128x128.Idx => ((V d c i).loc cc0_scratch1 ↦[A]{q} f : sProp 𝕄)) slots_cover.symm).trans key

/-- The index buffer is its fifty windows. -/
theorem pts_wins (d : Dev nD) (c : Fin τ.nSC) (i : Fin τ.nSub) (q : PosShare TreeShare) (f : Buf (Elt F) ((V d c i).loc cc0_scratch0)) :
    ((ivV).view.loc (V d c i) ↦{q} f : sProp 𝕄)
      = bigSep Finset.univ fun j : Fin 50 => (winM j.val j.isLt).view.loc (V d c i) ↦[(winM j.val j.isLt).view.set]{q} f := by
  have key := pointsTo_biUnion (Val := Elt F) (Ix := HIx 1) (Name := ℕ) (U := UU) (Lvl := ℕ) (ℓ := (V d c i).loc cc0_scratch0) (q := q) (f := f)
    Finset.univ winSet wins_disjoint
  exact (congrArg (fun A : Finset S6400.Idx => ((V d c i).loc cc0_scratch0 ↦[A]{q} f : sProp 𝕄)) wins_cover.symm).trans key

/-- A worker's part of the flat result is its fifty chunks. -/
theorem pts_chunks (d : Dev nD) (L : grid0.Coords) (q : PosShare TreeShare) (f : Buf (Elt F) (outLoc d)) :
    (outLoc d ↦[outPartSet (pW L)]{q} f : sProp 𝕄)
      = bigSep Finset.univ fun j : Fin 50 => (chunkM L j.val j.isLt).view.loc (V d (pC L) (pJ L)) ↦[(chunkM L j.val j.isLt).view.set]{q} f := by
  have key := pointsTo_biUnion (Val := Elt F) (Ix := HIx 1) (Name := ℕ) (U := UU) (Lvl := ℕ) (ℓ := outLoc d) (q := q) (f := f)
    Finset.univ (chunkSet L) (chunks_disjoint L)
  exact (congrArg (fun A : Finset S204800x128.Idx => (outLoc d ↦[A]{q} f : sProp 𝕄)) (chunks_cover L).symm).trans key

/-- The tile's run of the rearranged index list, as the index fetch addresses it. -/
theorem pts_iwRowM (d : Dev nD) (L : grid0.Coords) (q : PosShare TreeShare) (f : Buf (Elt F) (iwLoc d)) :
    ((iwRowM L).view.loc (V d (pC L) (pJ L)) ↦[(iwRowM L).view.set]{q} f : sProp 𝕄) = iwLoc d ↦[iwRowSet (pW L)]{q} f := by
  rw [set_iwRowM]

/-! ## Where a piece's elements sit -/

theorem emb_slotM (b : ℕ) (h : b < 6) (x : S128x128.Idx) :
    ((slotM b h).view.emb x : S6x128x128.Idx) = ix3 (⟨b, h⟩ : Fin 6) (x 0) (x 1) := by
  obtain ⟨r, c, rfl⟩ : ∃ (r : Fin 128) (c : Fin 128), x = ix2 r c := ⟨x 0, x 1, eq_ix2 x⟩
  show (slotR b h).emb (Shape.reshapeEquiv squeezes_S1x128x128_S128x128.numel_eq (ix2 r c)) = _
  rw [reshapeEquiv_ix2_1ab]
  funext a
  apply Fin.ext
  match a with
  | ⟨0, _⟩ => show b + 1 * 0 = b; omega
  | ⟨1, _⟩ => show 0 + 1 * r.val = r.val; omega
  | ⟨2, _⟩ => show 0 + 1 * c.val = c.val; omega
theorem emb_slotM_0 (b : ℕ) (h : b < 6) (x : S128x128.Idx) : (((slotM b h).view.emb x : S6x128x128.Idx) 0).val = b := by
  have e := congrArg Fin.val (congrFun (emb_slotM b h x) 0)
  exact e
theorem emb_slotM_1 (b : ℕ) (h : b < 6) (x : S128x128.Idx) : (((slotM b h).view.emb x : S6x128x128.Idx) 1).val = (x 0).val := by
  have e := congrArg Fin.val (congrFun (emb_slotM b h x) 1)
  exact e
theorem emb_slotM_2 (b : ℕ) (h : b < 6) (x : S128x128.Idx) : (((slotM b h).view.emb x : S6x128x128.Idx) 2).val = (x 1).val := by
  have e := congrArg Fin.val (congrFun (emb_slotM b h x) 2)
  exact e

theorem emb_chunkM_0 (L : grid0.Coords) (j : ℕ) (h : j < 50) (x : S128x128.Idx) :
    (((chunkM L j h).view.emb x : S204800x128.Idx) 0).val = 12800 * (L 1).val + 6400 * (L 0).val + 128 * j + (x 0).val := by
  show 12800 * (L 1).val + 6400 * (L 0).val + 128 * j + 1 * (x 0).val = _
  omega
theorem emb_chunkM_1 (L : grid0.Coords) (j : ℕ) (h : j < 50) (x : S128x128.Idx) :
    (((chunkM L j h).view.emb x : S204800x128.Idx) 1).val = (x 1).val := by
  show 0 + 1 * (x 1).val = _
  omega
theorem emb_winM_0 (j : ℕ) (h : j < 50) (y : S128.Idx) : (((winM j h).view.emb y : S6400.Idx) 0).val = 128 * j + (y 0).val := by
  show 128 * j + 1 * (y 0).val = _
  omega

end Cert.Proof.KI

end
-- ==== Proof.KIRows.lean ====
/-
  What a gather delivers: the chunk's rows.

  The gather of chunk j reads, for row r of the slot, the table row named by word r of window j of the index buffer, that is
  by word 128 j + r of the tile's run of the rearranged index list; the shared memory holds the table. Every word being
  below 1002, the row a word names is the word itself. So the gather's payload is the chunk's rows.
-/
import proofs.«203285_g23708219474275_cont_8to1_227_19_alg».proof.Proof.KICtx
import proofs.«203285_g23708219474275_cont_8to1_227_19_alg».proof.Proof.KIParts

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

variable (d : Dev nD) (L : grid0.Coords)

/-- The shared copy, as the gathers address it, sits where the shared memory does: every index at itself. -/
theorem emb_shAllM (y : S1002x128.Idx) : ((shAllM).view.emb y : S1002x128.Idx) = y := by
  funext a
  apply Fin.ext
  match a with
  | ⟨0, _⟩ => show 0 + 1 * (y 0).val = (y 0).val; omega
  | ⟨1, _⟩ => show 0 + 1 * (y 1).val = (y 1).val; omega

/-- Reading the shared copy of the table through the gathers' view gives the table. -/
theorem read_shAllM (y : S1002x128.Idx) : (shAllM).view.read (Elt F) (TabS m d L) y = m (tabLoc d) y := by
  refine (View.read_apply _ _).trans ((cast_eq _ _).trans ?_)
  show m (tabLoc d) ((shAllM).view.emb y) = m (tabLoc d) y
  rw [emb_shAllM]

/-- Word y of window j of the index buffer, once the run has been fetched, is word 128 j + y of the tile's run. -/
theorem read_winM (j : ℕ) (hj : j < 50) (y : S128.Idx) :
    (winM j hj).view.read (Elt F) (IVf m d L) y
      = IW m d (ix2 (wL L) (⟨128 * j + (y 0).val, by have h : (y 0).val < 128 := (y 0).isLt; show 128 * j + (y 0).val < 6400; omega⟩ : Fin 6400)) := by
  refine (View.read_apply _ _).trans ((cast_eq _ _).trans ?_)
  show IW m d (ix2 (wL L) (((winM j hj).view.emb y : S6400.Idx) 0)) = _
  congr 2
  exact Fin.ext (emb_winM_0 j hj y)

/-- The index of a 128-word list at row-major position k is k. -/
theorem rowMajor_symm_S128 (k : Fin S128.numel) : S128.rowMajor.symm k = ix1 (⟨k.val, k.isLt⟩ : Fin 128) := by
  rw [Equiv.symm_apply_eq]
  apply Fin.ext
  rw [Shape.rowMajor_val_one]

theorem gather_rows (j : ℕ) (hj : j < 50) (hn : S128.numel = S128x128.size gathers_S1002x128_S128x128.axis')
    (hin : ∀ x, ((winM j hj).view.read (Elt F) (IVf m d L) x).toNat < S1002x128.size gathers_S1002x128_S128x128.axis) :
    SparseCore.gatherPayload gathers_S1002x128_S128x128 ((shAllM).view.read (Elt F) (TabS m d L))
        (SparseCore.rows ((winM j hj).view.read (Elt F) (IVf m d L)) hn hin) = rowsOf m d L j hj := by
  funext x
  obtain ⟨r, q, rfl⟩ : ∃ (r : Fin 128) (q : Fin 128), x = ix2 r q := ⟨x 0, x 1, eq_ix2 x⟩
  unfold SparseCore.gatherPayload rowsOf
  rw [read_shAllM]
  congr 1
  funext b
  apply Fin.ext
  match b with
  | ⟨0, _⟩ =>
    have e := congrArg Fin.val (Shape.Gathers.idx_axis gathers_S1002x128_S128x128
      (SparseCore.rows ((winM j hj).view.read (Elt F) (IVf m d L)) hn hin) (ix2 r q))
    refine e.trans ?_
    show ((winM j hj).view.read (Elt F) (IVf m d L) (S128.rowMajor.symm ((r : Fin 128).cast hn.symm))).toNat = _
    rw [rowMajor_symm_S128, read_winM]
    have hw := hin (ix1 r)
    rw [read_winM] at hw
    exact (congrArg Fin.val (Cert.Spec.rowOf_of_lt hw)).symm
  | ⟨1, _⟩ =>
    exact Shape.Gathers.idx_of_ne gathers_S1002x128_S128x128 _ (ix2 r q) ⟨1, by decide⟩ (by decide)

/-- Every word of every window names a row of the table, when every word of the rearranged list does. -/
theorem win_inRange (hpre : ∀ (d : Dev nD) p, (IW m d p).toNat < 1002) (j : ℕ) (hj : j < 50) (x : S128.Idx) :
    ((winM j hj).view.read (Elt F) (IVf m d L) x).toNat < 1002 := by
  rw [read_winM]; exact hpre d _

/-- Word y of the tile's run of the rearranged index list, as the index fetch addresses it, is word (w, y) of the list. -/
theorem emb_iwRowM (y : S6400.Idx) : ((iwRowM L).view.emb y : S32x6400.Idx) = ix2 (wL L) (y 0) := by
  obtain ⟨k, rfl⟩ : ∃ k : Fin 6400, y = ix1 k := ⟨y 0, eq_ix1 y⟩
  show (Rect.unit (s := S32x6400) (k0_off1 L) S1x6400.size (k0_off1_inb L)).emb (Shape.reshapeEquiv squeezes_S1x6400_S6400.numel_eq (ix1 k)) = ix2 (wL L) k
  have e : Shape.reshapeEquiv squeezes_S1x6400_S6400.numel_eq (ix1 k) = ix2 (⟨0, Nat.one_pos⟩ : Fin 1) k :=
    Shape.reshapeEquiv_eq_of_rowMajor _ (by
      rw [Shape.rowMajor_val_two, Shape.rowMajor_val_one]
      show 0 * 6400 + k.val = k.val
      omega)
  rw [e]
  funext a
  apply Fin.ext
  match a with
  | ⟨0, _⟩ =>
    show k0_off1 L 0 + 1 * 0 = 2 * (L 1).val + (L 0).val
    rw [k0_off1_eq]
    show 2 * (L 1).val + (L 0).val + 1 * 0 = _
    omega
  | ⟨1, _⟩ =>
    show k0_off1 L 1 + 1 * k.val = k.val
    rw [k0_off1_eq]
    show 0 + 1 * k.val = _
    omega

/-- What the index fetch reads: word y of the tile's run. -/
theorem read_iwRowM (y : S6400.Idx) : (iwRowM L).view.read (Elt F) (IW m d) y = IW m d (ix2 (wL L) (y 0)) := by
  refine (View.read_apply _ _).trans ((cast_eq _ _).trans ?_)
  exact congrArg (IW m d) (emb_iwRowM L y)

/-- The index buffer, once the fetch has written all of it, holds the tile's run. -/
theorem IVf_eq (fiv : Buf (Elt F) ((Memref.whole cc0_scratch0 : Memref sig .scVector .vmem S6400 .i32).view.loc (thrL d L))) :
    (Memref.whole cc0_scratch0 : Memref sig .scVector .vmem S6400 .i32).view.write (Elt F) fiv ((iwRowM L).view.read (Elt F) (IW m d)) Finset.univ
      = IVf m d L := by
  refine (View.write_whole_univ cc0_scratch0 _ _).trans ?_
  funext y
  exact read_iwRowM m d L y

/-- The shared copy, as the gathers address it, is all of the shared memory. -/
theorem set_shAllM : ((shAllM).view.set : Finset S1002x128.Idx) = Finset.univ := by
  refine (View.set_slice_whole cc0_scratch2 _).trans ?_
  ext x
  simp only [Finset.mem_univ, iff_true]
  rw [Rect.mem_set_unit]
  have h0 : (x 0).val < 1002 := (x 0).isLt
  have h1 : (x 1).val < 128 := (x 1).isLt
  intro a
  match a with
  | ⟨0, _⟩ => show 0 ≤ (x 0).val ∧ (x 0).val < 0 + 1002; omega
  | ⟨1, _⟩ => show 0 ≤ (x 1).val ∧ (x 1).val < 0 + 128; omega

/-- All of six indices, one by one. -/
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_range6 (Φ : ℕ → sProp 𝕄) : bigSep (Finset.range 6) Φ = iprop(Φ 0 ∗ Φ 1 ∗ Φ 2 ∗ Φ 3 ∗ Φ 4 ∗ Φ 5) :=
  bigSep_eq_bigSepL_of_eq [0, 1, 2, 3, 4, 5] (by decide) (by decide) Φ

/-- Reading a slot, a chunk back after writing all of it gives what was written. -/
theorem read_write_slot (b : ℕ) (hb : b < 6) (fd : Buf (Elt F) ((slotM b hb).view.loc (thrL d L))) (P : S128x128.Idx → Elt F .f32) :
    (slotM b hb).view.read (Elt F) ((slotM b hb).view.write (Elt F) fd P Finset.univ) = P := View.read_write_univ _ _
theorem read_write_chunk (j : ℕ) (hj : j < 50) (fo : Buf (Elt F) ((chunkM L j hj).view.loc (thrL d L))) (P : S128x128.Idx → Elt F .f32) :
    (chunkM L j hj).view.read (Elt F) ((chunkM L j hj).view.write (Elt F) fo P Finset.univ) = P := View.read_write_univ _ _

end Cert.Proof.KI

end
-- ==== Proof.KIPart1.lean ====
/-
  The first part of a tile's program: the fetches, the barrier, and the first two gathers.

  Tile 0 of a SparseCore copies the table into the SparseCore's shared memory and waits for the copy. Every tile fetches its
  run of the rearranged index list into its index buffer and waits. At the barrier tile 0 hands each tile of its SparseCore a
  read share of the shared copy holding the table, the other tiles hand over nothing, and each tile receives its own read
  share. The tile cuts that share into six tokens, one per slot of its row buffer, keeping the rest; it cuts the index buffer
  into its fifty windows, the row buffer into its six slots, and its part of the flat result into its fifty chunks. It then
  issues the gathers of chunks 0 and 1 into slots 0 and 1. The payload of the gather of chunk j is the chunk's rows, every
  index word naming a row of the table. What is left is the ring before the first trip: chunks 0 and 1 being gathered, the
  other chunks not started, slots 2 … 5 not used.
-/
import proofs.«203285_g23708219474275_cont_8to1_227_19_alg».proof.Proof.KIIdx
import proofs.«203285_g23708219474275_cont_8to1_227_19_alg».proof.Proof.KICtx
import proofs.«203285_g23708219474275_cont_8to1_227_19_alg».proof.Proof.KISems
import proofs.«203285_g23708219474275_cont_8to1_227_19_alg».proof.Proof.KIGeom
import proofs.«203285_g23708219474275_cont_8to1_227_19_alg».proof.Proof.KIParts
import proofs.«203285_g23708219474275_cont_8to1_227_19_alg».proof.Proof.KIRows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iwV" => (Memref.whole Cert.KernelIdeal.main_v1_scv : Memref Cert.KernelIdeal.sig Kind.scVector Space.hbm Cert.KernelIdeal.S32x6400 EltTy.i32)
local notation "tabV" => (Memref.whole Cert.KernelIdeal.main_arg1_scv : Memref Cert.KernelIdeal.sig Kind.scVector Space.hbm Cert.KernelIdeal.S1002x128 EltTy.f32)
local notation "outV" => (Memref.whole Cert.KernelIdeal.main_v2_scv : Memref Cert.KernelIdeal.sig Kind.scVector Space.hbm Cert.KernelIdeal.S204800x128 EltTy.f32)
local notation "shV" => (Memref.whole Cert.KernelIdeal.cc0_scratch2 : Memref Cert.KernelIdeal.sig Kind.scVector Space.shared Cert.KernelIdeal.S1002x128 EltTy.f32)
local notation "ivV" => (Memref.whole Cert.KernelIdeal.cc0_scratch0 : Memref Cert.KernelIdeal.sig Kind.scVector Space.vmem Cert.KernelIdeal.S6400 EltTy.i32)
local notation "rvV" => (Memref.whole Cert.KernelIdeal.cc0_scratch1 : Memref Cert.KernelIdeal.sig Kind.scVector Space.vmem Cert.KernelIdeal.S6x128x128 EltTy.f32)

variable [FloatOps F]

variable (d : Dev nD) (L : grid0.Coords)

namespace Part1

/-- Tile 0's duty in every tile's round hands over that tile's read share of the shared copy of the table. -/
theorem pays_lead (h0 : (L 1).val = 0) :
    (bigSep Finset.univ fun i : Fin 16 => shTokPts m d (cV L) i)
      ⊢ (bigSep Finset.univ fun j : Fin (grid0.bound 1) => (bRd (F := F) m).payload (bcell d (cV L) (j.castLE hsub0)) 0 (jV L).val : sProp 𝕄) := by
  have e : ∀ j : Fin (grid0.bound 1), (bRd (F := F) m).payload (bcell d (cV L) (j.castLE hsub0)) 0 (jV L).val
      = shTokPts m d (cV L) (Fin.cast nSub_eq (j.castLE hsub0)) := by
    intro j
    show bPay m (bcell d (cV L) (j.castLE hsub0)) (jV L).val = _
    unfold bPay; dsimp only
    rw [if_pos (show (jV L).val = 0 from h0)]
  exact Entails.of_eq (bigSep_congr (s := Finset.univ) fun j _ => (e j).symm)

/-- Another tile's duties hand over nothing. -/
theorem pays_other (h0 : (L 1).val ≠ 0) :
    (iprop(emp) : sProp 𝕄) ⊢ bigSep Finset.univ fun j : Fin (grid0.bound 1) => (bRd (F := F) m).payload (bcell d (cV L) (j.castLE hsub0)) 0 (jV L).val := by
  rw [show (bigSep Finset.univ fun j : Fin (grid0.bound 1) => (bRd (F := F) m).payload (bcell d (cV L) (j.castLE hsub0)) 0 (jV L).val)
      = bigSep Finset.univ fun _ : Fin (grid0.bound 1) => (iprop(emp) : sProp 𝕄) from
      bigSep_congr fun j _ => by
        show bPay m (bcell d (cV L) (j.castLE hsub0)) (jV L).val = _
        unfold bPay; dsimp only
        rw [if_neg (show ¬ (jV L).val = 0 from h0)], bigSep_emp']

/-- What a tile's own round collected holds its read share of the shared copy of the table. -/
theorem pays_mine : (bigSep ((bRd (F := F) m).duties (bcell d (cV L) (jV L)) 0 \ ∅) fun n => (bRd (F := F) m).payload (bcell d (cV L) (jV L)) 0 n)
    ⊢ shTokPts m d (cV L) (jL L) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay m (bcell d (cV L) (jV L)) 0 ⊢ _
  unfold bPay; dsimp only
  rw [if_pos rfl]; exact BI.Entails.refl _

omit [FloatOps F] in
/-- Two members of a family over the fifty chunks taken out. -/
theorem split2' (Φ : Fin 50 → sProp 𝕄) (a b : Fin 50) (hab : a ≠ b) :
    bigSep Finset.univ Φ = iprop(Φ a ∗ Φ b ∗ bigSep ((Finset.univ.erase a).erase b) Φ) := by
  rw [SparseCore.bigSep_erase' (Finset.mem_univ a), SparseCore.bigSep_erase' (Finset.mem_erase.mpr ⟨hab.symm, Finset.mem_univ b⟩)]

theorem c0lt : (0 : ℕ) < 50 := by decide
theorem c1lt : (1 : ℕ) < 50 := by decide
theorem d0lt : 0 < sig.nDmaSem := by decide
theorem d1lt : 1 < sig.nDmaSem := by decide
theorem b0lt : (0 : ℕ) < 6 := by decide
theorem b1lt : (1 : ℕ) < 6 := by decide
theorem b2lt : (2 : ℕ) < 6 := by decide
theorem b3lt : (3 : ℕ) < 6 := by decide
theorem b4lt : (4 : ℕ) < 6 := by decide
theorem b5lt : (5 : ℕ) < 6 := by decide

/-- The index buffer after the fetch has written all of it holds the tile's run. -/
theorem iv_fetched (fiv : Buf (Elt F) ((ivV).view.loc (thrL d L))) (P : S6400.Idx → Elt F .i32) (hP : P = (iwRowM L).view.read (Elt F) (IW m d)) :
    ((ivV).view.loc (thrL d L) ↦{fullShare} (ivV).view.write (Elt F) fiv P Finset.univ : sProp 𝕄) ⊢ (ivV).view.loc (thrL d L) ↦{fullShare} IVf m d L := by
  subst hP; rw [IVf_eq]

/-- A tile's read share of the shared copy, as the gathers address the shared memory. -/
theorem shTok_respell : (shTokPts m d (cV L) (jL L) : sProp 𝕄) = ((shAllM).view.loc (thrL d L) ↦[(shAllM).view.set]{shQ L} TabS m d L) := by
  rw [set_shAllM]; rfl

set_option maxHeartbeats 1000000 in
omit [FloatOps F] in
/-- The index buffer is windows 0 and 1 and the other forty-eight. -/
theorem iv_split (f : Buf (Elt F) ((ivV).view.loc (thrL d L))) :
    ((ivV).view.loc (thrL d L) ↦{fullShare} f : sProp 𝕄)
      = iprop(((winM 0 c0lt).view.loc (thrL d L) ↦[(winM 0 c0lt).view.set]{fullShare} f)
          ∗ ((winM 1 c1lt).view.loc (thrL d L) ↦[(winM 1 c1lt).view.set]{fullShare} f)
          ∗ bigSep (((Finset.univ : Finset (Fin 50)).erase ⟨0, c0lt⟩).erase ⟨1, c1lt⟩) fun j => (winM j.val j.isLt).view.loc (thrL d L) ↦[(winM j.val j.isLt).view.set]{fullShare} f) :=
  (pts_wins (F := F) d (cV L) (jV L) fullShare f).trans (split2' _ ⟨0, c0lt⟩ ⟨1, c1lt⟩ (by decide))

omit [FloatOps F] in
/-- All of six indices, one by one, each written by its number. -/
theorem bigSep_fin6' (Φ : Fin 6 → sProp 𝕄) :
    bigSep Finset.univ Φ = iprop(Φ ⟨0, b0lt⟩ ∗ Φ ⟨1, b1lt⟩ ∗ Φ ⟨2, b2lt⟩ ∗ Φ ⟨3, b3lt⟩ ∗ Φ ⟨4, b4lt⟩ ∗ Φ ⟨5, b5lt⟩) :=
  bigSep_univ_eq_bigSepL ([⟨0, b0lt⟩, ⟨1, b1lt⟩, ⟨2, b2lt⟩, ⟨3, b3lt⟩, ⟨4, b4lt⟩, ⟨5, b5lt⟩] : List (Fin 6)) (by decide) (by decide) Φ

set_option maxHeartbeats 1000000 in
omit [FloatOps F] in
/-- The row buffer is its six slots. -/
theorem rv_split (f : Buf (Elt F) ((rvV).view.loc (thrL d L))) :
    ((rvV).view.loc (thrL d L) ↦{fullShare} f : sProp 𝕄)
      = iprop(slotPts d L 0 b0lt f ∗ slotPts d L 1 b1lt f ∗ slotPts d L 2 b2lt f ∗ slotPts d L 3 b3lt f
          ∗ slotPts d L 4 b4lt f ∗ slotPts d L 5 b5lt f) :=
  (pts_slots (F := F) d (cV L) (jV L) fullShare f).trans (bigSep_fin6' _)

set_option maxHeartbeats 1000000 in
omit [FloatOps F] in
/-- The tile's part of the flat result is chunks 0 and 1 and the other forty-eight. -/
theorem out_split (f : Buf (Elt F) (outLoc d)) :
    (outLoc d ↦[outPartSet (wL L)]{fullShare} f : sProp 𝕄)
      = iprop(chunkPts d L 0 c0lt f ∗ chunkPts d L 1 c1lt f
          ∗ bigSep (((Finset.univ : Finset (Fin 50)).erase ⟨0, c0lt⟩).erase ⟨1, c1lt⟩) fun j => chunkPts d L j.val j.isLt f) :=
  (pts_chunks (F := F) d L fullShare f).trans (split2' _ ⟨0, c0lt⟩ ⟨1, c1lt⟩ (by decide))

/-- A gather just issued, its payload the chunk's rows, is the chunk's gather in flight. -/
theorem gFlight_intro (j : ℕ) (hj : j < 50) (b : ℕ) (hb : b < 6) (fd : Buf (Elt F) ((slotM b hb).view.loc (thrL d L))) (P : S128x128.Idx → Elt F .f32)
    (hP : P = rowsOf m d L j hj) (N : ℕ) (hN : N = (slotM b hb).view.dmaCredit) (sm : DmaSem sig) (hsm : sm = gSem b hb) :
    Transfers.Flight countersEmb (thrL d L) (SemLoc.dma sm) (default : HIx 1) N
        iprop((((slotM b hb).view.loc (thrL d L) ↦[(slotM b hb).view.set]{fullShare} (slotM b hb).view.writes (Elt F) fd [⟨Rect.whole S128x128, P⟩])
          ∗ winPts m d L j hj) ∗ shPts m d L b)
      ⊢ gFlight m d L j hj b hb := by
  subst hP hN hsm
  unfold gFlight
  iintro H
  iexists _
  isplitr
  · ipureintro
    exact View.read_writes_whole _ fd _
  · iexact H

/-- Chunks not yet started: their windows and their chunks of the result. -/
theorem fresh_family (s : Finset (Fin 50)) :
    iprop((bigSep s fun j => winPts m d L j.val j.isLt) ∗ (bigSep s fun j => chunkPts d L j.val j.isLt (m (outLoc d))))
      ⊢ bigSep s fun j => fresh m d L j.val j.isLt := by
  unfold fresh
  exact Entails.of_eq (BI.bigSep_sep s _ _).symm

/-- The ring before the first trip: chunks 0 and 1 being gathered into slots 0 and 1, the other chunks not started, slots
    2 … 5 not used. -/
theorem ring0_intro :
    iprop((gathering m d L 0 c0lt 0 b0lt ∗ gathering m d L 1 c1lt 1 b1lt
        ∗ bigSep (((Finset.univ : Finset (Fin 50)).erase ⟨0, c0lt⟩).erase ⟨1, c1lt⟩) fun j => fresh m d L j.val j.isLt)
      ∗ (freeSlot m d L ⟨2, b2lt⟩ ∗ freeSlot m d L ⟨3, b3lt⟩ ∗ freeSlot m d L ⟨4, b4lt⟩ ∗ freeSlot m d L ⟨5, b5lt⟩))
      ⊢ Ring m d L 0 := by
  unfold Ring
  rw [split2' _ ⟨0, c0lt⟩ ⟨1, c1lt⟩ (by decide), bigSep_fin6']
  have hrest : (bigSep (((Finset.univ : Finset (Fin 50)).erase ⟨0, c0lt⟩).erase ⟨1, c1lt⟩) fun j : Fin 50 => phase m d L 0 j)
      = bigSep (((Finset.univ : Finset (Fin 50)).erase ⟨0, c0lt⟩).erase ⟨1, c1lt⟩) fun j => fresh m d L j.val j.isLt :=
    bigSep_congr fun j hj => by
      have h0 : j ≠ ⟨0, c0lt⟩ := (Finset.mem_erase.mp (Finset.mem_erase.mp hj).2).1
      have h1 : j ≠ ⟨1, c1lt⟩ := (Finset.mem_erase.mp hj).1
      have a0 : j.val ≠ 0 := fun e => h0 (Fin.ext e)
      have a1 : j.val ≠ 1 := fun e => h1 (Fin.ext e)
      unfold phase; rw [if_pos (show 0 + 2 ≤ j.val by omega)]
  rw [hrest]
  have p0 : phase m d L 0 ⟨0, c0lt⟩ = gathering m d L 0 c0lt 0 b0lt := rfl
  have p1 : phase m d L 0 ⟨1, c1lt⟩ = gathering m d L 1 c1lt 1 b1lt := rfl
  rw [p0, p1]
  iintro ⟨⟨Hg0, Hg1, Hr⟩, F2, F3, F4, F5⟩
  isplitl [Hg0 Hg1 Hr]
  · isplitl [Hg0]; · iexact Hg0
    isplitl [Hg1]; · iexact Hg1
    iexact Hr
  isplitr; · rw [if_neg (show ¬ (0 + 2 ≤ (⟨0, b0lt⟩ : Fin 6).val) by decide)]; iempintro
  isplitr; · rw [if_neg (show ¬ (0 + 2 ≤ (⟨1, b1lt⟩ : Fin 6).val) by decide)]; iempintro
  isplitl [F2]; · rw [if_pos (show 0 + 2 ≤ (⟨2, b2lt⟩ : Fin 6).val by decide)]; iexact F2
  isplitl [F3]; · rw [if_pos (show 0 + 2 ≤ (⟨3, b3lt⟩ : Fin 6).val by decide)]; iexact F3
  isplitl [F4]; · rw [if_pos (show 0 + 2 ≤ (⟨4, b4lt⟩ : Fin 6).val by decide)]; iexact F4
  rw [if_pos (show 0 + 2 ≤ (⟨5, b5lt⟩ : Fin 6).val by decide)]; iexact F5

/-- The tile between two parts, and what passes through the ring, spelled out. -/
theorem Mid_unfold (R : sProp 𝕄) (O : CellTallies nD τ sig (HIx 1)) (W : Waits sig (HIx 1)) :
    Mid m d L R O W = iprop(levAts (K (F := F)).L (K (F := F)).lev ∗ R ∗ Carry m d L
      ∗ ∃ W', ⌜∀ p ∈ W', p ∈ W ∨ p.2 = none ∨ p.2 = some (0 : Fin 1)⌝ ∗ owes (thrL d L) O W') := rfl
theorem Carry_unfold :
    Carry m d L = iprop((iwLoc d ↦[iwRowSet (wL L)]{fullShare} IW m d)
      ∗ lead1 m d (cV L) (jL L)
      ∗ ((shAllM).view.loc (thrL d L) ↦[(shAllM).view.set]{Transfers.shareDrop (shQ L) 6} TabS m d L)
      ∗ semVal (thrL d L, SemLoc.dma cc0_scoped0.sem) 0 ∗ semVal (thrL d L, SemLoc.dma cc0_scoped1.sem) 0
      ∗ bigSep (((ownRefs (τ := τ) (.scVector (cV L) (jV L))).erase ((Proc.scVector (cV L) (jV L)).devRef cc0_scratch0)).erase ((Proc.scVector (cV L) (jV L)).devRef cc0_scratch1))
          fun b => iprop(∃ f, ((d, b) : Loc nD τ sig) ↦{fullShare} f)) := rfl
theorem freeSlot_unfold (b : Fin 6) :
    freeSlot m d L b = iprop((∃ f, slotPts d L b.val b.isLt f) ∗ gSemPts d L b.val b.isLt ∗ sSemPts d L b.val b.isLt ∗ shPts m d L b.val) := rfl
theorem gathering_unfold (j : ℕ) (hj : j < 50) (b : ℕ) (hb : b < 6) :
    gathering m d L j hj b hb = iprop(gFlight m d L j hj b hb ∗ chunkPts d L j hj (m (outLoc d)) ∗ sSemPts d L b hb) := rfl

/-- What a tile hands back beside its run and part: tile 0 its share of the table and what is left of the shared memory; another
    tile nothing. -/
theorem lead1_lead (h0 : (L 1).val = 0) :
    iprop(tabTokPts m d (cV L) ∗ shLoc d (cV L) ↦{Transfers.shareDrop fullShare 16} TABsh m d (cV L)) ⊢ lead1 m d (cV L) (jL L) := by
  unfold lead1; rw [if_pos (show (jL L).val = 0 from h0)]
theorem lead1_other (h0 : (L 1).val ≠ 0) (P : sProp 𝕄) : P ⊢ lead1 m d (cV L) (jL L) := by
  unfold lead1; rw [if_neg (show ¬ (jL L).val = 0 from h0)]; exact fun _ _ => trivial

/-- The shared memory after tile 0 has copied the table into all of it holds the table. -/
theorem sh_copied (fsh : Buf (Elt F) ((shV).view.loc (thrL d L))) (P : S1002x128.Idx → Elt F .f32) (hP : P = (tabV).view.read (Elt F) (m (tabLoc d))) :
    ((shV).view.loc (thrL d L) ↦{fullShare} (shV).view.write (Elt F) fsh P Finset.univ : sProp 𝕄) ⊢ shLoc d (cV L) ↦{fullShare} TABsh m d (cV L) := by
  subst hP
  have e : (shV).view.write (Elt F) fsh ((tabV).view.read (Elt F) (m (tabLoc d))) Finset.univ = TABsh m d (cV L) :=
    (View.write_whole_univ cc0_scratch2 fsh _).trans rfl
  exact Entails.of_eq (congrArg (fun g : Buf (Elt F) ((shV).view.loc (thrL d L)) => ((shV).view.loc (thrL d L) ↦{fullShare} g : sProp 𝕄)) e)

set_option maxHeartbeats 4000000 in
/-- The first part on a tile other than tile 0. -/
theorem part1_other (hF : (K (F := F)).Facts) (hpre : IdxOK m) (h0 : (L 1).val ≠ 0) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goRes m d (cV L) (jL L)
        ∗ scopedBufs (thrL d L) ∗ scopedSems0 (thrL d L) ∗ owes (thrL d L) (O + oxV d (cV L)) W)
      ⊢ wp frame (wpE (defs₀ (F := F)) 𝒱₀ (thrL d L) none) Set.univ
          (k0_part1 L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1)
          fun _ => Mid m d L (Ring m d L 0) O W := by
  simp only [k0_part1_eq_skeleton]; unfold k0_part1_skel
  rw [(K (F := F)).scopedBufs_V hF d (cV L) (jV L), SparseCore.Cfg.scopedSems0_V (Val := Elt F) d (cV L) (jV L), ownSems0_V_list, ownBufs_V2]
  unfold bkit goRes
  rw [show lead0 m d (cV L) (jL L) = iprop(emp) from if_neg h0]
  iintro ⟨#Hlv, ⟨⟨%κ, #Hinv⟩, Htoks, #Hrch, Hat, Hcred⟩, ⟨Hiw, Hout, Hlead⟩, ⟨⟨%fiv, Hiv⟩, ⟨%frv, Hrv⟩, Hbufs⟩, ⟨Hs0, Hs1, Hs2, Hs3, Hs4, Hs5, Hs6, Hs7, Hs8, Hs9, Hs10, Hs11, Hs12, Hs13⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  -- the buffers as the program's memrefs address them
  ihave Hiw' := (Entails.of_eq (pts_iwRowM (F := F) d L fullShare _).symm) $$ Hiw
  ihave Hiv' := (Entails.of_eq (show ((V d (cV L) (jV L)).loc cc0_scratch0 ↦{fullShare} fiv : sProp 𝕄) = ((ivV).view.loc (V d (cV L) (jV L)) ↦{fullShare} fiv) from rfl)) $$ Hiv
  ihave Hrv' := (Entails.of_eq (show ((V d (cV L) (jV L)).loc cc0_scratch1 ↦{fullShare} frv : sProp 𝕄) = ((rvV).view.loc (V d (cV L) (jV L)) ↦{fullShare} frv) from rfl)) $$ Hrv
  have k0_h1 : ¬ (Scalar.cmpi .ne (Scalar.extui (Scalar.cmpi .eq (BitVec.ofNat 32 (L 1).val) 0#32)) 0#32 = 1#1) := by
    have : ∀ j : Fin 16, j.val ≠ 0 → ¬ (Scalar.cmpi .ne (Scalar.extui (Scalar.cmpi .eq (BitVec.ofNat 32 j.val) 0#32)) 0#32 = 1#1) := by decide
    exact this (L 1) h0
  -- the fetch of the tile's run and its wait
  sl_exec
  -- the barrier: nothing handed over, the tile's read share received
  ihave Hpays := (pays_other (F := F) m d L h0) $$ Hlead
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  -- the tile's own read share of the shared copy
  ihave Hsh := (pays_mine (F := F) m d L) $$ Hgot
  ihave Hiv2 := (iv_fetched (F := F) m d L fiv (part1_other.sl.dma0 m d L) rfl) $$ Hiv'
  ihave Hl1 := (lead1_other (F := F) m d L h0 _) $$ Hlv
  -- the read share of the shared copy: six tokens for the slots, the rest passes through
  ihave Hsh' := (Entails.of_eq (shTok_respell (F := F) m d L)) $$ Hsh
  ihave Hsp := (Transfers.pointsTo_toks_range (shQ L) 6).1 $$ Hsh'
  icases Hsp with ⟨Hshrest, Htk⟩
  ihave Htk' := (Entails.of_eq (bigSep_range6 (F := F) _)) $$ Htk
  icases Htk' with ⟨Hk0, Hk1, Hk2, Hk3, Hk4, Hk5⟩
  -- the index buffer's windows, the row buffer's slots
  ihave Hw' := (Entails.of_eq (iv_split (F := F) d L (IVf m d L))) $$ Hiv2
  icases Hw' with ⟨Hw0, Hw1, Hwr⟩
  ihave Hsl' := (Entails.of_eq (rv_split (F := F) d L frv)) $$ Hrv'
  icases Hsl' with ⟨Hsl0, Hsl1, Hsl2, Hsl3, Hsl4, Hsl5⟩
  have hpre' : ∀ (d : Dev nD) p, (IW m d p).toNat < 1002 := hpre
  have hin0 : ∀ (x : (Rect.unit (s := S6400) ![0] S128.size inb_S6400_S128_0).shape.Idx),
      (((Memref.whole cc0_scratch0 : Memref sig .scVector .vmem S6400 .i32).slice (Rect.unit (s := S6400) ![0] S128.size inb_S6400_S128_0) (fun _ => rfl)).view.read (Elt F) (IVf m d L) x).toNat < 1002 :=
    fun x => win_inRange m d L hpre' 0 c0lt x
  have hin1 : ∀ (x : (Rect.unit (s := S6400) ![128] S128.size inb_S6400_S128_128).shape.Idx),
      (((Memref.whole cc0_scratch0 : Memref sig .scVector .vmem S6400 .i32).slice (Rect.unit (s := S6400) ![128] S128.size inb_S6400_S128_128) (fun _ => rfl)).view.read (Elt F) (IVf m d L) x).toNat < 1002 :=
    fun x => win_inRange m d L hpre' 1 c1lt x
  sl_exec
  sl_step
  -- the two gathers in flight deliver the chunks' rows
  ihave Hg0 := (gFlight_intro (F := F) m d L 0 c0lt 0 b0lt frv (part1_other.sl.gather0 m d L hin0) (gather_rows m d L 0 c0lt rfl hin0) 524288 rfl ⟨0, d0lt⟩ rfl) $$ Hs0
  ihave Hg1 := (gFlight_intro (F := F) m d L 1 c1lt 1 b1lt frv (part1_other.sl.gather1 m d L hin1) (gather_rows m d L 1 c1lt rfl hin1) 524288 rfl ⟨1, d1lt⟩ rfl) $$ Hs1
  -- the part of the flat result in its fifty chunks
  ihave Hch := (Entails.of_eq (out_split (F := F) d L (m (outLoc d)))) $$ Hout
  icases Hch with ⟨Hc0, Hc1, Hcr⟩
  ihave Hfr := (fresh_family (F := F) m d L _) $$ [Hwr Hcr]
  · isplitl [Hwr]; · iexact Hwr
    iexact Hcr
  iapply (Entails.of_eq (Mid_unfold (F := F) m d L _ O W).symm)
  isplitr; · iexact Hlv
  isplitl [Hg0 Hg1 Hc0 Hc1 Hs6 Hs7 Hfr Hsl2 Hsl3 Hsl4 Hsl5 Hs2 Hs3 Hs4 Hs5 Hs8 Hs9 Hs10 Hs11 Hk2 Hk3 Hk4 Hk5]
  · iapply (ring0_intro (F := F) m d L)
    isplitl [Hg0 Hg1 Hc0 Hc1 Hs6 Hs7 Hfr]
    · isplitl [Hg0 Hc0 Hs6]
      · iapply (Entails.of_eq (gathering_unfold (F := F) m d L 0 c0lt 0 b0lt).symm)
        isplitl [Hg0]; · iexact Hg0
        isplitl [Hc0]; · iexact Hc0
        iexact Hs6
      isplitl [Hg1 Hc1 Hs7]
      · iapply (Entails.of_eq (gathering_unfold (F := F) m d L 1 c1lt 1 b1lt).symm)
        isplitl [Hg1]; · iexact Hg1
        isplitl [Hc1]; · iexact Hc1
        iexact Hs7
      iexact Hfr
    · isplitl [Hsl2 Hs2 Hs8 Hk2]
      · iapply (Entails.of_eq (freeSlot_unfold (F := F) m d L ⟨2, b2lt⟩).symm)
        isplitl [Hsl2]; · iexists _; iexact Hsl2
        isplitl [Hs2]; · iexact Hs2
        isplitl [Hs8]; · iexact Hs8
        iexact Hk2
      isplitl [Hsl3 Hs3 Hs9 Hk3]
      · iapply (Entails.of_eq (freeSlot_unfold (F := F) m d L ⟨3, b3lt⟩).symm)
        isplitl [Hsl3]; · iexists _; iexact Hsl3
        isplitl [Hs3]; · iexact Hs3
        isplitl [Hs9]; · iexact Hs9
        iexact Hk3
      isplitl [Hsl4 Hs4 Hs10 Hk4]
      · iapply (Entails.of_eq (freeSlot_unfold (F := F) m d L ⟨4, b4lt⟩).symm)
        isplitl [Hsl4]; · iexists _; iexact Hsl4
        isplitl [Hs4]; · iexact Hs4
        isplitl [Hs10]; · iexact Hs10
        iexact Hk4
      iapply (Entails.of_eq (freeSlot_unfold (F := F) m d L ⟨5, b5lt⟩).symm)
      isplitl [Hsl5]; · iexists _; iexact Hsl5
      isplitl [Hs5]; · iexact Hs5
      isplitl [Hs11]; · iexact Hs11
      iexact Hk5
  isplitl [Hiw' Hl1 Hshrest Hs12 Hs13 Hbufs]
  · iapply (Entails.of_eq (Carry_unfold (F := F) m d L).symm)
    isplitl [Hiw']; · iapply (Entails.of_eq (pts_iwRowM (F := F) d L fullShare _)); iexact Hiw'
    isplitl [Hl1]; · iexact Hl1
    isplitl [Hshrest]; · iexact Hshrest
    isplitl [Hs12]; · iexact Hs12
    isplitl [Hs13]; · iexact Hs13
    iexact Hbufs
  iexists _; isplitr
  swap; · iexact HO
  ipureintro
  intro p hp
  rcases Finset.mem_insert.mp hp with hp | hp; · exact .inr (.inr (hp ▸ rfl))
  rcases Finset.mem_insert.mp hp with hp | hp; · exact .inr (.inl (hp ▸ rfl))
  first
    | exact .inl hp
    | (rcases Finset.mem_insert.mp hp with hp | hp; · exact .inr (.inl (hp ▸ rfl))
       exact .inl hp)

set_option maxHeartbeats 4000000 in
/-- The first part on tile 0 of a SparseCore. -/
theorem part1_lead (hF : (K (F := F)).Facts) (hpre : IdxOK m) (h0 : (L 1).val = 0) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goRes m d (cV L) (jL L)
        ∗ scopedBufs (thrL d L) ∗ scopedSems0 (thrL d L) ∗ owes (thrL d L) (O + oxV d (cV L)) W)
      ⊢ wp frame (wpE (defs₀ (F := F)) 𝒱₀ (thrL d L) none) Set.univ
          (k0_part1 L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1)
          fun _ => Mid m d L (Ring m d L 0) O W := by
  simp only [k0_part1_eq_skeleton]; unfold k0_part1_skel
  rw [(K (F := F)).scopedBufs_V hF d (cV L) (jV L), SparseCore.Cfg.scopedSems0_V (Val := Elt F) d (cV L) (jV L), ownSems0_V_list, ownBufs_V2]
  unfold bkit goRes
  rw [show lead0 m d (cV L) (jL L) = iprop(tabTokPts m d (cV L) ∗ ∃ f, shLoc d (cV L) ↦{fullShare} f) from if_pos h0]
  iintro ⟨#Hlv, ⟨⟨%κ, #Hinv⟩, Htoks, #Hrch, Hat, Hcred⟩, ⟨Hiw, Hout, ⟨Htab, %fsh, Hsh0⟩⟩, ⟨⟨%fiv, Hiv⟩, ⟨%frv, Hrv⟩, Hbufs⟩, ⟨Hs0, Hs1, Hs2, Hs3, Hs4, Hs5, Hs6, Hs7, Hs8, Hs9, Hs10, Hs11, Hs12, Hs13⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  -- the buffers as the program's memrefs address them
  ihave Hiw' := (Entails.of_eq (pts_iwRowM (F := F) d L fullShare _).symm) $$ Hiw
  ihave Hiv' := (Entails.of_eq (show ((V d (cV L) (jV L)).loc cc0_scratch0 ↦{fullShare} fiv : sProp 𝕄) = ((ivV).view.loc (V d (cV L) (jV L)) ↦{fullShare} fiv) from rfl)) $$ Hiv
  ihave Hrv' := (Entails.of_eq (show ((V d (cV L) (jV L)).loc cc0_scratch1 ↦{fullShare} frv : sProp 𝕄) = ((rvV).view.loc (V d (cV L) (jV L)) ↦{fullShare} frv) from rfl)) $$ Hrv
  ihave Htab' := (Entails.of_eq (show (tabTokPts m d (cV L) : sProp 𝕄)
      = ((tabV).view.loc (V d (cV L) (jV L)) ↦{Transfers.shareTok fullShare 2 (Fin.cast nSC_eq (cV L))} m (tabLoc d)) from rfl)) $$ Htab
  ihave Hsh0' := (Entails.of_eq (show (shLoc d (cV L) ↦{fullShare} fsh : sProp 𝕄) = ((shV).view.loc (V d (cV L) (jV L)) ↦{fullShare} fsh) from rfl)) $$ Hsh0
  have k0_h1 : Scalar.cmpi .ne (Scalar.extui (Scalar.cmpi .eq (BitVec.ofNat 32 (L 1).val) 0#32)) 0#32 = 1#1 := by
    have : ∀ j : Fin 16, j.val = 0 → Scalar.cmpi .ne (Scalar.extui (Scalar.cmpi .eq (BitVec.ofNat 32 j.val) 0#32)) 0#32 = 1#1 := by decide
    exact this (L 1) h0
  -- the copy of the table into the shared memory and its wait, the fetch of the tile's run and its wait
  sl_exec
  -- the shared memory holds the table: sixteen read shares, one per tile, and the rest
  ihave Hsh1 := (sh_copied (F := F) m d L fsh (part1_lead.sl.dma0 m d) rfl) $$ Hsh0'
  ihave Hsp0 := (Transfers.pointsTo_toks_split fullShare 16) $$ Hsh1
  icases Hsp0 with ⟨Hdrop, Hall⟩
  -- the barrier: every tile's read share handed over, the tile's own received
  ihave Hpays := (pays_lead (F := F) m d L h0) $$ Hall
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  -- the tile's own read share of the shared copy
  ihave Hsh := (pays_mine (F := F) m d L) $$ Hgot
  ihave Hiv2 := (iv_fetched (F := F) m d L fiv (part1_lead.sl.dma0_1 m d L) rfl) $$ Hiv'
  ihave Htab2 := (Entails.of_eq (show ((tabV).view.loc (V d (cV L) (jV L)) ↦{Transfers.shareTok fullShare 2 (Fin.cast nSC_eq (cV L))} m (tabLoc d) : sProp 𝕄)
      = tabTokPts m d (cV L) from rfl)) $$ Htab'
  ihave Hl1 := (lead1_lead (F := F) m d L h0) $$ [Htab2 Hdrop]
  · isplitl [Htab2]; · iexact Htab2
    iexact Hdrop
  -- the read share of the shared copy: six tokens for the slots, the rest passes through
  ihave Hsh' := (Entails.of_eq (shTok_respell (F := F) m d L)) $$ Hsh
  ihave Hsp := (Transfers.pointsTo_toks_range (shQ L) 6).1 $$ Hsh'
  icases Hsp with ⟨Hshrest, Htk⟩
  ihave Htk' := (Entails.of_eq (bigSep_range6 (F := F) _)) $$ Htk
  icases Htk' with ⟨Hk0, Hk1, Hk2, Hk3, Hk4, Hk5⟩
  -- the index buffer's windows, the row buffer's slots
  ihave Hw' := (Entails.of_eq (iv_split (F := F) d L (IVf m d L))) $$ Hiv2
  icases Hw' with ⟨Hw0, Hw1, Hwr⟩
  ihave Hsl' := (Entails.of_eq (rv_split (F := F) d L frv)) $$ Hrv'
  icases Hsl' with ⟨Hsl0, Hsl1, Hsl2, Hsl3, Hsl4, Hsl5⟩
  have hpre' : ∀ (d : Dev nD) p, (IW m d p).toNat < 1002 := hpre
  have hin0 : ∀ (x : (Rect.unit (s := S6400) ![0] S128.size inb_S6400_S128_0).shape.Idx),
      (((Memref.whole cc0_scratch0 : Memref sig .scVector .vmem S6400 .i32).slice (Rect.unit (s := S6400) ![0] S128.size inb_S6400_S128_0) (fun _ => rfl)).view.read (Elt F) (IVf m d L) x).toNat < 1002 :=
    fun x => win_inRange m d L hpre' 0 c0lt x
  have hin1 : ∀ (x : (Rect.unit (s := S6400) ![128] S128.size inb_S6400_S128_128).shape.Idx),
      (((Memref.whole cc0_scratch0 : Memref sig .scVector .vmem S6400 .i32).slice (Rect.unit (s := S6400) ![128] S128.size inb_S6400_S128_128) (fun _ => rfl)).view.read (Elt F) (IVf m d L) x).toNat < 1002 :=
    fun x => win_inRange m d L hpre' 1 c1lt x
  sl_exec
  sl_step
  -- the two gathers in flight deliver the chunks' rows
  ihave Hg0 := (gFlight_intro (F := F) m d L 0 c0lt 0 b0lt frv (part1_lead.sl.gather0 m d L hin0) (gather_rows m d L 0 c0lt rfl hin0) 524288 rfl ⟨0, d0lt⟩ rfl) $$ Hs0
  ihave Hg1 := (gFlight_intro (F := F) m d L 1 c1lt 1 b1lt frv (part1_lead.sl.gather1 m d L hin1) (gather_rows m d L 1 c1lt rfl hin1) 524288 rfl ⟨1, d1lt⟩ rfl) $$ Hs1
  -- the part of the flat result in its fifty chunks
  ihave Hch := (Entails.of_eq (out_split (F := F) d L (m (outLoc d)))) $$ Hout
  icases Hch with ⟨Hc0, Hc1, Hcr⟩
  ihave Hfr := (fresh_family (F := F) m d L _) $$ [Hwr Hcr]
  · isplitl [Hwr]; · iexact Hwr
    iexact Hcr
  iapply (Entails.of_eq (Mid_unfold (F := F) m d L _ O W).symm)
  isplitr; · iexact Hlv
  isplitl [Hg0 Hg1 Hc0 Hc1 Hs6 Hs7 Hfr Hsl2 Hsl3 Hsl4 Hsl5 Hs2 Hs3 Hs4 Hs5 Hs8 Hs9 Hs10 Hs11 Hk2 Hk3 Hk4 Hk5]
  · iapply (ring0_intro (F := F) m d L)
    isplitl [Hg0 Hg1 Hc0 Hc1 Hs6 Hs7 Hfr]
    · isplitl [Hg0 Hc0 Hs6]
      · iapply (Entails.of_eq (gathering_unfold (F := F) m d L 0 c0lt 0 b0lt).symm)
        isplitl [Hg0]; · iexact Hg0
        isplitl [Hc0]; · iexact Hc0
        iexact Hs6
      isplitl [Hg1 Hc1 Hs7]
      · iapply (Entails.of_eq (gathering_unfold (F := F) m d L 1 c1lt 1 b1lt).symm)
        isplitl [Hg1]; · iexact Hg1
        isplitl [Hc1]; · iexact Hc1
        iexact Hs7
      iexact Hfr
    · isplitl [Hsl2 Hs2 Hs8 Hk2]
      · iapply (Entails.of_eq (freeSlot_unfold (F := F) m d L ⟨2, b2lt⟩).symm)
        isplitl [Hsl2]; · iexists _; iexact Hsl2
        isplitl [Hs2]; · iexact Hs2
        isplitl [Hs8]; · iexact Hs8
        iexact Hk2
      isplitl [Hsl3 Hs3 Hs9 Hk3]
      · iapply (Entails.of_eq (freeSlot_unfold (F := F) m d L ⟨3, b3lt⟩).symm)
        isplitl [Hsl3]; · iexists _; iexact Hsl3
        isplitl [Hs3]; · iexact Hs3
        isplitl [Hs9]; · iexact Hs9
        iexact Hk3
      isplitl [Hsl4 Hs4 Hs10 Hk4]
      · iapply (Entails.of_eq (freeSlot_unfold (F := F) m d L ⟨4, b4lt⟩).symm)
        isplitl [Hsl4]; · iexists _; iexact Hsl4
        isplitl [Hs4]; · iexact Hs4
        isplitl [Hs10]; · iexact Hs10
        iexact Hk4
      iapply (Entails.of_eq (freeSlot_unfold (F := F) m d L ⟨5, b5lt⟩).symm)
      isplitl [Hsl5]; · iexists _; iexact Hsl5
      isplitl [Hs5]; · iexact Hs5
      isplitl [Hs11]; · iexact Hs11
      iexact Hk5
  isplitl [Hiw' Hl1 Hshrest Hs12 Hs13 Hbufs]
  · iapply (Entails.of_eq (Carry_unfold (F := F) m d L).symm)
    isplitl [Hiw']; · iapply (Entails.of_eq (pts_iwRowM (F := F) d L fullShare _)); iexact Hiw'
    isplitl [Hl1]; · iexact Hl1
    isplitl [Hshrest]; · iexact Hshrest
    isplitl [Hs12]; · iexact Hs12
    isplitl [Hs13]; · iexact Hs13
    iexact Hbufs
  iexists _; isplitr
  swap; · iexact HO
  ipureintro
  intro p hp
  rcases Finset.mem_insert.mp hp with hp | hp; · exact .inr (.inr (hp ▸ rfl))
  rcases Finset.mem_insert.mp hp with hp | hp; · exact .inr (.inl (hp ▸ rfl))
  first
    | exact .inl hp
    | (rcases Finset.mem_insert.mp hp with hp | hp; · exact .inr (.inl (hp ▸ rfl))
       exact .inl hp)

end Part1

open Part1 in
/-- The first part of a tile's program leaves the ring before the first trip. -/
theorem part1_proof (hF : (K (F := F)).Facts) (hpre : IdxOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goRes m d (cV L) (jL L)
        ∗ scopedBufs (thrL d L) ∗ scopedSems0 (thrL d L) ∗ owes (thrL d L) (O + oxV d (cV L)) W)
      ⊢ wp frame (wpE (defs₀ (F := F)) 𝒱₀ (thrL d L) none) Set.univ
          (k0_part1 L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1)
          fun _ => Mid m d L (Ring m d L 0) O W := by
  by_cases h0 : (L 1).val = 0
  · exact part1_lead m d L hF hpre h0 O W hO hOlev
  · exact part1_other m d L hF hpre h0 O W hO hOlev

end Cert.Proof.KI

end
-- ==== Proof.KILoopA.lean ====
/-
  One trip of a tile's loop, and the loop.
-/
import proofs.«203285_g23708219474275_cont_8to1_227_19_alg».proof.Proof.KICtx
import proofs.«203285_g23708219474275_cont_8to1_227_19_alg».proof.Proof.KIIdx
import proofs.«203285_g23708219474275_cont_8to1_227_19_alg».proof.Proof.KISems
import proofs.«203285_g23708219474275_cont_8to1_227_19_alg».proof.Proof.KIGeom
import proofs.«203285_g23708219474275_cont_8to1_227_19_alg».proof.Proof.KIRows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iwV" => (Memref.whole Cert.KernelIdeal.main_v1_scv : Memref Cert.KernelIdeal.sig Kind.scVector Space.hbm Cert.KernelIdeal.S32x6400 EltTy.i32)
local notation "tabV" => (Memref.whole Cert.KernelIdeal.main_arg1_scv : Memref Cert.KernelIdeal.sig Kind.scVector Space.hbm Cert.KernelIdeal.S1002x128 EltTy.f32)
local notation "outV" => (Memref.whole Cert.KernelIdeal.main_v2_scv : Memref Cert.KernelIdeal.sig Kind.scVector Space.hbm Cert.KernelIdeal.S204800x128 EltTy.f32)
local notation "shV" => (Memref.whole Cert.KernelIdeal.cc0_scratch2 : Memref Cert.KernelIdeal.sig Kind.scVector Space.shared Cert.KernelIdeal.S1002x128 EltTy.f32)
local notation "ivV" => (Memref.whole Cert.KernelIdeal.cc0_scratch0 : Memref Cert.KernelIdeal.sig Kind.scVector Space.vmem Cert.KernelIdeal.S6400 EltTy.i32)
local notation "rvV" => (Memref.whole Cert.KernelIdeal.cc0_scratch1 : Memref Cert.KernelIdeal.sig Kind.scVector Space.vmem Cert.KernelIdeal.S6x128x128 EltTy.f32)

variable [FloatOps F]

section Loop

variable (d : Dev nD) (L : grid0.Coords)

omit [FloatOps F] in
/-- Three members of a family over the fifty chunks taken out. -/
theorem split3 (Φ : Fin 50 → sProp 𝕄) (a b c : Fin 50) (hab : a ≠ b) (hac : a ≠ c) (hbc : b ≠ c) :
    bigSep Finset.univ Φ = iprop(Φ a ∗ Φ b ∗ Φ c ∗ bigSep (((Finset.univ.erase a).erase b).erase c) Φ) := by
  rw [SparseCore.bigSep_erase' (Finset.mem_univ a), SparseCore.bigSep_erase' (Finset.mem_erase.mpr ⟨hab.symm, Finset.mem_univ b⟩),
    SparseCore.bigSep_erase' (Finset.mem_erase.mpr ⟨hbc.symm, Finset.mem_erase.mpr ⟨hac.symm, Finset.mem_univ c⟩⟩)]
omit [FloatOps F] in
theorem split2 (Φ : Fin 50 → sProp 𝕄) (a b : Fin 50) (hab : a ≠ b) :
    bigSep Finset.univ Φ = iprop(Φ a ∗ Φ b ∗ bigSep ((Finset.univ.erase a).erase b) Φ) := by
  rw [SparseCore.bigSep_erase' (Finset.mem_univ a), SparseCore.bigSep_erase' (Finset.mem_erase.mpr ⟨hab.symm, Finset.mem_univ b⟩)]
omit [FloatOps F] in
theorem split1 (Φ : Fin 50 → sProp 𝕄) (a : Fin 50) :
    bigSep Finset.univ Φ = iprop(Φ a ∗ bigSep (Finset.univ.erase a) Φ) := SparseCore.bigSep_erase' (Finset.mem_univ a)

/-- A chunk other than k - 4, k and k + 2 is in the same state before trips k and k + 1 (while the gathers still run ahead). -/
theorem phase_succ (k : ℕ) (hk : k + 2 < 50) (j : Fin 50) (h1 : j.val ≠ k + 2) (h2 : j.val ≠ k) (h3 : j.val + 4 ≠ k) :
    phase m d L (k + 1) j = phase m d L k j := by
  unfold phase
  have e1 : (k + 1 + 2 ≤ j.val) ↔ (k + 2 ≤ j.val) := by omega
  have e2 : (k + 1 ≤ j.val) ↔ (k ≤ j.val) := by omega
  have e3 : (min (k + 1) 48 ≤ j.val + 4) ↔ (min k 48 ≤ j.val + 4) := by omega
  simp only [e1, e2, e3]
/-- The same in the last two trips, where no gather starts. -/
theorem phase_succ' (k : ℕ) (hk : 48 ≤ k) (j : Fin 50) (h2 : j.val ≠ k) :
    phase m d L (k + 1) j = phase m d L k j := by
  unfold phase
  have hj := j.isLt
  have e1 : (k + 1 + 2 ≤ j.val) ↔ (k + 2 ≤ j.val) := by omega
  have e2 : (k + 1 ≤ j.val) ↔ (k ≤ j.val) := by omega
  have e3 : (min (k + 1) 48 ≤ j.val + 4) ↔ (min k 48 ≤ j.val + 4) := by omega
  simp only [e1, e2, e3]

omit [FloatOps F] in
theorem mslice_off8 (M : Memref sig .scVector .vmem S6x128x128 .f32) (k : Fin k0_t1_loop.trips) (hs) :
    M.slice (Rect.unit (s := S6x128x128) (k0_off8 k) S1x128x128.size (k0_off8_inb k)) hs = M.slice (slotR (k.val % 6) (mod6 _)) (fun _ => rfl) :=
  Memref.slice_unit_congr M (k0_off8_eq k) _ _ _ _
omit [FloatOps F] in
theorem mslice_off5 (M : Memref sig .scVector .vmem S6x128x128 .f32) (k : Fin k0_t1_loop.trips) (h2 : k0_cond2 k = 1#1) (hs) :
    M.slice (Rect.unit (s := S6x128x128) (k0_off5 k) S1x128x128.size (k0_off5_inb k h2)) hs = M.slice (slotR ((k.val + 2) % 6) (mod6 _)) (fun _ => rfl) :=
  Memref.slice_unit_congr M (k0_off5_eq k) _ _ _ _
omit [FloatOps F] in
theorem mslice_off2 (M : Memref sig .scVector .vmem S6x128x128 .f32) (k : Fin k0_t1_loop.trips) (h2 : k0_cond2 k = 1#1) (h3 : k0_cond3 k = 1#1) (hs) :
    M.slice (Rect.unit (s := S6x128x128) (k0_off2 k) S1x128x128.size (k0_off2_inb k h2 h3)) hs = M.slice (slotR ((k.val + 2) % 6) (mod6 _)) (fun _ => rfl) :=
  Memref.slice_unit_congr M (k0_off2_eq k) _ _ _ _
omit [FloatOps F] in
theorem mslice_off9 (M : Memref sig .scVector .vmem S6400 .i32) (k : Fin k0_t1_loop.trips) (hs) :
    M.slice (Rect.unit (s := S6400) (k0_off9 k) S128.size (k0_off9_inb k)) hs = M.slice (winR k.val (trip_lt k)) (fun _ => rfl) :=
  Memref.slice_unit_congr M (k0_off9_eq k) _ _ _ _
omit [FloatOps F] in
theorem mslice_off6 (M : Memref sig .scVector .vmem S6400 .i32) (k : Fin k0_t1_loop.trips) (h2 : k0_cond2 k = 1#1) (hs) :
    M.slice (Rect.unit (s := S6400) (k0_off6 k) S128.size (k0_off6_inb k h2)) hs = M.slice (winR (k.val + 2) ((cond2_iff k).mp h2)) (fun _ => rfl) :=
  Memref.slice_unit_congr M ((k0_off6_eq k).trans (by rw [show 128 * k.val + 256 = 128 * (k.val + 2) by omega])) _ _ _ _
omit [FloatOps F] in
theorem mslice_off11 (M : Memref sig .scVector .hbm S204800x128 .f32) (L : grid0.Coords) (k : Fin k0_t1_loop.trips) (hs) :
    M.slice (Rect.unit (s := S204800x128) (k0_off11 L k) S128x128.size (k0_off11_inb L k)) hs = M.slice (chunkR L k.val (trip_lt k)) (fun _ => rfl) :=
  Memref.slice_unit_congr M (k0_off11_eq L k) _ _ _ _
omit [FloatOps F] in
theorem mslice_off3 (M : Memref sig .scVector .hbm S204800x128 .f32) (L : grid0.Coords) (k : Fin k0_t1_loop.trips) (h2 : k0_cond2 k = 1#1) (h3 : k0_cond3 k = 1#1) (hs) :
    M.slice (Rect.unit (s := S204800x128) (k0_off3 L k) S128x128.size (k0_off3_inb L k h2 h3)) hs
      = M.slice (chunkR L (k.val - 4) (Nat.lt_of_le_of_lt (Nat.sub_le _ _) (trip_lt k))) (fun _ => rfl) :=
  Memref.slice_unit_congr M (k0_off3_eq' L k ((cond3_iff k).mp h3)) _ _ _ _

omit [FloatOps F] in
/-- A buffer written whole through a view reads, through that view, what was written. -/
theorem read_writes_whole {κ : Kind} {sp : Space} {s : Shape} {e : EltTy} (v : View sig κ sp s e) (f : v.ty.Contents (Elt F)) (P : s.Idx → Elt F e) :
    v.read (Elt F) (v.writes (Elt F) f [⟨Rect.whole s, P⟩]) = P := by
  funext x
  have h := View.read_writes_cons_emb (Val := Elt F) v f (Rect.whole s) P [] x
  rwa [Rect.emb_whole_apply] at h

theorem finished_intro (j : ℕ) (hj : j < 50) (fo : Buf (Elt F) ((chunkM L j hj).view.loc (thrL d L)))
    (h : (chunkM L j hj).view.read (Elt F) fo = rowsOf m d L j hj) :
    iprop(chunkPts d L j hj fo ∗ winPts m d L j hj) ⊢ finished m d L j hj := by
  unfold finished chunkDone
  iintro ⟨Hc, Hw⟩
  isplitl [Hc]
  · iexists fo; isplitr
    · ipureintro; exact h
    · iexact Hc
  · iexact Hw

theorem storing_intro (j : ℕ) (hj : j < 50) (b : ℕ) (hb : b < 6) (fo : Buf (Elt F) ((chunkM L j hj).view.loc (thrL d L)))
    (fd : Buf (Elt F) ((slotM b hb).view.loc (thrL d L))) (h : (chunkM L j hj).view.read (Elt F) fo = rowsOf m d L j hj) :
    iprop(Transfers.Flight countersEmb (thrL d L) (SemLoc.dma (sSem b hb)) (default : HIx 1) (chunkM L j hj).view.dmaCredit
          iprop(chunkPts d L j hj fo ∗ slotPts d L b hb fd)
        ∗ winPts m d L j hj ∗ gSemPts d L b hb ∗ shPts m d L b) ⊢ storing m d L j hj b hb := by
  unfold storing sFlight
  iintro ⟨Hf, Hw, Hg, Hs⟩
  isplitl [Hf]
  · iexists fo, fd; isplitr
    · ipureintro; exact h
    · iexact Hf
  isplitl [Hw]; · iexact Hw
  isplitl [Hg]; · iexact Hg
  iexact Hs

theorem gathering_intro (j : ℕ) (hj : j < 50) (b : ℕ) (hb : b < 6) (fd : Buf (Elt F) ((slotM b hb).view.loc (thrL d L)))
    (h : (slotM b hb).view.read (Elt F) fd = rowsOf m d L j hj) :
    iprop(Transfers.Flight countersEmb (thrL d L) (SemLoc.dma (gSem b hb)) (default : HIx 1) (slotM b hb).view.dmaCredit
          iprop((slotPts d L b hb fd ∗ winPts m d L j hj) ∗ shPts m d L b)
        ∗ chunkPts d L j hj (m (outLoc d)) ∗ sSemPts d L b hb) ⊢ gathering m d L j hj b hb := by
  unfold gathering gFlight
  iintro ⟨Hf, Hc, Hs⟩
  isplitl [Hf]
  · iexists fd; isplitr
    · ipureintro; exact h
    · iexact Hf
  isplitl [Hc]; · iexact Hc
  iexact Hs

/-- The loop's invariant: the levels, the ring before trip `k`, and what the tile owes with the waits recorded so far. -/
def LInv (O : CellTallies nD τ sig (HIx 1)) (W : Waits sig (HIx 1)) (k : ℕ) (_ : Unit) : sProp 𝕄 :=
  iprop(levAts (K (F := F)).L (K (F := F)).lev ∗ Ring m d L k
    ∗ ∃ W', ⌜∀ p ∈ W', p ∈ W ∨ p.2 = none ∨ p.2 = some (0 : Fin 1)⌝ ∗ owes (thrL d L) O W')

/-- The offsets a gather reads are in range, whichever window of the index buffer they come from. -/
theorem hin_win (hpre : IdxOK m) (j : ℕ) (hj : j < 50) :
    ∀ x, ((winM j hj).view.read (Elt F) (IVf m d L) x).toNat < 1002 := by
  intro x
  rw [show (winM j hj).view.read (Elt F) (IVf m d L) x = IVf m d L ((winM j hj).view.emb x) from (View.read_apply _ _).trans (cast_eq _ _)]
  exact hpre d _

theorem phase_fresh (k : ℕ) (j : Fin 50) (h : k + 2 ≤ j.val) : phase m d L k j = fresh m d L j.val j.isLt := by
  unfold phase; rw [if_pos h]
theorem phase_gathering (k : ℕ) (j : Fin 50) (h1 : ¬ k + 2 ≤ j.val) (h2 : k ≤ j.val) :
    phase m d L k j = gathering m d L j.val j.isLt (j.val % 6) (mod6 j.val) := by
  unfold phase; rw [if_neg h1, if_pos h2]
theorem phase_storing (k : ℕ) (j : Fin 50) (h2 : ¬ k ≤ j.val) (h3 : min k 48 ≤ j.val + 4) :
    phase m d L k j = storing m d L j.val j.isLt (j.val % 6) (mod6 j.val) := by
  unfold phase; rw [if_neg (by omega), if_neg h2, if_pos h3]
theorem phase_finished (k : ℕ) (j : Fin 50) (h3 : ¬ min k 48 ≤ j.val + 4) :
    phase m d L k j = finished m d L j.val j.isLt := by
  unfold phase; rw [if_neg (by omega), if_neg (by omega), if_neg h3]

set_option maxHeartbeats 4000000 in
/-- A trip in the steady state (4 ≤ k ≤ 47): the copy-out of chunk k - 4 is waited for, the gather of chunk k + 2 starts in
    its slot, the gather of chunk k is waited for, its copy-out starts. -/
theorem region_mid (hpre : IdxOK m) (O : CellTallies nD τ sig (HIx 1)) (W : Waits sig (HIx 1)) (hO : ∀ g, O g none = 0) (v5 c0 c50 : BitVec 32)
    (k : Fin k0_t1_loop.trips) (h2 : k.val + 2 < 50) (h3 : 4 ≤ k.val) :
    LInv m d L O W k.val ()
      ⊢ wp frame (wpE (defs₀ (F := F)) 𝒱₀ (thrL d L) none) Set.univ
          (k0_t1_body L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1 v5 c0 c50 k ())
          (LInv m d L O W (k.val + 1)) := by
  have k0_h2 : k0_cond2 k = 1#1 := (cond2_iff k).mpr h2
  have k0_h3 : k0_cond3 k = 1#1 := (cond3_iff k).mpr h3
  have hk50 : k.val < 50 := trip_lt k
  unfold k0_t1_body
  simp only [k0_h2, k0_h3, ↓reduceDIte, mslice_off8 _ k, mslice_off9 _ k, mslice_off11 _ L k, sem_off10 _ k, mslice_off5 _ k k0_h2, mslice_off6 _ k k0_h2,
    sem_off7 _ k k0_h2, mslice_off2 _ k k0_h2 k0_h3, mslice_off3 _ L k k0_h2 k0_h3, sem_off4 _ k k0_h2 k0_h3]
  unfold LInv Ring
  -- the three chunks this trip touches: k - 4 (its copy-out ends), k (its gather ends, its copy-out starts), k + 2 (its gather starts)
  rw [split3 (F := F) (phase m d L k.val) ⟨k.val - 4, by omega⟩ ⟨k.val, hk50⟩ ⟨k.val + 2, h2⟩
      (by intro e; have := congrArg Fin.val e; simp at this; omega) (by intro e; have := congrArg Fin.val e; simp at this; omega)
      (by intro e; have := congrArg Fin.val e; simp at this),
    phase_storing m d L k.val ⟨k.val - 4, by omega⟩ (by show ¬ k.val ≤ k.val - 4; omega) (by show min k.val 48 ≤ k.val - 4 + 4; omega),
    phase_gathering m d L k.val ⟨k.val, hk50⟩ (by show ¬ k.val + 2 ≤ k.val; omega) (le_refl _),
    phase_fresh m d L k.val ⟨k.val + 2, h2⟩ (le_refl _),
    storing_slot m d L (k.val - 4) (by omega) ((k.val - 4) % 6) ((k.val + 2) % 6) (mod6 _) (mod6 _) (by omega)]
  unfold storing sFlight gathering gFlight fresh
  iintro ⟨#Hlv, ⟨⟨⟨⟨%foA, %fdA, %hfoA, HflA⟩, HwinA, HgsA, HshA⟩, ⟨⟨%fdB, %hfdB, HflB⟩, HchB, HssB⟩, ⟨HwinC, HchC⟩, Hrest⟩, Hfree⟩, %W', %hW', HO⟩
  ihave Hmw := (show levAts (K (F := F)).L (K (F := F)).lev ⊢ Transfers.MayWaits (thrL d L) (default : HIx 1) O from
    (K (F := F)).mayWaits_none (thr := thrL d L) hO) $$ Hlv
  have hin := hin_win m d L hpre
  sl_exec (disch := exact View.amount_pos _ _ (show 0 < S128x128.numel by decide))
  icases HflB_dst with ⟨HslB, HwinB⟩
  sl_exec (disch := exact View.amount_pos _ _ (show 0 < S128x128.numel by decide))
  sl_step
  -- what the two new flights will deliver
  have hgat : (slotM ((k.val + 2) % 6) (mod6 _)).view.read (Elt F)
      ((slotM ((k.val + 2) % 6) (mod6 _)).view.writes (Elt F) fdA [⟨Rect.whole S128x128, region_mid.sl.gather0 m d L k k0_h2 hin⟩]) = rowsOf m d L (k.val + 2) h2 :=
    (read_writes_whole _ _ _).trans (gather_rows m d L (k.val + 2) h2 rfl (hin _ _))
  have hsto : (chunkM L k.val hk50).view.read (Elt F)
      ((chunkM L k.val hk50).view.writes (Elt F) (m (outLoc d)) [⟨Rect.whole S128x128, region_mid.sl.dma0 d L k hk50 fdB⟩]) = rowsOf m d L k.val hk50 :=
    (read_writes_whole _ _ _).trans hfdB
  -- the chunks' states before trip k + 1
  have hrest_eq : (bigSep (((Finset.univ.erase (⟨k.val - 4, by omega⟩ : Fin 50)).erase ⟨k.val, hk50⟩).erase ⟨k.val + 2, h2⟩) (phase m d L (k.val + 1)) : sProp 𝕄)
      = bigSep (((Finset.univ.erase (⟨k.val - 4, by omega⟩ : Fin 50)).erase ⟨k.val, hk50⟩).erase ⟨k.val + 2, h2⟩) (phase m d L k.val) :=
    bigSep_congr fun j hj => by
      have h1 := (Finset.mem_erase.mp hj).1
      have hj2 := (Finset.mem_erase.mp hj).2
      have h2' := (Finset.mem_erase.mp hj2).1
      have h3' := (Finset.mem_erase.mp (Finset.mem_erase.mp hj2).2).1
      exact phase_succ m d L k.val h2 j (fun e => h1 (Fin.ext e)) (fun e => h2' (Fin.ext e)) (fun e => h3' (Fin.ext (by show j.val = k.val - 4; omega)))
  have Epost : (bigSep Finset.univ (phase m d L (k.val + 1)) : sProp 𝕄)
      = iprop(finished m d L (k.val - 4) (by omega) ∗ storing m d L k.val hk50 (k.val % 6) (mod6 _)
          ∗ gathering m d L (k.val + 2) h2 ((k.val + 2) % 6) (mod6 _)
          ∗ bigSep (((Finset.univ.erase (⟨k.val - 4, by omega⟩ : Fin 50)).erase ⟨k.val, hk50⟩).erase ⟨k.val + 2, h2⟩) (phase m d L k.val)) := by
    rw [split3 (F := F) (phase m d L (k.val + 1)) ⟨k.val - 4, by omega⟩ ⟨k.val, hk50⟩ ⟨k.val + 2, h2⟩
        (by intro e; have := congrArg Fin.val e; simp at this; omega) (by intro e; have := congrArg Fin.val e; simp at this; omega)
        (by intro e; have := congrArg Fin.val e; simp at this),
      phase_finished m d L (k.val + 1) ⟨k.val - 4, by omega⟩ (by show ¬ min (k.val + 1) 48 ≤ k.val - 4 + 4; omega),
      phase_storing m d L (k.val + 1) ⟨k.val, hk50⟩ (by show ¬ k.val + 1 ≤ k.val; omega) (by show min (k.val + 1) 48 ≤ k.val + 4; omega),
      phase_gathering m d L (k.val + 1) ⟨k.val + 2, h2⟩ (by show ¬ k.val + 1 + 2 ≤ k.val + 2; omega) (by show k.val + 1 ≤ k.val + 2; omega),
      hrest_eq]
  have Efree : (bigSep Finset.univ (fun b : Fin 6 => if k.val + 1 + 2 ≤ b.val then freeSlot m d L b else iprop(emp)) : sProp 𝕄)
      = bigSep Finset.univ fun b : Fin 6 => if k.val + 2 ≤ b.val then freeSlot m d L b else iprop(emp) :=
    bigSep_congr fun b _ => by have := b.isLt; rw [if_neg (by omega), if_neg (by omega)]
  iclear HshA
  isplitr; · iexact Hlv
  isplitr [HO]
  · isplitr [Hfree]
    · iapply (Entails.of_eq Epost.symm)
      isplitl [HflA_dst HwinA]
      · iapply (finished_intro m d L (k.val - 4) _ foA hfoA)
        isplitl [HflA_dst]; · iexact HflA_dst
        iexact HwinA
      isplitl [HssB HwinB HflB HflB_src]
      · iapply (storing_intro m d L k.val hk50 (k.val % 6) (mod6 _) _ fdB hsto)
        isplitl [HssB]; · iexact HssB
        isplitl [HwinB]; · iexact HwinB
        isplitl [HflB]; · iexact HflB
        iexact HflB_src
      isplitl [HgsA HchC HflA]
      · iapply (gathering_intro m d L (k.val + 2) h2 ((k.val + 2) % 6) (mod6 _) _ hgat)
        isplitl [HgsA]; · iexact HgsA
        isplitl [HchC]; · iexact HchC
        iexact HflA
      iexact Hrest
    · iapply (Entails.of_eq Efree.symm); iexact Hfree
  · iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    exact hW' p hp

set_option maxHeartbeats 4000000 in
/-- One of the last two trips (k = 48, 49): no gather starts; the gather of chunk k is waited for and its copy-out starts. -/
theorem region_last (hpre : IdxOK m) (O : CellTallies nD τ sig (HIx 1)) (W : Waits sig (HIx 1)) (hO : ∀ g, O g none = 0) (v5 c0 c50 : BitVec 32)
    (k : Fin k0_t1_loop.trips) (h2 : ¬ k.val + 2 < 50) :
    LInv m d L O W k.val ()
      ⊢ wp frame (wpE (defs₀ (F := F)) 𝒱₀ (thrL d L) none) Set.univ
          (k0_t1_body L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1 v5 c0 c50 k ())
          (LInv m d L O W (k.val + 1)) := by
  have k0_h2 : ¬ k0_cond2 k = 1#1 := fun h => h2 ((cond2_iff k).mp h)
  have hk50 : k.val < 50 := trip_lt k
  unfold k0_t1_body
  simp only [k0_h2, ↓reduceDIte, mslice_off8 _ k, mslice_off11 _ L k, sem_off10 _ k]
  unfold LInv Ring
  rw [split1 (F := F) (phase m d L k.val) ⟨k.val, hk50⟩,
    phase_gathering m d L k.val ⟨k.val, hk50⟩ (by show ¬ k.val + 2 ≤ k.val; omega) (le_refl _)]
  unfold gathering gFlight
  iintro ⟨#Hlv, ⟨⟨⟨⟨%fdB, %hfdB, HflB⟩, HchB, HssB⟩, Hrest⟩, Hfree⟩, %W', %hW', HO⟩
  ihave Hmw := (show levAts (K (F := F)).L (K (F := F)).lev ⊢ Transfers.MayWaits (thrL d L) (default : HIx 1) O from
    (K (F := F)).mayWaits_none (thr := thrL d L) hO) $$ Hlv
  sl_exec (disch := exact View.amount_pos _ _ (show 0 < S128x128.numel by decide))
  icases HflB_dst with ⟨HslB, HwinB⟩
  sl_exec (disch := exact View.amount_pos _ _ (show 0 < S128x128.numel by decide))
  sl_step
  have hsto : (chunkM L k.val hk50).view.read (Elt F)
      ((chunkM L k.val hk50).view.writes (Elt F) (m (outLoc d)) [⟨Rect.whole S128x128, region_last.sl.dma0 d L k hk50 fdB⟩]) = rowsOf m d L k.val hk50 :=
    (read_writes_whole _ _ _).trans hfdB
  have hrest_eq : (bigSep (Finset.univ.erase (⟨k.val, hk50⟩ : Fin 50)) (phase m d L (k.val + 1)) : sProp 𝕄)
      = bigSep (Finset.univ.erase (⟨k.val, hk50⟩ : Fin 50)) (phase m d L k.val) :=
    bigSep_congr fun j hj => phase_succ' m d L k.val (by omega) j (fun e => (Finset.mem_erase.mp hj).1 (Fin.ext e))
  have Epost : (bigSep Finset.univ (phase m d L (k.val + 1)) : sProp 𝕄)
      = iprop(storing m d L k.val hk50 (k.val % 6) (mod6 _) ∗ bigSep (Finset.univ.erase (⟨k.val, hk50⟩ : Fin 50)) (phase m d L k.val)) := by
    rw [split1 (F := F) (phase m d L (k.val + 1)) ⟨k.val, hk50⟩,
      phase_storing m d L (k.val + 1) ⟨k.val, hk50⟩ (by show ¬ k.val + 1 ≤ k.val; omega) (by show min (k.val + 1) 48 ≤ k.val + 4; omega),
      hrest_eq]
  have Efree : (bigSep Finset.univ (fun b : Fin 6 => if k.val + 1 + 2 ≤ b.val then freeSlot m d L b else iprop(emp)) : sProp 𝕄)
      = bigSep Finset.univ fun b : Fin 6 => if k.val + 2 ≤ b.val then freeSlot m d L b else iprop(emp) :=
    bigSep_congr fun b _ => by have := b.isLt; rw [if_neg (by omega), if_neg (by omega)]
  isplitr; · iexact Hlv
  isplitr [HO]
  · isplitr [Hfree]
    · iapply (Entails.of_eq Epost.symm)
      isplitl [HssB HwinB HflB HflB_src]
      · iapply (storing_intro m d L k.val hk50 (k.val % 6) (mod6 _) _ fdB hsto)
        isplitl [HssB]; · iexact HssB
        isplitl [HwinB]; · iexact HwinB
        isplitl [HflB]; · iexact HflB
        iexact HflB_src
      iexact Hrest
    · iapply (Entails.of_eq Efree.symm); iexact Hfree
  · iexists _; isplitr
    swap; · iexact HO
    ipureintro; intro p hp
    rcases Finset.mem_insert.mp hp with hp | hp; · exact .inr (.inl (hp ▸ rfl))
    exact hW' p hp

/-- A free slot, named at an equal slot number. -/
theorem freeSlot_eq (b : Fin 6) (b' : ℕ) (hb' : b' < 6) (e : b.val = b') :
    freeSlot m d L b = iprop((∃ f, slotPts d L b' hb' f) ∗ gSemPts d L b' hb' ∗ sSemPts d L b' hb' ∗ shPts m d L b') := by
  obtain ⟨bv, hbv⟩ := b
  have e' : bv = b' := e
  subst e'
  rfl

omit [FloatOps F] in
theorem splitSlot (Φ : Fin 6 → sProp 𝕄) (a : Fin 6) :
    bigSep Finset.univ Φ = iprop(Φ a ∗ bigSep (Finset.univ.erase a) Φ) := SparseCore.bigSep_erase' (Finset.mem_univ a)

set_option maxHeartbeats 4000000 in
/-- One of the first four trips (k < 4): nothing is waited for before the gather of chunk k + 2 starts in a slot not used
    yet; the gather of chunk k is waited for and its copy-out starts. -/
theorem region_low (hpre : IdxOK m) (O : CellTallies nD τ sig (HIx 1)) (W : Waits sig (HIx 1)) (hO : ∀ g, O g none = 0) (v5 c0 c50 : BitVec 32)
    (k : Fin k0_t1_loop.trips) (h3 : ¬ 4 ≤ k.val) :
    LInv m d L O W k.val ()
      ⊢ wp frame (wpE (defs₀ (F := F)) 𝒱₀ (thrL d L) none) Set.univ
          (k0_t1_body L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1 v5 c0 c50 k ())
          (LInv m d L O W (k.val + 1)) := by
  have h2 : k.val + 2 < 50 := by omega
  have hb6 : k.val + 2 < 6 := by omega
  have hmod : (k.val + 2) % 6 = k.val + 2 := Nat.mod_eq_of_lt hb6
  have k0_h2 : k0_cond2 k = 1#1 := (cond2_iff k).mpr h2
  have k0_h3 : ¬ k0_cond3 k = 1#1 := fun h => h3 ((cond3_iff k).mp h)
  have hk50 : k.val < 50 := trip_lt k
  unfold k0_t1_body
  simp only [k0_h2, k0_h3, ↓reduceDIte, mslice_off8 _ k, mslice_off9 _ k, mslice_off11 _ L k, sem_off10 _ k, mslice_off5 _ k k0_h2, mslice_off6 _ k k0_h2,
    sem_off7 _ k k0_h2]
  unfold LInv Ring
  rw [split2 (F := F) (phase m d L k.val) ⟨k.val, hk50⟩ ⟨k.val + 2, h2⟩ (by intro e; have := congrArg Fin.val e; simp at this),
    phase_gathering m d L k.val ⟨k.val, hk50⟩ (by show ¬ k.val + 2 ≤ k.val; omega) (le_refl _),
    phase_fresh m d L k.val ⟨k.val + 2, h2⟩ (le_refl _),
    splitSlot (F := F) (fun b : Fin 6 => if k.val + 2 ≤ b.val then freeSlot m d L b else iprop(emp)) ⟨k.val + 2, hb6⟩,
    if_pos (le_refl (k.val + 2)),
    freeSlot_eq m d L ⟨k.val + 2, hb6⟩ ((k.val + 2) % 6) (mod6 _) hmod.symm]
  unfold gathering gFlight fresh
  iintro ⟨#Hlv, ⟨⟨⟨⟨%fdB, %hfdB, HflB⟩, HchB, HssB⟩, ⟨HwinC, HchC⟩, Hrest⟩, ⟨⟨⟨%fdA, HslA⟩, HgsA, HflA, HshA⟩, Hfree⟩⟩, %W', %hW', HO⟩
  ihave Hmw := (show levAts (K (F := F)).L (K (F := F)).lev ⊢ Transfers.MayWaits (thrL d L) (default : HIx 1) O from
    (K (F := F)).mayWaits_none (thr := thrL d L) hO) $$ Hlv
  have hin := hin_win m d L hpre
  sl_exec (disch := exact View.amount_pos _ _ (show 0 < S128x128.numel by decide))
  icases HflB_dst with ⟨HslB, HwinB⟩
  sl_exec (disch := exact View.amount_pos _ _ (show 0 < S128x128.numel by decide))
  sl_step
  have hgat : (slotM ((k.val + 2) % 6) (mod6 _)).view.read (Elt F)
      ((slotM ((k.val + 2) % 6) (mod6 _)).view.writes (Elt F) fdA [⟨Rect.whole S128x128, region_low.sl.gather0 m d L k k0_h2 hin⟩]) = rowsOf m d L (k.val + 2) h2 :=
    (read_writes_whole _ _ _).trans (gather_rows m d L (k.val + 2) h2 rfl (hin _ _))
  have hsto : (chunkM L k.val hk50).view.read (Elt F)
      ((chunkM L k.val hk50).view.writes (Elt F) (m (outLoc d)) [⟨Rect.whole S128x128, region_low.sl.dma0 d L k hk50 fdB⟩]) = rowsOf m d L k.val hk50 :=
    (read_writes_whole _ _ _).trans hfdB
  have hrest_eq : (bigSep ((Finset.univ.erase (⟨k.val, hk50⟩ : Fin 50)).erase ⟨k.val + 2, h2⟩) (phase m d L (k.val + 1)) : sProp 𝕄)
      = bigSep ((Finset.univ.erase (⟨k.val, hk50⟩ : Fin 50)).erase ⟨k.val + 2, h2⟩) (phase m d L k.val) :=
    bigSep_congr fun j hj => by
      have h1 := (Finset.mem_erase.mp hj).1
      have h2' := (Finset.mem_erase.mp (Finset.mem_erase.mp hj).2).1
      exact phase_succ m d L k.val h2 j (fun e => h1 (Fin.ext e)) (fun e => h2' (Fin.ext e)) (by omega)
  have Epost : (bigSep Finset.univ (phase m d L (k.val + 1)) : sProp 𝕄)
      = iprop(storing m d L k.val hk50 (k.val % 6) (mod6 _) ∗ gathering m d L (k.val + 2) h2 ((k.val + 2) % 6) (mod6 _)
          ∗ bigSep ((Finset.univ.erase (⟨k.val, hk50⟩ : Fin 50)).erase ⟨k.val + 2, h2⟩) (phase m d L k.val)) := by
    rw [split2 (F := F) (phase m d L (k.val + 1)) ⟨k.val, hk50⟩ ⟨k.val + 2, h2⟩ (by intro e; have := congrArg Fin.val e; simp at this),
      phase_storing m d L (k.val + 1) ⟨k.val, hk50⟩ (by show ¬ k.val + 1 ≤ k.val; omega) (by show min (k.val + 1) 48 ≤ k.val + 4; omega),
      phase_gathering m d L (k.val + 1) ⟨k.val + 2, h2⟩ (by show ¬ k.val + 1 + 2 ≤ k.val + 2; omega) (by show k.val + 1 ≤ k.val + 2; omega),
      hrest_eq]
  have hfree_eq : (bigSep (Finset.univ.erase (⟨k.val + 2, hb6⟩ : Fin 6)) (fun b : Fin 6 => if k.val + 1 + 2 ≤ b.val then freeSlot m d L b else iprop(emp)) : sProp 𝕄)
      = bigSep (Finset.univ.erase (⟨k.val + 2, hb6⟩ : Fin 6)) fun b : Fin 6 => if k.val + 2 ≤ b.val then freeSlot m d L b else iprop(emp) :=
    bigSep_congr fun b hb => by
      have hne : b.val ≠ k.val + 2 := fun e => (Finset.mem_erase.mp hb).1 (Fin.ext e)
      by_cases h : k.val + 2 ≤ b.val
      · rw [if_pos h, if_pos (by omega)]
      · rw [if_neg h, if_neg (by omega)]
  have Efree : (bigSep Finset.univ (fun b : Fin 6 => if k.val + 1 + 2 ≤ b.val then freeSlot m d L b else iprop(emp)) : sProp 𝕄)
      = iprop(emp ∗ bigSep (Finset.univ.erase (⟨k.val + 2, hb6⟩ : Fin 6)) fun b : Fin 6 => if k.val + 2 ≤ b.val then freeSlot m d L b else iprop(emp)) := by
    rw [splitSlot (F := F) (fun b : Fin 6 => if k.val + 1 + 2 ≤ b.val then freeSlot m d L b else iprop(emp)) ⟨k.val + 2, hb6⟩,
      if_neg (by show ¬ k.val + 1 + 2 ≤ k.val + 2; omega), hfree_eq]
  iclear HshA
  isplitr; · iexact Hlv
  isplitr [HO]
  · isplitr [Hfree]
    · iapply (Entails.of_eq Epost.symm)
      isplitl [HssB HwinB HflB HflB_src]
      · iapply (storing_intro m d L k.val hk50 (k.val % 6) (mod6 _) _ fdB hsto)
        isplitl [HssB]; · iexact HssB
        isplitl [HwinB]; · iexact HwinB
        isplitl [HflB]; · iexact HflB
        iexact HflB_src
      isplitl [HgsA HchC HflA]
      · iapply (gathering_intro m d L (k.val + 2) h2 ((k.val + 2) % 6) (mod6 _) _ hgat)
        isplitl [HgsA]; · iexact HgsA
        isplitl [HchC]; · iexact HchC
        iexact HflA
      iexact Hrest
    · iapply (Entails.of_eq Efree.symm)
      isplitr; · iempintro
      iexact Hfree
  · iexists _; isplitr
    swap; · iexact HO
    ipureintro; intro p hp
    rcases Finset.mem_insert.mp hp with hp | hp; · exact .inr (.inl (hp ▸ rfl))
    exact hW' p hp

end Loop

end Cert.Proof.KI

end
-- ==== Proof.KITileEnd.lean ====
/-
  The end of a tile's task: one wait for a copy out, and how the pieces regroup once every chunk is done.

  A wait for the copy out of chunk j from slot b turns the chunk from "storing" to "finished" and frees the slot. When all
  fifty chunks are finished and all six slots are free, the fifty chunks of the result are the tile's part of the flat
  result holding the looked-up rows (row 128 j + r of the part is the table row named by word 128 j + r of the tile's
  run, which is what the flat lookup holds at row 6400 w + 128 j + r); the fifty windows are the index buffer; the six
  slots are the row buffer; the six read tokens and the rest of the tile's read share are the share; and the fourteen
  semaphores are at zero.
-/
import proofs.«203285_g23708219474275_cont_8to1_227_19_alg».proof.Proof.KICtx
import proofs.«203285_g23708219474275_cont_8to1_227_19_alg».proof.Proof.KIParts
import proofs.«203285_g23708219474275_cont_8to1_227_19_alg».proof.Proof.KISems
import proofs.«203285_g23708219474275_cont_8to1_227_19_alg».proof.Proof.KIRows
import Idealize.ShloMosaic.Lib.Ring

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iwV" => (Memref.whole Cert.KernelIdeal.main_v1_scv : Memref Cert.KernelIdeal.sig Kind.scVector Space.hbm Cert.KernelIdeal.S32x6400 EltTy.i32)
local notation "tabV" => (Memref.whole Cert.KernelIdeal.main_arg1_scv : Memref Cert.KernelIdeal.sig Kind.scVector Space.hbm Cert.KernelIdeal.S1002x128 EltTy.f32)
local notation "outV" => (Memref.whole Cert.KernelIdeal.main_v2_scv : Memref Cert.KernelIdeal.sig Kind.scVector Space.hbm Cert.KernelIdeal.S204800x128 EltTy.f32)
local notation "shV" => (Memref.whole Cert.KernelIdeal.cc0_scratch2 : Memref Cert.KernelIdeal.sig Kind.scVector Space.shared Cert.KernelIdeal.S1002x128 EltTy.f32)
local notation "ivV" => (Memref.whole Cert.KernelIdeal.cc0_scratch0 : Memref Cert.KernelIdeal.sig Kind.scVector Space.vmem Cert.KernelIdeal.S6400 EltTy.i32)
local notation "rvV" => (Memref.whole Cert.KernelIdeal.cc0_scratch1 : Memref Cert.KernelIdeal.sig Kind.scVector Space.vmem Cert.KernelIdeal.S6x128x128 EltTy.f32)

variable [FloatOps F]

section End

variable (d : Dev nD) (L : grid0.Coords)

/-! ## One wait -/

/-- The wait for the copy out of chunk `j` from slot `b`: the chunk is finished and the slot free again. The wait names
    the slot's copy-out semaphore and a destination of the chunk's credit; its source is not read. -/
theorem wait_store (j : ℕ) (hj : j < 50) (b : ℕ) (hb : b < 6) (O : CellTallies nD τ sig (HIx 1)) (W : Waits sig (HIx 1))
    {α : Type} (k : PUnit → Prog (TpuEff nD τ sig (Elt F) Λ₀ (thrL d L).2) α) (Q : α → sProp 𝕄)
    (srcw : Memref sig .scVector .vmem S128x128 .f32) (dstw : Memref sig .scVector .hbm S128x128 .f32)
    (hN : dstw.view.dmaCredit = (chunkM L j hj).view.dmaCredit) (hsrc : srcw.view.WordExact) (hdst : dstw.view.WordExact) :
    iprop(Transfers.MayWaits (thrL d L) (default : HIx 1) O ∗ storing m d L j hj b hb ∗ owes (thrL d L) O W)
      ⊢ iprop((iprop(finished m d L j hj ∗ freeSlot m d L ⟨b, hb⟩ ∗ owes (thrL d L) O (insert (SemLoc.dma (sSem b hb), (default : HIx 1)) W))
            -∗ wp frame (wpE (defs₀ (F := F)) 𝒱₀ (thrL d L) none) Set.univ (k ⟨⟩) Q)
          -∗ wp frame (wpE (defs₀ (F := F)) 𝒱₀ (thrL d L) none) Set.univ (.op (.waitDma2 (sSem b hb) srcw dstw hsrc hdst) k) Q) := by
  unfold storing sFlight
  iintro ⟨#Hmw, ⟨⟨%fo, %fd, %hfo, Hfl⟩, Hwin, Hg, Hsh⟩, HO⟩ Hk
  ihave Hmw1 := (Transfers.MayWaits.elim (c := thrL d L) (ι := (default : HIx 1)) (O := O) (SemLoc.dma (sSem b hb))) $$ Hmw
  iapply (Transfers.wp_waitLocalO countersEmb 𝒱₀ (thrL d L) none (default : HIx 1) hN) $$ [Hfl HO Hmw1]
  · isplitl [Hfl]; · iexact Hfl
    isplitl [HO]; · iexact HO
    iexact Hmw1
  iintro ⟨⟨Hch, Hsl⟩, Hs, HO⟩
  iapply Hk
  isplitl [Hch Hwin]
  · unfold finished chunkDone
    isplitl [Hch]
    · iexists fo; isplitr
      · ipureintro; exact hfo
      iexact Hch
    iexact Hwin
  isplitl [Hsl Hg Hs Hsh]
  · unfold freeSlot
    isplitl [Hsl]; · iexists fd; iexact Hsl
    isplitl [Hg]; · iexact Hg
    isplitl [Hs]; · iexact Hs
    iexact Hsh
  iexact HO

/-! ## A finished chunk holds the flat lookup -/

omit [FloatOps F] in
/-- Row `r` of chunk `j` of the tile's part is row 6400 w + 128 j + r of the flat result: what the flat lookup holds
    there is the table row named by word 128 j + r of the tile's run. -/
theorem out_at_chunk (j : ℕ) (hj : j < 50) (y : S128x128.Idx) :
    OUT m d ((chunkM L j hj).view.emb y) = rowsOf m d L j hj y := by
  have e0 := emb_chunkM_0 L j hj y
  have e1 := emb_chunkM_1 L j hj y
  have hy0 : (y 0).val < 128 := (y 0).isLt
  have hL0 : (L 0).val < 2 := (L 0).isLt
  have hL1 : (L 1).val < 16 := (L 1).isLt
  have hw : (wL L).val = 2 * (L 1).val + (L 0).val := rfl
  have key : ∀ (a a' : Fin 32) (p p' : Fin 6400) (c c' : Fin 128), a = a' → p = p' → c = c' →
      m (tabLoc d) (ix2 (Cert.Spec.rowOf (IW m d (ix2 a p))) c) = m (tabLoc d) (ix2 (Cert.Spec.rowOf (IW m d (ix2 a' p'))) c') := by
    rintro _ _ _ _ _ _ rfl rfl rfl; rfl
  unfold OUT rowsOf Cert.Spec.flatLookup
  refine key _ _ _ _ _ _ (Fin.ext ?_) (Fin.ext ?_) (Fin.ext e1)
  · show (((chunkM L j hj).view.emb y : S204800x128.Idx) 0).val / 6400 = (wL L).val
    rw [e0, hw]; omega
  · show (((chunkM L j hj).view.emb y : S204800x128.Idx) 0).val % 6400 = 128 * j + (y 0).val
    rw [e0]; omega

/-- A chunk whose rows are the chunk's table rows is held at the flat lookup. -/
theorem chunk_congr (j : ℕ) (hj : j < 50) (fo : Buf (Elt F) ((chunkM L j hj).view.loc (thrL d L)))
    (hfo : (chunkM L j hj).view.read (Elt F) fo = rowsOf m d L j hj) :
    (chunkPts d L j hj fo : sProp 𝕄) = chunkPts d L j hj (OUT m d) :=
  pointsTo_congr fun x hx => by
    obtain ⟨y, -, rfl⟩ := Finset.mem_map.mp hx
    have h : fo ((chunkM L j hj).view.emb y) = rowsOf m d L j hj y := congrFun hfo y
    exact h.trans (out_at_chunk m d L j hj y).symm

theorem chunkDone_out (j : ℕ) (hj : j < 50) : chunkDone m d L j hj ⊢ chunkPts d L j hj (OUT m d) := by
  unfold chunkDone
  iintro ⟨%fo, %hfo, H⟩
  iapply (Entails.of_eq (chunk_congr m d L j hj fo hfo))
  iexact H

/-- Fifty finished chunks are the tile's part of the flat result, holding the flat lookup. -/
theorem chunks_out :
    (bigSep Finset.univ fun j : Fin 50 => chunkDone m d L j.val j.isLt) ⊢ outPartPts d (wL L) (OUT m d) :=
  (bigSep_mono fun j _ => chunkDone_out m d L j.val j.isLt).trans
    (Entails.of_eq (pts_chunks (F := F) d L fullShare (OUT m d)).symm)

/-! ## The windows, the slots, the read share -/

/-- The fifty windows are the index buffer. -/
theorem wins_whole :
    (bigSep Finset.univ fun j : Fin 50 => winPts m d L j.val j.isLt) ⊢ iprop(∃ f, (thrL d L).loc cc0_scratch0 ↦{fullShare} f) := by
  iintro H
  iexists IVf m d L
  iapply (Entails.of_eq (pts_wins (F := F) d (cV L) (jV L) fullShare (IVf m d L)).symm)
  iexact H

/-- Six slots, each at some contents, are the row buffer at some contents. -/
theorem slots_whole :
    ((bigSep Finset.univ fun b : Fin 6 => iprop(∃ f, slotPts (F := F) d L b.val b.isLt f)) : sProp 𝕄)
      ⊢ iprop(∃ g : Buf (Elt F) ((thrL d L).loc cc0_scratch1), (thrL d L).loc cc0_scratch1 ↦{fullShare} g) :=
  Ring.pointsTo_blocks_join_exists (ℓ := (thrL d L).loc cc0_scratch1) slotSet
    (fun b b' h => slots_disjoint b (Finset.mem_univ _) b' (Finset.mem_univ _) h) slots_cover
    (fun _ => (FloatOps.ofBits .f32 0#32 : F .f32))

/-- The rest of the tile's read share and its six tokens are the read share. -/
theorem sh_whole :
    iprop(((shAllM).view.loc (thrL d L) ↦[(shAllM).view.set]{Transfers.shareDrop (shQ L) 6} TabS m d L)
        ∗ bigSep Finset.univ fun b : Fin 6 => shPts m d L b.val) ⊢ shTokPts m d (cV L) (jL L) := by
  refine (Transfers.pointsTo_toks_join (shQ L) 6).trans ?_
  rw [set_shAllM]
  exact BI.Entails.refl _

/-! ## Six and four at a time -/

/-- The chunks other than the last four. -/
abbrev early : Finset (Fin 50) := (((Finset.univ.erase (46 : Fin 50)).erase 47).erase 48).erase 49

omit [FloatOps F] in
theorem early_lt {j : Fin 50} (hj : j ∈ early) : j.val < 46 := by
  have h49 : j ≠ 49 := Finset.ne_of_mem_erase hj
  have h48 : j ≠ 48 := Finset.ne_of_mem_erase (Finset.mem_of_mem_erase hj)
  have h47 : j ≠ 47 := Finset.ne_of_mem_erase (Finset.mem_of_mem_erase (Finset.mem_of_mem_erase hj))
  have h46 : j ≠ 46 := Finset.ne_of_mem_erase (Finset.mem_of_mem_erase (Finset.mem_of_mem_erase (Finset.mem_of_mem_erase hj)))
  have hlt := j.isLt
  have a49 : j.val ≠ 49 := fun e => h49 (Fin.ext e)
  have a48 : j.val ≠ 48 := fun e => h48 (Fin.ext e)
  have a47 : j.val ≠ 47 := fun e => h47 (Fin.ext e)
  have a46 : j.val ≠ 46 := fun e => h46 (Fin.ext e)
  omega

omit [FloatOps F] in
/-- All fifty, as the last four and the others. -/
theorem bigSep_last4 (Φ : Fin 50 → sProp 𝕄) :
    bigSep Finset.univ Φ = iprop(Φ 46 ∗ Φ 47 ∗ Φ 48 ∗ Φ 49 ∗ bigSep early Φ) := by
  rw [SparseCore.bigSep_erase' (s := Finset.univ) (i := (46 : Fin 50)) (Finset.mem_univ _),
    SparseCore.bigSep_erase' (s := Finset.univ.erase (46 : Fin 50)) (i := (47 : Fin 50)) (by decide),
    SparseCore.bigSep_erase' (s := (Finset.univ.erase (46 : Fin 50)).erase 47) (i := (48 : Fin 50)) (by decide),
    SparseCore.bigSep_erase' (s := ((Finset.univ.erase (46 : Fin 50)).erase 47).erase 48) (i := (49 : Fin 50)) (by decide)]

/-- After the loop and `t ≥ 2` of the waits, every chunk but the last four is finished. -/
theorem early_finished (t : ℕ) (ht : 2 ≤ t) :
    (bigSep early fun j : Fin 50 => tailPhase m d L t j) = bigSep early fun j : Fin 50 => finished m d L j.val j.isLt :=
  bigSep_congr fun j hj => by
    have := early_lt hj
    unfold tailPhase
    rw [if_pos (by omega)]

/-- After two of the waits: chunks 46 … 49 are being copied out of slots 4, 5, 0, 1, the others are finished, and slots 2
    and 3 are free. -/
theorem tail2_eq :
    Tail m d L 2 = iprop((storing m d L 46 (by decide) 4 (by decide) ∗ storing m d L 47 (by decide) 5 (by decide)
        ∗ storing m d L 48 (by decide) 0 (by decide) ∗ storing m d L 49 (by decide) 1 (by decide)
        ∗ bigSep early fun j : Fin 50 => finished m d L j.val j.isLt)
      ∗ (freeSlot m d L 2 ∗ freeSlot m d L 3)) := by
  unfold Tail
  rw [bigSep_last4, early_finished m d L 2 (le_refl _), bigSep_fin6]
  have e46 : tailPhase m d L 2 46 = storing m d L 46 (by decide) 4 (by decide) := if_neg (by decide)
  have e47 : tailPhase m d L 2 47 = storing m d L 47 (by decide) 5 (by decide) := if_neg (by decide)
  have e48 : tailPhase m d L 2 48 = storing m d L 48 (by decide) 0 (by decide) := if_neg (by decide)
  have e49 : tailPhase m d L 2 49 = storing m d L 49 (by decide) 1 (by decide) := if_neg (by decide)
  rw [e46, e47, e48, e49]
  have s0 : (if ((0 : Fin 6).val + 4) % 6 < 2 then freeSlot m d L 0 else iprop(emp)) = (iprop(emp) : sProp 𝕄) := if_neg (by decide)
  have s1 : (if ((1 : Fin 6).val + 4) % 6 < 2 then freeSlot m d L 1 else iprop(emp)) = (iprop(emp) : sProp 𝕄) := if_neg (by decide)
  have s2 : (if ((2 : Fin 6).val + 4) % 6 < 2 then freeSlot m d L 2 else iprop(emp)) = freeSlot m d L 2 := if_pos (by decide)
  have s3 : (if ((3 : Fin 6).val + 4) % 6 < 2 then freeSlot m d L 3 else iprop(emp)) = freeSlot m d L 3 := if_pos (by decide)
  have s4 : (if ((4 : Fin 6).val + 4) % 6 < 2 then freeSlot m d L 4 else iprop(emp)) = (iprop(emp) : sProp 𝕄) := if_neg (by decide)
  have s5 : (if ((5 : Fin 6).val + 4) % 6 < 2 then freeSlot m d L 5 else iprop(emp)) = (iprop(emp) : sProp 𝕄) := if_neg (by decide)
  rw [s0, s1, s2, s3, s4, s5]
  have hs : (iprop(emp ∗ emp ∗ freeSlot m d L 2 ∗ freeSlot m d L 3 ∗ emp ∗ emp) : sProp 𝕄)
      = iprop(freeSlot m d L 2 ∗ freeSlot m d L 3) := by
    refine BI.equiv_iff.mp ⟨?_, ?_⟩
    · show (iprop(emp ∗ emp ∗ freeSlot m d L 2 ∗ freeSlot m d L 3 ∗ emp ∗ emp) : sProp 𝕄) ⊢ iprop(freeSlot m d L 2 ∗ freeSlot m d L 3)
      iintro ⟨-, -, H2, H3, -, -⟩; isplitl [H2]; · iexact H2
      iexact H3
    · show (iprop(freeSlot m d L 2 ∗ freeSlot m d L 3) : sProp 𝕄) ⊢ iprop(emp ∗ emp ∗ freeSlot m d L 2 ∗ freeSlot m d L 3 ∗ emp ∗ emp)
      iintro ⟨H2, H3⟩
      isplitr; · iempintro
      isplitr; · iempintro
      isplitl [H2]; · iexact H2
      isplitl [H3]; · iexact H3
      isplitr; · iempintro
      iempintro
  rw [hs]

/-- Fifty finished chunks, from the last four and the others. -/
theorem all_finished :
    iprop(finished m d L 46 (by decide) ∗ finished m d L 47 (by decide) ∗ finished m d L 48 (by decide) ∗ finished m d L 49 (by decide)
        ∗ bigSep early fun j : Fin 50 => finished m d L j.val j.isLt)
      = bigSep Finset.univ fun j : Fin 50 => finished m d L j.val j.isLt :=
  (bigSep_last4 (fun j : Fin 50 => finished m d L j.val j.isLt)).symm

/-! ## The regrouping -/

/-- Every chunk finished and every slot free: the tile's task is done. -/
theorem task_done (hF : (K (F := F)).Facts) (O : CellTallies nD τ sig (HIx 1)) (W : Waits sig (HIx 1)) :
    iprop((bigSep Finset.univ fun j : Fin 50 => finished m d L j.val j.isLt)
        ∗ (bigSep Finset.univ fun b : Fin 6 => freeSlot m d L b)
        ∗ Carry m d L
        ∗ ∃ W', ⌜∀ p ∈ W', p ∈ W ∨ p.2 = none ∨ p.2 = some (0 : Fin 1)⌝ ∗ owes (thrL d L) O W')
      ⊢ iprop(tdRes m d (cV L) (jL L) ∗ scopedBufs (thrL d L) ∗ scopedSems0 (thrL d L)
          ∗ ∃ W', ⌜∀ p ∈ W', p ∈ W ∨ p.2 = none ∨ p.2 = some (0 : Fin 1)⌝ ∗ owes (thrL d L) O W') := by
  rw [(K (F := F)).scopedBufs_V hF d (cV L) (jV L), SparseCore.Cfg.scopedSems0_V (Val := Elt F) d (cV L) (jV L),
    ownSems0_V_list, ownBufs_V2]
  have hfin : (bigSep Finset.univ fun j : Fin 50 => finished m d L j.val j.isLt)
      = iprop((bigSep Finset.univ fun j : Fin 50 => chunkDone m d L j.val j.isLt)
          ∗ bigSep Finset.univ fun j : Fin 50 => winPts m d L j.val j.isLt) := bigSep_sep' _ _ _
  have hfree : (bigSep Finset.univ fun b : Fin 6 => freeSlot m d L b)
      = iprop((bigSep Finset.univ fun b : Fin 6 => iprop(∃ f, slotPts d L b.val b.isLt f))
          ∗ (bigSep Finset.univ fun b : Fin 6 => gSemPts d L b.val b.isLt)
          ∗ (bigSep Finset.univ fun b : Fin 6 => sSemPts d L b.val b.isLt)
          ∗ bigSep Finset.univ fun b : Fin 6 => shPts m d L b.val) := by
    show (bigSep Finset.univ fun b : Fin 6 => iprop((∃ f, slotPts d L b.val b.isLt f) ∗ gSemPts d L b.val b.isLt
      ∗ sSemPts d L b.val b.isLt ∗ shPts m d L b.val)) = _
    rw [bigSep_sep', bigSep_sep', bigSep_sep']
  rw [hfin, hfree, bigSep_fin6 (fun b : Fin 6 => gSemPts d L b.val b.isLt), bigSep_fin6 (fun b : Fin 6 => sSemPts d L b.val b.isLt)]
  unfold Carry tdRes
  iintro ⟨⟨Hdone, Hwin⟩, ⟨Hslots, ⟨Hg0, Hg1, Hg2, Hg3, Hg4, Hg5⟩, ⟨Hs0, Hs1, Hs2, Hs3, Hs4, Hs5⟩, Hsh⟩, ⟨Hiw, Hlead, Hshr, Hc0, Hc1, Hrest⟩, HW⟩
  ihave Hout := (chunks_out m d L) $$ Hdone
  ihave Hiv := (wins_whole m d L) $$ Hwin
  ihave Hrv := (slots_whole (F := F) d L) $$ Hslots
  ihave Htok := (sh_whole m d L) $$ [Hshr Hsh]
  · isplitl [Hshr]; · iexact Hshr
    iexact Hsh
  isplitl [Hiw Hout Htok Hlead]
  · isplitl [Hiw]; · iexact Hiw
    isplitl [Hout]; · iexact Hout
    isplitl [Htok]; · iexact Htok
    iexact Hlead
  isplitl [Hiv Hrv Hrest]
  · isplitl [Hiv]; · iexact Hiv
    isplitl [Hrv]; · iexact Hrv
    iexact Hrest
  isplitr [HW]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hc0]; · iexact Hc0
    iexact Hc1
  iexact HW

end End

end Cert.Proof.KI

end
-- ==== Proof.KILoopB.lean ====
/-
  The loop of a tile's program, and the two waits after it.
-/
import proofs.«203285_g23708219474275_cont_8to1_227_19_alg».proof.Proof.KILoopA
import proofs.«203285_g23708219474275_cont_8to1_227_19_alg».proof.Proof.KITileEnd

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iwV" => (Memref.whole Cert.KernelIdeal.main_v1_scv : Memref Cert.KernelIdeal.sig Kind.scVector Space.hbm Cert.KernelIdeal.S32x6400 EltTy.i32)
local notation "tabV" => (Memref.whole Cert.KernelIdeal.main_arg1_scv : Memref Cert.KernelIdeal.sig Kind.scVector Space.hbm Cert.KernelIdeal.S1002x128 EltTy.f32)
local notation "outV" => (Memref.whole Cert.KernelIdeal.main_v2_scv : Memref Cert.KernelIdeal.sig Kind.scVector Space.hbm Cert.KernelIdeal.S204800x128 EltTy.f32)
local notation "shV" => (Memref.whole Cert.KernelIdeal.cc0_scratch2 : Memref Cert.KernelIdeal.sig Kind.scVector Space.shared Cert.KernelIdeal.S1002x128 EltTy.f32)
local notation "ivV" => (Memref.whole Cert.KernelIdeal.cc0_scratch0 : Memref Cert.KernelIdeal.sig Kind.scVector Space.vmem Cert.KernelIdeal.S6400 EltTy.i32)
local notation "rvV" => (Memref.whole Cert.KernelIdeal.cc0_scratch1 : Memref Cert.KernelIdeal.sig Kind.scVector Space.vmem Cert.KernelIdeal.S6x128x128 EltTy.f32)

variable [FloatOps F]

section Loop

variable (d : Dev nD) (L : grid0.Coords)

/-- After the last trip the ring is as the waits after the loop find it: the copies out of chunks 44 … 49 in flight. -/
theorem ring50_tail0 : Ring m d L 50 = Tail m d L 0 := by
  unfold Ring Tail
  rw [show (bigSep Finset.univ (phase m d L 50) : sProp 𝕄) = bigSep Finset.univ (tailPhase m d L 0) from
        bigSep_congr fun j _ => by
          have hj := j.isLt
          unfold phase tailPhase
          by_cases h : j.val < 44
          · rw [if_neg (by omega), if_neg (by omega), if_neg (by omega), if_pos (by omega)]
          · rw [if_neg (by omega), if_neg (by omega), if_pos (by omega), if_neg (by omega)],
      show (bigSep Finset.univ (fun b : Fin 6 => if 50 + 2 ≤ b.val then freeSlot m d L b else iprop(emp)) : sProp 𝕄)
          = bigSep Finset.univ fun b : Fin 6 => if (b.val + 4) % 6 < 0 then freeSlot m d L b else iprop(emp) from
        bigSep_congr fun b _ => by have := b.isLt; rw [if_neg (by omega), if_neg (by omega)]]

/-- The state before the wait for chunk 44 + t, opened at that chunk and at its slot. -/
theorem tail_open (t : ℕ) (ht : t < 6) :
    Tail m d L t = iprop((storing m d L (44 + t) (by omega) ((44 + t) % 6) (mod6 _) ∗ bigSep (Finset.univ.erase (⟨44 + t, by omega⟩ : Fin 50)) (tailPhase m d L t))
      ∗ (emp ∗ bigSep (Finset.univ.erase (⟨(44 + t) % 6, mod6 _⟩ : Fin 6)) fun b : Fin 6 => if (b.val + 4) % 6 < t then freeSlot m d L b else iprop(emp))) := by
  unfold Tail
  rw [split1 (F := F) (tailPhase m d L t) ⟨44 + t, by omega⟩,
    show tailPhase m d L t ⟨44 + t, by omega⟩ = storing m d L (44 + t) (by omega) ((44 + t) % 6) (mod6 _) from by
      unfold tailPhase; rw [if_neg (by show ¬ 44 + t < 44 + t; omega)],
    splitSlot (F := F) (fun b : Fin 6 => if (b.val + 4) % 6 < t then freeSlot m d L b else iprop(emp)) ⟨(44 + t) % 6, mod6 _⟩,
    if_neg (by show ¬ ((44 + t) % 6 + 4) % 6 < t; omega)]

/-- The state after it: the chunk done, its slot free. -/
theorem tail_close (t : ℕ) (ht : t < 6) :
    Tail m d L (t + 1) = iprop((finished m d L (44 + t) (by omega) ∗ bigSep (Finset.univ.erase (⟨44 + t, by omega⟩ : Fin 50)) (tailPhase m d L t))
      ∗ (freeSlot m d L ⟨(44 + t) % 6, mod6 _⟩ ∗ bigSep (Finset.univ.erase (⟨(44 + t) % 6, mod6 _⟩ : Fin 6)) fun b : Fin 6 => if (b.val + 4) % 6 < t then freeSlot m d L b else iprop(emp))) := by
  unfold Tail
  rw [split1 (F := F) (tailPhase m d L (t + 1)) ⟨44 + t, by omega⟩,
    show tailPhase m d L (t + 1) ⟨44 + t, by omega⟩ = finished m d L (44 + t) (by omega) from by
      unfold tailPhase; rw [if_pos (by show 44 + t < 44 + (t + 1); omega)],
    show (bigSep (Finset.univ.erase (⟨44 + t, by omega⟩ : Fin 50)) (tailPhase m d L (t + 1)) : sProp 𝕄)
        = bigSep (Finset.univ.erase (⟨44 + t, by omega⟩ : Fin 50)) (tailPhase m d L t) from
      bigSep_congr fun j hj => by
        have hne : j.val ≠ 44 + t := fun e => (Finset.mem_erase.mp hj).1 (Fin.ext e)
        unfold tailPhase
        by_cases h : j.val < 44 + t
        · rw [if_pos h, if_pos (by omega)]
        · rw [if_neg h, if_neg (by omega)],
    splitSlot (F := F) (fun b : Fin 6 => if (b.val + 4) % 6 < t + 1 then freeSlot m d L b else iprop(emp)) ⟨(44 + t) % 6, mod6 _⟩,
    if_pos (by show ((44 + t) % 6 + 4) % 6 < t + 1; omega),
    show (bigSep (Finset.univ.erase (⟨(44 + t) % 6, mod6 _⟩ : Fin 6)) (fun b : Fin 6 => if (b.val + 4) % 6 < t + 1 then freeSlot m d L b else iprop(emp)) : sProp 𝕄)
        = bigSep (Finset.univ.erase (⟨(44 + t) % 6, mod6 _⟩ : Fin 6)) fun b : Fin 6 => if (b.val + 4) % 6 < t then freeSlot m d L b else iprop(emp) from
      bigSep_congr fun b hb => by
        have hne : b.val ≠ (44 + t) % 6 := fun e => (Finset.mem_erase.mp hb).1 (Fin.ext e)
        have hb6 := b.isLt
        by_cases h : (b.val + 4) % 6 < t
        · rw [if_pos h, if_pos (by omega)]
        · rw [if_neg h, if_neg (by omega)]]

/-- One wait after the loop: the copy-out of chunk 44 + t ends. -/
theorem tail_wait (t : ℕ) (ht : t < 6) (O : CellTallies nD τ sig (HIx 1)) (W : Waits sig (HIx 1))
    {α : Type} (k : PUnit → Prog (TpuEff nD τ sig (Elt F) Λ₀ (thrL d L).2) α) (Q : α → sProp 𝕄)
    (srcw : Memref sig .scVector .vmem S128x128 .f32) (dstw : Memref sig .scVector .hbm S128x128 .f32)
    (hN : dstw.view.dmaCredit = (chunkM L (44 + t) (by omega)).view.dmaCredit) (hsrc : srcw.view.WordExact) (hdst : dstw.view.WordExact) :
    iprop(Transfers.MayWaits (thrL d L) (default : HIx 1) O ∗ Tail m d L t ∗ owes (thrL d L) O W)
      ⊢ iprop((iprop(Tail m d L (t + 1) ∗ owes (thrL d L) O (insert (SemLoc.dma (sSem ((44 + t) % 6) (mod6 _)), (default : HIx 1)) W))
            -∗ wp frame (wpE (defs₀ (F := F)) 𝒱₀ (thrL d L) none) Set.univ (k ⟨⟩) Q)
          -∗ wp frame (wpE (defs₀ (F := F)) 𝒱₀ (thrL d L) none) Set.univ (.op (.waitDma2 (sSem ((44 + t) % 6) (mod6 _)) srcw dstw hsrc hdst) k) Q) := by
  rw [tail_open m d L t ht, tail_close m d L t ht]
  iintro ⟨#Hmw, ⟨⟨Hst, HrP⟩, -, HrS⟩, HO⟩ Hk
  iapply (wait_store m d L (44 + t) (by omega) ((44 + t) % 6) (mod6 _) O W k Q srcw dstw hN hsrc hdst) $$ [Hst HO]
  · isplitr; · iexact Hmw
    isplitl [Hst]; · iexact Hst
    iexact HO
  iintro ⟨Hfin, Hfs, HO⟩
  iapply Hk
  isplitr [HO]
  · isplitl [Hfin HrP]
    · isplitl [Hfin]; · iexact Hfin
      iexact HrP
    · isplitl [Hfs]; · iexact Hfs
      iexact HrS
  · iexact HO

omit [FloatOps F] in
theorem c44 : (44 : ℕ) < 50 := by decide
omit [FloatOps F] in
theorem c45 : (45 : ℕ) < 50 := by decide
omit [FloatOps F] in
theorem s2 : (2 : ℕ) < 6 := by decide
omit [FloatOps F] in
theorem s3 : (3 : ℕ) < 6 := by decide

/-- A copy-out in flight, spelt out. -/
theorem storing_unfold (j : ℕ) (hj : j < 50) (b : ℕ) (hb : b < 6) :
    storing m d L j hj b hb
      = iprop((∃ (fo : Buf (Elt F) ((chunkM L j hj).view.loc (thrL d L))) (fd : Buf (Elt F) ((slotM b hb).view.loc (thrL d L))),
          ⌜(chunkM L j hj).view.read (Elt F) fo = rowsOf m d L j hj⌝
          ∗ Transfers.Flight countersEmb (thrL d L) (SemLoc.dma (sSem b hb)) (default : HIx 1) (chunkM L j hj).view.dmaCredit
              iprop(chunkPts d L j hj fo ∗ slotPts d L b hb fd))
        ∗ winPts m d L j hj ∗ gSemPts d L b hb ∗ shPts m d L b) := by
  unfold storing sFlight; rfl

theorem freeSlot_unfold (b : Fin 6) :
    freeSlot m d L b = iprop((∃ f, slotPts d L b.val b.isLt f) ∗ gSemPts d L b.val b.isLt ∗ sSemPts d L b.val b.isLt ∗ shPts m d L b.val) := rfl

omit [FloatOps F] in
theorem ne4445 : (⟨44, c44⟩ : Fin 50) ≠ ⟨45, c45⟩ := by decide

/-- After the loop: the copies out of chunks 44 and 45 (slots 2 and 3) taken out of the ring. -/
theorem tail0_open :
    Tail m d L 0 = iprop((storing m d L 44 c44 2 s2 ∗ storing m d L 45 c45 3 s3
        ∗ bigSep ((Finset.univ.erase (⟨44, c44⟩ : Fin 50)).erase ⟨45, c45⟩) (tailPhase m d L 0))
      ∗ (bigSep Finset.univ fun b : Fin 6 => if (b.val + 4) % 6 < 0 then freeSlot m d L b else iprop(emp))) := by
  unfold Tail
  rw [split2 (F := F) (tailPhase m d L 0) ⟨44, c44⟩ ⟨45, c45⟩ ne4445,
    show tailPhase m d L 0 ⟨44, c44⟩ = storing m d L 44 c44 2 s2 from by
      unfold tailPhase; rw [if_neg (by decide)]; exact storing_slot m d L 44 c44 (44 % 6) 2 (mod6 44) s2 (by decide),
    show tailPhase m d L 0 ⟨45, c45⟩ = storing m d L 45 c45 3 s3 from by
      unfold tailPhase; rw [if_neg (by decide)]; exact storing_slot m d L 45 c45 (45 % 6) 3 (mod6 45) s3 (by decide)]

/-- The slots other than 2 and 3 are not free after two waits. -/
theorem restSlots_emp :
    (bigSep ((Finset.univ.erase (⟨2, s2⟩ : Fin 6)).erase ⟨3, s3⟩) (fun b : Fin 6 => if (b.val + 4) % 6 < 2 then freeSlot m d L b else iprop(emp)) : sProp 𝕄)
      = iprop(emp) := by
  rw [show (bigSep ((Finset.univ.erase (⟨2, s2⟩ : Fin 6)).erase ⟨3, s3⟩) (fun b : Fin 6 => if (b.val + 4) % 6 < 2 then freeSlot m d L b else iprop(emp)) : sProp 𝕄)
      = bigSep ((Finset.univ.erase (⟨2, s2⟩ : Fin 6)).erase ⟨3, s3⟩) fun _ => iprop(emp) from
    bigSep_congr fun b hb => by
      have h1 : b.val ≠ 3 := fun e => (Finset.mem_erase.mp hb).1 (Fin.ext e)
      have h2 : b.val ≠ 2 := fun e => (Finset.mem_erase.mp (Finset.mem_erase.mp hb).2).1 (Fin.ext e)
      have hb6 := b.isLt
      exact if_neg (by omega)]
  exact bigSep_emp' _

/-- And with those two chunks done and their slots free again. -/
theorem tail2_close :
    Tail m d L 2 = iprop((finished m d L 44 c44 ∗ finished m d L 45 c45
        ∗ bigSep ((Finset.univ.erase (⟨44, c44⟩ : Fin 50)).erase ⟨45, c45⟩) (tailPhase m d L 0))
      ∗ (freeSlot m d L ⟨2, s2⟩ ∗ freeSlot m d L ⟨3, s3⟩
        ∗ bigSep ((Finset.univ.erase (⟨2, s2⟩ : Fin 6)).erase ⟨3, s3⟩) fun b : Fin 6 => if (b.val + 4) % 6 < 2 then freeSlot m d L b else iprop(emp))) := by
  unfold Tail
  rw [split2 (F := F) (tailPhase m d L 2) ⟨44, c44⟩ ⟨45, c45⟩ ne4445,
    show tailPhase m d L 2 ⟨44, c44⟩ = finished m d L 44 c44 from by unfold tailPhase; rw [if_pos (by decide)],
    show tailPhase m d L 2 ⟨45, c45⟩ = finished m d L 45 c45 from by unfold tailPhase; rw [if_pos (by decide)],
    show (bigSep ((Finset.univ.erase (⟨44, c44⟩ : Fin 50)).erase ⟨45, c45⟩) (tailPhase m d L 2) : sProp 𝕄)
        = bigSep ((Finset.univ.erase (⟨44, c44⟩ : Fin 50)).erase ⟨45, c45⟩) (tailPhase m d L 0) from
      bigSep_congr fun j hj => by
        have h1 : j.val ≠ 45 := fun e => (Finset.mem_erase.mp hj).1 (Fin.ext e)
        have h2 : j.val ≠ 44 := fun e => (Finset.mem_erase.mp (Finset.mem_erase.mp hj).2).1 (Fin.ext e)
        unfold tailPhase
        by_cases h : j.val < 44
        · rw [if_pos (by omega), if_pos (by omega)]
        · rw [if_neg (by omega), if_neg (by omega)],
    SparseCore.bigSep_erase' (Finset.mem_univ (⟨2, s2⟩ : Fin 6)) (Φ := fun b : Fin 6 => if (b.val + 4) % 6 < 2 then freeSlot m d L b else iprop(emp)),
    SparseCore.bigSep_erase' (Finset.mem_erase.mpr ⟨(by decide : (⟨3, s3⟩ : Fin 6) ≠ ⟨2, s2⟩), Finset.mem_univ (⟨3, s3⟩ : Fin 6)⟩)
      (Φ := fun b : Fin 6 => if (b.val + 4) % 6 < 2 then freeSlot m d L b else iprop(emp)),
    if_pos (by decide), if_pos (by decide)]

set_option maxHeartbeats 4000000 in
/-- The loop and the two waits after it. -/
theorem part2_proof (hpre : IdxOK m) (O : CellTallies nD τ sig (HIx 1)) (W : Waits sig (HIx 1)) (hO : ∀ g, O g none = 0) (v5 c0 c50 : BitVec 32) :
    Mid m d L (Ring m d L 0) O W
      ⊢ wp frame (wpE (defs₀ (F := F)) 𝒱₀ (thrL d L) none) Set.univ
          (k0_part2 L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1 v5 c0 c50)
          fun _ => Mid m d L (Tail m d L 2) O W := by
  simp only [k0_part2_eq_skeleton]; unfold k0_part2_skel
  unfold Mid
  iintro ⟨#Hlv, HR, HC, %W0, %hW0, HO⟩
  sl_for (LInv m d L O W) $$ [HR HO]
  case region =>
    intro k acc
    by_cases h2 : k.val + 2 < 50
    · by_cases h3 : 4 ≤ k.val
      · exact region_mid m d L hpre O W hO v5 c0 c50 k h2 h3
      · exact region_low m d L hpre O W hO v5 c0 c50 k h3
    · exact region_last m d L hpre O W hO v5 c0 c50 k h2
  · unfold LInv
    isplitr; · iexact Hlv
    isplitl [HR]; · iexact HR
    iexists W0; isplitr
    · ipureintro; exact hW0
    · iexact HO
  iintro %acc HI
  ihave HI' := (Entails.of_eq (show LInv m d L O W k0_t1_loop.trips acc
      = iprop(levAts (K (F := F)).L (K (F := F)).lev
          ∗ ((storing m d L 44 c44 2 s2 ∗ storing m d L 45 c45 3 s3
              ∗ bigSep ((Finset.univ.erase (⟨44, c44⟩ : Fin 50)).erase ⟨45, c45⟩) (tailPhase m d L 0))
            ∗ (bigSep Finset.univ fun b : Fin 6 => if (b.val + 4) % 6 < 0 then freeSlot m d L b else iprop(emp)))
          ∗ ∃ W', ⌜∀ p ∈ W', p ∈ W ∨ p.2 = none ∨ p.2 = some (0 : Fin 1)⌝ ∗ owes (thrL d L) O W') from by
    unfold LInv; rw [trips_eq, ring50_tail0, tail0_open])) $$ HI
  icases HI' with ⟨-, ⟨⟨HS44, HS45, HrP⟩, -⟩, %W1, %hW1, HO⟩
  ihave HS44' := (Entails.of_eq (storing_unfold m d L 44 c44 2 s2)) $$ HS44
  ihave HS45' := (Entails.of_eq (storing_unfold m d L 45 c45 3 s3)) $$ HS45
  icases HS44' with ⟨⟨%fo44, %fd44, %hfo44, Hfl44⟩, Hw44, Hg44, Hsh44⟩
  icases HS45' with ⟨⟨%fo45, %fd45, %hfo45, Hfl45⟩, Hw45, Hg45, Hsh45⟩
  ihave Hmw := (show levAts (K (F := F)).L (K (F := F)).lev ⊢ Transfers.MayWaits (thrL d L) (default : HIx 1) O from
    (K (F := F)).mayWaits_none (thr := thrL d L) hO) $$ Hlv
  sl_exec
  sl_step
  isplitr; · iexact Hlv
  isplitr [HC HO]
  · iapply (Entails.of_eq (tail2_close m d L).symm)
    isplitl [Hfl44_dst Hw44 Hfl45_dst Hw45 HrP]
    · isplitl [Hfl44_dst Hw44]
      · iapply (finished_intro m d L 44 c44 fo44 hfo44)
        isplitl [Hfl44_dst]; · iexact Hfl44_dst
        iexact Hw44
      isplitl [Hfl45_dst Hw45]
      · iapply (finished_intro m d L 45 c45 fo45 hfo45)
        isplitl [Hfl45_dst]; · iexact Hfl45_dst
        iexact Hw45
      iexact HrP
    · isplitl [Hfl44_src Hg44 Hfl44 Hsh44]
      · iapply (Entails.of_eq (freeSlot_unfold m d L ⟨2, s2⟩).symm)
        isplitl [Hfl44_src]; · iexists fd44; iexact Hfl44_src
        isplitl [Hg44]; · iexact Hg44
        isplitl [Hfl44]
        · iapply (Entails.of_eq (show (semVal (thrL d L, SemLoc.dma (⟨8, by decide⟩ : DmaSem sig)) 0 : sProp 𝕄) = sSemPts d L 2 s2 from rfl)); iexact Hfl44
        iexact Hsh44
      isplitl [Hfl45_src Hg45 Hfl45 Hsh45]
      · iapply (Entails.of_eq (freeSlot_unfold m d L ⟨3, s3⟩).symm)
        isplitl [Hfl45_src]; · iexists fd45; iexact Hfl45_src
        isplitl [Hg45]; · iexact Hg45
        isplitl [Hfl45]
        · iapply (Entails.of_eq (show (semVal (thrL d L, SemLoc.dma (⟨9, by decide⟩ : DmaSem sig)) 0 : sProp 𝕄) = sSemPts d L 3 s3 from rfl)); iexact Hfl45
        iexact Hsh45
      iapply (Entails.of_eq (restSlots_emp m d L).symm); iempintro
  · isplitl [HC]; · iexact HC
    iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    exact hW1 p hp

end Loop

end Cert.Proof.KI

end
-- ==== Proof.KIParts12.lean ====
/-
  The first two parts of a tile's program: up to the first two gathers (the fetches, the barrier), and the loop with the
  two waits after it.
-/
import proofs.«203285_g23708219474275_cont_8to1_227_19_alg».proof.Proof.KIPart1
import proofs.«203285_g23708219474275_cont_8to1_227_19_alg».proof.Proof.KILoopB

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iwV" => (Memref.whole Cert.KernelIdeal.main_v1_scv : Memref Cert.KernelIdeal.sig Kind.scVector Space.hbm Cert.KernelIdeal.S32x6400 EltTy.i32)
local notation "tabV" => (Memref.whole Cert.KernelIdeal.main_arg1_scv : Memref Cert.KernelIdeal.sig Kind.scVector Space.hbm Cert.KernelIdeal.S1002x128 EltTy.f32)
local notation "outV" => (Memref.whole Cert.KernelIdeal.main_v2_scv : Memref Cert.KernelIdeal.sig Kind.scVector Space.hbm Cert.KernelIdeal.S204800x128 EltTy.f32)
local notation "shV" => (Memref.whole Cert.KernelIdeal.cc0_scratch2 : Memref Cert.KernelIdeal.sig Kind.scVector Space.shared Cert.KernelIdeal.S1002x128 EltTy.f32)
local notation "ivV" => (Memref.whole Cert.KernelIdeal.cc0_scratch0 : Memref Cert.KernelIdeal.sig Kind.scVector Space.vmem Cert.KernelIdeal.S6400 EltTy.i32)
local notation "rvV" => (Memref.whole Cert.KernelIdeal.cc0_scratch1 : Memref Cert.KernelIdeal.sig Kind.scVector Space.vmem Cert.KernelIdeal.S6x128x128 EltTy.f32)

variable [FloatOps F]

section Parts

variable (d : Dev nD) (L : grid0.Coords)

theorem part1_spec (hF : (K (F := F)).Facts) (hpre : IdxOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goRes m d (cV L) (jL L)
        ∗ scopedBufs (thrL d L) ∗ scopedSems0 (thrL d L) ∗ owes (thrL d L) (O + oxV d (cV L)) W)
      ⊢ wp frame (wpE (defs₀ (F := F)) 𝒱₀ (thrL d L) none) Set.univ
          (k0_part1 L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1)
          fun _ => Mid m d L (Ring m d L 0) O W :=
  part1_proof m d L hF hpre O W hO hOlev

theorem part2_spec (hpre : IdxOK m) (O : CellTallies nD τ sig (HIx 1)) (W : Waits sig (HIx 1)) (hO : ∀ g, O g none = 0) (v5 c0 c50 : BitVec 32) :
    Mid m d L (Ring m d L 0) O W
      ⊢ wp frame (wpE (defs₀ (F := F)) 𝒱₀ (thrL d L) none) Set.univ
          (k0_part2 L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1 v5 c0 c50)
          fun _ => Mid m d L (Tail m d L 2) O W :=
  part2_proof m d L hpre O W hO v5 c0 c50

end Parts

end Cert.Proof.KI

end
-- ==== Proof.PreDecode.lean ====
/-
  The precondition decoded: every index word lies in [0, 999].

  The precondition is the conjunction of two conditions, each an "all" over an array of truth values. The second says that
  every index word w satisfies 0 ≤ w and w ≤ 999, both as signed comparisons. A conjunction that is 1 has both conjuncts 1;
  an "all" that is 1 had a 1 at every position; and a signed comparison that is 1 says the comparison of the words' signed
  values. The constants compared against are the words 0 and 999 at every position. A word whose signed value lies in
  [0, 999] has that same value as a natural number.
-/
import proofs.«203285_g23708219474275_cont_8to1_227_19_alg».proof.Pre_input_domain
import proofs.«203285_g23708219474275_cont_8to1_227_19_alg».proof.Proof.Gen.Pre_input_domain
import Idealize.ShloMosaic.Lib.ReduceAll
import Idealize.ShloMosaic.Lib.ValueIdx

namespace Cert.PreDecode

open Idealize.ShloMosaic Idealize.ShloMosaic.ValueIdx
open Cert.Pre_input_domain

/-- The scalar shape has one index. -/
instance : Subsingleton S_.Idx := ⟨fun a b => funext fun d => d.elim0⟩

/-- Under the precondition every index word, read as a signed number, lies in [0, 999]. -/
theorem idx_range {F : FTy → Type} [FloatOps F] [Cert.Pre_input_domain.Facts] (idx : IVec Cert.Pre_input_domain.S4096x50 32)
    (tab : FVec F Cert.Pre_input_domain.S1002x128 .f32)
    (h : Cert.Pre_input_domain.fn (F := F) idx tab = fun _ => 1#1) : ∀ p, 0 ≤ (idx p).toInt ∧ (idx p).toInt ≤ 999 := by
  intro p
  have e := congrFun h ix0
  dsimp only [Cert.Pre_input_domain.fn] at e
  -- the second conjunct: the "all" over the index words
  have e2 := (IntOp.andi_eq_one.1 e).2
  -- at position p
  have e3 := Host.reduce_andi_all _ _ _ _ _ e2 p
  obtain ⟨h0, h9⟩ := IntOp.andi_eq_one.1 e3
  have h0' : (0#32 : BitVec 32).toInt ≤ (idx p).toInt := IntOp.cmpi_sge.1 h0
  have h9' : (idx p).toInt ≤ (999#32 : BitVec 32).toInt := IntOp.cmpi_sle.1 h9
  have z0 : (0#32 : BitVec 32).toInt = 0 := by decide
  have z9 : (999#32 : BitVec 32).toInt = 999 := by decide
  rw [z0] at h0'
  rw [z9] at h9'
  exact ⟨h0', h9'⟩

/-- A word whose signed value is nonnegative has that value as a natural number. -/
theorem toNat_eq_of_toInt_nonneg (w : BitVec 32) (h0 : 0 ≤ w.toInt) : (w.toNat : Int) = w.toInt := by
  have h32 := w.isLt
  rw [BitVec.toInt_eq_toNat_cond] at h0 ⊢
  split at h0 <;> rename_i hc
  · rw [if_pos hc]
  · omega

/-- Under the precondition every index word, read as a natural number, is at most 999. -/
theorem idx_toNat_le {F : FTy → Type} [FloatOps F] [Cert.Pre_input_domain.Facts] (idx : IVec Cert.Pre_input_domain.S4096x50 32)
    (tab : FVec F Cert.Pre_input_domain.S1002x128 .f32)
    (h : Cert.Pre_input_domain.fn (F := F) idx tab = fun _ => 1#1) : ∀ p, (idx p).toNat ≤ 999 := by
  intro p
  obtain ⟨h0, h9⟩ := idx_range idx tab h p
  have e := toNat_eq_of_toInt_nonneg (idx p) h0
  omega

/-- Under the precondition every index word names a row of the table. -/
theorem idx_toNat_lt {F : FTy → Type} [FloatOps F] [Cert.Pre_input_domain.Facts] (idx : IVec Cert.Pre_input_domain.S4096x50 32)
    (tab : FVec F Cert.Pre_input_domain.S1002x128 .f32)
    (h : Cert.Pre_input_domain.fn (F := F) idx tab = fun _ => 1#1) : ∀ p, (idx p).toNat < 1002 := by
  intro p
  have := idx_toNat_le idx tab h p
  omega

end Cert.PreDecode
-- ==== Proof.Glue.lean ====
/-
  The host's reading of the flat result agrees with the lookup itself.

  Position (b, h, q) of the unflattened array is, by the transposition [1, 0, 2], position (h, b, q) of the flat array read
  as [50, 4096, 128], and that is row 4096 h + b, entry q of the flat array, the two row-major positions being equal. Row
  r = 4096 h + b of the flat lookup is the table row named by word (r / 6400, r % 6400) of the rearranged index list. That
  word is word number r of the transposed list in row-major order, that is word (h, b) of the transposed list, which is
  idx(b, h).
-/
import proofs.«203285_g23708219474275_cont_8to1_227_19_alg».proof.Proof.Spec
import Idealize.ShloMosaic.Lib.ValueLayout

namespace Cert.Spec

open Idealize.ShloMosaic Idealize.ShloMosaic.ValueIdx

/-- Word (w, p) of the rearranged list, when 6400 w + p = 4096 h + b, is the word idx(b, h): both sit at the same row-major
    position of the transposed list. -/
theorem idxW_apply (idx : SIdx.Idx → BitVec 32) (b : Fin 4096) (h : Fin 50) (w : Fin 32) (p : Fin 6400)
    (e : w.val * 6400 + p.val = h.val * 4096 + b.val) : idxW idx (ix2 w p) = idx (ix2 b h) := by
  unfold idxW
  refine (shapeCast_apply _ _ (ix2 w p) (ix2 h b) (by
    rw [Shape.rowMajor_val_two, Shape.rowMajor_val_two]
    show h.val * 4096 + b.val = w.val * 6400 + p.val
    omega)).trans ?_
  exact transpose_ix2_apply idx _ h b

/-- The flat lookup over the rearranged list, read back as [4096, 50, 128], is the lookup. -/
theorem unflat_flatLookup {α : Type} (idx : SIdx.Idx → BitVec 32) (tab : STab.Idx → α) :
    unflat (flatLookup (idxW idx) tab) = lookup idx tab := by
  funext x
  obtain ⟨b, h, q, rfl⟩ : ∃ (b : Fin 4096) (h : Fin 50) (q : Fin 128), x = ix3 b h q := ⟨x 0, x 1, x 2, eq_ix3 x⟩
  have hb : b.val < 4096 := b.isLt
  have hh : h.val < 50 := h.isLt
  unfold unflat
  -- the transposition [1, 0, 2]: position (b, h, q) reads position (h, b, q)
  refine (transpose_apply _ _ _ (ix3 b h q) (ix3 h b q)
    (fun c => match c with | ⟨0, _⟩ => rfl | ⟨1, _⟩ => rfl | ⟨2, _⟩ => rfl)).trans ?_
  -- the reshape: position (h, b, q) of [50, 4096, 128] is row 4096 h + b, entry q of [204800, 128]
  refine (shapeCast_apply _ _ (ix3 h b q) (ix2 (⟨h.val * 4096 + b.val, by omega⟩ : Fin 204800) q) (by
    rw [Shape.rowMajor_val_two, Shape.rowMajor_val_three]
    rfl)).trans ?_
  show tab (ix2 (rowOf (idxW idx (ix2 _ _))) q) = tab (ix2 (rowOf (idx (ix2 b h))) q)
  rw [idxW_apply idx b h _ _ (by
    show (h.val * 4096 + b.val) / 6400 * 6400 + (h.val * 4096 + b.val) % 6400 = h.val * 4096 + b.val
    omega)]

end Cert.Spec
-- ==== Proof.RefRun.lean ====
/-
  The reference program's run, written out: its @main calls the lookup function, which calls the selection function;
  with both calls replaced by their bodies the program is a straight line of twenty-three host operations over the
  buffers of the call records. Every weakly fair execution of that line terminates, and each buffer ends at the fold of
  the operations over the launch contents.
-/
import proofs.«203285_g23708219474275_cont_8to1_227_19_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls replaced by their bodies: the lookup function's twenty-two, the
    selection function's one (the seventh) among them. -/
abbrev ops : List (HloOp τ sig (Elt F)) :=
  [ TRef.nullary main_call0.c (constantI S_ 32 0#32),
    TRef.unary main_call0.c main_call0.v0 (broadcastInDim S4096x50 ![] bcast_S_S4096x50),
    TRef.binary (.of main_arg0) main_call0.v0 main_call0.v1 (cmpi .slt),
    TRef.nullary main_call0.c_0 (constantI S_ 32 1002#32),
    TRef.unary main_call0.c_0 main_call0.v2 (broadcastInDim S4096x50 ![] bcast_S_S4096x50),
    TRef.binary (.of main_arg0) main_call0.v2 main_call0.v3 addi,
    TRef.ternary main_call0.v1 main_call0.v3 (.of main_arg0) main_call0.call0.v0 select,
    TRef.unary main_call0.call0.v0 main_call0.v5 (broadcastInDim S4096x50x1 ![0, 1] bcast_S4096x50_S4096x50x1_0_1),
    TRef.nullary main_call0.c_1 (constantI S1 32 1001#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg1) main_call0.v5 main_call0.v13 (fun x i => Host.gather gather_S1002x128_S4096x50x1_S4096x50x128_2_0_n_n_0_2_1128 x i),
    TRef.unary main_call0.v12 main_call0.v14 (broadcastInDim S4096x50x128 ![0, 1] bcast_S4096x50_S4096x50x128_0_1),
    TRef.nullary main_call0.cst (constant S_ .f32 0x7FC00000#32),
    TRef.unary main_call0.cst main_call0.v15 (broadcastInDim S4096x50x128 ![] bcast_S_S4096x50x128),
    TRef.ternary main_call0.v14 main_call0.v13 main_call0.v15 main_call0.v16 select ]

/-- @main is that straight line: the two functions' definitions unfolded at their calls, both sides are one chain of
    steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters every weakly fair execution of @main terminates, and every buffer ends at the
    fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefRun

end
-- ==== Proof.LibWrap.lean ====
/-
  Two facts about 32-bit index words. A number below 2^31 written as a 32-bit word reads back, signed, as itself. A word
  that is not negative is left alone by the host's "count a negative index from the end" step
  (select (t < 0) (t + K) t), whatever the extent K.
-/
import Idealize.ShloMosaic.PureOps.Ideal
import Idealize.ShloMosaic.Lib.Affine

namespace Cert.LibWrap

open Idealize.ShloMosaic

/-- A number below 2^31, as a 32-bit word, reads back signed as itself. -/
theorem toInt_ofNat_of_lt (n : ℕ) (h : n < 2147483648) : (BitVec.ofNat 32 n).toInt = (n : Int) := by
  have h2 : (BitVec.ofNat 32 n).toNat = n := by
    rw [BitVec.toNat_ofNat]
    exact Nat.mod_eq_of_lt (by omega)
  rw [BitVec.toInt_eq_toNat_cond, h2, if_pos (by omega)]

/-- A word that is not negative is not counted from the end. -/
theorem wrap_of_nonneg (t K : BitVec 32) (h0 : 0 ≤ t.toInt) :
    Scalar.select (IntOp.cmpi .slt t 0#32) (IntOp.addi t K) t = t := by
  have hn : ¬ (IntOp.cmpi .slt t 0#32 = 1#1) := by
    rw [IntOp.cmpi_slt]
    show ¬ (t.toInt < (0#32 : BitVec 32).toInt)
    simp
    exact h0
  unfold Scalar.select
  exact if_neg hn

end Cert.LibWrap
-- ==== Proof.RefValue.lean ====
/-
  What the reference's straight line computes, as one function of the index list and the table, and that this function
  is the embedding lookup whenever every index word, read as a signed integer, lies in [0, 999].

  The line first counts a negative index from the end (select (w < 0) (w + 1002) w), which leaves a word that is not
  negative alone. It gathers, for each position (b, h), the table row whose number is that word read signed and capped
  into [0, 1001], and it keeps the gathered entry where 0 ≤ w ≤ 1001 and writes the not-a-number constant elsewhere.
  With every word in [0, 999] the test holds everywhere, the cap is never reached, and the result at (b, h, q) is entry
  q of the row the word names.
-/
import proofs.«203285_g23708219474275_cont_8to1_227_19_alg».proof.Proof.Gen.ReferenceIdeal
import proofs.«203285_g23708219474275_cont_8to1_227_19_alg».proof.Proof.Spec
import proofs.«203285_g23708219474275_cont_8to1_227_19_alg».proof.Proof.LibWrap
import Idealize.ShloMosaic.Lib.ValueIdx
import Idealize.ShloMosaic.Lib.Affine

noncomputable section

namespace Cert.RefRun

open Cert.ReferenceIdeal Cert.ReferenceIdeal.Gen Idealize.ShloMosaic Idealize.ShloMosaic.ValueIdx

variable {F : FTy → Type} [FloatOps F]

/-- The gather's dimension numbers. -/
abbrev G : GatherDims S1002x128 S4096x50x1 S4096x50x128 := gather_S1002x128_S4096x50x1_S4096x50x128_2_0_n_n_0_2_1128

/-- A negative index counted from the end. -/
def wrap (idx : IVec S4096x50 32) : IVec S4096x50 32 :=
  select (cmpi .slt idx (broadcastInDim S4096x50 ![] bcast_S_S4096x50 (constantI S_ 32 0#32)))
    (addi idx (broadcastInDim S4096x50 ![] bcast_S_S4096x50 (constantI S_ 32 1002#32))) idx

/-- The start indices of the gather: one row number per position. -/
def start (idx : IVec S4096x50 32) : IVec S4096x50x1 32 :=
  broadcastInDim S4096x50x1 ![0, 1] bcast_S4096x50_S4096x50x1_0_1 (wrap idx)

/-- Whether a start index names a row of the table: 0 ≤ w ≤ 1001. -/
def inRange (idx : IVec S4096x50 32) : IVec S4096x50x1 1 :=
  andi (cmpi .sge (start idx) (broadcastInDim S4096x50x1 ![] bcast_S_S4096x50x1 (constantI S_ 32 0#32)))
    (cmpi .sle (start idx) (broadcastInDim S4096x50x1 ![0, 1, 2] bcast_S1x1x1_S4096x50x1_0_1_2
      (broadcastInDim S1x1x1 ![2] bcast_S1_S1x1x1_2 (constantI S1 32 1001#32))))

/-- That test, per position, spread over the row's entries. -/
def mask (idx : IVec S4096x50 32) : IVec S4096x50x128 1 :=
  broadcastInDim S4096x50x128 ![0, 1] bcast_S4096x50_S4096x50x128_0_1
    (Host.reduce IntOp.andi (inRange idx) (constantI S_ 1 1#1) reducesTo_S4096x50x1_S4096x50_d2 h_S_)

/-- The reference's result as a function of its two arguments. -/
def out (idx : IVec S4096x50 32) (tab : FVec F S1002x128 .f32) : FVec F S4096x50x128 .f32 :=
  select (mask idx) (Host.gather G tab (start idx))
    (broadcastInDim S4096x50x128 ![] bcast_S_S4096x50x128 (constant S_ .f32 0x7FC00000#32))

/-! ## Read at an index -/

/-- A word that is not negative is not counted from the end. -/
theorem wrap_apply (idx : IVec S4096x50 32) (i : S4096x50.Idx) (h0 : 0 ≤ (idx i).toInt) : wrap idx i = idx i :=
  Cert.LibWrap.wrap_of_nonneg (idx i) 1002#32 h0

/-- The start index of position (b, h) is the wrapped word (b, h). -/
theorem start_apply (idx : IVec S4096x50 32) (b : Fin 4096) (h : Fin 50) (z : Fin 1) :
    start idx (ix3 b h z) = wrap idx (ix2 b h) := by
  show wrap idx _ = wrap idx _
  congr 1
  funext a
  match a with
  | ⟨0, _⟩ => rfl
  | ⟨1, _⟩ => rfl

/-- The range test at an index compares the start index with 0 and with 1001. -/
theorem inRange_apply (idx : IVec S4096x50 32) (j : S4096x50x1.Idx) :
    inRange idx j = IntOp.andi (IntOp.cmpi .sge (start idx j) 0#32) (IntOp.cmpi .sle (start idx j) 1001#32) := rfl

/-- A start index in [0, 1001] passes the range test. -/
theorem inRange_one (idx : IVec S4096x50 32) (j : S4096x50x1.Idx) (h0 : 0 ≤ (start idx j).toInt)
    (h1 : (start idx j).toInt ≤ 1001) : inRange idx j = 1#1 := by
  rw [inRange_apply]
  have a : IntOp.cmpi .sge (start idx j) 0#32 = 1#1 := by
    rw [IntOp.cmpi_sge]; exact h0
  have b : IntOp.cmpi .sle (start idx j) 1001#32 = 1#1 := by
    rw [IntOp.cmpi_sle]; exact h1
  rw [a, b]; rfl

/-- The conjunction, from true, of bits that are all true is true. -/
theorem reduce_and_one {s t u : Shape} {axes : List (Fin s.rank)} (x : IVec s 1) (h : s.ReducesTo axes t)
    (hu : 0 < u.numel) (hx : ∀ i, x i = 1#1) (j : t.Idx) :
    Host.reduce IntOp.andi x (constantI u 1 1#1) h hu j = 1#1 := by
  unfold Host.reduce
  generalize (List.filter _ _) = l
  show List.foldl _ 1#1 l = 1#1
  induction l with
  | nil => rfl
  | cons n l ih =>
    rw [List.foldl_cons, hx, show IntOp.andi 1#1 1#1 = 1#1 from rfl]
    exact ih

/-- The gather read at (b, h, q): entry q of the table row whose number is the start index of (b, h), read signed and
    capped into [0, 1001]. -/
theorem gather_apply {α : Type} (tab : S1002x128.Idx → α) (st : IVec S4096x50x1 32) (b : Fin 4096) (h : Fin 50)
    (q : Fin 128) :
    Host.gather G tab st (ix3 b h q)
      = tab (ix2 (⟨min (st (ix3 b h (0 : Fin 1))).toInt.toNat 1001, by omega⟩ : Fin 1002) q) := by
  have h0 : G.start (ix3 b h q) st 0 + G.batchCoord (ix3 b h q) 0 + G.offCoord (ix3 b h q) 0
      = min (st (ix3 b h (0 : Fin 1))).toInt.toNat 1001 := by
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 2) ∈ G.startIndexMap from List.mem_singleton.mpr rfl)]
    have hsi : G.siIdx (ix3 b h q) ⟨List.idxOf (0 : Fin 2) G.startIndexMap,
        List.idxOf_lt_length_iff.2 (List.mem_singleton.mpr rfl)⟩ = ix3 b h (0 : Fin 1) := by
      funext a; refine Fin.ext ?_
      match a with
      | ⟨0, _⟩ => rfl
      | ⟨1, _⟩ => rfl
      | ⟨2, _⟩ => rfl
    rw [hsi]
    rfl
  have h1 : G.start (ix3 b h q) st 1 + G.batchCoord (ix3 b h q) 1 + G.offCoord (ix3 b h q) 1 = q.val := by
    rw [GatherDims.batchCoord_eq_zero _ _ _ List.not_mem_nil]
    have hs : G.start (ix3 b h q) st 1 = 0 := by
      unfold GatherDims.start
      exact dif_neg (by decide)
    rw [hs, Nat.add_zero, Nat.zero_add]
    rfl
  unfold Host.gather
  congr 1
  funext a
  refine Fin.ext ?_
  match a with
  | ⟨0, _⟩ => exact h0
  | ⟨1, _⟩ => exact h1

/-- Where every start index passes the range test the mask is true everywhere. -/
theorem mask_one (idx : IVec S4096x50 32) (hall : ∀ j : S4096x50x1.Idx, inRange idx j = 1#1) (k : S4096x50x128.Idx) :
    mask idx k = 1#1 := by
  unfold mask broadcastInDim
  exact reduce_and_one (inRange idx) _ _ hall _

/-- A word that is not negative, read signed, is the word read as a natural number. -/
theorem toInt_toNat_of_nonneg (w : BitVec 32) (h0 : 0 ≤ w.toInt) : w.toInt.toNat = w.toNat := by
  have hlt := w.isLt
  rw [BitVec.toInt_eq_toNat_cond] at h0 ⊢
  split at h0 <;> rename_i hc
  · rw [if_pos hc]; exact Int.toNat_natCast _
  · exfalso; omega

/-! ## The lookup -/

/-- With every index word in [0, 999] the reference's result is the embedding lookup. -/
theorem out_lookup (idx : IVec S4096x50 32) (tab : FVec F S1002x128 .f32)
    (hidx : ∀ p, 0 ≤ (idx p).toInt ∧ (idx p).toInt ≤ 999) : out idx tab = Cert.Spec.lookup idx tab := by
  funext x
  obtain ⟨b, h, q, rfl⟩ : ∃ b h q, x = ix3 b h q := ⟨x 0, x 1, x 2, eq_ix3 x⟩
  have hw : ∀ z : Fin 1, start idx (ix3 b h z) = idx (ix2 b h) := fun z => by
    rw [start_apply, wrap_apply _ _ (hidx _).1]
  have hall : ∀ j : S4096x50x1.Idx, inRange idx j = 1#1 := fun j => by
    obtain ⟨b', h', z', rfl⟩ : ∃ b' h' z', j = ix3 b' h' z' := ⟨j 0, j 1, j 2, eq_ix3 j⟩
    have e : start idx (ix3 b' h' z') = idx (ix2 b' h') := by rw [start_apply, wrap_apply _ _ (hidx _).1]
    refine inRange_one idx _ ?_ ?_
    · rw [e]; exact (hidx _).1
    · rw [e]; have := (hidx (ix2 b' h')).2; omega
  have hm : mask idx (ix3 b h q) = 1#1 := mask_one idx hall _
  unfold out Cert.Spec.lookup
  rw [select_apply, hm, select_one, gather_apply]
  refine congrArg tab ?_
  have hn := toInt_toNat_of_nonneg _ (hidx (ix2 b h)).1
  have h9 := (hidx (ix2 b h)).2
  funext a
  match a with
  | ⟨0, _⟩ =>
    refine Fin.ext ?_
    show min (start idx (ix3 b h (0 : Fin 1))).toInt.toNat 1001 = min (idx (ix2 b h)).toNat 1001
    rw [hw, hn]
  | ⟨1, _⟩ => rfl

end Cert.RefRun

end
-- ==== Proof.RefLookup.lean ====
/-
  The reference's run read back: the fold of its straight line at the result buffer is the composed function of the two
  arguments, the arguments' buffers are written by no operation, and so, from any memory whose index words all lie in
  [0, 999], every weakly fair execution ends with the embedding lookup in the result buffer and the arguments unchanged.
-/
import proofs.«203285_g23708219474275_cont_8to1_227_19_alg».proof.Proof.RefRun
import proofs.«203285_g23708219474275_cont_8to1_227_19_alg».proof.Proof.RefValue

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The fold at the result buffer is the composed function: each operation's result at its own buffer is its function
    of the operands' contents and at any other buffer what was there; the typed references' transports are the
    identity at literal references. -/
theorem out_eq (V : Valuation τ sig (Elt F)) :
    after ops V (main_v0 : DevRef τ sig) = out (V (main_arg0 : DevRef τ sig)) (V (main_arg1 : DevRef τ sig)) := by
  after_results
  simp only [TRef.ofBuf, TRef.toBuf, cast_eq]
  rfl

set_option maxRecDepth 8192 in
/-- No operation writes the index list's buffer. -/
theorem arg0_eq (V : Valuation τ sig (Elt F)) :
    after ops V (main_arg0 : DevRef τ sig) = V (main_arg0 : DevRef τ sig) := by
  after_results

set_option maxRecDepth 8192 in
/-- No operation writes the table's buffer. -/
theorem arg1_eq (V : Valuation τ sig (Elt F)) :
    after ops V (main_arg1 : DevRef τ sig) = V (main_arg1 : DevRef τ sig) := by
  after_results

/-- From any memory with zero counters whose index words, read signed, all lie in [0, 999]: every weakly fair execution
    of the reference terminates with the embedding lookup of its arguments in the result buffer and the arguments
    unchanged. -/
theorem run (m' : (l : Loc nD τ sig) → Buf (Elt Ideal) l) (g' : Dev nD → PrngReg)
    (hidx : ∀ (c : Dev nD) p, 0 ≤ (m' ((c.tc : Thread nD τ).loc main_arg0) p).toInt
      ∧ (m' ((c.tc : Thread nD τ).loc main_arg0) p).toInt ≤ 999) :
    θ_run (defs (F := Ideal)) (onTc (τ := τ) (main (F := Ideal))) ⟨m', fun _ => 0, g'⟩ (fun r => ∀ c : Dev nD,
      r.2.mem ((c.tc : Thread nD τ).loc main_v0)
          = Cert.Spec.lookup (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run defs _ _).mono (fun _ h c =>
      ⟨(h c main_v0).trans ((out_eq _).trans (out_lookup _ _ (hidx c))),
        (h c main_arg0).trans (arg0_eq _),
        (h c main_arg1).trans (arg1_eq _)⟩)
    (run_after m' g')

end Cert.RefRun

end
-- ==== Proof.KIClaims.lean ====
/-
  The certificate's claims about the idealized kernel and the reference, assembled from the kernel's run (the launch, over a
  proof of one tile's task), the reference's run, the precondition read as a bound on every index word, and the agreement of
  the host's reading of the flat result with the lookup.
-/
import proofs.«203285_g23708219474275_cont_8to1_227_19_alg».proof.Defs
import proofs.«203285_g23708219474275_cont_8to1_227_19_alg».proof.Proof.KILaunch
import proofs.«203285_g23708219474275_cont_8to1_227_19_alg».proof.Proof.KIParts12
import proofs.«203285_g23708219474275_cont_8to1_227_19_alg».proof.Proof.PreDecode
import proofs.«203285_g23708219474275_cont_8to1_227_19_alg».proof.Proof.Glue
import proofs.«203285_g23708219474275_cont_8to1_227_19_alg».proof.Proof.RefLookup
import proofs.«203285_g23708219474275_cont_8to1_227_19_alg».proof.Proof.Gen.KernelIdeal
import proofs.«203285_g23708219474275_cont_8to1_227_19_alg».proof.Proof.Gen.ReferenceIdeal
import proofs.«203285_g23708219474275_cont_8to1_227_19_alg».proof.Proof.Gen.Pre_input_domain

noncomputable section

namespace Cert.Proof.KI

open Cert.KernelIdeal Cert.KernelIdeal.Gen

open Idealize.ShloMosaic
open Idealize.ShloMosaic.SparseCore (S V T)
open Idealize.SL.Sem

variable {F : FTy → Type}

variable (m : (ℓ : Loc nD τ sig) → Buf (Elt F) ℓ)

/-- Under the precondition every word of the rearranged index list names a row of the table: the rearranged list holds the
    words of the index list, each at some position. -/
theorem idxOK_of_pre [FloatOps F]
    (h : ∀ c : Dev nD, Cert.Pre_input_domain.fn (F := F) (m (a0Loc c)) (m (tabLoc c)) = fun _ => 1#1) : IdxOK m := by
  intro d p
  exact Cert.PreDecode.idx_toNat_lt (m (a0Loc d)) (m (tabLoc d)) (h d) _

section Ideal

variable (htile : ∀ m : (ℓ : Loc nD τ sig) → Buf (Elt Ideal) ℓ, IdxOK m → (K (F := Ideal)).TileObl (D (F := Ideal)) 𝒱 (P m) v₀ 0)
include htile

/-- The idealized kernel runs and leaves its arguments unchanged. -/
theorem frame_ki : Cert.frame_KernelIdeal := fun m g hpre =>
  (θ_run Cert.KernelIdeal.defs _ _).mono (fun _ h c => ⟨(h c).2.1, (h c).2.2⟩)
    (run_main (F := Ideal) m g (htile m (idxOK_of_pre m hpre)))

/-- The idealized kernel and the reference, from memories agreeing on the arguments, both end with the embedding lookup
    of the arguments as their result. -/
theorem algebraic : Cert.algebraic_KernelIdeal_ReferenceIdeal := by
  intro m g m' g' hpre hag
  refine ⟨fun c => Cert.Spec.lookup (m (a0Loc c)) (m (tabLoc c)), ?_, ?_⟩
  · refine (θ_run Cert.KernelIdeal.defs _ _).mono (fun _ h c => ?_) (run_main (F := Ideal) m g (htile m (idxOK_of_pre m hpre)))
    obtain ⟨h4, h0, h1⟩ := h c
    refine ⟨h4.trans ?_, h0, h1⟩
    show Cert.Spec.unflat (OUT m c) = Cert.Spec.lookup (m (a0Loc c)) (m (tabLoc c))
    unfold OUT IW
    exact Cert.Spec.unflat_flatLookup _ _
  · have hidx : ∀ (c : Dev Cert.ReferenceIdeal.nD) p,
        0 ≤ (m' ((c.tc : Thread Cert.ReferenceIdeal.nD Cert.ReferenceIdeal.τ).loc Cert.ReferenceIdeal.main_arg0) p).toInt
          ∧ (m' ((c.tc : Thread Cert.ReferenceIdeal.nD Cert.ReferenceIdeal.τ).loc Cert.ReferenceIdeal.main_arg0) p).toInt ≤ 999 := fun c p => by
      rw [(hag c).1]; exact Cert.PreDecode.idx_range _ _ (hpre c) p
    refine (θ_run Cert.ReferenceIdeal.defs _ _).mono (fun _ h c => ?_) (Cert.RefRun.run m' g' hidx)
    obtain ⟨hv, h0, h1⟩ := h c
    refine ⟨hv.trans ?_, h0, h1⟩
    rw [(hag c).1, (hag c).2]

end Ideal

/-- The reference runs and leaves its arguments unchanged. -/
theorem frame_ri : Cert.frame_ReferenceIdeal := fun m g hpre =>
  (θ_run Cert.ReferenceIdeal.defs _ _).mono (fun _ h c => ⟨(h c).2.1, (h c).2.2⟩)
    (Cert.RefRun.run m g (fun c p => Cert.PreDecode.idx_range _ _ (hpre c) p))

end Cert.Proof.KI

end
-- ==== Proof.KNSetup.lean ====
/-
  The embedding-lookup kernel on the SparseCores: the program as the launch theorem sees it, and what its threads exchange.

  Thirty-two tiles (sixteen on each of two SparseCores) each look up 6400 rows. Tile s of SparseCore c is worker
  w = 2 s + c: it reads run w of the rearranged index list and writes rows 6400 w … 6400 w + 6399 of the flat result.
  Tile 0 of each SparseCore first copies the table into the SparseCore's shared vector memory; all sixteen tiles then meet
  at the subcore barrier, after which each of them reads the shared copy. So the barrier carries the table: tile 0's
  arrival on tile j's barrier cell hands over a read share of the shared copy holding the table; the other arrivals hand
  over nothing.

  What the call is handed: every run of the rearranged index list and every 6400-row part of the flat result (each to its
  worker), a read share of the table per SparseCore (to its tile 0), and the SparseCore's shared memory (to its tile 0).
  What comes back: the same, the parts of the flat result now holding the looked-up rows, the shared memory holding the
  table.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«203285_g23708219474275_cont_8to1_227_19_alg».proof.Proof.Gen.Kernel
import proofs.«203285_g23708219474275_cont_8to1_227_19_alg».proof.Proof.Gen.Kernel.Skeleton
import proofs.«203285_g23708219474275_cont_8to1_227_19_alg».proof.Proof.Spec

noncomputable section

namespace Cert.Proof.KN

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and their pieces -/

variable (m : (ℓ : Loc nD τ sig) → Buf (Elt F) ℓ) (ρ : Dev nD → PrngReg)

theorem nSub_eq : τ.nSub = 16 := rfl
theorem nSC_eq : τ.nSC = 2 := rfl

/-- The index list, the table, the rearranged index list, the flat result, and the two arrays the host makes of it. -/
abbrev a0Loc (d : Dev nD) : Loc nD τ sig := (SparseCore.T d).loc main_arg0
abbrev tabLoc (d : Dev nD) : Loc nD τ sig := (SparseCore.T d).loc main_arg1
abbrev v0Loc (d : Dev nD) : Loc nD τ sig := (SparseCore.T d).loc main_v0
abbrev iwLoc (d : Dev nD) : Loc nD τ sig := (SparseCore.T d).loc main_v1
abbrev outLoc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4

/-- SparseCore `c`'s shared vector memory, as every tile of it addresses it. -/
abbrev shRef (c : Fin τ.nSC) : DevRef τ sig := ⟨.shared, ⟨0, by decide⟩, c⟩
abbrev shLoc (d : Dev nD) (c : Fin τ.nSC) : Loc nD τ sig := (d, shRef c)

/-- What the rearranged index list holds when the kernel is called, and what the flat result holds when it ends. -/
def IW (d : Dev nD) : Buf (Elt F) (iwLoc d) := Cert.Spec.idxW (m (a0Loc d))
def OUT (d : Dev nD) : Buf (Elt F) (outLoc d) := Cert.Spec.flatLookup (IW m d) (m (tabLoc d))
/-- The table, as the contents of a SparseCore's shared memory. -/
def TABsh (d : Dev nD) (c : Fin τ.nSC) : Buf (Elt F) (shLoc d c) := fun i => m (tabLoc d) i

local notation "iwV" => (Memref.whole Cert.Kernel.main_v1_scv : Memref Cert.Kernel.sig Kind.scVector Space.hbm Cert.Kernel.S32x6400 EltTy.i32)
local notation "tabV" => (Memref.whole Cert.Kernel.main_arg1_scv : Memref Cert.Kernel.sig Kind.scVector Space.hbm Cert.Kernel.S1002x128 EltTy.f32)
local notation "outV" => (Memref.whole Cert.Kernel.main_v2_scv : Memref Cert.Kernel.sig Kind.scVector Space.hbm Cert.Kernel.S204800x128 EltTy.f32)
local notation "shV" => (Memref.whole Cert.Kernel.cc0_scratch2 : Memref Cert.Kernel.sig Kind.scVector Space.shared Cert.Kernel.S1002x128 EltTy.f32)
local notation "ivV" => (Memref.whole Cert.Kernel.cc0_scratch0 : Memref Cert.Kernel.sig Kind.scVector Space.vmem Cert.Kernel.S6400 EltTy.i32)
local notation "rvV" => (Memref.whole Cert.Kernel.cc0_scratch1 : Memref Cert.Kernel.sig Kind.scVector Space.vmem Cert.Kernel.S6x128x128 EltTy.f32)

theorem hdivIw : 32 ∣ S32x6400.size 0 := ⟨1, rfl⟩
theorem hdivOut : 32 ∣ S204800x128.size 0 := ⟨6400, rfl⟩
/-- Run `w` of the rearranged index list; part `w` (6400 rows) of the flat result. -/
abbrev iwRow (w : Fin 32) : Rect S32x6400 := Rect.part (s := S32x6400) (a₀ := 0) hdivIw w
abbrev outPart (w : Fin 32) : Rect S204800x128 := Rect.part (s := S204800x128) (a₀ := 0) hdivOut w
abbrev iwRowSet (w : Fin 32) : Finset S32x6400.Idx := ((iwV).view.slice (iwRow w)).set
abbrev outPartSet (w : Fin 32) : Finset S204800x128.Idx := ((outV).view.slice (outPart w)).set

/-- The worker number of tile `i` of SparseCore `c`. -/
def wid (c : Fin τ.nSC) (i : Fin 16) : Fin 32 := ⟨2 * i.val + c.val, by have h : c.val < 2 := c.isLt; omega⟩

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile `j`'s read share of its SparseCore's shared memory, holding the table. -/
abbrev shTokPts (d : Dev nD) (c : Fin τ.nSC) (j : Fin 16) : sProp 𝕄 :=
  shLoc d c ↦{Transfers.shareTok fullShare 16 j} TABsh m d c

/-- What a duty in tile `j`'s round hands over: tile 0's, tile `j`'s read share of the shared memory holding the table;
    the others', nothing. -/
def bPay (g : GSem nD τ sig) (n : ℕ) : sProp 𝕄 :=
  match g with
  | ((d, .scVector c j), _) => if n = 0 then shTokPts m d c (Fin.cast nSub_eq j) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's barrier kit: what the launch deals its proof -/

/-- Tile `(c, i)`'s barrier kit: every tile's cell invariant of its SparseCore and that each has reached round 0, its own
    position at the origin of round 0, its duty token in every tile's round 0, and the credit for the sixteen units of its
    own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

abbrev iwRowPts (d : Dev nD) (w : Fin 32) : sProp 𝕄 := iwLoc d ↦[iwRowSet w]{fullShare} IW m d
abbrev outPartPts (d : Dev nD) (w : Fin 32) (f : Buf (Elt F) (outLoc d)) : sProp 𝕄 := outLoc d ↦[outPartSet w]{fullShare} f
/-- SparseCore `c`'s read share of the table. -/
abbrev tabTokPts (d : Dev nD) (c : Fin τ.nSC) : sProp 𝕄 := tabLoc d ↦{Transfers.shareTok fullShare 2 (Fin.cast nSC_eq c)} m (tabLoc d)

/-- What tile 0 of a SparseCore is handed beyond its run and part: the table's share and the shared memory. -/
def lead0 (d : Dev nD) (c : Fin τ.nSC) (i : Fin 16) : sProp 𝕄 :=
  if i.val = 0 then iprop(tabTokPts m d c ∗ ∃ f, shLoc d c ↦{fullShare} f) else iprop(emp)
/-- What it hands back: the table's share, and what is left of the shared memory beside the sixteen read shares. -/
def lead1 (d : Dev nD) (c : Fin τ.nSC) (i : Fin 16) : sProp 𝕄 :=
  if i.val = 0 then iprop(tabTokPts m d c ∗ shLoc d c ↦{Transfers.shareDrop fullShare 16} TABsh m d c) else iprop(emp)

/-- What a tile's task starts from, and what it ends with. -/
def goRes (d : Dev nD) (c : Fin τ.nSC) (i : Fin 16) : sProp 𝕄 :=
  iprop(iwRowPts m d (wid c i) ∗ outPartPts d (wid c i) (m (outLoc d)) ∗ lead0 m d c i)
def tdRes (d : Dev nD) (c : Fin τ.nSC) (i : Fin 16) : sProp 𝕄 :=
  iprop(iwRowPts m d (wid c i) ∗ outPartPts d (wid c i) (OUT m d) ∗ shTokPts m d c i ∗ lead1 m d c i)
/-- What a SparseCore's part of the call starts from, and what it ends with. -/
def stRes (d : Dev nD) (c : Fin τ.nSC) : sProp 𝕄 :=
  iprop((bigSep Finset.univ fun i : Fin 16 => iprop(iwRowPts m d (wid c i) ∗ outPartPts d (wid c i) (m (outLoc d)))) ∗ tabTokPts m d c)
def dnRes (d : Dev nD) (c : Fin τ.nSC) : sProp 𝕄 :=
  iprop((bigSep Finset.univ fun i : Fin 16 => iprop(iwRowPts m d (wid c i) ∗ outPartPts d (wid c i) (OUT m d))) ∗ tabTokPts m d c)

/-- The one call: each SparseCore its workers' runs and parts and its share of the table; each task its run and part
    (tile 0 also the table's share and the shared memory); each task's proof consumes its barrier kit; each tile owes its
    arrivals. -/
def P : (K (F := F)).Pay (nD := nD) (Val := Elt F) (Name := ℕ) (U := UU) where
  st := fun q d c => match q with | 0 => stRes m d (coreOf c)
  dn := fun q d c => match q with | 0 => dnRes m d (coreOf c)
  go := fun q d c i => match q with | 0 => goRes m d (coreOf c) (Fin.cast nSub_zero i)
  td := fun q d c i => match q with | 0 => tdRes m d (coreOf c) (Fin.cast nSub_zero i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance lead0_storable (d : Dev nD) (c : Fin τ.nSC) (i : Fin 16) : BI.Storable (upEmb : UEmb _ 𝕄) (lead0 m d c i) := by
  unfold lead0; split <;> infer_instance
instance lead1_storable (d : Dev nD) (c : Fin τ.nSC) (i : Fin 16) : BI.Storable (upEmb : UEmb _ 𝕄) (lead1 m d c i) := by
  unfold lead1; split <;> infer_instance

instance P_storable : (P (F := F) m).IsStorable where
  st q d c := match q with
    | 0 => by show BI.Storable upEmb (stRes m d (coreOf c)); unfold stRes; infer_instance
  dn q d c := match q with
    | 0 => by show BI.Storable upEmb (dnRes m d (coreOf c)); unfold dnRes; infer_instance
  go q d c i := match q with
    | 0 => by show BI.Storable upEmb (goRes m d (coreOf c) (Fin.cast nSub_zero i)); unfold goRes; infer_instance
  td q d c i := match q with
    | 0 => by show BI.Storable upEmb (tdRes m d (coreOf c) (Fin.cast nSub_zero i)); unfold tdRes; infer_instance

end Cert.Proof.KN

end
-- ==== Proof.KNLaunchA.lean ====
/-
  The launch of the embedding-lookup kernel, first half: how a SparseCore's share of the call is dealt to its sixteen tasks
  and gathered from them, and the launch element of the ghost state (the barrier cells' rounds, funded and dealt to the tiles).
-/
import proofs.«203285_g23708219474275_cont_8to1_227_19_alg».proof.Proof.KNSetup

noncomputable section

namespace Cert.Proof.KN

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## A SparseCore's operands to its tasks, and back -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- What only tile 0 is handed, summed over the sixteen tiles, is that. -/
theorem bigSep_lead (X : sProp 𝕄) : (bigSep Finset.univ fun i : Fin 16 => if i.val = 0 then X else iprop(emp)) = X := by
  have h : (bigSep ((Finset.univ : Finset (Fin 16)).erase 0) fun i : Fin 16 => if i.val = 0 then X else iprop(emp))
      = bigSep ((Finset.univ : Finset (Fin 16)).erase 0) fun _ => iprop(emp) :=
    bigSep_congr fun i hi => if_neg (fun h => (Finset.mem_erase.mp hi).1 (Fin.ext h))
  rw [show (Finset.univ : Finset (Fin 16)) = insert 0 (Finset.univ.erase 0) from (Finset.insert_erase (Finset.mem_univ _)).symm,
    SparseCore.bigSep_insert' (Finset.notMem_erase _ _), h, bigSep_emp', if_pos (show ((0 : Fin 16).val = 0) from rfl)]
  exact equiv_iff.mp Idealize.SL.BI.sep_emp

omit [FloatOps F] in
theorem lead0_all (d : Dev nD) (c : Fin τ.nSC) :
    (bigSep Finset.univ fun i : Fin 16 => lead0 m d c i) = iprop(tabTokPts m d c ∗ ∃ f, shLoc d c ↦{fullShare} f) := by
  unfold lead0; exact bigSep_lead _
omit [FloatOps F] in
theorem lead1_all (d : Dev nD) (c : Fin τ.nSC) :
    (bigSep Finset.univ fun i : Fin 16 => lead1 m d c i) = iprop(tabTokPts m d c ∗ shLoc d c ↦{Transfers.shareDrop fullShare 16} TABsh m d c) := by
  unfold lead1; exact bigSep_lead _

omit [FloatOps F] in
/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop(stRes m d (coreOf c) ∗ ownBufs (S d (coreOf c))) ⊢ |={Set.univ}=> iprop(
      (bigSep Finset.univ fun i : Fin ((K (F := F)).nSub 0) => goRes m d (coreOf c) (Fin.cast nSub_zero i))
      ∗ ((bigSep Finset.univ fun i : Fin ((K (F := F)).nSub 0) => tdRes m d (coreOf c) (Fin.cast nSub_zero i))
          -∗ iprop(dnRes m d (coreOf c) ∗ ownBufs (S d (coreOf c)))))
  rw [bigSep_tasks (F := F) (goRes m d (coreOf c)), bigSep_tasks (F := F) (tdRes m d (coreOf c))]
  generalize coreOf c = c'
  unfold stRes dnRes goRes tdRes
  simp only [bigSep_sep']
  rw [ownBufs_S, lead0_all, lead1_all]
  iintro ⟨⟨⟨Hiw, Hout⟩, Htab⟩, Hsh, Hrest⟩; imodintro
  isplitl [Hiw Hout Htab Hsh]
  · isplitl [Hiw]; · iexact Hiw
    isplitl [Hout]; · iexact Hout
    isplitl [Htab]; · iexact Htab
    iexact Hsh
  iintro ⟨Hiw, Hout, Htoks, Htab, Hdrop⟩
  isplitl [Hiw Hout Htab]
  · isplitl [Hiw Hout]
    · isplitl [Hiw]; · iexact Hiw
      iexact Hout
    iexact Htab
  isplitl [Htoks Hdrop]
  · iexists (TABsh m d c')
    iapply (Transfers.pointsTo_toks_join (ℓ := shLoc d c') (S := Finset.univ) (f := TABsh m d c') fullShare 16)
    isplitl [Hdrop]; · iexact Hdrop
    iexact Htoks
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each tile the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

end Cert.Proof.KN

end
-- ==== Proof.KNLaunch.lean ====
/-
  The launch of the embedding-lookup kernel, second half: @main on the TensorCore (the two host operations that rearrange
  the index list, the call, the two that rearrange the flat result), what the final memory says, and the program's run.
-/
import proofs.«203285_g23708219474275_cont_8to1_227_19_alg».proof.Proof.KNLaunchA

noncomputable section

namespace Cert.Proof.KN

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The runs of the rearranged index list and the parts of the flat result: split and join -/

omit [FloatOps F] in
theorem iwRowSet_eq (w : Fin 32) : iwRowSet w = (iwRow w).set := by
  show ((View.whole (main_v1_scv : Ref sig .scVector)).slice (iwRow w)).set = _
  rw [View.set_slice]; exact Finset.map_refl
omit [FloatOps F] in
theorem outPartSet_eq (w : Fin 32) : outPartSet w = (outPart w).set := by
  show ((View.whole (main_v2_scv : Ref sig .scVector)).slice (outPart w)).set = _
  rw [View.set_slice]; exact Finset.map_refl
omit [FloatOps F] in
theorem iw_disjoint : ∀ i ∈ (Finset.univ : Finset (Fin 32)), ∀ j ∈ (Finset.univ : Finset (Fin 32)), i ≠ j → Disjoint (iwRowSet i) (iwRowSet j) :=
  fun i _ j _ h => by rw [iwRowSet_eq, iwRowSet_eq]; exact Rect.part_disjoint hdivIw h
omit [FloatOps F] in
theorem out_disjoint : ∀ i ∈ (Finset.univ : Finset (Fin 32)), ∀ j ∈ (Finset.univ : Finset (Fin 32)), i ≠ j → Disjoint (outPartSet i) (outPartSet j) :=
  fun i _ j _ h => by rw [outPartSet_eq, outPartSet_eq]; exact Rect.part_disjoint hdivOut h
omit [FloatOps F] in
theorem iw_cover : (Finset.univ : Finset (Fin 32)).biUnion iwRowSet = Finset.univ :=
  (Finset.biUnion_congr rfl fun i _ => iwRowSet_eq i).trans (Rect.biUnion_part hdivIw)
omit [FloatOps F] in
theorem out_cover : (Finset.univ : Finset (Fin 32)).biUnion outPartSet = Finset.univ :=
  (Finset.biUnion_congr rfl fun i _ => outPartSet_eq i).trans (Rect.biUnion_part hdivOut)

omit [FloatOps F] in
theorem iwPts_rows (d : Dev nD) (f : Buf (Elt F) (iwLoc d)) :
    (iwLoc d ↦{fullShare} f : sProp 𝕄) = bigSep Finset.univ fun w : Fin 32 => iwLoc d ↦[iwRowSet w]{fullShare} f := by
  rw [← pointsTo_biUnion Finset.univ (ℓ := iwLoc d) iwRowSet iw_disjoint, iw_cover]; try rfl
omit [FloatOps F] in
theorem outPts_parts (d : Dev nD) (f : Buf (Elt F) (outLoc d)) :
    (outLoc d ↦{fullShare} f : sProp 𝕄) = bigSep Finset.univ fun w : Fin 32 => outLoc d ↦[outPartSet w]{fullShare} f := by
  rw [← pointsTo_biUnion Finset.univ (ℓ := outLoc d) outPartSet out_disjoint, out_cover]; try rfl

/-- Workers by SparseCore and tile: the pair (c, i) is worker 2 i + c. -/
def widEquiv : Fin τ.nSC × Fin 16 ≃ Fin 32 where
  toFun p := wid p.1 p.2
  invFun w := (⟨w.val % 2, Nat.mod_lt _ (by decide)⟩, ⟨w.val / 2, by have h : w.val < 32 := w.isLt; omega⟩)
  left_inv p := by
    obtain ⟨c, i⟩ := p
    have hc : c.val < 2 := c.isLt
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

omit [FloatOps F] in
theorem bigSep_wid (Φ : Fin 32 → sProp 𝕄) :
    bigSep Finset.univ Φ = bigSep Finset.univ fun c : Fin τ.nSC => bigSep Finset.univ fun i : Fin 16 => Φ (wid c i) := by
  rw [bigSep_univ_equiv widEquiv Φ, bigSep_univ_prod]; rfl

/-- Every SparseCore's runs, parts and share of the table are the rearranged index list whole, the flat result whole and
    the two shares of the table. -/
theorem res_all (d : Dev nD) (f : Buf (Elt F) (outLoc d)) :
    (bigSep Finset.univ fun c : Fin τ.nSC => iprop((bigSep Finset.univ fun i : Fin 16 => iprop(iwRowPts m d (wid c i) ∗ outPartPts d (wid c i) f)) ∗ tabTokPts m d c))
      = iprop((iwLoc d ↦{fullShare} IW m d) ∗ (outLoc d ↦{fullShare} f) ∗ bigSep Finset.univ fun c : Fin τ.nSC => tabTokPts m d c) := by
  rw [iwPts_rows, outPts_parts, bigSep_wid (fun w => iwLoc d ↦[iwRowSet w]{fullShare} IW m d), bigSep_wid (fun w => outLoc d ↦[outPartSet w]{fullShare} f)]
  simp only [bigSep_sep']
  exact equiv_iff.mp ⟨Idealize.SL.BI.sep_assoc, Idealize.SL.BI.sep_assoc'⟩

theorem st0_eq (d : Dev nD) : (bigSep Finset.univ fun c : Fin ((K (F := F)).nCore 0) => (P m).st 0 d c)
    = iprop((iwLoc d ↦{fullShare} IW m d) ∗ (outLoc d ↦{fullShare} m (outLoc d)) ∗ bigSep Finset.univ fun c : Fin τ.nSC => tabTokPts m d c) := by
  rw [← res_all m d (m (outLoc d))]
  exact bigSep_congr fun c _ => congrArg (stRes m d) (Fin.ext rfl)
theorem dn0_eq (d : Dev nD) : (bigSep Finset.univ fun c : Fin ((K (F := F)).nCore 0) => (P m).dn 0 d c)
    = iprop((iwLoc d ↦{fullShare} IW m d) ∗ (outLoc d ↦{fullShare} OUT m d) ∗ bigSep Finset.univ fun c : Fin τ.nSC => tabTokPts m d c) := by
  rw [← res_all m d (OUT m d)]
  exact bigSep_congr fun c _ => congrArg (dnRes m d) (Fin.ext rfl)

omit [FloatOps F] in
theorem tabToks_eq (d : Dev nD) :
    (bigSep Finset.univ fun i : Fin 2 => (tabLoc d ↦{Transfers.shareTok fullShare 2 i} m (tabLoc d) : sProp 𝕄)) = bigSep Finset.univ fun c : Fin τ.nSC => tabTokPts m d c :=
  bigSep_congr fun _ _ => rfl

/-! ## @main on the TensorCore -/

abbrev a0' : DevRef τ sig := Proc.devRef .tc (main_arg0 : Ref sig .tc)
abbrev tab' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev opT1 : HloOp τ sig (Elt F) := StableHlo.unary main_arg0 main_v0 ((transpose S50x4096 [1, 0] · transposes_S4096x50_S50x4096_1_0) : (⟨S4096x50, .i32⟩ : BufTy).Contents (Elt F) → (⟨S50x4096, .i32⟩ : BufTy).Contents (Elt F))
abbrev opR1 : HloOp τ sig (Elt F) := StableHlo.reshape main_v0 main_v1 rfl shapeCasts_S50x4096_S32x6400
abbrev opR2 : HloOp τ sig (Elt F) := StableHlo.reshape main_v2 main_v3 rfl shapeCasts_S204800x128_S50x4096x128
abbrev opT2 : HloOp τ sig (Elt F) := StableHlo.unary main_v3 main_v4 ((transpose S4096x50x128 [1, 0, 2] · transposes_S50x4096x128_S4096x50x128_1_0_2) : (⟨S50x4096x128, .f32⟩ : BufTy).Contents (Elt F) → (⟨S4096x50x128, .f32⟩ : BufTy).Contents (Elt F))

/-- The TensorCore's arrays, all unscoped. -/
abbrev S7 : Finset (DevRef τ sig) := {a0', tab', v0', v1', v2', v3', v4'}

omit [FloatOps F] in
theorem held_S7 (d : Dev nD) (W : Valuation τ sig (Elt F)) :
    (held (T d) S7 W : sProp 𝕄)
      = iprop((a0Loc d ↦{fullShare} W a0') ∗ (tabLoc d ↦{fullShare} W tab') ∗ (v0Loc d ↦{fullShare} W v0') ∗ (iwLoc d ↦{fullShare} W v1')
          ∗ (outLoc d ↦{fullShare} W v2') ∗ (v3Loc d ↦{fullShare} W v3') ∗ v4Loc d ↦{fullShare} W v4') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (tabLoc d ↦{fullShare} W main_arg1) ∗ (v0Loc d ↦{fullShare} W main_v0) ∗ (iwLoc d ↦{fullShare} W main_v1)
          ∗ (outLoc d ↦{fullShare} W main_v2) ∗ (v3Loc d ↦{fullShare} W main_v3) ∗ v4Loc d ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation; the one before the call (the index list transposed, then cut into runs); the one after the call
    (the flat result at the lookup); the one at the end. -/
def V0 (d : Dev nD) : Valuation τ sig (Elt F) := fun b => m (d, b)
def V2 (d : Dev nD) : Valuation τ sig (Elt F) := (opR1 (F := F)).result ((opT1 (F := F)).result (V0 m d))
def V3 (d : Dev nD) : Valuation τ sig (Elt F) := Function.update (V2 m d) v2' (OUT m d)
def V5 (d : Dev nD) : Valuation τ sig (Elt F) := (opT2 (F := F)).result ((opR2 (F := F)).result (V3 m d))

theorem unscoped_held (d : Dev nD) : (unscopedBufs d (fun b => m ((SparseCore.T d).loc b)) : sProp 𝕄) = held (T d) S7 (V0 m d) := by
  rw [unscopedBufs_eq, held_S7]; rfl

theorem V2_of_ne {b : DevRef τ sig} (d : Dev nD) (h0 : b ≠ v0') (h1 : b ≠ v1') : V2 m d b = m (d, b) := by
  unfold V2
  rw [(opR1 (F := F)).result_of_not_mem _ (show b ∉ ({v1'} : Finset (DevRef τ sig)) from fun h => h1 (Finset.mem_singleton.mp h)),
    (opT1 (F := F)).result_of_not_mem _ (show b ∉ ({v0'} : Finset (DevRef τ sig)) from fun h => h0 (Finset.mem_singleton.mp h))]
  rfl
theorem V2_a0 (d : Dev nD) : V2 m d a0' = m (a0Loc d) := V2_of_ne m d (by decide) (by decide)
theorem V2_tab (d : Dev nD) : V2 m d tab' = m (tabLoc d) := V2_of_ne m d (by decide) (by decide)
theorem V2_out (d : Dev nD) : V2 m d v2' = m (outLoc d) := V2_of_ne m d (by decide) (by decide)
/-- Before the call the rearranged index list is the index list transposed and cut into runs. -/
theorem V2_v1 (d : Dev nD) : V2 m d v1' = IW m d := by
  unfold V2 IW
  rw [show (opR1 (F := F)).result ((opT1 (F := F)).result (V0 m d)) v1' = _ from StableHlo.reshape_result main_v0 main_v1 rfl shapeCasts_S50x4096_S32x6400 _ _ _,
    show (opT1 (F := F)).result (V0 m d) v0' = _ from StableHlo.unary_result main_arg0 main_v0 _ _ _ _]
  rfl

theorem held_V2 (d : Dev nD) :
    (held (T d) S7 ((opR1 (F := F)).result ((opT1 (F := F)).result (V0 m d))) : sProp 𝕄)
      = iprop((a0Loc d ↦{fullShare} m (a0Loc d)) ∗ (tabLoc d ↦{fullShare} m (tabLoc d)) ∗ (v0Loc d ↦{fullShare} V2 m d v0') ∗ (iwLoc d ↦{fullShare} IW m d)
          ∗ (outLoc d ↦{fullShare} m (outLoc d)) ∗ (v3Loc d ↦{fullShare} V2 m d v3') ∗ v4Loc d ↦{fullShare} V2 m d v4') := by
  show held (SparseCore.T d) S7 (V2 m d) = _
  rw [held_S7, V2_a0, V2_tab, V2_v1, V2_out]

theorem V3_of_ne {b : DevRef τ sig} (d : Dev nD) (h : b ≠ v2') : V3 m d b = V2 m d b := Function.update_of_ne h _ _
theorem V3_v2 (d : Dev nD) : V3 m d v2' = OUT m d := Function.update_self _ _ _
theorem V3_a0 (d : Dev nD) : V3 m d a0' = m (a0Loc d) := (V3_of_ne m d (by decide)).trans (V2_a0 m d)
theorem V3_tab (d : Dev nD) : V3 m d tab' = m (tabLoc d) := (V3_of_ne m d (by decide)).trans (V2_tab m d)
theorem V3_v0 (d : Dev nD) : V3 m d v0' = V2 m d v0' := V3_of_ne m d (by decide)
theorem V3_v1 (d : Dev nD) : V3 m d v1' = IW m d := (V3_of_ne m d (by decide)).trans (V2_v1 m d)
theorem V3_v3 (d : Dev nD) : V3 m d v3' = V2 m d v3' := V3_of_ne m d (by decide)
theorem V3_v4 (d : Dev nD) : V3 m d v4' = V2 m d v4' := V3_of_ne m d (by decide)

theorem held_V3 (d : Dev nD) :
    (held (T d) S7 (V3 m d) : sProp 𝕄)
      = iprop((a0Loc d ↦{fullShare} m (a0Loc d)) ∗ (tabLoc d ↦{fullShare} m (tabLoc d)) ∗ (v0Loc d ↦{fullShare} V2 m d v0') ∗ (iwLoc d ↦{fullShare} IW m d)
          ∗ (outLoc d ↦{fullShare} OUT m d) ∗ (v3Loc d ↦{fullShare} V2 m d v3') ∗ v4Loc d ↦{fullShare} V2 m d v4') := by
  rw [held_S7, V3_a0, V3_tab, V3_v0, V3_v1, V3_v2, V3_v3, V3_v4]

theorem V5_of_ne {b : DevRef τ sig} (d : Dev nD) (h3 : b ≠ v3') (h4 : b ≠ v4') : V5 m d b = V3 m d b := by
  unfold V5
  rw [(opT2 (F := F)).result_of_not_mem _ (show b ∉ ({v4'} : Finset (DevRef τ sig)) from fun h => h4 (Finset.mem_singleton.mp h)),
    (opR2 (F := F)).result_of_not_mem _ (show b ∉ ({v3'} : Finset (DevRef τ sig)) from fun h => h3 (Finset.mem_singleton.mp h))]
theorem V5_a0 (d : Dev nD) : V5 m d a0' = m (a0Loc d) := (V5_of_ne m d (by decide) (by decide)).trans (V3_a0 m d)
theorem V5_tab (d : Dev nD) : V5 m d tab' = m (tabLoc d) := (V5_of_ne m d (by decide) (by decide)).trans (V3_tab m d)
/-- At the end the result is the flat result read as a three-dimensional array and transposed. -/
theorem V5_v4 (d : Dev nD) : V5 m d v4' = (Cert.Spec.unflat (OUT m d) : Buf (Elt F) (v4Loc d)) := by
  unfold V5
  rw [show (opT2 (F := F)).result ((opR2 (F := F)).result (V3 m d)) v4' = _ from StableHlo.unary_result main_v3 main_v4 _ _ _ _,
    show (opR2 (F := F)).result (V3 m d) v3' = _ from StableHlo.reshape_result main_v2 main_v3 rfl shapeCasts_S204800x128_S50x4096x128 _ _ _,
    V3_v2 m d]
  rfl

/-- What @main leaves the claim: the index list and the table as launched, the result at the lookup. -/
abbrev FIN (d : Dev nD) : sProp 𝕄 :=
  iprop((a0Loc d ↦{fullShare} m (a0Loc d)) ∗ (tabLoc d ↦{fullShare} m (tabLoc d)) ∗ (v4Loc d ↦{fullShare} (Cert.Spec.unflat (OUT m d) : Buf (Elt F) (v4Loc d))))

theorem held_V5 (d : Dev nD) :
    (held (T d) S7 ((opT2 (F := F)).result ((opR2 (F := F)).result (V3 m d))) : sProp 𝕄)
      = iprop(FIN m d ∗ held (T d) (S7 \ {a0', tab', v4'}) (V5 m d)) := by
  show held (SparseCore.T d) S7 (V5 m d) = _
  have h : (held (T d) ({a0', tab', v4'} : Finset (DevRef τ sig)) (V5 m d) : sProp 𝕄) = FIN m d := by
    unfold held
    rw [SparseCore.bigSep_insert' (by decide), SparseCore.bigSep_insert' (by decide), bigSep_singleton, V5_a0, V5_tab, V5_v4]
  rw [held_sub_split (T d) (show ({a0', tab', v4'} : Finset (DevRef τ sig)) ⊆ S7 by decide), h]

theorem hT1 : (opT1 (F := F)).bufs ⊆ S7 := show ({a0', v0'} : Finset (DevRef τ sig)) ⊆ S7 by decide
theorem hR1 : (opR1 (F := F)).bufs ⊆ S7 := show ({v0', v1'} : Finset (DevRef τ sig)) ⊆ S7 by decide
theorem hR2 : (opR2 (F := F)).bufs ⊆ S7 := show ({v2', v3'} : Finset (DevRef τ sig)) ⊆ S7 by decide
theorem hT2 : (opT2 (F := F)).bufs ⊆ S7 := show ({v3', v4'} : Finset (DevRef τ sig)) ⊆ S7 by decide

/-- @main on device `d`'s TensorCore: the index list transposed and cut into runs; the call, handed every run and every
    part of the flat result by SparseCore and tile and the table's two read shares; the flat result read as a
    three-dimensional array and transposed. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opT1) (S := S7) hT1 (V := V0 m d)) $$ [Hb Hheld]
  · isplitl [Hb] <;> iassumption
  iintro ⟨Hb, Hheld⟩
  rw [wp_ret]; imodintro
  iapply (wp_hlo_within 𝒱 (SparseCore.T d) none Set.univ (op := opR1) (S := S7) hR1 (V := (opT1 (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ha0, Htab, Hv0, Hiw, Hout, Hv3, Hv4⟩
  ihave Htab' := (Transfers.pointsTo_toks_split (ℓ := tabLoc d) (S := Finset.univ) (f := m (tabLoc d)) fullShare 2) $$ Htab
  icases Htab' with ⟨Hdrop, Htoks⟩
  ihave Htoks' := (Entails.of_eq (tabToks_eq (F := F) m d)) $$ Htoks
  iapply ((K (F := F)).wp_run (D (F := F)) 𝒱 (EH := EH) (P := P m) κ d 0) $$ [Hst Hiw Hout Htoks' Hb Ha0 Hv0 Hv3 Hv4 Hdrop]
  isplitr; · iexact Hctx
  isplitl [Hst]; · iexact Hst
  isplitl [Hiw Hout Htoks']
  · rw [st0_eq]
    isplitl [Hiw]; · iexact Hiw
    isplitl [Hout]; · iexact Hout
    iexact Htoks'
  iintro ⟨Hst, Hdn⟩
  ihave Hdn' := (Entails.of_eq (dn0_eq m d)) $$ Hdn
  icases Hdn' with ⟨Hiw, Hout, Htoks⟩
  ihave Htoks' := (Entails.of_eq (tabToks_eq (F := F) m d).symm) $$ Htoks
  ihave Htab := (Transfers.pointsTo_toks_join (ℓ := tabLoc d) (S := Finset.univ) (f := m (tabLoc d)) fullShare 2) $$ [Hdrop Htoks']
  · isplitl [Hdrop] <;> iassumption
  iapply (wp_hlo_within 𝒱 (SparseCore.T d) none Set.univ (op := opR2) (S := S7) hR2 (V := V3 m d)) $$ [Hb Ha0 Htab Hv0 Hiw Hout Hv3 Hv4]
  · isplitl [Hb]; · iexact Hb
    rw [held_V3]
    isplitl [Ha0]; · iexact Ha0
    isplitl [Htab]; · iexact Htab
    isplitl [Hv0]; · iexact Hv0
    isplitl [Hiw]; · iexact Hiw
    isplitl [Hout]; · iexact Hout
    isplitl [Hv3]; · iexact Hv3
    iexact Hv4
  iintro ⟨Hb, Hheld⟩
  rw [wp_ret]; imodintro
  iapply (wp_hlo_within 𝒱 (SparseCore.T d) none Set.univ (op := opT2) (S := S7) hT2 (V := (opR2 (F := F)).result (V3 m d))) $$ [Hb Hheld]
  · isplitl [Hb] <;> iassumption
  iintro ⟨Hb, Hheld⟩
  ihave Hh := (Entails.of_eq (held_V5 (F := F) m d)) $$ Hheld
  icases Hh with ⟨Hfin, -⟩
  rw [wp_ret]; imodintro; imodintro
  isplitl [Hst]; · iexact Hst
  iexact Hfin

/-! ## What the final memory says -/

def fq (d : Dev nD) (s' : Phys nD τ sig (Elt F)) : Prop :=
  s'.mem.mem (v4Loc d) = (Cert.Spec.unflat (OUT m d) : Buf (Elt F) (v4Loc d)) ∧ s'.mem.mem (a0Loc d) = m (a0Loc d) ∧ s'.mem.mem (tabLoc d) = m (tabLoc d)

theorem hfin (d : Dev nD) (s' : Phys nD τ sig (Elt F)) : iprop(FIN m d ∗ SI s') ⊢ (⌜fq m d s'⌝ : sProp 𝕄) := by
  iintro ⟨⟨Ha0, Htab, Hv4⟩, HSI⟩
  icombine HSI Ha0 gives %h0
  icombine HSI Htab gives %h1
  icombine HSI Hv4 gives %h4
  ipureintro
  exact ⟨funext fun i => h4 i (Finset.mem_univ i), funext fun i => h0 i (Finset.mem_univ i), funext fun i => h1 i (Finset.mem_univ i)⟩

/-! ## The program's run -/

abbrev QC : PUnit × MemSt nD τ sig (Elt F) → Prop := fun r =>
  ∀ c : Dev nD, r.2.mem (v4Loc c) = (Cert.Spec.unflat (OUT m c) : Buf (Elt F) (v4Loc c)) ∧ r.2.mem (a0Loc c) = m (a0Loc c) ∧ r.2.mem (tabLoc c) = m (tabLoc c)

theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩
      (fun r => ∀ c : Dev nD, r.2.mem (v4Loc c) = (Cert.Spec.unflat (OUT m c) : Buf (Elt F) (v4Loc c)) ∧ r.2.mem (a0Loc c) = m (a0Loc c) ∧ r.2.mem (tabLoc c) = m (tabLoc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main (fun _ => iprop(emp)) (FIN m) (u₀ (F := F)) (hu₀ m) (hmain m ρ) (fq m) (hfin m) (QC m) (fun _ h => h)

end Cert.Proof.KN

end
-- ==== Proof.KNIdx.lean ====
/-
  The one fact the kernel needs of its index list: every word names a row of the table.
-/
import proofs.«203285_g23708219474275_cont_8to1_227_19_alg».proof.Proof.KNSetup

noncomputable section

namespace Cert.Proof.KN

open Cert.Kernel Cert.Kernel.Gen
open Idealize.ShloMosaic

variable {F : FTy → Type}
variable (m : (ℓ : Loc nD τ sig) → Buf (Elt F) ℓ)

/-- The index words are in range: every word of the rearranged list names a row of the table. -/
def IdxOK : Prop := ∀ (d : Dev nD) p, (IW m d p).toNat < 1002

end Cert.Proof.KN

end
-- ==== Proof.KNViews.lean ====
/-
  The pieces one tile works on, named as the program slices them.

  A tile's row buffer has six slots of 128 rows; its index buffer of 6400 words is read in fifty windows of 128 words;
  its part of the flat result is written in fifty chunks of 128 rows. Chunk j of worker w = 2 s + c starts at row
  6400 w + 128 j = 12800 s + 6400 c + 128 j of the flat result. The tile's twelve ring semaphores are six for the gathers
  and six for the copies out, one of each per slot.
-/
import proofs.«203285_g23708219474275_cont_8to1_227_19_alg».proof.Proof.KNSetup

noncomputable section

namespace Cert.Proof.KN

open Cert.Kernel Cert.Kernel.Gen
open Idealize.ShloMosaic

theorem inbSlot (b : ℕ) (h : b < 6) : ∀ a, (![b, 0, 0] : Fin 3 → Nat) a + S1x128x128.size a ≤ S6x128x128.size a := by
  intro a; fin_cases a
  · show b + 1 ≤ 6; omega
  · show 0 + 128 ≤ 128; omega
  · show 0 + 128 ≤ 128; omega
theorem inbWin (j : ℕ) (h : j < 50) : ∀ a, (![128 * j] : Fin 1 → Nat) a + S128.size a ≤ S6400.size a := by
  intro a; fin_cases a; show 128 * j + 128 ≤ 6400; omega
theorem inbChunk (L : grid0.Coords) (j : ℕ) (h : j < 50) :
    ∀ a, (![12800 * (L 1).val + 6400 * (L 0).val + 128 * j, 0] : Fin 2 → Nat) a + S128x128.size a ≤ S204800x128.size a := by
  have h0 : (L 0).val < 2 := (L 0).isLt
  have h1 : (L 1).val < 16 := (L 1).isLt
  intro a; fin_cases a
  · show 12800 * (L 1).val + 6400 * (L 0).val + 128 * j + 128 ≤ 204800; omega
  · show 0 + 128 ≤ 128; omega
theorem inbSem (b : ℕ) (h : b < 6) : ∀ a, (![b] : Fin 1 → Nat) a + S1.size a ≤ S6.size a := by
  intro a; fin_cases a; show b + 1 ≤ 6; omega

/-- Slot `b` of the row buffer, as a 128 × 128 array. -/
abbrev slotR (b : ℕ) (h : b < 6) : Rect S6x128x128 := Rect.unit (s := S6x128x128) ![b, 0, 0] S1x128x128.size (inbSlot b h)
abbrev slotM (b : ℕ) (h : b < 6) : Memref sig .scVector .vmem S128x128 .f32 :=
  (((Memref.whole cc0_scratch1 : Memref sig .scVector .vmem S6x128x128 .f32).slice (slotR b h) (fun _ => rfl)).squeeze S128x128 squeezes_S1x128x128_S128x128)
/-- Window `j` of the index buffer: words 128 j … 128 j + 127. -/
abbrev winR (j : ℕ) (h : j < 50) : Rect S6400 := Rect.unit (s := S6400) ![128 * j] S128.size (inbWin j h)
abbrev winM (j : ℕ) (h : j < 50) : Memref sig .scVector .vmem S128 .i32 :=
  (Memref.whole cc0_scratch0 : Memref sig .scVector .vmem S6400 .i32).slice (winR j h) (fun _ => rfl)
/-- Chunk `j` of the tile's part of the flat result. -/
abbrev chunkR (L : grid0.Coords) (j : ℕ) (h : j < 50) : Rect S204800x128 :=
  Rect.unit (s := S204800x128) ![12800 * (L 1).val + 6400 * (L 0).val + 128 * j, 0] S128x128.size (inbChunk L j h)
abbrev chunkM (L : grid0.Coords) (j : ℕ) (h : j < 50) : Memref sig .scVector .hbm S128x128 .f32 :=
  (Memref.whole main_v2_scv : Memref sig .scVector .hbm S204800x128 .f32).slice (chunkR L j h) (fun _ => rfl)
/-- The shared copy of the table, as the gathers address it. -/
abbrev shAllM : Memref sig .scVector .shared S1002x128 .f32 :=
  (Memref.whole cc0_scratch2 : Memref sig .scVector .shared S1002x128 .f32).slice (Rect.unit (s := S1002x128) ![0, 0] S1002x128.size inb_S1002x128_S1002x128_0_0) (fun _ => rfl)
/-- The tile's run of the rearranged index list, as the index fetch addresses it. -/
abbrev iwRowM (L : grid0.Coords) : Memref sig .scVector .hbm S6400 .i32 :=
  ((Memref.whole main_v1_scv : Memref sig .scVector .hbm S32x6400 .i32).slice (Rect.unit (s := S32x6400) (k0_off1 L) S1x6400.size (k0_off1_inb L)) (fun _ => rfl)).squeeze S6400 squeezes_S1x6400_S6400
/-- The gather semaphore and the copy-out semaphore of slot `b`. -/
abbrev gSem (b : ℕ) (h : b < 6) : DmaSem sig := ((cc0_scratch3.slice (Rect.unit (s := S6) ![b] S1.size (inbSem b h))).squeeze S_ squeezes_S1_S_).sem
abbrev sSem (b : ℕ) (h : b < 6) : DmaSem sig := ((cc0_scratch4.slice (Rect.unit (s := S6) ![b] S1.size (inbSem b h))).squeeze S_ squeezes_S1_S_).sem

end Cert.Proof.KN

end
-- ==== Proof.KNCtx.lean ====
/-
  The state of one tile's ring between trips.

  The tile looks up its 6400 rows in fifty chunks of 128. Chunk j is gathered from the shared copy of the table into slot
  j mod 6 of the row buffer (its row numbers window j of the index buffer) and then copied out to chunk j of the tile's
  part of the flat result. Gathers run two chunks ahead of the trip; a slot is reused for chunk j + 6 once the copy-out of
  chunk j has been waited for, which happens at trip j + 4 (or, for the last six chunks, after the loop). So before trip k
  a chunk is in one of four states:
    fresh      (k + 2 ≤ j):            nothing started; its window and its chunk of the result are held;
    gathering  (k ≤ j < k + 2):        the gather is in flight; it holds the slot, the window and a read share of the table;
    storing    (min k 48 ≤ j + 4, j < k): the copy-out is in flight; it holds the slot and the chunk of the result;
    done       (j + 4 < min k 48):     the chunk of the result holds the looked-up rows.
  Slots numbered k + 2 and above (only while k < 4) have not been used yet.
-/
import proofs.«203285_g23708219474275_cont_8to1_227_19_alg».proof.Proof.KNViews

noncomputable section

namespace Cert.Proof.KN

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iwV" => (Memref.whole Cert.Kernel.main_v1_scv : Memref Cert.Kernel.sig Kind.scVector Space.hbm Cert.Kernel.S32x6400 EltTy.i32)
local notation "tabV" => (Memref.whole Cert.Kernel.main_arg1_scv : Memref Cert.Kernel.sig Kind.scVector Space.hbm Cert.Kernel.S1002x128 EltTy.f32)
local notation "outV" => (Memref.whole Cert.Kernel.main_v2_scv : Memref Cert.Kernel.sig Kind.scVector Space.hbm Cert.Kernel.S204800x128 EltTy.f32)
local notation "shV" => (Memref.whole Cert.Kernel.cc0_scratch2 : Memref Cert.Kernel.sig Kind.scVector Space.shared Cert.Kernel.S1002x128 EltTy.f32)
local notation "ivV" => (Memref.whole Cert.Kernel.cc0_scratch0 : Memref Cert.Kernel.sig Kind.scVector Space.vmem Cert.Kernel.S6400 EltTy.i32)
local notation "rvV" => (Memref.whole Cert.Kernel.cc0_scratch1 : Memref Cert.Kernel.sig Kind.scVector Space.vmem Cert.Kernel.S6x128x128 EltTy.f32)

variable [FloatOps F]

section Ring

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)
abbrev wL (L : grid0.Coords) : Fin 32 := wid (cV L) (jL L)
/-- The tile's thread. -/
abbrev thrL (d : Dev nD) (L : grid0.Coords) : Thread nD τ := V d (cV L) (jV L)

/-- What the tile's index buffer holds once its run of the rearranged index list has been fetched: word p of the run. -/
def IVf : Buf (Elt F) ((ivV).view.loc (thrL d L)) :=
  fun y => IW m d (ValueIdx.ix2 (wL L) (y 0))

/-- The 128 table rows chunk `j` names: row r of them is the table row named by word 128 j + r of the tile's run. -/
def rowsOf (j : ℕ) (hj : j < 50) : S128x128.Idx → Elt F .f32 :=
  fun x => m (tabLoc d) (ValueIdx.ix2 (Cert.Spec.rowOf (IW m d (ValueIdx.ix2 (wL L) (⟨128 * j + (x 0).val, by have h : (x 0).val < 128 := (x 0).isLt; show 128 * j + (x 0).val < 6400; omega⟩ : Fin 6400)))) (x 1))

/-- The tile's read share of the shared copy of the table, and the part of it a gather into slot `b` borrows. -/
abbrev shQ (L : grid0.Coords) : PosShare TreeShare := Transfers.shareTok fullShare 16 (jL L)
abbrev shTokQ (L : grid0.Coords) (b : ℕ) : PosShare TreeShare := Transfers.shareTokN (shQ L) b
/-- The table, as the contents of the shared memory the tile's gathers address. -/
def TabS : Buf (Elt F) ((shAllM).view.loc (thrL d L)) := fun i => m (tabLoc d) i

abbrev slotPts (b : ℕ) (hb : b < 6) (f : Buf (Elt F) ((slotM b hb).view.loc (thrL d L))) : sProp 𝕄 :=
  (slotM b hb).view.loc (thrL d L) ↦[(slotM b hb).view.set]{fullShare} f
abbrev winPts (j : ℕ) (hj : j < 50) : sProp 𝕄 :=
  (winM j hj).view.loc (thrL d L) ↦[(winM j hj).view.set]{fullShare} IVf m d L
abbrev chunkPts (j : ℕ) (hj : j < 50) (f : Buf (Elt F) ((chunkM L j hj).view.loc (thrL d L))) : sProp 𝕄 :=
  (chunkM L j hj).view.loc (thrL d L) ↦[(chunkM L j hj).view.set]{fullShare} f
abbrev shPts (b : ℕ) : sProp 𝕄 :=
  (shAllM).view.loc (thrL d L) ↦[(shAllM).view.set]{shTokQ L b} TabS m d L
abbrev gSemPts (b : ℕ) (hb : b < 6) : sProp 𝕄 := semVal (thrL d L, SemLoc.dma (gSem b hb)) 0
abbrev sSemPts (b : ℕ) (hb : b < 6) : sProp 𝕄 := semVal (thrL d L, SemLoc.dma (sSem b hb)) 0

theorem mod6 (j : ℕ) : j % 6 < 6 := Nat.mod_lt _ (by decide)

/-- The gather of chunk `j` into slot `b` in flight: at its wait it delivers the slot holding the chunk's rows, the window,
    and the read share of the table. -/
def gFlight (j : ℕ) (hj : j < 50) (b : ℕ) (hb : b < 6) : sProp 𝕄 :=
  iprop(∃ fd : Buf (Elt F) ((slotM b hb).view.loc (thrL d L)), ⌜(slotM b hb).view.read (Elt F) fd = rowsOf m d L j hj⌝
    ∗ Transfers.Flight countersEmb (thrL d L) (SemLoc.dma (gSem b hb)) (default : HIx 1) (slotM b hb).view.dmaCredit
        iprop((slotPts d L b hb fd ∗ winPts m d L j hj) ∗ shPts m d L b))

/-- The copy-out of chunk `j` from slot `b` in flight: at its wait it delivers the chunk of the result holding the chunk's
    rows, and the slot. -/
def sFlight (j : ℕ) (hj : j < 50) (b : ℕ) (hb : b < 6) : sProp 𝕄 :=
  iprop(∃ (fo : Buf (Elt F) ((chunkM L j hj).view.loc (thrL d L))) (fd : Buf (Elt F) ((slotM b hb).view.loc (thrL d L))),
    ⌜(chunkM L j hj).view.read (Elt F) fo = rowsOf m d L j hj⌝
    ∗ Transfers.Flight countersEmb (thrL d L) (SemLoc.dma (sSem b hb)) (default : HIx 1) (chunkM L j hj).view.dmaCredit
        iprop(chunkPts d L j hj fo ∗ slotPts d L b hb fd))

/-- A chunk of the result holding its rows, at some contents elsewhere. -/
def chunkDone (j : ℕ) (hj : j < 50) : sProp 𝕄 :=
  iprop(∃ fo : Buf (Elt F) ((chunkM L j hj).view.loc (thrL d L)), ⌜(chunkM L j hj).view.read (Elt F) fo = rowsOf m d L j hj⌝ ∗ chunkPts d L j hj fo)

/-- The four states of chunk `j` (its slot `b`) before trip `k`. -/
def fresh (j : ℕ) (hj : j < 50) : sProp 𝕄 := iprop(winPts m d L j hj ∗ chunkPts d L j hj (m (outLoc d)))
def gathering (j : ℕ) (hj : j < 50) (b : ℕ) (hb : b < 6) : sProp 𝕄 := iprop(gFlight m d L j hj b hb ∗ chunkPts d L j hj (m (outLoc d)) ∗ sSemPts d L b hb)
def storing (j : ℕ) (hj : j < 50) (b : ℕ) (hb : b < 6) : sProp 𝕄 := iprop(sFlight m d L j hj b hb ∗ winPts m d L j hj ∗ gSemPts d L b hb ∗ shPts m d L b)
def finished (j : ℕ) (hj : j < 50) : sProp 𝕄 := iprop(chunkDone m d L j hj ∗ winPts m d L j hj)

/-- The slot is a number: a state named at an equal slot number is the same state. -/
theorem gathering_slot (j : ℕ) (hj : j < 50) (b b' : ℕ) (hb : b < 6) (hb' : b' < 6) (e : b = b') :
    gathering m d L j hj b hb = gathering m d L j hj b' hb' := by subst e; rfl
theorem storing_slot (j : ℕ) (hj : j < 50) (b b' : ℕ) (hb : b < 6) (hb' : b' < 6) (e : b = b') :
    storing m d L j hj b hb = storing m d L j hj b' hb' := by subst e; rfl

def phase (k : ℕ) (j : Fin 50) : sProp 𝕄 :=
  if k + 2 ≤ j.val then fresh m d L j.val j.isLt
  else if k ≤ j.val then gathering m d L j.val j.isLt (j.val % 6) (mod6 j.val)
  else if min k 48 ≤ j.val + 4 then storing m d L j.val j.isLt (j.val % 6) (mod6 j.val)
  else finished m d L j.val j.isLt

/-- A slot not yet used: its rows at some contents, its two semaphores at zero, its read share of the table. -/
def freeSlot (b : Fin 6) : sProp 𝕄 :=
  iprop((∃ f, slotPts d L b.val b.isLt f) ∗ gSemPts d L b.val b.isLt ∗ sSemPts d L b.val b.isLt ∗ shPts m d L b.val)

/-- The ring before trip `k`. -/
def Ring (k : ℕ) : sProp 𝕄 :=
  iprop((bigSep Finset.univ fun j : Fin 50 => phase m d L k j)
    ∗ (bigSep Finset.univ fun b : Fin 6 => if k + 2 ≤ b.val then freeSlot m d L b else iprop(emp)))

/-- After the loop the copies out of chunks 44 … 49 are waited for in order; after `t` of these waits chunks below 44 + t
    are done and the slots of chunks 44 … 44 + t - 1 are free again (chunk 44 + i uses slot (2 + i) mod 6). -/
def tailPhase (t : ℕ) (j : Fin 50) : sProp 𝕄 :=
  if j.val < 44 + t then finished m d L j.val j.isLt else storing m d L j.val j.isLt (j.val % 6) (mod6 j.val)
def Tail (t : ℕ) : sProp 𝕄 :=
  iprop((bigSep Finset.univ fun j : Fin 50 => tailPhase m d L t j)
    ∗ (bigSep Finset.univ fun b : Fin 6 => if (b.val + 4) % 6 < t then freeSlot m d L b else iprop(emp)))

/-- What passes through the ring unchanged: the tile's run of the index list, what tile 0 holds beside (its share of the
    table in HBM and the rest of the shared memory), the rest of the tile's read share of the shared copy, the two
    semaphores of the fetches, and the tile's other buffers. -/
def Carry : sProp 𝕄 :=
  iprop((iwLoc d ↦[iwRowSet (wL L)]{fullShare} IW m d)
    ∗ lead1 m d (cV L) (jL L)
    ∗ ((shAllM).view.loc (thrL d L) ↦[(shAllM).view.set]{Transfers.shareDrop (shQ L) 6} TabS m d L)
    ∗ semVal (thrL d L, SemLoc.dma cc0_scoped0.sem) 0 ∗ semVal (thrL d L, SemLoc.dma cc0_scoped1.sem) 0
    ∗ bigSep (((ownRefs (τ := τ) (.scVector (cV L) (jV L))).erase ((Proc.scVector (cV L) (jV L)).devRef cc0_scratch0)).erase ((Proc.scVector (cV L) (jV L)).devRef cc0_scratch1))
        fun b => iprop(∃ f, ((d, b) : Loc nD τ sig) ↦{fullShare} f))

/-- The tile between two parts of its program: the levels, the ring in state `R`, what passes through, and what the tile
    owes with the waits recorded so far. -/
def Mid (R : sProp 𝕄) (O : CellTallies nD τ sig (HIx 1)) (W : Waits sig (HIx 1)) : sProp 𝕄 :=
  iprop(levAts (K (F := F)).L (K (F := F)).lev ∗ R ∗ Carry m d L
    ∗ ∃ W', ⌜∀ p ∈ W', p ∈ W ∨ p.2 = none ∨ p.2 = some (0 : Fin 1)⌝ ∗ owes (thrL d L) O W')

end Ring

end Cert.Proof.KN

end
-- ==== Proof.KNSems.lean ====
/-
  What a tile owns when its task starts: its fourteen transfer semaphores at zero, and its two scratch buffers.

  A thread's own scoped cells are those of its semaphores that are scoped on its kind of processor. On a vector subcore
  every transfer semaphore is scoped and no regular semaphore is, so the own cells of tile (c, i) are exactly its fourteen
  transfer semaphores. Its own buffers include the index buffer and the row buffer.
-/
import proofs.«203285_g23708219474275_cont_8to1_227_19_alg».proof.Proof.KNSetup

noncomputable section

namespace Cert.Proof.KN

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- On a vector subcore no regular semaphore is scoped, and every transfer semaphore is. -/
theorem reg_not_scoped : ∀ s : Sem sig, (SemLoc.reg s : SemLoc sig).isScoped .scVector = false := by decide
theorem dma_scoped : ∀ k : DmaSem sig, (SemLoc.dma k : SemLoc sig).isScoped .scVector = true := by decide

/-- The own scoped cells of a tile are its fourteen transfer semaphores. -/
theorem ownCells_V (d : Dev nD) (c : Fin τ.nSC) (i : Fin τ.nSub) :
    (ownCells (V d c i) : Finset (GSem nD τ sig)) = Finset.univ.image fun k : Fin 14 => ((V d c i, SemLoc.dma k) : GSem nD τ sig) := by
  ext g
  rw [mem_ownCells, Finset.mem_image]
  obtain ⟨thr, sm⟩ := g
  constructor
  · rintro ⟨h1, h2⟩
    obtain rfl : thr = V d c i := h1
    cases sm with
    | reg s =>
      have h3 : (SemLoc.reg s : SemLoc sig).isScoped .scVector = true := h2
      rw [reg_not_scoped s] at h3
      exact absurd h3 (by decide)
    | dma k => exact ⟨k, Finset.mem_univ _, rfl⟩
  · rintro ⟨k, -, e⟩
    obtain ⟨rfl, rfl⟩ := Prod.mk.inj e
    exact ⟨rfl, dma_scoped k⟩

/-- A tile's own scoped cells at zero: its fourteen transfer semaphores at zero. -/
theorem ownSems0_V_dma (d : Dev nD) (c : Fin τ.nSC) (i : Fin τ.nSub) :
    (ownSems0 (V d c i) : sProp 𝕄) = bigSep Finset.univ fun k : Fin 14 => semVal (V d c i, SemLoc.dma k) 0 := by
  unfold SparseCore.Cfg.ownSems0
  rw [ownCells_V]
  exact SparseCore.bigSep_image_of_injOn (fun a _ b _ e => SemLoc.dma.inj (Prod.mk.inj e).2) _

/-- All of the fourteen indices, one by one. -/
theorem bigSep_fin14 (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-- The same, the fourteen semaphores one by one. -/
theorem ownSems0_V_list (d : Dev nD) (c : Fin τ.nSC) (i : Fin τ.nSub) :
    (ownSems0 (V d c i) : sProp 𝕄)
      = iprop(semVal (V d c i, SemLoc.dma 0) 0 ∗ semVal (V d c i, SemLoc.dma 1) 0 ∗ semVal (V d c i, SemLoc.dma 2) 0
          ∗ semVal (V d c i, SemLoc.dma 3) 0 ∗ semVal (V d c i, SemLoc.dma 4) 0 ∗ semVal (V d c i, SemLoc.dma 5) 0
          ∗ semVal (V d c i, SemLoc.dma 6) 0 ∗ semVal (V d c i, SemLoc.dma 7) 0 ∗ semVal (V d c i, SemLoc.dma 8) 0
          ∗ semVal (V d c i, SemLoc.dma 9) 0 ∗ semVal (V d c i, SemLoc.dma 10) 0 ∗ semVal (V d c i, SemLoc.dma 11) 0
          ∗ semVal (V d c i, SemLoc.dma 12) 0 ∗ semVal (V d c i, SemLoc.dma 13) 0) := by
  rw [ownSems0_V_dma, bigSep_fin14]

/-- The two scratch buffers are among the tile's own: they are them, at some contents, and the rest. -/
theorem ownBufs_V2 (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase
              ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩)]

end Cert.Proof.KN

end
-- ==== Proof.KNGeom.lean ====
/-
  The program's offsets and conditions in closed form, and its pieces as the named slots, windows and chunks.

  The loop has fifty trips. At trip k the program gathers into slot k mod 6 from window k, copies slot k mod 6 out to chunk
  k, and, while k + 2 < 50, first waits (when 4 ≤ k) for the copy of slot (k + 2) mod 6 out to chunk k − 4 and then gathers
  window k + 2 into that slot. After the loop the copies to chunks 44 … 49 are awaited. The pieces partition the buffers:
  the six slots the row buffer, the fifty windows the index buffer, the fifty chunks the tile's part of the flat result.
-/
import proofs.«203285_g23708219474275_cont_8to1_227_19_alg».proof.Proof.KNViews

set_option synthInstance.maxSize 4096
set_option Elab.async false

noncomputable section

namespace Cert.Proof.KN

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The loop's trips and conditions -/

theorem trips_eq : k0_t1_loop.trips = 50 := by decide +kernel
theorem trip_lt (k : Fin k0_t1_loop.trips) : k.val < 50 := Nat.lt_of_lt_of_le k.isLt (Nat.le_of_eq trips_eq)
theorem cond2_iff : ∀ k : Fin k0_t1_loop.trips, k0_cond2 k = 1#1 ↔ k.val + 2 < 50 := by decide +kernel
theorem cond3_iff : ∀ k : Fin k0_t1_loop.trips, k0_cond3 k = 1#1 ↔ 4 ≤ k.val := by decide +kernel

/-! ## The awaited chunk's offsets -/

theorem k0_off3_eq' : ∀ (i : grid0.Coords) (k : Fin k0_t1_loop.trips), 4 ≤ k.val →
    k0_off3 i k = ![12800 * (i 1).val + 6400 * (i 0).val + 128 * (k.val - 4), 0] := by decide +kernel

/-! ## The program's rectangles are the named pieces -/

/-- The slot gathered into and copied out at trip k. -/
theorem rect_off8 (k : Fin k0_t1_loop.trips) :
    Rect.unit (s := S6x128x128) (k0_off8 k) S1x128x128.size (k0_off8_inb k) = slotR (k.val % 6) (Nat.mod_lt _ (by decide)) :=
  Rect.unit_congr (k0_off8_eq k) _ _
/-- The slot gathered into two trips ahead. -/
theorem rect_off5 (k : Fin k0_t1_loop.trips) (h2 : k0_cond2 k = 1#1) :
    Rect.unit (s := S6x128x128) (k0_off5 k) S1x128x128.size (k0_off5_inb k h2) = slotR ((k.val + 2) % 6) (Nat.mod_lt _ (by decide)) :=
  Rect.unit_congr (k0_off5_eq k) _ _
/-- The slot whose copy out is awaited before that. -/
theorem rect_off2 (k : Fin k0_t1_loop.trips) (h2 : k0_cond2 k = 1#1) (h3 : k0_cond3 k = 1#1) :
    Rect.unit (s := S6x128x128) (k0_off2 k) S1x128x128.size (k0_off2_inb k h2 h3) = slotR ((k.val + 2) % 6) (Nat.mod_lt _ (by decide)) :=
  Rect.unit_congr (k0_off2_eq k) _ _
/-- The window of trip k. -/
theorem rect_off9 (k : Fin k0_t1_loop.trips) :
    Rect.unit (s := S6400) (k0_off9 k) S128.size (k0_off9_inb k) = winR k.val (trip_lt k) :=
  Rect.unit_congr (k0_off9_eq k) _ _
/-- The window two trips ahead. -/
theorem rect_off6 (k : Fin k0_t1_loop.trips) (h2 : k0_cond2 k = 1#1) :
    Rect.unit (s := S6400) (k0_off6 k) S128.size (k0_off6_inb k h2) = winR (k.val + 2) ((cond2_iff k).mp h2) :=
  Rect.unit_congr ((k0_off6_eq k).trans (by rw [show 128 * k.val + 256 = 128 * (k.val + 2) by omega])) _ _
/-- The chunk of trip k. -/
theorem rect_off11 (L : grid0.Coords) (k : Fin k0_t1_loop.trips) :
    Rect.unit (s := S204800x128) (k0_off11 L k) S128x128.size (k0_off11_inb L k) = chunkR L k.val (trip_lt k) :=
  Rect.unit_congr (k0_off11_eq L k) _ _
/-- The chunk whose copy is awaited at trip k: chunk k − 4. -/
theorem rect_off3 (L : grid0.Coords) (k : Fin k0_t1_loop.trips) (h2 : k0_cond2 k = 1#1) (h3 : k0_cond3 k = 1#1) :
    Rect.unit (s := S204800x128) (k0_off3 L k) S128x128.size (k0_off3_inb L k h2 h3)
      = chunkR L (k.val - 4) (Nat.lt_of_le_of_lt (Nat.sub_le _ _) (trip_lt k)) :=
  Rect.unit_congr (k0_off3_eq' L k ((cond3_iff k).mp h3)) _ _
/-- The chunks awaited after the loop: chunk 44 + r. -/
theorem rect_off12 (L : grid0.Coords) (r : Fin 6) :
    Rect.unit (s := S204800x128) (k0_off12 L (BitVec.ofNat 32 (5632 + 128 * r.val))) S128x128.size (k0_off12_inb L r)
      = chunkR L (44 + r.val) (by have := r.isLt; omega) :=
  Rect.unit_congr ((k0_off12_eq L r).trans (by
    rw [show 12800 * (L 1).val + 6400 * (L 0).val + 128 * r.val + 5632 = 12800 * (L 1).val + 6400 * (L 0).val + 128 * (44 + r.val) by omega])) _ _
theorem rect_off12_0 (L : grid0.Coords) : Rect.unit (s := S204800x128) (k0_off12 L 5632#32) S128x128.size (k0_off12_inb L 0) = chunkR L 44 (by decide) := rect_off12 L 0
theorem rect_off12_1 (L : grid0.Coords) : Rect.unit (s := S204800x128) (k0_off12 L 5760#32) S128x128.size (k0_off12_inb L 1) = chunkR L 45 (by decide) := rect_off12 L 1
theorem rect_off12_2 (L : grid0.Coords) : Rect.unit (s := S204800x128) (k0_off12 L 5888#32) S128x128.size (k0_off12_inb L 2) = chunkR L 46 (by decide) := rect_off12 L 2
theorem rect_off12_3 (L : grid0.Coords) : Rect.unit (s := S204800x128) (k0_off12 L 6016#32) S128x128.size (k0_off12_inb L 3) = chunkR L 47 (by decide) := rect_off12 L 3
theorem rect_off12_4 (L : grid0.Coords) : Rect.unit (s := S204800x128) (k0_off12 L 6144#32) S128x128.size (k0_off12_inb L 4) = chunkR L 48 (by decide) := rect_off12 L 4
theorem rect_off12_5 (L : grid0.Coords) : Rect.unit (s := S204800x128) (k0_off12 L 6272#32) S128x128.size (k0_off12_inb L 5) = chunkR L 49 (by decide) := rect_off12 L 5

/-- The semaphores of trip k's slot, and of the slot two trips ahead. -/
theorem sem_off10 (arg : DmaSems sig S6) (k : Fin k0_t1_loop.trips) :
    arg.slice (Rect.unit (s := S6) (k0_off10 k) S1.size (k0_off10_inb k))
      = arg.slice (Rect.unit (s := S6) ![k.val % 6] S1.size (inbSem (k.val % 6) (Nat.mod_lt _ (by decide)))) :=
  SemArray.slice_unit_congr arg (k0_off10_eq k) _ _
theorem sem_off7 (arg : DmaSems sig S6) (k : Fin k0_t1_loop.trips) (h2 : k0_cond2 k = 1#1) :
    arg.slice (Rect.unit (s := S6) (k0_off7 k) S1.size (k0_off7_inb k h2))
      = arg.slice (Rect.unit (s := S6) ![(k.val + 2) % 6] S1.size (inbSem ((k.val + 2) % 6) (Nat.mod_lt _ (by decide)))) :=
  SemArray.slice_unit_congr arg (k0_off7_eq k) _ _
theorem sem_off4 (arg : DmaSems sig S6) (k : Fin k0_t1_loop.trips) (h2 : k0_cond2 k = 1#1) (h3 : k0_cond3 k = 1#1) :
    arg.slice (Rect.unit (s := S6) (k0_off4 k) S1.size (k0_off4_inb k h2 h3))
      = arg.slice (Rect.unit (s := S6) ![(k.val + 2) % 6] S1.size (inbSem ((k.val + 2) % 6) (Nat.mod_lt _ (by decide)))) :=
  SemArray.slice_unit_congr arg (k0_off4_eq k) _ _

end Cert.Proof.KN

end
-- ==== Proof.KNParts.lean ====
/-
  The pieces partition the buffers, and where each piece's elements sit.

  Slot b of the row buffer is the set of elements whose first coordinate is b; window j of the index buffer the words
  128 j … 128 j + 127; chunk j of a tile's part of the flat result the rows base + 128 j … base + 128 j + 127, where
  base = 12800 s + 6400 c = 6400 w is the first row of worker w = 2 s + c. So the six slots are pairwise disjoint and
  cover the row buffer, the fifty windows the index buffer, and the fifty chunks the worker's 6400 rows; a points-to
  assertion over the whole is the separating conjunction of those over the pieces.
-/
import proofs.«203285_g23708219474275_cont_8to1_227_19_alg».proof.Proof.KNGeom
import Idealize.ShloMosaic.Lib.ValueLayout

noncomputable section

namespace Cert.Proof.KN

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iwV" => (Memref.whole Cert.Kernel.main_v1_scv : Memref Cert.Kernel.sig Kind.scVector Space.hbm Cert.Kernel.S32x6400 EltTy.i32)
local notation "outV" => (Memref.whole Cert.Kernel.main_v2_scv : Memref Cert.Kernel.sig Kind.scVector Space.hbm Cert.Kernel.S204800x128 EltTy.f32)
local notation "ivV" => (Memref.whole Cert.Kernel.cc0_scratch0 : Memref Cert.Kernel.sig Kind.scVector Space.vmem Cert.Kernel.S6400 EltTy.i32)
local notation "rvV" => (Memref.whole Cert.Kernel.cc0_scratch1 : Memref Cert.Kernel.sig Kind.scVector Space.vmem Cert.Kernel.S6x128x128 EltTy.f32)

/-! ## The tile of a grid point, and its worker number -/

abbrev pC (L : grid0.Coords) : Fin τ.nSC := (L 0).castLE hcore0
abbrev pJ (L : grid0.Coords) : Fin τ.nSub := (L 1).castLE hsub0
abbrev pW (L : grid0.Coords) : Fin 32 := wid (pC L) (Fin.cast (show grid0.bound 1 = 16 from rfl) (L 1))
theorem pW_val (L : grid0.Coords) : (pW L).val = 2 * (L 1).val + (L 0).val := rfl

/-! ## Which elements a piece holds -/

theorem mem_slotR (b : ℕ) (h : b < 6) (x : S6x128x128.Idx) : x ∈ (slotR b h).set ↔ (x 0).val = b := by
  rw [Rect.mem_set_unit]
  have h1 : (x 1).val < 128 := (x 1).isLt
  have h2 : (x 2).val < 128 := (x 2).isLt
  constructor
  · intro H
    have h0 : b ≤ (x 0).val ∧ (x 0).val < b + 1 := H 0
    omega
  · intro e a
    match a with
    | ⟨0, _⟩ => show b ≤ (x 0).val ∧ (x 0).val < b + 1; omega
    | ⟨1, _⟩ => show 0 ≤ (x 1).val ∧ (x 1).val < 0 + 128; omega
    | ⟨2, _⟩ => show 0 ≤ (x 2).val ∧ (x 2).val < 0 + 128; omega

theorem mem_winR (j : ℕ) (h : j < 50) (x : S6400.Idx) : x ∈ (winR j h).set ↔ 128 * j ≤ (x 0).val ∧ (x 0).val < 128 * j + 128 := by
  rw [Rect.mem_set_unit]
  constructor
  · intro H
    exact H 0
  · intro e a
    match a with
    | ⟨0, _⟩ => exact e

theorem mem_chunkR (L : grid0.Coords) (j : ℕ) (h : j < 50) (x : S204800x128.Idx) :
    x ∈ (chunkR L j h).set ↔ 12800 * (L 1).val + 6400 * (L 0).val + 128 * j ≤ (x 0).val
      ∧ (x 0).val < 12800 * (L 1).val + 6400 * (L 0).val + 128 * j + 128 := by
  rw [Rect.mem_set_unit]
  have h1 : (x 1).val < 128 := (x 1).isLt
  constructor
  · intro H
    exact H 0
  · intro e a
    match a with
    | ⟨0, _⟩ => exact e
    | ⟨1, _⟩ => show 0 ≤ (x 1).val ∧ (x 1).val < 0 + 128; omega

theorem mem_outPart (w : Fin 32) (x : S204800x128.Idx) :
    x ∈ (outPart w).set ↔ 6400 * w.val ≤ (x 0).val ∧ (x 0).val < 6400 * w.val + 6400 := by
  rw [Rect.mem_set_unit]
  have h1 : (x 1).val < 128 := (x 1).isLt
  constructor
  · intro H
    have h0 : w.val * (204800 / 32) ≤ (x 0).val ∧ (x 0).val < w.val * (204800 / 32) + 204800 / 32 := H 0
    omega
  · intro e a
    match a with
    | ⟨0, _⟩ => show w.val * (204800 / 32) ≤ (x 0).val ∧ (x 0).val < w.val * (204800 / 32) + 204800 / 32; omega
    | ⟨1, _⟩ => show 0 * 128 ≤ (x 1).val ∧ (x 1).val < 0 * 128 + 128; omega

theorem mem_iwRow (w : Fin 32) (x : S32x6400.Idx) : x ∈ (iwRow w).set ↔ (x 0).val = w.val := by
  rw [Rect.mem_set_unit]
  have h1 : (x 1).val < 6400 := (x 1).isLt
  constructor
  · intro H
    have h0 : w.val * (32 / 32) ≤ (x 0).val ∧ (x 0).val < w.val * (32 / 32) + 32 / 32 := H 0
    omega
  · intro e a
    match a with
    | ⟨0, _⟩ => show w.val * (32 / 32) ≤ (x 0).val ∧ (x 0).val < w.val * (32 / 32) + 32 / 32; omega
    | ⟨1, _⟩ => show 0 * 6400 ≤ (x 1).val ∧ (x 1).val < 0 * 6400 + 6400; omega

theorem mem_iwRowK (L : grid0.Coords) (x : S32x6400.Idx) :
    x ∈ (Rect.unit (s := S32x6400) (k0_off1 L) S1x6400.size (k0_off1_inb L)).set ↔ (x 0).val = 2 * (L 1).val + (L 0).val := by
  rw [Rect.mem_set_unit, k0_off1_eq]
  have h1 : (x 1).val < 6400 := (x 1).isLt
  constructor
  · intro H
    have h0 : 2 * (L 1).val + (L 0).val ≤ (x 0).val ∧ (x 0).val < 2 * (L 1).val + (L 0).val + 1 := H 0
    omega
  · intro e a
    match a with
    | ⟨0, _⟩ => show 2 * (L 1).val + (L 0).val ≤ (x 0).val ∧ (x 0).val < 2 * (L 1).val + (L 0).val + 1; omega
    | ⟨1, _⟩ => show 0 ≤ (x 1).val ∧ (x 1).val < 0 + 6400; omega

/-! ## The element sets of the pieces' views -/

abbrev slotSet (b : Fin 6) : Finset S6x128x128.Idx := (slotM b.val b.isLt).view.set
abbrev winSet (j : Fin 50) : Finset S6400.Idx := (winM j.val j.isLt).view.set
abbrev chunkSet (L : grid0.Coords) (j : Fin 50) : Finset S204800x128.Idx := (chunkM L j.val j.isLt).view.set

theorem set_slotM (b : ℕ) (h : b < 6) : ((slotM b h).view.set : Finset S6x128x128.Idx) = (slotR b h).set := by
  show (((rvV).view.slice (slotR b h)).reshape S128x128 squeezes_S1x128x128_S128x128.numel_eq).set = _
  rw [View.set_reshape]
  exact View.set_slice_whole cc0_scratch1 (slotR b h)
theorem set_winM (j : ℕ) (h : j < 50) : ((winM j h).view.set : Finset S6400.Idx) = (winR j h).set :=
  View.set_slice_whole cc0_scratch0 (winR j h)
theorem set_chunkM (L : grid0.Coords) (j : ℕ) (h : j < 50) : ((chunkM L j h).view.set : Finset S204800x128.Idx) = (chunkR L j h).set :=
  View.set_slice_whole main_v2_scv (chunkR L j h)
theorem slotSet_eq (b : Fin 6) : slotSet b = (slotR b.val b.isLt).set := set_slotM _ _
theorem winSet_eq (j : Fin 50) : winSet j = (winR j.val j.isLt).set := set_winM _ _
theorem chunkSet_eq (L : grid0.Coords) (j : Fin 50) : chunkSet L j = (chunkR L j.val j.isLt).set := set_chunkM _ _ _
theorem outPartSet_eq (w : Fin 32) : outPartSet w = (outPart w).set := View.set_slice_whole main_v2_scv (outPart w)
theorem iwRowSet_eq (w : Fin 32) : iwRowSet w = (iwRow w).set := View.set_slice_whole main_v1_scv (iwRow w)

/-- The tile's run of the rearranged index list, as the index fetch addresses it, is run w of its worker. -/
theorem set_iwRowM (L : grid0.Coords) : ((iwRowM L).view.set : Finset S32x6400.Idx) = iwRowSet (pW L) := by
  show (((iwV).view.slice (Rect.unit (s := S32x6400) (k0_off1 L) S1x6400.size (k0_off1_inb L))).reshape S6400 squeezes_S1x6400_S6400.numel_eq).set = _
  rw [View.set_reshape, iwRowSet_eq]
  refine (View.set_slice_whole main_v1_scv _).trans ?_
  show ((Rect.unit (s := S32x6400) (k0_off1 L) S1x6400.size (k0_off1_inb L)).set : Finset S32x6400.Idx) = (iwRow (pW L)).set
  ext x
  rw [mem_iwRowK, mem_iwRow, pW_val]

/-! ## The pieces are disjoint and cover -/

theorem slots_disjoint : ∀ b ∈ (Finset.univ : Finset (Fin 6)), ∀ b' ∈ (Finset.univ : Finset (Fin 6)), b ≠ b' → Disjoint (slotSet b) (slotSet b') := by
  intro b _ b' _ hne
  rw [Finset.disjoint_left]
  intro x hx hx'
  rw [slotSet_eq, mem_slotR] at hx hx'
  exact hne (Fin.ext (hx.symm.trans hx'))
theorem slots_cover : (Finset.univ : Finset (Fin 6)).biUnion slotSet = Finset.univ := by
  ext x
  simp only [Finset.mem_biUnion, Finset.mem_univ, true_and, iff_true]
  refine ⟨⟨(x 0).val, show (x 0).val < 6 from (x 0).isLt⟩, ?_⟩
  rw [slotSet_eq, mem_slotR]

theorem wins_disjoint : ∀ j ∈ (Finset.univ : Finset (Fin 50)), ∀ j' ∈ (Finset.univ : Finset (Fin 50)), j ≠ j' → Disjoint (winSet j) (winSet j') := by
  intro j _ j' _ hne
  rw [Finset.disjoint_left]
  intro x hx hx'
  rw [winSet_eq, mem_winR] at hx hx'
  exact hne (Fin.ext (by omega))
theorem wins_cover : (Finset.univ : Finset (Fin 50)).biUnion winSet = Finset.univ := by
  ext x
  simp only [Finset.mem_biUnion, Finset.mem_univ, true_and, iff_true]
  have hx : (x 0).val < 6400 := (x 0).isLt
  refine ⟨⟨(x 0).val / 128, by omega⟩, ?_⟩
  rw [winSet_eq, mem_winR]
  show 128 * ((x 0).val / 128) ≤ (x 0).val ∧ (x 0).val < 128 * ((x 0).val / 128) + 128
  omega

theorem chunks_disjoint (L : grid0.Coords) :
    ∀ j ∈ (Finset.univ : Finset (Fin 50)), ∀ j' ∈ (Finset.univ : Finset (Fin 50)), j ≠ j' → Disjoint (chunkSet L j) (chunkSet L j') := by
  intro j _ j' _ hne
  rw [Finset.disjoint_left]
  intro x hx hx'
  rw [chunkSet_eq, mem_chunkR] at hx hx'
  exact hne (Fin.ext (by omega))
theorem chunks_cover (L : grid0.Coords) : (Finset.univ : Finset (Fin 50)).biUnion (chunkSet L) = outPartSet (pW L) := by
  ext x
  rw [outPartSet_eq, mem_outPart, pW_val]
  simp only [Finset.mem_biUnion, Finset.mem_univ, true_and]
  constructor
  · rintro ⟨j, hj⟩
    rw [chunkSet_eq, mem_chunkR] at hj
    have hj50 : j.val < 50 := j.isLt
    omega
  · intro hx
    refine ⟨⟨((x 0).val - (12800 * (L 1).val + 6400 * (L 0).val)) / 128, by omega⟩, ?_⟩
    rw [chunkSet_eq, mem_chunkR]
    show 12800 * (L 1).val + 6400 * (L 0).val + 128 * (((x 0).val - (12800 * (L 1).val + 6400 * (L 0).val)) / 128) ≤ (x 0).val
      ∧ (x 0).val < 12800 * (L 1).val + 6400 * (L 0).val + 128 * (((x 0).val - (12800 * (L 1).val + 6400 * (L 0).val)) / 128) + 128
    omega

/-! ## A points-to over the whole is the pieces' -/

/-- The row buffer is its six slots. -/
theorem pts_slots (d : Dev nD) (c : Fin τ.nSC) (i : Fin τ.nSub) (q : PosShare TreeShare) (f : Buf (Elt F) ((V d c i).loc cc0_scratch1)) :
    ((rvV).view.loc (V d c i) ↦{q} f : sProp 𝕄)
      = bigSep Finset.univ fun b : Fin 6 => (slotM b.val b.isLt).view.loc (V d c i) ↦[(slotM b.val b.isLt).view.set]{q} f := by
  have key := pointsTo_biUnion (Val := Elt F) (Ix := HIx 1) (Name := ℕ) (U := UU) (Lvl := ℕ) (ℓ := (V d c i).loc cc0_scratch1) (q := q) (f := f)
    Finset.univ slotSet slots_disjoint
  exact (congrArg (fun A : Finset S6x128x128.Idx => ((V d c i).loc cc0_scratch1 ↦[A]{q} f : sProp 𝕄)) slots_cover.symm).trans key

/-- The index buffer is its fifty windows. -/
theorem pts_wins (d : Dev nD) (c : Fin τ.nSC) (i : Fin τ.nSub) (q : PosShare TreeShare) (f : Buf (Elt F) ((V d c i).loc cc0_scratch0)) :
    ((ivV).view.loc (V d c i) ↦{q} f : sProp 𝕄)
      = bigSep Finset.univ fun j : Fin 50 => (winM j.val j.isLt).view.loc (V d c i) ↦[(winM j.val j.isLt).view.set]{q} f := by
  have key := pointsTo_biUnion (Val := Elt F) (Ix := HIx 1) (Name := ℕ) (U := UU) (Lvl := ℕ) (ℓ := (V d c i).loc cc0_scratch0) (q := q) (f := f)
    Finset.univ winSet wins_disjoint
  exact (congrArg (fun A : Finset S6400.Idx => ((V d c i).loc cc0_scratch0 ↦[A]{q} f : sProp 𝕄)) wins_cover.symm).trans key

/-- A worker's part of the flat result is its fifty chunks. -/
theorem pts_chunks (d : Dev nD) (L : grid0.Coords) (q : PosShare TreeShare) (f : Buf (Elt F) (outLoc d)) :
    (outLoc d ↦[outPartSet (pW L)]{q} f : sProp 𝕄)
      = bigSep Finset.univ fun j : Fin 50 => (chunkM L j.val j.isLt).view.loc (V d (pC L) (pJ L)) ↦[(chunkM L j.val j.isLt).view.set]{q} f := by
  have key := pointsTo_biUnion (Val := Elt F) (Ix := HIx 1) (Name := ℕ) (U := UU) (Lvl := ℕ) (ℓ := outLoc d) (q := q) (f := f)
    Finset.univ (chunkSet L) (chunks_disjoint L)
  exact (congrArg (fun A : Finset S204800x128.Idx => (outLoc d ↦[A]{q} f : sProp 𝕄)) (chunks_cover L).symm).trans key

/-- The tile's run of the rearranged index list, as the index fetch addresses it. -/
theorem pts_iwRowM (d : Dev nD) (L : grid0.Coords) (q : PosShare TreeShare) (f : Buf (Elt F) (iwLoc d)) :
    ((iwRowM L).view.loc (V d (pC L) (pJ L)) ↦[(iwRowM L).view.set]{q} f : sProp 𝕄) = iwLoc d ↦[iwRowSet (pW L)]{q} f := by
  rw [set_iwRowM]

/-! ## Where a piece's elements sit -/

theorem emb_slotM (b : ℕ) (h : b < 6) (x : S128x128.Idx) :
    ((slotM b h).view.emb x : S6x128x128.Idx) = ix3 (⟨b, h⟩ : Fin 6) (x 0) (x 1) := by
  obtain ⟨r, c, rfl⟩ : ∃ (r : Fin 128) (c : Fin 128), x = ix2 r c := ⟨x 0, x 1, eq_ix2 x⟩
  show (slotR b h).emb (Shape.reshapeEquiv squeezes_S1x128x128_S128x128.numel_eq (ix2 r c)) = _
  rw [reshapeEquiv_ix2_1ab]
  funext a
  apply Fin.ext
  match a with
  | ⟨0, _⟩ => show b + 1 * 0 = b; omega
  | ⟨1, _⟩ => show 0 + 1 * r.val = r.val; omega
  | ⟨2, _⟩ => show 0 + 1 * c.val = c.val; omega
theorem emb_slotM_0 (b : ℕ) (h : b < 6) (x : S128x128.Idx) : (((slotM b h).view.emb x : S6x128x128.Idx) 0).val = b := by
  have e := congrArg Fin.val (congrFun (emb_slotM b h x) 0)
  exact e
theorem emb_slotM_1 (b : ℕ) (h : b < 6) (x : S128x128.Idx) : (((slotM b h).view.emb x : S6x128x128.Idx) 1).val = (x 0).val := by
  have e := congrArg Fin.val (congrFun (emb_slotM b h x) 1)
  exact e
theorem emb_slotM_2 (b : ℕ) (h : b < 6) (x : S128x128.Idx) : (((slotM b h).view.emb x : S6x128x128.Idx) 2).val = (x 1).val := by
  have e := congrArg Fin.val (congrFun (emb_slotM b h x) 2)
  exact e

theorem emb_chunkM_0 (L : grid0.Coords) (j : ℕ) (h : j < 50) (x : S128x128.Idx) :
    (((chunkM L j h).view.emb x : S204800x128.Idx) 0).val = 12800 * (L 1).val + 6400 * (L 0).val + 128 * j + (x 0).val := by
  show 12800 * (L 1).val + 6400 * (L 0).val + 128 * j + 1 * (x 0).val = _
  omega
theorem emb_chunkM_1 (L : grid0.Coords) (j : ℕ) (h : j < 50) (x : S128x128.Idx) :
    (((chunkM L j h).view.emb x : S204800x128.Idx) 1).val = (x 1).val := by
  show 0 + 1 * (x 1).val = _
  omega
theorem emb_winM_0 (j : ℕ) (h : j < 50) (y : S128.Idx) : (((winM j h).view.emb y : S6400.Idx) 0).val = 128 * j + (y 0).val := by
  show 128 * j + 1 * (y 0).val = _
  omega

end Cert.Proof.KN

end
-- ==== Proof.KNRows.lean ====
/-
  What a gather delivers: the chunk's rows.

  The gather of chunk j reads, for row r of the slot, the table row named by word r of window j of the index buffer, that is
  by word 128 j + r of the tile's run of the rearranged index list; the shared memory holds the table. Every word being
  below 1002, the row a word names is the word itself. So the gather's payload is the chunk's rows.
-/
import proofs.«203285_g23708219474275_cont_8to1_227_19_alg».proof.Proof.KNCtx
import proofs.«203285_g23708219474275_cont_8to1_227_19_alg».proof.Proof.KNParts

noncomputable section

namespace Cert.Proof.KN

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

variable (d : Dev nD) (L : grid0.Coords)

/-- The shared copy, as the gathers address it, sits where the shared memory does: every index at itself. -/
theorem emb_shAllM (y : S1002x128.Idx) : ((shAllM).view.emb y : S1002x128.Idx) = y := by
  funext a
  apply Fin.ext
  match a with
  | ⟨0, _⟩ => show 0 + 1 * (y 0).val = (y 0).val; omega
  | ⟨1, _⟩ => show 0 + 1 * (y 1).val = (y 1).val; omega

/-- Reading the shared copy of the table through the gathers' view gives the table. -/
theorem read_shAllM (y : S1002x128.Idx) : (shAllM).view.read (Elt F) (TabS m d L) y = m (tabLoc d) y := by
  refine (View.read_apply _ _).trans ((cast_eq _ _).trans ?_)
  show m (tabLoc d) ((shAllM).view.emb y) = m (tabLoc d) y
  rw [emb_shAllM]

/-- Word y of window j of the index buffer, once the run has been fetched, is word 128 j + y of the tile's run. -/
theorem read_winM (j : ℕ) (hj : j < 50) (y : S128.Idx) :
    (winM j hj).view.read (Elt F) (IVf m d L) y
      = IW m d (ix2 (wL L) (⟨128 * j + (y 0).val, by have h : (y 0).val < 128 := (y 0).isLt; show 128 * j + (y 0).val < 6400; omega⟩ : Fin 6400)) := by
  refine (View.read_apply _ _).trans ((cast_eq _ _).trans ?_)
  show IW m d (ix2 (wL L) (((winM j hj).view.emb y : S6400.Idx) 0)) = _
  congr 2
  exact Fin.ext (emb_winM_0 j hj y)

/-- The index of a 128-word list at row-major position k is k. -/
theorem rowMajor_symm_S128 (k : Fin S128.numel) : S128.rowMajor.symm k = ix1 (⟨k.val, k.isLt⟩ : Fin 128) := by
  rw [Equiv.symm_apply_eq]
  apply Fin.ext
  rw [Shape.rowMajor_val_one]

theorem gather_rows (j : ℕ) (hj : j < 50) (hn : S128.numel = S128x128.size gathers_S1002x128_S128x128.axis')
    (hin : ∀ x, ((winM j hj).view.read (Elt F) (IVf m d L) x).toNat < S1002x128.size gathers_S1002x128_S128x128.axis) :
    SparseCore.gatherPayload gathers_S1002x128_S128x128 ((shAllM).view.read (Elt F) (TabS m d L))
        (SparseCore.rows ((winM j hj).view.read (Elt F) (IVf m d L)) hn hin) = rowsOf m d L j hj := by
  funext x
  obtain ⟨r, q, rfl⟩ : ∃ (r : Fin 128) (q : Fin 128), x = ix2 r q := ⟨x 0, x 1, eq_ix2 x⟩
  unfold SparseCore.gatherPayload rowsOf
  rw [read_shAllM]
  congr 1
  funext b
  apply Fin.ext
  match b with
  | ⟨0, _⟩ =>
    have e := congrArg Fin.val (Shape.Gathers.idx_axis gathers_S1002x128_S128x128
      (SparseCore.rows ((winM j hj).view.read (Elt F) (IVf m d L)) hn hin) (ix2 r q))
    refine e.trans ?_
    show ((winM j hj).view.read (Elt F) (IVf m d L) (S128.rowMajor.symm ((r : Fin 128).cast hn.symm))).toNat = _
    rw [rowMajor_symm_S128, read_winM]
    have hw := hin (ix1 r)
    rw [read_winM] at hw
    exact (congrArg Fin.val (Cert.Spec.rowOf_of_lt hw)).symm
  | ⟨1, _⟩ =>
    exact Shape.Gathers.idx_of_ne gathers_S1002x128_S128x128 _ (ix2 r q) ⟨1, by decide⟩ (by decide)

/-- Every word of every window names a row of the table, when every word of the rearranged list does. -/
theorem win_inRange (hpre : ∀ (d : Dev nD) p, (IW m d p).toNat < 1002) (j : ℕ) (hj : j < 50) (x : S128.Idx) :
    ((winM j hj).view.read (Elt F) (IVf m d L) x).toNat < 1002 := by
  rw [read_winM]; exact hpre d _

/-- Word y of the tile's run of the rearranged index list, as the index fetch addresses it, is word (w, y) of the list. -/
theorem emb_iwRowM (y : S6400.Idx) : ((iwRowM L).view.emb y : S32x6400.Idx) = ix2 (wL L) (y 0) := by
  obtain ⟨k, rfl⟩ : ∃ k : Fin 6400, y = ix1 k := ⟨y 0, eq_ix1 y⟩
  show (Rect.unit (s := S32x6400) (k0_off1 L) S1x6400.size (k0_off1_inb L)).emb (Shape.reshapeEquiv squeezes_S1x6400_S6400.numel_eq (ix1 k)) = ix2 (wL L) k
  have e : Shape.reshapeEquiv squeezes_S1x6400_S6400.numel_eq (ix1 k) = ix2 (⟨0, Nat.one_pos⟩ : Fin 1) k :=
    Shape.reshapeEquiv_eq_of_rowMajor _ (by
      rw [Shape.rowMajor_val_two, Shape.rowMajor_val_one]
      show 0 * 6400 + k.val = k.val
      omega)
  rw [e]
  funext a
  apply Fin.ext
  match a with
  | ⟨0, _⟩ =>
    show k0_off1 L 0 + 1 * 0 = 2 * (L 1).val + (L 0).val
    rw [k0_off1_eq]
    show 2 * (L 1).val + (L 0).val + 1 * 0 = _
    omega
  | ⟨1, _⟩ =>
    show k0_off1 L 1 + 1 * k.val = k.val
    rw [k0_off1_eq]
    show 0 + 1 * k.val = _
    omega

/-- What the index fetch reads: word y of the tile's run. -/
theorem read_iwRowM (y : S6400.Idx) : (iwRowM L).view.read (Elt F) (IW m d) y = IW m d (ix2 (wL L) (y 0)) := by
  refine (View.read_apply _ _).trans ((cast_eq _ _).trans ?_)
  exact congrArg (IW m d) (emb_iwRowM L y)

/-- The index buffer, once the fetch has written all of it, holds the tile's run. -/
theorem IVf_eq (fiv : Buf (Elt F) ((Memref.whole cc0_scratch0 : Memref sig .scVector .vmem S6400 .i32).view.loc (thrL d L))) :
    (Memref.whole cc0_scratch0 : Memref sig .scVector .vmem S6400 .i32).view.write (Elt F) fiv ((iwRowM L).view.read (Elt F) (IW m d)) Finset.univ
      = IVf m d L := by
  refine (View.write_whole_univ cc0_scratch0 _ _).trans ?_
  funext y
  exact read_iwRowM m d L y

/-- The shared copy, as the gathers address it, is all of the shared memory. -/
theorem set_shAllM : ((shAllM).view.set : Finset S1002x128.Idx) = Finset.univ := by
  refine (View.set_slice_whole cc0_scratch2 _).trans ?_
  ext x
  simp only [Finset.mem_univ, iff_true]
  rw [Rect.mem_set_unit]
  have h0 : (x 0).val < 1002 := (x 0).isLt
  have h1 : (x 1).val < 128 := (x 1).isLt
  intro a
  match a with
  | ⟨0, _⟩ => show 0 ≤ (x 0).val ∧ (x 0).val < 0 + 1002; omega
  | ⟨1, _⟩ => show 0 ≤ (x 1).val ∧ (x 1).val < 0 + 128; omega

/-- All of six indices, one by one. -/
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_range6 (Φ : ℕ → sProp 𝕄) : bigSep (Finset.range 6) Φ = iprop(Φ 0 ∗ Φ 1 ∗ Φ 2 ∗ Φ 3 ∗ Φ 4 ∗ Φ 5) :=
  bigSep_eq_bigSepL_of_eq [0, 1, 2, 3, 4, 5] (by decide) (by decide) Φ

/-- Reading a slot, a chunk back after writing all of it gives what was written. -/
theorem read_write_slot (b : ℕ) (hb : b < 6) (fd : Buf (Elt F) ((slotM b hb).view.loc (thrL d L))) (P : S128x128.Idx → Elt F .f32) :
    (slotM b hb).view.read (Elt F) ((slotM b hb).view.write (Elt F) fd P Finset.univ) = P := View.read_write_univ _ _
theorem read_write_chunk (j : ℕ) (hj : j < 50) (fo : Buf (Elt F) ((chunkM L j hj).view.loc (thrL d L))) (P : S128x128.Idx → Elt F .f32) :
    (chunkM L j hj).view.read (Elt F) ((chunkM L j hj).view.write (Elt F) fo P Finset.univ) = P := View.read_write_univ _ _

end Cert.Proof.KN

end
-- ==== Proof.KNPart1.lean ====
/-
  The first part of a tile's program: the fetches, the barrier, and the first two gathers.

  Tile 0 of a SparseCore copies the table into the SparseCore's shared memory and waits for the copy. Every tile fetches its
  run of the rearranged index list into its index buffer and waits. At the barrier tile 0 hands each tile of its SparseCore a
  read share of the shared copy holding the table, the other tiles hand over nothing, and each tile receives its own read
  share. The tile cuts that share into six tokens, one per slot of its row buffer, keeping the rest; it cuts the index buffer
  into its fifty windows, the row buffer into its six slots, and its part of the flat result into its fifty chunks. It then
  issues the gathers of chunks 0 and 1 into slots 0 and 1. The payload of the gather of chunk j is the chunk's rows, every
  index word naming a row of the table. What is left is the ring before the first trip: chunks 0 and 1 being gathered, the
  other chunks not started, slots 2 … 5 not used.
-/
import proofs.«203285_g23708219474275_cont_8to1_227_19_alg».proof.Proof.KNIdx
import proofs.«203285_g23708219474275_cont_8to1_227_19_alg».proof.Proof.KNCtx
import proofs.«203285_g23708219474275_cont_8to1_227_19_alg».proof.Proof.KNSems
import proofs.«203285_g23708219474275_cont_8to1_227_19_alg».proof.Proof.KNGeom
import proofs.«203285_g23708219474275_cont_8to1_227_19_alg».proof.Proof.KNParts
import proofs.«203285_g23708219474275_cont_8to1_227_19_alg».proof.Proof.KNRows

noncomputable section

namespace Cert.Proof.KN

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iwV" => (Memref.whole Cert.Kernel.main_v1_scv : Memref Cert.Kernel.sig Kind.scVector Space.hbm Cert.Kernel.S32x6400 EltTy.i32)
local notation "tabV" => (Memref.whole Cert.Kernel.main_arg1_scv : Memref Cert.Kernel.sig Kind.scVector Space.hbm Cert.Kernel.S1002x128 EltTy.f32)
local notation "outV" => (Memref.whole Cert.Kernel.main_v2_scv : Memref Cert.Kernel.sig Kind.scVector Space.hbm Cert.Kernel.S204800x128 EltTy.f32)
local notation "shV" => (Memref.whole Cert.Kernel.cc0_scratch2 : Memref Cert.Kernel.sig Kind.scVector Space.shared Cert.Kernel.S1002x128 EltTy.f32)
local notation "ivV" => (Memref.whole Cert.Kernel.cc0_scratch0 : Memref Cert.Kernel.sig Kind.scVector Space.vmem Cert.Kernel.S6400 EltTy.i32)
local notation "rvV" => (Memref.whole Cert.Kernel.cc0_scratch1 : Memref Cert.Kernel.sig Kind.scVector Space.vmem Cert.Kernel.S6x128x128 EltTy.f32)

variable [FloatOps F]

variable (d : Dev nD) (L : grid0.Coords)

namespace Part1

/-- Tile 0's duty in every tile's round hands over that tile's read share of the shared copy of the table. -/
theorem pays_lead (h0 : (L 1).val = 0) :
    (bigSep Finset.univ fun i : Fin 16 => shTokPts m d (cV L) i)
      ⊢ (bigSep Finset.univ fun j : Fin (grid0.bound 1) => (bRd (F := F) m).payload (bcell d (cV L) (j.castLE hsub0)) 0 (jV L).val : sProp 𝕄) := by
  have e : ∀ j : Fin (grid0.bound 1), (bRd (F := F) m).payload (bcell d (cV L) (j.castLE hsub0)) 0 (jV L).val
      = shTokPts m d (cV L) (Fin.cast nSub_eq (j.castLE hsub0)) := by
    intro j
    show bPay m (bcell d (cV L) (j.castLE hsub0)) (jV L).val = _
    unfold bPay; dsimp only
    rw [if_pos (show (jV L).val = 0 from h0)]
  exact Entails.of_eq (bigSep_congr (s := Finset.univ) fun j _ => (e j).symm)

/-- Another tile's duties hand over nothing. -/
theorem pays_other (h0 : (L 1).val ≠ 0) :
    (iprop(emp) : sProp 𝕄) ⊢ bigSep Finset.univ fun j : Fin (grid0.bound 1) => (bRd (F := F) m).payload (bcell d (cV L) (j.castLE hsub0)) 0 (jV L).val := by
  rw [show (bigSep Finset.univ fun j : Fin (grid0.bound 1) => (bRd (F := F) m).payload (bcell d (cV L) (j.castLE hsub0)) 0 (jV L).val)
      = bigSep Finset.univ fun _ : Fin (grid0.bound 1) => (iprop(emp) : sProp 𝕄) from
      bigSep_congr fun j _ => by
        show bPay m (bcell d (cV L) (j.castLE hsub0)) (jV L).val = _
        unfold bPay; dsimp only
        rw [if_neg (show ¬ (jV L).val = 0 from h0)], bigSep_emp']

/-- What a tile's own round collected holds its read share of the shared copy of the table. -/
theorem pays_mine : (bigSep ((bRd (F := F) m).duties (bcell d (cV L) (jV L)) 0 \ ∅) fun n => (bRd (F := F) m).payload (bcell d (cV L) (jV L)) 0 n)
    ⊢ shTokPts m d (cV L) (jL L) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay m (bcell d (cV L) (jV L)) 0 ⊢ _
  unfold bPay; dsimp only
  rw [if_pos rfl]; exact BI.Entails.refl _

omit [FloatOps F] in
/-- Two members of a family over the fifty chunks taken out. -/
theorem split2' (Φ : Fin 50 → sProp 𝕄) (a b : Fin 50) (hab : a ≠ b) :
    bigSep Finset.univ Φ = iprop(Φ a ∗ Φ b ∗ bigSep ((Finset.univ.erase a).erase b) Φ) := by
  rw [SparseCore.bigSep_erase' (Finset.mem_univ a), SparseCore.bigSep_erase' (Finset.mem_erase.mpr ⟨hab.symm, Finset.mem_univ b⟩)]

theorem c0lt : (0 : ℕ) < 50 := by decide
theorem c1lt : (1 : ℕ) < 50 := by decide
theorem d0lt : 0 < sig.nDmaSem := by decide
theorem d1lt : 1 < sig.nDmaSem := by decide
theorem b0lt : (0 : ℕ) < 6 := by decide
theorem b1lt : (1 : ℕ) < 6 := by decide
theorem b2lt : (2 : ℕ) < 6 := by decide
theorem b3lt : (3 : ℕ) < 6 := by decide
theorem b4lt : (4 : ℕ) < 6 := by decide
theorem b5lt : (5 : ℕ) < 6 := by decide

/-- The index buffer after the fetch has written all of it holds the tile's run. -/
theorem iv_fetched (fiv : Buf (Elt F) ((ivV).view.loc (thrL d L))) (P : S6400.Idx → Elt F .i32) (hP : P = (iwRowM L).view.read (Elt F) (IW m d)) :
    ((ivV).view.loc (thrL d L) ↦{fullShare} (ivV).view.write (Elt F) fiv P Finset.univ : sProp 𝕄) ⊢ (ivV).view.loc (thrL d L) ↦{fullShare} IVf m d L := by
  subst hP; rw [IVf_eq]

/-- A tile's read share of the shared copy, as the gathers address the shared memory. -/
theorem shTok_respell : (shTokPts m d (cV L) (jL L) : sProp 𝕄) = ((shAllM).view.loc (thrL d L) ↦[(shAllM).view.set]{shQ L} TabS m d L) := by
  rw [set_shAllM]; rfl

set_option maxHeartbeats 1000000 in
omit [FloatOps F] in
/-- The index buffer is windows 0 and 1 and the other forty-eight. -/
theorem iv_split (f : Buf (Elt F) ((ivV).view.loc (thrL d L))) :
    ((ivV).view.loc (thrL d L) ↦{fullShare} f : sProp 𝕄)
      = iprop(((winM 0 c0lt).view.loc (thrL d L) ↦[(winM 0 c0lt).view.set]{fullShare} f)
          ∗ ((winM 1 c1lt).view.loc (thrL d L) ↦[(winM 1 c1lt).view.set]{fullShare} f)
          ∗ bigSep (((Finset.univ : Finset (Fin 50)).erase ⟨0, c0lt⟩).erase ⟨1, c1lt⟩) fun j => (winM j.val j.isLt).view.loc (thrL d L) ↦[(winM j.val j.isLt).view.set]{fullShare} f) :=
  (pts_wins (F := F) d (cV L) (jV L) fullShare f).trans (split2' _ ⟨0, c0lt⟩ ⟨1, c1lt⟩ (by decide))

omit [FloatOps F] in
/-- All of six indices, one by one, each written by its number. -/
theorem bigSep_fin6' (Φ : Fin 6 → sProp 𝕄) :
    bigSep Finset.univ Φ = iprop(Φ ⟨0, b0lt⟩ ∗ Φ ⟨1, b1lt⟩ ∗ Φ ⟨2, b2lt⟩ ∗ Φ ⟨3, b3lt⟩ ∗ Φ ⟨4, b4lt⟩ ∗ Φ ⟨5, b5lt⟩) :=
  bigSep_univ_eq_bigSepL ([⟨0, b0lt⟩, ⟨1, b1lt⟩, ⟨2, b2lt⟩, ⟨3, b3lt⟩, ⟨4, b4lt⟩, ⟨5, b5lt⟩] : List (Fin 6)) (by decide) (by decide) Φ

set_option maxHeartbeats 1000000 in
omit [FloatOps F] in
/-- The row buffer is its six slots. -/
theorem rv_split (f : Buf (Elt F) ((rvV).view.loc (thrL d L))) :
    ((rvV).view.loc (thrL d L) ↦{fullShare} f : sProp 𝕄)
      = iprop(slotPts d L 0 b0lt f ∗ slotPts d L 1 b1lt f ∗ slotPts d L 2 b2lt f ∗ slotPts d L 3 b3lt f
          ∗ slotPts d L 4 b4lt f ∗ slotPts d L 5 b5lt f) :=
  (pts_slots (F := F) d (cV L) (jV L) fullShare f).trans (bigSep_fin6' _)

set_option maxHeartbeats 1000000 in
omit [FloatOps F] in
/-- The tile's part of the flat result is chunks 0 and 1 and the other forty-eight. -/
theorem out_split (f : Buf (Elt F) (outLoc d)) :
    (outLoc d ↦[outPartSet (wL L)]{fullShare} f : sProp 𝕄)
      = iprop(chunkPts d L 0 c0lt f ∗ chunkPts d L 1 c1lt f
          ∗ bigSep (((Finset.univ : Finset (Fin 50)).erase ⟨0, c0lt⟩).erase ⟨1, c1lt⟩) fun j => chunkPts d L j.val j.isLt f) :=
  (pts_chunks (F := F) d L fullShare f).trans (split2' _ ⟨0, c0lt⟩ ⟨1, c1lt⟩ (by decide))

/-- A gather just issued, its payload the chunk's rows, is the chunk's gather in flight. -/
theorem gFlight_intro (j : ℕ) (hj : j < 50) (b : ℕ) (hb : b < 6) (fd : Buf (Elt F) ((slotM b hb).view.loc (thrL d L))) (P : S128x128.Idx → Elt F .f32)
    (hP : P = rowsOf m d L j hj) (N : ℕ) (hN : N = (slotM b hb).view.dmaCredit) (sm : DmaSem sig) (hsm : sm = gSem b hb) :
    Transfers.Flight countersEmb (thrL d L) (SemLoc.dma sm) (default : HIx 1) N
        iprop((((slotM b hb).view.loc (thrL d L) ↦[(slotM b hb).view.set]{fullShare} (slotM b hb).view.writes (Elt F) fd [⟨Rect.whole S128x128, P⟩])
          ∗ winPts m d L j hj) ∗ shPts m d L b)
      ⊢ gFlight m d L j hj b hb := by
  subst hP hN hsm
  unfold gFlight
  iintro H
  iexists _
  isplitr
  · ipureintro
    exact View.read_writes_whole _ fd _
  · iexact H

/-- Chunks not yet started: their windows and their chunks of the result. -/
theorem fresh_family (s : Finset (Fin 50)) :
    iprop((bigSep s fun j => winPts m d L j.val j.isLt) ∗ (bigSep s fun j => chunkPts d L j.val j.isLt (m (outLoc d))))
      ⊢ bigSep s fun j => fresh m d L j.val j.isLt := by
  unfold fresh
  exact Entails.of_eq (BI.bigSep_sep s _ _).symm

/-- The ring before the first trip: chunks 0 and 1 being gathered into slots 0 and 1, the other chunks not started, slots
    2 … 5 not used. -/
theorem ring0_intro :
    iprop((gathering m d L 0 c0lt 0 b0lt ∗ gathering m d L 1 c1lt 1 b1lt
        ∗ bigSep (((Finset.univ : Finset (Fin 50)).erase ⟨0, c0lt⟩).erase ⟨1, c1lt⟩) fun j => fresh m d L j.val j.isLt)
      ∗ (freeSlot m d L ⟨2, b2lt⟩ ∗ freeSlot m d L ⟨3, b3lt⟩ ∗ freeSlot m d L ⟨4, b4lt⟩ ∗ freeSlot m d L ⟨5, b5lt⟩))
      ⊢ Ring m d L 0 := by
  unfold Ring
  rw [split2' _ ⟨0, c0lt⟩ ⟨1, c1lt⟩ (by decide), bigSep_fin6']
  have hrest : (bigSep (((Finset.univ : Finset (Fin 50)).erase ⟨0, c0lt⟩).erase ⟨1, c1lt⟩) fun j : Fin 50 => phase m d L 0 j)
      = bigSep (((Finset.univ : Finset (Fin 50)).erase ⟨0, c0lt⟩).erase ⟨1, c1lt⟩) fun j => fresh m d L j.val j.isLt :=
    bigSep_congr fun j hj => by
      have h0 : j ≠ ⟨0, c0lt⟩ := (Finset.mem_erase.mp (Finset.mem_erase.mp hj).2).1
      have h1 : j ≠ ⟨1, c1lt⟩ := (Finset.mem_erase.mp hj).1
      have a0 : j.val ≠ 0 := fun e => h0 (Fin.ext e)
      have a1 : j.val ≠ 1 := fun e => h1 (Fin.ext e)
      unfold phase; rw [if_pos (show 0 + 2 ≤ j.val by omega)]
  rw [hrest]
  have p0 : phase m d L 0 ⟨0, c0lt⟩ = gathering m d L 0 c0lt 0 b0lt := rfl
  have p1 : phase m d L 0 ⟨1, c1lt⟩ = gathering m d L 1 c1lt 1 b1lt := rfl
  rw [p0, p1]
  iintro ⟨⟨Hg0, Hg1, Hr⟩, F2, F3, F4, F5⟩
  isplitl [Hg0 Hg1 Hr]
  · isplitl [Hg0]; · iexact Hg0
    isplitl [Hg1]; · iexact Hg1
    iexact Hr
  isplitr; · rw [if_neg (show ¬ (0 + 2 ≤ (⟨0, b0lt⟩ : Fin 6).val) by decide)]; iempintro
  isplitr; · rw [if_neg (show ¬ (0 + 2 ≤ (⟨1, b1lt⟩ : Fin 6).val) by decide)]; iempintro
  isplitl [F2]; · rw [if_pos (show 0 + 2 ≤ (⟨2, b2lt⟩ : Fin 6).val by decide)]; iexact F2
  isplitl [F3]; · rw [if_pos (show 0 + 2 ≤ (⟨3, b3lt⟩ : Fin 6).val by decide)]; iexact F3
  isplitl [F4]; · rw [if_pos (show 0 + 2 ≤ (⟨4, b4lt⟩ : Fin 6).val by decide)]; iexact F4
  rw [if_pos (show 0 + 2 ≤ (⟨5, b5lt⟩ : Fin 6).val by decide)]; iexact F5

/-- The tile between two parts, and what passes through the ring, spelled out. -/
theorem Mid_unfold (R : sProp 𝕄) (O : CellTallies nD τ sig (HIx 1)) (W : Waits sig (HIx 1)) :
    Mid m d L R O W = iprop(levAts (K (F := F)).L (K (F := F)).lev ∗ R ∗ Carry m d L
      ∗ ∃ W', ⌜∀ p ∈ W', p ∈ W ∨ p.2 = none ∨ p.2 = some (0 : Fin 1)⌝ ∗ owes (thrL d L) O W') := rfl
theorem Carry_unfold :
    Carry m d L = iprop((iwLoc d ↦[iwRowSet (wL L)]{fullShare} IW m d)
      ∗ lead1 m d (cV L) (jL L)
      ∗ ((shAllM).view.loc (thrL d L) ↦[(shAllM).view.set]{Transfers.shareDrop (shQ L) 6} TabS m d L)
      ∗ semVal (thrL d L, SemLoc.dma cc0_scoped0.sem) 0 ∗ semVal (thrL d L, SemLoc.dma cc0_scoped1.sem) 0
      ∗ bigSep (((ownRefs (τ := τ) (.scVector (cV L) (jV L))).erase ((Proc.scVector (cV L) (jV L)).devRef cc0_scratch0)).erase ((Proc.scVector (cV L) (jV L)).devRef cc0_scratch1))
          fun b => iprop(∃ f, ((d, b) : Loc nD τ sig) ↦{fullShare} f)) := rfl
theorem freeSlot_unfold (b : Fin 6) :
    freeSlot m d L b = iprop((∃ f, slotPts d L b.val b.isLt f) ∗ gSemPts d L b.val b.isLt ∗ sSemPts d L b.val b.isLt ∗ shPts m d L b.val) := rfl
theorem gathering_unfold (j : ℕ) (hj : j < 50) (b : ℕ) (hb : b < 6) :
    gathering m d L j hj b hb = iprop(gFlight m d L j hj b hb ∗ chunkPts d L j hj (m (outLoc d)) ∗ sSemPts d L b hb) := rfl

/-- What a tile hands back beside its run and part: tile 0 its share of the table and what is left of the shared memory; another
    tile nothing. -/
theorem lead1_lead (h0 : (L 1).val = 0) :
    iprop(tabTokPts m d (cV L) ∗ shLoc d (cV L) ↦{Transfers.shareDrop fullShare 16} TABsh m d (cV L)) ⊢ lead1 m d (cV L) (jL L) := by
  unfold lead1; rw [if_pos (show (jL L).val = 0 from h0)]
theorem lead1_other (h0 : (L 1).val ≠ 0) (P : sProp 𝕄) : P ⊢ lead1 m d (cV L) (jL L) := by
  unfold lead1; rw [if_neg (show ¬ (jL L).val = 0 from h0)]; exact fun _ _ => trivial

/-- The shared memory after tile 0 has copied the table into all of it holds the table. -/
theorem sh_copied (fsh : Buf (Elt F) ((shV).view.loc (thrL d L))) (P : S1002x128.Idx → Elt F .f32) (hP : P = (tabV).view.read (Elt F) (m (tabLoc d))) :
    ((shV).view.loc (thrL d L) ↦{fullShare} (shV).view.write (Elt F) fsh P Finset.univ : sProp 𝕄) ⊢ shLoc d (cV L) ↦{fullShare} TABsh m d (cV L) := by
  subst hP
  have e : (shV).view.write (Elt F) fsh ((tabV).view.read (Elt F) (m (tabLoc d))) Finset.univ = TABsh m d (cV L) :=
    (View.write_whole_univ cc0_scratch2 fsh _).trans rfl
  exact Entails.of_eq (congrArg (fun g : Buf (Elt F) ((shV).view.loc (thrL d L)) => ((shV).view.loc (thrL d L) ↦{fullShare} g : sProp 𝕄)) e)

set_option maxHeartbeats 4000000 in
/-- The first part on a tile other than tile 0. -/
theorem part1_other (hF : (K (F := F)).Facts) (hpre : IdxOK m) (h0 : (L 1).val ≠ 0) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goRes m d (cV L) (jL L)
        ∗ scopedBufs (thrL d L) ∗ scopedSems0 (thrL d L) ∗ owes (thrL d L) (O + oxV d (cV L)) W)
      ⊢ wp frame (wpE (defs₀ (F := F)) 𝒱₀ (thrL d L) none) Set.univ
          (k0_part1 L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1)
          fun _ => Mid m d L (Ring m d L 0) O W := by
  simp only [k0_part1_eq_skeleton]; unfold k0_part1_skel
  rw [(K (F := F)).scopedBufs_V hF d (cV L) (jV L), SparseCore.Cfg.scopedSems0_V (Val := Elt F) d (cV L) (jV L), ownSems0_V_list, ownBufs_V2]
  unfold bkit goRes
  rw [show lead0 m d (cV L) (jL L) = iprop(emp) from if_neg h0]
  iintro ⟨#Hlv, ⟨⟨%κ, #Hinv⟩, Htoks, #Hrch, Hat, Hcred⟩, ⟨Hiw, Hout, Hlead⟩, ⟨⟨%fiv, Hiv⟩, ⟨%frv, Hrv⟩, Hbufs⟩, ⟨Hs0, Hs1, Hs2, Hs3, Hs4, Hs5, Hs6, Hs7, Hs8, Hs9, Hs10, Hs11, Hs12, Hs13⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  -- the buffers as the program's memrefs address them
  ihave Hiw' := (Entails.of_eq (pts_iwRowM (F := F) d L fullShare _).symm) $$ Hiw
  ihave Hiv' := (Entails.of_eq (show ((V d (cV L) (jV L)).loc cc0_scratch0 ↦{fullShare} fiv : sProp 𝕄) = ((ivV).view.loc (V d (cV L) (jV L)) ↦{fullShare} fiv) from rfl)) $$ Hiv
  ihave Hrv' := (Entails.of_eq (show ((V d (cV L) (jV L)).loc cc0_scratch1 ↦{fullShare} frv : sProp 𝕄) = ((rvV).view.loc (V d (cV L) (jV L)) ↦{fullShare} frv) from rfl)) $$ Hrv
  have k0_h1 : ¬ (Scalar.cmpi .ne (Scalar.extui (Scalar.cmpi .eq (BitVec.ofNat 32 (L 1).val) 0#32)) 0#32 = 1#1) := by
    have : ∀ j : Fin 16, j.val ≠ 0 → ¬ (Scalar.cmpi .ne (Scalar.extui (Scalar.cmpi .eq (BitVec.ofNat 32 j.val) 0#32)) 0#32 = 1#1) := by decide
    exact this (L 1) h0
  -- the fetch of the tile's run and its wait
  sl_exec
  -- the barrier: nothing handed over, the tile's read share received
  ihave Hpays := (pays_other (F := F) m d L h0) $$ Hlead
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  -- the tile's own read share of the shared copy
  ihave Hsh := (pays_mine (F := F) m d L) $$ Hgot
  ihave Hiv2 := (iv_fetched (F := F) m d L fiv (part1_other.sl.dma0 m d L) rfl) $$ Hiv'
  ihave Hl1 := (lead1_other (F := F) m d L h0 _) $$ Hlv
  -- the read share of the shared copy: six tokens for the slots, the rest passes through
  ihave Hsh' := (Entails.of_eq (shTok_respell (F := F) m d L)) $$ Hsh
  ihave Hsp := (Transfers.pointsTo_toks_range (shQ L) 6).1 $$ Hsh'
  icases Hsp with ⟨Hshrest, Htk⟩
  ihave Htk' := (Entails.of_eq (bigSep_range6 (F := F) _)) $$ Htk
  icases Htk' with ⟨Hk0, Hk1, Hk2, Hk3, Hk4, Hk5⟩
  -- the index buffer's windows, the row buffer's slots
  ihave Hw' := (Entails.of_eq (iv_split (F := F) d L (IVf m d L))) $$ Hiv2
  icases Hw' with ⟨Hw0, Hw1, Hwr⟩
  ihave Hsl' := (Entails.of_eq (rv_split (F := F) d L frv)) $$ Hrv'
  icases Hsl' with ⟨Hsl0, Hsl1, Hsl2, Hsl3, Hsl4, Hsl5⟩
  have hpre' : ∀ (d : Dev nD) p, (IW m d p).toNat < 1002 := hpre
  have hin0 : ∀ (x : (Rect.unit (s := S6400) ![0] S128.size inb_S6400_S128_0).shape.Idx),
      (((Memref.whole cc0_scratch0 : Memref sig .scVector .vmem S6400 .i32).slice (Rect.unit (s := S6400) ![0] S128.size inb_S6400_S128_0) (fun _ => rfl)).view.read (Elt F) (IVf m d L) x).toNat < 1002 :=
    fun x => win_inRange m d L hpre' 0 c0lt x
  have hin1 : ∀ (x : (Rect.unit (s := S6400) ![128] S128.size inb_S6400_S128_128).shape.Idx),
      (((Memref.whole cc0_scratch0 : Memref sig .scVector .vmem S6400 .i32).slice (Rect.unit (s := S6400) ![128] S128.size inb_S6400_S128_128) (fun _ => rfl)).view.read (Elt F) (IVf m d L) x).toNat < 1002 :=
    fun x => win_inRange m d L hpre' 1 c1lt x
  sl_exec
  sl_step
  -- the two gathers in flight deliver the chunks' rows
  ihave Hg0 := (gFlight_intro (F := F) m d L 0 c0lt 0 b0lt frv (part1_other.sl.gather0 m d L hin0) (gather_rows m d L 0 c0lt rfl hin0) 524288 rfl ⟨0, d0lt⟩ rfl) $$ Hs0
  ihave Hg1 := (gFlight_intro (F := F) m d L 1 c1lt 1 b1lt frv (part1_other.sl.gather1 m d L hin1) (gather_rows m d L 1 c1lt rfl hin1) 524288 rfl ⟨1, d1lt⟩ rfl) $$ Hs1
  -- the part of the flat result in its fifty chunks
  ihave Hch := (Entails.of_eq (out_split (F := F) d L (m (outLoc d)))) $$ Hout
  icases Hch with ⟨Hc0, Hc1, Hcr⟩
  ihave Hfr := (fresh_family (F := F) m d L _) $$ [Hwr Hcr]
  · isplitl [Hwr]; · iexact Hwr
    iexact Hcr
  iapply (Entails.of_eq (Mid_unfold (F := F) m d L _ O W).symm)
  isplitr; · iexact Hlv
  isplitl [Hg0 Hg1 Hc0 Hc1 Hs6 Hs7 Hfr Hsl2 Hsl3 Hsl4 Hsl5 Hs2 Hs3 Hs4 Hs5 Hs8 Hs9 Hs10 Hs11 Hk2 Hk3 Hk4 Hk5]
  · iapply (ring0_intro (F := F) m d L)
    isplitl [Hg0 Hg1 Hc0 Hc1 Hs6 Hs7 Hfr]
    · isplitl [Hg0 Hc0 Hs6]
      · iapply (Entails.of_eq (gathering_unfold (F := F) m d L 0 c0lt 0 b0lt).symm)
        isplitl [Hg0]; · iexact Hg0
        isplitl [Hc0]; · iexact Hc0
        iexact Hs6
      isplitl [Hg1 Hc1 Hs7]
      · iapply (Entails.of_eq (gathering_unfold (F := F) m d L 1 c1lt 1 b1lt).symm)
        isplitl [Hg1]; · iexact Hg1
        isplitl [Hc1]; · iexact Hc1
        iexact Hs7
      iexact Hfr
    · isplitl [Hsl2 Hs2 Hs8 Hk2]
      · iapply (Entails.of_eq (freeSlot_unfold (F := F) m d L ⟨2, b2lt⟩).symm)
        isplitl [Hsl2]; · iexists _; iexact Hsl2
        isplitl [Hs2]; · iexact Hs2
        isplitl [Hs8]; · iexact Hs8
        iexact Hk2
      isplitl [Hsl3 Hs3 Hs9 Hk3]
      · iapply (Entails.of_eq (freeSlot_unfold (F := F) m d L ⟨3, b3lt⟩).symm)
        isplitl [Hsl3]; · iexists _; iexact Hsl3
        isplitl [Hs3]; · iexact Hs3
        isplitl [Hs9]; · iexact Hs9
        iexact Hk3
      isplitl [Hsl4 Hs4 Hs10 Hk4]
      · iapply (Entails.of_eq (freeSlot_unfold (F := F) m d L ⟨4, b4lt⟩).symm)
        isplitl [Hsl4]; · iexists _; iexact Hsl4
        isplitl [Hs4]; · iexact Hs4
        isplitl [Hs10]; · iexact Hs10
        iexact Hk4
      iapply (Entails.of_eq (freeSlot_unfold (F := F) m d L ⟨5, b5lt⟩).symm)
      isplitl [Hsl5]; · iexists _; iexact Hsl5
      isplitl [Hs5]; · iexact Hs5
      isplitl [Hs11]; · iexact Hs11
      iexact Hk5
  isplitl [Hiw' Hl1 Hshrest Hs12 Hs13 Hbufs]
  · iapply (Entails.of_eq (Carry_unfold (F := F) m d L).symm)
    isplitl [Hiw']; · iapply (Entails.of_eq (pts_iwRowM (F := F) d L fullShare _)); iexact Hiw'
    isplitl [Hl1]; · iexact Hl1
    isplitl [Hshrest]; · iexact Hshrest
    isplitl [Hs12]; · iexact Hs12
    isplitl [Hs13]; · iexact Hs13
    iexact Hbufs
  iexists _; isplitr
  swap; · iexact HO
  ipureintro
  intro p hp
  rcases Finset.mem_insert.mp hp with hp | hp; · exact .inr (.inr (hp ▸ rfl))
  rcases Finset.mem_insert.mp hp with hp | hp; · exact .inr (.inl (hp ▸ rfl))
  first
    | exact .inl hp
    | (rcases Finset.mem_insert.mp hp with hp | hp; · exact .inr (.inl (hp ▸ rfl))
       exact .inl hp)

set_option maxHeartbeats 4000000 in
/-- The first part on tile 0 of a SparseCore. -/
theorem part1_lead (hF : (K (F := F)).Facts) (hpre : IdxOK m) (h0 : (L 1).val = 0) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goRes m d (cV L) (jL L)
        ∗ scopedBufs (thrL d L) ∗ scopedSems0 (thrL d L) ∗ owes (thrL d L) (O + oxV d (cV L)) W)
      ⊢ wp frame (wpE (defs₀ (F := F)) 𝒱₀ (thrL d L) none) Set.univ
          (k0_part1 L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1)
          fun _ => Mid m d L (Ring m d L 0) O W := by
  simp only [k0_part1_eq_skeleton]; unfold k0_part1_skel
  rw [(K (F := F)).scopedBufs_V hF d (cV L) (jV L), SparseCore.Cfg.scopedSems0_V (Val := Elt F) d (cV L) (jV L), ownSems0_V_list, ownBufs_V2]
  unfold bkit goRes
  rw [show lead0 m d (cV L) (jL L) = iprop(tabTokPts m d (cV L) ∗ ∃ f, shLoc d (cV L) ↦{fullShare} f) from if_pos h0]
  iintro ⟨#Hlv, ⟨⟨%κ, #Hinv⟩, Htoks, #Hrch, Hat, Hcred⟩, ⟨Hiw, Hout, ⟨Htab, %fsh, Hsh0⟩⟩, ⟨⟨%fiv, Hiv⟩, ⟨%frv, Hrv⟩, Hbufs⟩, ⟨Hs0, Hs1, Hs2, Hs3, Hs4, Hs5, Hs6, Hs7, Hs8, Hs9, Hs10, Hs11, Hs12, Hs13⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  -- the buffers as the program's memrefs address them
  ihave Hiw' := (Entails.of_eq (pts_iwRowM (F := F) d L fullShare _).symm) $$ Hiw
  ihave Hiv' := (Entails.of_eq (show ((V d (cV L) (jV L)).loc cc0_scratch0 ↦{fullShare} fiv : sProp 𝕄) = ((ivV).view.loc (V d (cV L) (jV L)) ↦{fullShare} fiv) from rfl)) $$ Hiv
  ihave Hrv' := (Entails.of_eq (show ((V d (cV L) (jV L)).loc cc0_scratch1 ↦{fullShare} frv : sProp 𝕄) = ((rvV).view.loc (V d (cV L) (jV L)) ↦{fullShare} frv) from rfl)) $$ Hrv
  ihave Htab' := (Entails.of_eq (show (tabTokPts m d (cV L) : sProp 𝕄)
      = ((tabV).view.loc (V d (cV L) (jV L)) ↦{Transfers.shareTok fullShare 2 (Fin.cast nSC_eq (cV L))} m (tabLoc d)) from rfl)) $$ Htab
  ihave Hsh0' := (Entails.of_eq (show (shLoc d (cV L) ↦{fullShare} fsh : sProp 𝕄) = ((shV).view.loc (V d (cV L) (jV L)) ↦{fullShare} fsh) from rfl)) $$ Hsh0
  have k0_h1 : Scalar.cmpi .ne (Scalar.extui (Scalar.cmpi .eq (BitVec.ofNat 32 (L 1).val) 0#32)) 0#32 = 1#1 := by
    have : ∀ j : Fin 16, j.val = 0 → Scalar.cmpi .ne (Scalar.extui (Scalar.cmpi .eq (BitVec.ofNat 32 j.val) 0#32)) 0#32 = 1#1 := by decide
    exact this (L 1) h0
  -- the copy of the table into the shared memory and its wait, the fetch of the tile's run and its wait
  sl_exec
  -- the shared memory holds the table: sixteen read shares, one per tile, and the rest
  ihave Hsh1 := (sh_copied (F := F) m d L fsh (part1_lead.sl.dma0 m d) rfl) $$ Hsh0'
  ihave Hsp0 := (Transfers.pointsTo_toks_split fullShare 16) $$ Hsh1
  icases Hsp0 with ⟨Hdrop, Hall⟩
  -- the barrier: every tile's read share handed over, the tile's own received
  ihave Hpays := (pays_lead (F := F) m d L h0) $$ Hall
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  -- the tile's own read share of the shared copy
  ihave Hsh := (pays_mine (F := F) m d L) $$ Hgot
  ihave Hiv2 := (iv_fetched (F := F) m d L fiv (part1_lead.sl.dma0_1 m d L) rfl) $$ Hiv'
  ihave Htab2 := (Entails.of_eq (show ((tabV).view.loc (V d (cV L) (jV L)) ↦{Transfers.shareTok fullShare 2 (Fin.cast nSC_eq (cV L))} m (tabLoc d) : sProp 𝕄)
      = tabTokPts m d (cV L) from rfl)) $$ Htab'
  ihave Hl1 := (lead1_lead (F := F) m d L h0) $$ [Htab2 Hdrop]
  · isplitl [Htab2]; · iexact Htab2
    iexact Hdrop
  -- the read share of the shared copy: six tokens for the slots, the rest passes through
  ihave Hsh' := (Entails.of_eq (shTok_respell (F := F) m d L)) $$ Hsh
  ihave Hsp := (Transfers.pointsTo_toks_range (shQ L) 6).1 $$ Hsh'
  icases Hsp with ⟨Hshrest, Htk⟩
  ihave Htk' := (Entails.of_eq (bigSep_range6 (F := F) _)) $$ Htk
  icases Htk' with ⟨Hk0, Hk1, Hk2, Hk3, Hk4, Hk5⟩
  -- the index buffer's windows, the row buffer's slots
  ihave Hw' := (Entails.of_eq (iv_split (F := F) d L (IVf m d L))) $$ Hiv2
  icases Hw' with ⟨Hw0, Hw1, Hwr⟩
  ihave Hsl' := (Entails.of_eq (rv_split (F := F) d L frv)) $$ Hrv'
  icases Hsl' with ⟨Hsl0, Hsl1, Hsl2, Hsl3, Hsl4, Hsl5⟩
  have hpre' : ∀ (d : Dev nD) p, (IW m d p).toNat < 1002 := hpre
  have hin0 : ∀ (x : (Rect.unit (s := S6400) ![0] S128.size inb_S6400_S128_0).shape.Idx),
      (((Memref.whole cc0_scratch0 : Memref sig .scVector .vmem S6400 .i32).slice (Rect.unit (s := S6400) ![0] S128.size inb_S6400_S128_0) (fun _ => rfl)).view.read (Elt F) (IVf m d L) x).toNat < 1002 :=
    fun x => win_inRange m d L hpre' 0 c0lt x
  have hin1 : ∀ (x : (Rect.unit (s := S6400) ![128] S128.size inb_S6400_S128_128).shape.Idx),
      (((Memref.whole cc0_scratch0 : Memref sig .scVector .vmem S6400 .i32).slice (Rect.unit (s := S6400) ![128] S128.size inb_S6400_S128_128) (fun _ => rfl)).view.read (Elt F) (IVf m d L) x).toNat < 1002 :=
    fun x => win_inRange m d L hpre' 1 c1lt x
  sl_exec
  sl_step
  -- the two gathers in flight deliver the chunks' rows
  ihave Hg0 := (gFlight_intro (F := F) m d L 0 c0lt 0 b0lt frv (part1_lead.sl.gather0 m d L hin0) (gather_rows m d L 0 c0lt rfl hin0) 524288 rfl ⟨0, d0lt⟩ rfl) $$ Hs0
  ihave Hg1 := (gFlight_intro (F := F) m d L 1 c1lt 1 b1lt frv (part1_lead.sl.gather1 m d L hin1) (gather_rows m d L 1 c1lt rfl hin1) 524288 rfl ⟨1, d1lt⟩ rfl) $$ Hs1
  -- the part of the flat result in its fifty chunks
  ihave Hch := (Entails.of_eq (out_split (F := F) d L (m (outLoc d)))) $$ Hout
  icases Hch with ⟨Hc0, Hc1, Hcr⟩
  ihave Hfr := (fresh_family (F := F) m d L _) $$ [Hwr Hcr]
  · isplitl [Hwr]; · iexact Hwr
    iexact Hcr
  iapply (Entails.of_eq (Mid_unfold (F := F) m d L _ O W).symm)
  isplitr; · iexact Hlv
  isplitl [Hg0 Hg1 Hc0 Hc1 Hs6 Hs7 Hfr Hsl2 Hsl3 Hsl4 Hsl5 Hs2 Hs3 Hs4 Hs5 Hs8 Hs9 Hs10 Hs11 Hk2 Hk3 Hk4 Hk5]
  · iapply (ring0_intro (F := F) m d L)
    isplitl [Hg0 Hg1 Hc0 Hc1 Hs6 Hs7 Hfr]
    · isplitl [Hg0 Hc0 Hs6]
      · iapply (Entails.of_eq (gathering_unfold (F := F) m d L 0 c0lt 0 b0lt).symm)
        isplitl [Hg0]; · iexact Hg0
        isplitl [Hc0]; · iexact Hc0
        iexact Hs6
      isplitl [Hg1 Hc1 Hs7]
      · iapply (Entails.of_eq (gathering_unfold (F := F) m d L 1 c1lt 1 b1lt).symm)
        isplitl [Hg1]; · iexact Hg1
        isplitl [Hc1]; · iexact Hc1
        iexact Hs7
      iexact Hfr
    · isplitl [Hsl2 Hs2 Hs8 Hk2]
      · iapply (Entails.of_eq (freeSlot_unfold (F := F) m d L ⟨2, b2lt⟩).symm)
        isplitl [Hsl2]; · iexists _; iexact Hsl2
        isplitl [Hs2]; · iexact Hs2
        isplitl [Hs8]; · iexact Hs8
        iexact Hk2
      isplitl [Hsl3 Hs3 Hs9 Hk3]
      · iapply (Entails.of_eq (freeSlot_unfold (F := F) m d L ⟨3, b3lt⟩).symm)
        isplitl [Hsl3]; · iexists _; iexact Hsl3
        isplitl [Hs3]; · iexact Hs3
        isplitl [Hs9]; · iexact Hs9
        iexact Hk3
      isplitl [Hsl4 Hs4 Hs10 Hk4]
      · iapply (Entails.of_eq (freeSlot_unfold (F := F) m d L ⟨4, b4lt⟩).symm)
        isplitl [Hsl4]; · iexists _; iexact Hsl4
        isplitl [Hs4]; · iexact Hs4
        isplitl [Hs10]; · iexact Hs10
        iexact Hk4
      iapply (Entails.of_eq (freeSlot_unfold (F := F) m d L ⟨5, b5lt⟩).symm)
      isplitl [Hsl5]; · iexists _; iexact Hsl5
      isplitl [Hs5]; · iexact Hs5
      isplitl [Hs11]; · iexact Hs11
      iexact Hk5
  isplitl [Hiw' Hl1 Hshrest Hs12 Hs13 Hbufs]
  · iapply (Entails.of_eq (Carry_unfold (F := F) m d L).symm)
    isplitl [Hiw']; · iapply (Entails.of_eq (pts_iwRowM (F := F) d L fullShare _)); iexact Hiw'
    isplitl [Hl1]; · iexact Hl1
    isplitl [Hshrest]; · iexact Hshrest
    isplitl [Hs12]; · iexact Hs12
    isplitl [Hs13]; · iexact Hs13
    iexact Hbufs
  iexists _; isplitr
  swap; · iexact HO
  ipureintro
  intro p hp
  rcases Finset.mem_insert.mp hp with hp | hp; · exact .inr (.inr (hp ▸ rfl))
  rcases Finset.mem_insert.mp hp with hp | hp; · exact .inr (.inl (hp ▸ rfl))
  first
    | exact .inl hp
    | (rcases Finset.mem_insert.mp hp with hp | hp; · exact .inr (.inl (hp ▸ rfl))
       exact .inl hp)

end Part1

open Part1 in
/-- The first part of a tile's program leaves the ring before the first trip. -/
theorem part1_proof (hF : (K (F := F)).Facts) (hpre : IdxOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goRes m d (cV L) (jL L)
        ∗ scopedBufs (thrL d L) ∗ scopedSems0 (thrL d L) ∗ owes (thrL d L) (O + oxV d (cV L)) W)
      ⊢ wp frame (wpE (defs₀ (F := F)) 𝒱₀ (thrL d L) none) Set.univ
          (k0_part1 L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1)
          fun _ => Mid m d L (Ring m d L 0) O W := by
  by_cases h0 : (L 1).val = 0
  · exact part1_lead m d L hF hpre h0 O W hO hOlev
  · exact part1_other m d L hF hpre h0 O W hO hOlev

end Cert.Proof.KN

end
-- ==== Proof.KNLoopA.lean ====
/-
  One trip of a tile's loop, and the loop.
-/
import proofs.«203285_g23708219474275_cont_8to1_227_19_alg».proof.Proof.KNCtx
import proofs.«203285_g23708219474275_cont_8to1_227_19_alg».proof.Proof.KNIdx
import proofs.«203285_g23708219474275_cont_8to1_227_19_alg».proof.Proof.KNSems
import proofs.«203285_g23708219474275_cont_8to1_227_19_alg».proof.Proof.KNGeom
import proofs.«203285_g23708219474275_cont_8to1_227_19_alg».proof.Proof.KNRows

noncomputable section

namespace Cert.Proof.KN

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iwV" => (Memref.whole Cert.Kernel.main_v1_scv : Memref Cert.Kernel.sig Kind.scVector Space.hbm Cert.Kernel.S32x6400 EltTy.i32)
local notation "tabV" => (Memref.whole Cert.Kernel.main_arg1_scv : Memref Cert.Kernel.sig Kind.scVector Space.hbm Cert.Kernel.S1002x128 EltTy.f32)
local notation "outV" => (Memref.whole Cert.Kernel.main_v2_scv : Memref Cert.Kernel.sig Kind.scVector Space.hbm Cert.Kernel.S204800x128 EltTy.f32)
local notation "shV" => (Memref.whole Cert.Kernel.cc0_scratch2 : Memref Cert.Kernel.sig Kind.scVector Space.shared Cert.Kernel.S1002x128 EltTy.f32)
local notation "ivV" => (Memref.whole Cert.Kernel.cc0_scratch0 : Memref Cert.Kernel.sig Kind.scVector Space.vmem Cert.Kernel.S6400 EltTy.i32)
local notation "rvV" => (Memref.whole Cert.Kernel.cc0_scratch1 : Memref Cert.Kernel.sig Kind.scVector Space.vmem Cert.Kernel.S6x128x128 EltTy.f32)

variable [FloatOps F]

section Loop

variable (d : Dev nD) (L : grid0.Coords)

omit [FloatOps F] in
/-- Three members of a family over the fifty chunks taken out. -/
theorem split3 (Φ : Fin 50 → sProp 𝕄) (a b c : Fin 50) (hab : a ≠ b) (hac : a ≠ c) (hbc : b ≠ c) :
    bigSep Finset.univ Φ = iprop(Φ a ∗ Φ b ∗ Φ c ∗ bigSep (((Finset.univ.erase a).erase b).erase c) Φ) := by
  rw [SparseCore.bigSep_erase' (Finset.mem_univ a), SparseCore.bigSep_erase' (Finset.mem_erase.mpr ⟨hab.symm, Finset.mem_univ b⟩),
    SparseCore.bigSep_erase' (Finset.mem_erase.mpr ⟨hbc.symm, Finset.mem_erase.mpr ⟨hac.symm, Finset.mem_univ c⟩⟩)]
omit [FloatOps F] in
theorem split2 (Φ : Fin 50 → sProp 𝕄) (a b : Fin 50) (hab : a ≠ b) :
    bigSep Finset.univ Φ = iprop(Φ a ∗ Φ b ∗ bigSep ((Finset.univ.erase a).erase b) Φ) := by
  rw [SparseCore.bigSep_erase' (Finset.mem_univ a), SparseCore.bigSep_erase' (Finset.mem_erase.mpr ⟨hab.symm, Finset.mem_univ b⟩)]
omit [FloatOps F] in
theorem split1 (Φ : Fin 50 → sProp 𝕄) (a : Fin 50) :
    bigSep Finset.univ Φ = iprop(Φ a ∗ bigSep (Finset.univ.erase a) Φ) := SparseCore.bigSep_erase' (Finset.mem_univ a)

/-- A chunk other than k - 4, k and k + 2 is in the same state before trips k and k + 1 (while the gathers still run ahead). -/
theorem phase_succ (k : ℕ) (hk : k + 2 < 50) (j : Fin 50) (h1 : j.val ≠ k + 2) (h2 : j.val ≠ k) (h3 : j.val + 4 ≠ k) :
    phase m d L (k + 1) j = phase m d L k j := by
  unfold phase
  have e1 : (k + 1 + 2 ≤ j.val) ↔ (k + 2 ≤ j.val) := by omega
  have e2 : (k + 1 ≤ j.val) ↔ (k ≤ j.val) := by omega
  have e3 : (min (k + 1) 48 ≤ j.val + 4) ↔ (min k 48 ≤ j.val + 4) := by omega
  simp only [e1, e2, e3]
/-- The same in the last two trips, where no gather starts. -/
theorem phase_succ' (k : ℕ) (hk : 48 ≤ k) (j : Fin 50) (h2 : j.val ≠ k) :
    phase m d L (k + 1) j = phase m d L k j := by
  unfold phase
  have hj := j.isLt
  have e1 : (k + 1 + 2 ≤ j.val) ↔ (k + 2 ≤ j.val) := by omega
  have e2 : (k + 1 ≤ j.val) ↔ (k ≤ j.val) := by omega
  have e3 : (min (k + 1) 48 ≤ j.val + 4) ↔ (min k 48 ≤ j.val + 4) := by omega
  simp only [e1, e2, e3]

omit [FloatOps F] in
theorem mslice_off8 (M : Memref sig .scVector .vmem S6x128x128 .f32) (k : Fin k0_t1_loop.trips) (hs) :
    M.slice (Rect.unit (s := S6x128x128) (k0_off8 k) S1x128x128.size (k0_off8_inb k)) hs = M.slice (slotR (k.val % 6) (mod6 _)) (fun _ => rfl) :=
  Memref.slice_unit_congr M (k0_off8_eq k) _ _ _ _
omit [FloatOps F] in
theorem mslice_off5 (M : Memref sig .scVector .vmem S6x128x128 .f32) (k : Fin k0_t1_loop.trips) (h2 : k0_cond2 k = 1#1) (hs) :
    M.slice (Rect.unit (s := S6x128x128) (k0_off5 k) S1x128x128.size (k0_off5_inb k h2)) hs = M.slice (slotR ((k.val + 2) % 6) (mod6 _)) (fun _ => rfl) :=
  Memref.slice_unit_congr M (k0_off5_eq k) _ _ _ _
omit [FloatOps F] in
theorem mslice_off2 (M : Memref sig .scVector .vmem S6x128x128 .f32) (k : Fin k0_t1_loop.trips) (h2 : k0_cond2 k = 1#1) (h3 : k0_cond3 k = 1#1) (hs) :
    M.slice (Rect.unit (s := S6x128x128) (k0_off2 k) S1x128x128.size (k0_off2_inb k h2 h3)) hs = M.slice (slotR ((k.val + 2) % 6) (mod6 _)) (fun _ => rfl) :=
  Memref.slice_unit_congr M (k0_off2_eq k) _ _ _ _
omit [FloatOps F] in
theorem mslice_off9 (M : Memref sig .scVector .vmem S6400 .i32) (k : Fin k0_t1_loop.trips) (hs) :
    M.slice (Rect.unit (s := S6400) (k0_off9 k) S128.size (k0_off9_inb k)) hs = M.slice (winR k.val (trip_lt k)) (fun _ => rfl) :=
  Memref.slice_unit_congr M (k0_off9_eq k) _ _ _ _
omit [FloatOps F] in
theorem mslice_off6 (M : Memref sig .scVector .vmem S6400 .i32) (k : Fin k0_t1_loop.trips) (h2 : k0_cond2 k = 1#1) (hs) :
    M.slice (Rect.unit (s := S6400) (k0_off6 k) S128.size (k0_off6_inb k h2)) hs = M.slice (winR (k.val + 2) ((cond2_iff k).mp h2)) (fun _ => rfl) :=
  Memref.slice_unit_congr M ((k0_off6_eq k).trans (by rw [show 128 * k.val + 256 = 128 * (k.val + 2) by omega])) _ _ _ _
omit [FloatOps F] in
theorem mslice_off11 (M : Memref sig .scVector .hbm S204800x128 .f32) (L : grid0.Coords) (k : Fin k0_t1_loop.trips) (hs) :
    M.slice (Rect.unit (s := S204800x128) (k0_off11 L k) S128x128.size (k0_off11_inb L k)) hs = M.slice (chunkR L k.val (trip_lt k)) (fun _ => rfl) :=
  Memref.slice_unit_congr M (k0_off11_eq L k) _ _ _ _
omit [FloatOps F] in
theorem mslice_off3 (M : Memref sig .scVector .hbm S204800x128 .f32) (L : grid0.Coords) (k : Fin k0_t1_loop.trips) (h2 : k0_cond2 k = 1#1) (h3 : k0_cond3 k = 1#1) (hs) :
    M.slice (Rect.unit (s := S204800x128) (k0_off3 L k) S128x128.size (k0_off3_inb L k h2 h3)) hs
      = M.slice (chunkR L (k.val - 4) (Nat.lt_of_le_of_lt (Nat.sub_le _ _) (trip_lt k))) (fun _ => rfl) :=
  Memref.slice_unit_congr M (k0_off3_eq' L k ((cond3_iff k).mp h3)) _ _ _ _

omit [FloatOps F] in
/-- A buffer written whole through a view reads, through that view, what was written. -/
theorem read_writes_whole {κ : Kind} {sp : Space} {s : Shape} {e : EltTy} (v : View sig κ sp s e) (f : v.ty.Contents (Elt F)) (P : s.Idx → Elt F e) :
    v.read (Elt F) (v.writes (Elt F) f [⟨Rect.whole s, P⟩]) = P := by
  funext x
  have h := View.read_writes_cons_emb (Val := Elt F) v f (Rect.whole s) P [] x
  rwa [Rect.emb_whole_apply] at h

theorem finished_intro (j : ℕ) (hj : j < 50) (fo : Buf (Elt F) ((chunkM L j hj).view.loc (thrL d L)))
    (h : (chunkM L j hj).view.read (Elt F) fo = rowsOf m d L j hj) :
    iprop(chunkPts d L j hj fo ∗ winPts m d L j hj) ⊢ finished m d L j hj := by
  unfold finished chunkDone
  iintro ⟨Hc, Hw⟩
  isplitl [Hc]
  · iexists fo; isplitr
    · ipureintro; exact h
    · iexact Hc
  · iexact Hw

theorem storing_intro (j : ℕ) (hj : j < 50) (b : ℕ) (hb : b < 6) (fo : Buf (Elt F) ((chunkM L j hj).view.loc (thrL d L)))
    (fd : Buf (Elt F) ((slotM b hb).view.loc (thrL d L))) (h : (chunkM L j hj).view.read (Elt F) fo = rowsOf m d L j hj) :
    iprop(Transfers.Flight countersEmb (thrL d L) (SemLoc.dma (sSem b hb)) (default : HIx 1) (chunkM L j hj).view.dmaCredit
          iprop(chunkPts d L j hj fo ∗ slotPts d L b hb fd)
        ∗ winPts m d L j hj ∗ gSemPts d L b hb ∗ shPts m d L b) ⊢ storing m d L j hj b hb := by
  unfold storing sFlight
  iintro ⟨Hf, Hw, Hg, Hs⟩
  isplitl [Hf]
  · iexists fo, fd; isplitr
    · ipureintro; exact h
    · iexact Hf
  isplitl [Hw]; · iexact Hw
  isplitl [Hg]; · iexact Hg
  iexact Hs

theorem gathering_intro (j : ℕ) (hj : j < 50) (b : ℕ) (hb : b < 6) (fd : Buf (Elt F) ((slotM b hb).view.loc (thrL d L)))
    (h : (slotM b hb).view.read (Elt F) fd = rowsOf m d L j hj) :
    iprop(Transfers.Flight countersEmb (thrL d L) (SemLoc.dma (gSem b hb)) (default : HIx 1) (slotM b hb).view.dmaCredit
          iprop((slotPts d L b hb fd ∗ winPts m d L j hj) ∗ shPts m d L b)
        ∗ chunkPts d L j hj (m (outLoc d)) ∗ sSemPts d L b hb) ⊢ gathering m d L j hj b hb := by
  unfold gathering gFlight
  iintro ⟨Hf, Hc, Hs⟩
  isplitl [Hf]
  · iexists fd; isplitr
    · ipureintro; exact h
    · iexact Hf
  isplitl [Hc]; · iexact Hc
  iexact Hs

/-- The loop's invariant: the levels, the ring before trip `k`, and what the tile owes with the waits recorded so far. -/
def LInv (O : CellTallies nD τ sig (HIx 1)) (W : Waits sig (HIx 1)) (k : ℕ) (_ : Unit) : sProp 𝕄 :=
  iprop(levAts (K (F := F)).L (K (F := F)).lev ∗ Ring m d L k
    ∗ ∃ W', ⌜∀ p ∈ W', p ∈ W ∨ p.2 = none ∨ p.2 = some (0 : Fin 1)⌝ ∗ owes (thrL d L) O W')

/-- The offsets a gather reads are in range, whichever window of the index buffer they come from. -/
theorem hin_win (hpre : IdxOK m) (j : ℕ) (hj : j < 50) :
    ∀ x, ((winM j hj).view.read (Elt F) (IVf m d L) x).toNat < 1002 := by
  intro x
  rw [show (winM j hj).view.read (Elt F) (IVf m d L) x = IVf m d L ((winM j hj).view.emb x) from (View.read_apply _ _).trans (cast_eq _ _)]
  exact hpre d _

theorem phase_fresh (k : ℕ) (j : Fin 50) (h : k + 2 ≤ j.val) : phase m d L k j = fresh m d L j.val j.isLt := by
  unfold phase; rw [if_pos h]
theorem phase_gathering (k : ℕ) (j : Fin 50) (h1 : ¬ k + 2 ≤ j.val) (h2 : k ≤ j.val) :
    phase m d L k j = gathering m d L j.val j.isLt (j.val % 6) (mod6 j.val) := by
  unfold phase; rw [if_neg h1, if_pos h2]
theorem phase_storing (k : ℕ) (j : Fin 50) (h2 : ¬ k ≤ j.val) (h3 : min k 48 ≤ j.val + 4) :
    phase m d L k j = storing m d L j.val j.isLt (j.val % 6) (mod6 j.val) := by
  unfold phase; rw [if_neg (by omega), if_neg h2, if_pos h3]
theorem phase_finished (k : ℕ) (j : Fin 50) (h3 : ¬ min k 48 ≤ j.val + 4) :
    phase m d L k j = finished m d L j.val j.isLt := by
  unfold phase; rw [if_neg (by omega), if_neg (by omega), if_neg h3]

set_option maxHeartbeats 4000000 in
/-- A trip in the steady state (4 ≤ k ≤ 47): the copy-out of chunk k - 4 is waited for, the gather of chunk k + 2 starts in
    its slot, the gather of chunk k is waited for, its copy-out starts. -/
theorem region_mid (hpre : IdxOK m) (O : CellTallies nD τ sig (HIx 1)) (W : Waits sig (HIx 1)) (hO : ∀ g, O g none = 0) (v5 c0 c50 : BitVec 32)
    (k : Fin k0_t1_loop.trips) (h2 : k.val + 2 < 50) (h3 : 4 ≤ k.val) :
    LInv m d L O W k.val ()
      ⊢ wp frame (wpE (defs₀ (F := F)) 𝒱₀ (thrL d L) none) Set.univ
          (k0_t1_body L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1 v5 c0 c50 k ())
          (LInv m d L O W (k.val + 1)) := by
  have k0_h2 : k0_cond2 k = 1#1 := (cond2_iff k).mpr h2
  have k0_h3 : k0_cond3 k = 1#1 := (cond3_iff k).mpr h3
  have hk50 : k.val < 50 := trip_lt k
  unfold k0_t1_body
  simp only [k0_h2, k0_h3, ↓reduceDIte, mslice_off8 _ k, mslice_off9 _ k, mslice_off11 _ L k, sem_off10 _ k, mslice_off5 _ k k0_h2, mslice_off6 _ k k0_h2,
    sem_off7 _ k k0_h2, mslice_off2 _ k k0_h2 k0_h3, mslice_off3 _ L k k0_h2 k0_h3, sem_off4 _ k k0_h2 k0_h3]
  unfold LInv Ring
  -- the three chunks this trip touches: k - 4 (its copy-out ends), k (its gather ends, its copy-out starts), k + 2 (its gather starts)
  rw [split3 (F := F) (phase m d L k.val) ⟨k.val - 4, by omega⟩ ⟨k.val, hk50⟩ ⟨k.val + 2, h2⟩
      (by intro e; have := congrArg Fin.val e; simp at this; omega) (by intro e; have := congrArg Fin.val e; simp at this; omega)
      (by intro e; have := congrArg Fin.val e; simp at this),
    phase_storing m d L k.val ⟨k.val - 4, by omega⟩ (by show ¬ k.val ≤ k.val - 4; omega) (by show min k.val 48 ≤ k.val - 4 + 4; omega),
    phase_gathering m d L k.val ⟨k.val, hk50⟩ (by show ¬ k.val + 2 ≤ k.val; omega) (le_refl _),
    phase_fresh m d L k.val ⟨k.val + 2, h2⟩ (le_refl _),
    storing_slot m d L (k.val - 4) (by omega) ((k.val - 4) % 6) ((k.val + 2) % 6) (mod6 _) (mod6 _) (by omega)]
  unfold storing sFlight gathering gFlight fresh
  iintro ⟨#Hlv, ⟨⟨⟨⟨%foA, %fdA, %hfoA, HflA⟩, HwinA, HgsA, HshA⟩, ⟨⟨%fdB, %hfdB, HflB⟩, HchB, HssB⟩, ⟨HwinC, HchC⟩, Hrest⟩, Hfree⟩, %W', %hW', HO⟩
  ihave Hmw := (show levAts (K (F := F)).L (K (F := F)).lev ⊢ Transfers.MayWaits (thrL d L) (default : HIx 1) O from
    (K (F := F)).mayWaits_none (thr := thrL d L) hO) $$ Hlv
  have hin := hin_win m d L hpre
  sl_exec (disch := exact View.amount_pos _ _ (show 0 < S128x128.numel by decide))
  icases HflB_dst with ⟨HslB, HwinB⟩
  sl_exec (disch := exact View.amount_pos _ _ (show 0 < S128x128.numel by decide))
  sl_step
  -- what the two new flights will deliver
  have hgat : (slotM ((k.val + 2) % 6) (mod6 _)).view.read (Elt F)
      ((slotM ((k.val + 2) % 6) (mod6 _)).view.writes (Elt F) fdA [⟨Rect.whole S128x128, region_mid.sl.gather0 m d L k k0_h2 hin⟩]) = rowsOf m d L (k.val + 2) h2 :=
    (read_writes_whole _ _ _).trans (gather_rows m d L (k.val + 2) h2 rfl (hin _ _))
  have hsto : (chunkM L k.val hk50).view.read (Elt F)
      ((chunkM L k.val hk50).view.writes (Elt F) (m (outLoc d)) [⟨Rect.whole S128x128, region_mid.sl.dma0 d L k hk50 fdB⟩]) = rowsOf m d L k.val hk50 :=
    (read_writes_whole _ _ _).trans hfdB
  -- the chunks' states before trip k + 1
  have hrest_eq : (bigSep (((Finset.univ.erase (⟨k.val - 4, by omega⟩ : Fin 50)).erase ⟨k.val, hk50⟩).erase ⟨k.val + 2, h2⟩) (phase m d L (k.val + 1)) : sProp 𝕄)
      = bigSep (((Finset.univ.erase (⟨k.val - 4, by omega⟩ : Fin 50)).erase ⟨k.val, hk50⟩).erase ⟨k.val + 2, h2⟩) (phase m d L k.val) :=
    bigSep_congr fun j hj => by
      have h1 := (Finset.mem_erase.mp hj).1
      have hj2 := (Finset.mem_erase.mp hj).2
      have h2' := (Finset.mem_erase.mp hj2).1
      have h3' := (Finset.mem_erase.mp (Finset.mem_erase.mp hj2).2).1
      exact phase_succ m d L k.val h2 j (fun e => h1 (Fin.ext e)) (fun e => h2' (Fin.ext e)) (fun e => h3' (Fin.ext (by show j.val = k.val - 4; omega)))
  have Epost : (bigSep Finset.univ (phase m d L (k.val + 1)) : sProp 𝕄)
      = iprop(finished m d L (k.val - 4) (by omega) ∗ storing m d L k.val hk50 (k.val % 6) (mod6 _)
          ∗ gathering m d L (k.val + 2) h2 ((k.val + 2) % 6) (mod6 _)
          ∗ bigSep (((Finset.univ.erase (⟨k.val - 4, by omega⟩ : Fin 50)).erase ⟨k.val, hk50⟩).erase ⟨k.val + 2, h2⟩) (phase m d L k.val)) := by
    rw [split3 (F := F) (phase m d L (k.val + 1)) ⟨k.val - 4, by omega⟩ ⟨k.val, hk50⟩ ⟨k.val + 2, h2⟩
        (by intro e; have := congrArg Fin.val e; simp at this; omega) (by intro e; have := congrArg Fin.val e; simp at this; omega)
        (by intro e; have := congrArg Fin.val e; simp at this),
      phase_finished m d L (k.val + 1) ⟨k.val - 4, by omega⟩ (by show ¬ min (k.val + 1) 48 ≤ k.val - 4 + 4; omega),
      phase_storing m d L (k.val + 1) ⟨k.val, hk50⟩ (by show ¬ k.val + 1 ≤ k.val; omega) (by show min (k.val + 1) 48 ≤ k.val + 4; omega),
      phase_gathering m d L (k.val + 1) ⟨k.val + 2, h2⟩ (by show ¬ k.val + 1 + 2 ≤ k.val + 2; omega) (by show k.val + 1 ≤ k.val + 2; omega),
      hrest_eq]
  have Efree : (bigSep Finset.univ (fun b : Fin 6 => if k.val + 1 + 2 ≤ b.val then freeSlot m d L b else iprop(emp)) : sProp 𝕄)
      = bigSep Finset.univ fun b : Fin 6 => if k.val + 2 ≤ b.val then freeSlot m d L b else iprop(emp) :=
    bigSep_congr fun b _ => by have := b.isLt; rw [if_neg (by omega), if_neg (by omega)]
  iclear HshA
  isplitr; · iexact Hlv
  isplitr [HO]
  · isplitr [Hfree]
    · iapply (Entails.of_eq Epost.symm)
      isplitl [HflA_dst HwinA]
      · iapply (finished_intro m d L (k.val - 4) _ foA hfoA)
        isplitl [HflA_dst]; · iexact HflA_dst
        iexact HwinA
      isplitl [HssB HwinB HflB HflB_src]
      · iapply (storing_intro m d L k.val hk50 (k.val % 6) (mod6 _) _ fdB hsto)
        isplitl [HssB]; · iexact HssB
        isplitl [HwinB]; · iexact HwinB
        isplitl [HflB]; · iexact HflB
        iexact HflB_src
      isplitl [HgsA HchC HflA]
      · iapply (gathering_intro m d L (k.val + 2) h2 ((k.val + 2) % 6) (mod6 _) _ hgat)
        isplitl [HgsA]; · iexact HgsA
        isplitl [HchC]; · iexact HchC
        iexact HflA
      iexact Hrest
    · iapply (Entails.of_eq Efree.symm); iexact Hfree
  · iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    exact hW' p hp

set_option maxHeartbeats 4000000 in
/-- One of the last two trips (k = 48, 49): no gather starts; the gather of chunk k is waited for and its copy-out starts. -/
theorem region_last (hpre : IdxOK m) (O : CellTallies nD τ sig (HIx 1)) (W : Waits sig (HIx 1)) (hO : ∀ g, O g none = 0) (v5 c0 c50 : BitVec 32)
    (k : Fin k0_t1_loop.trips) (h2 : ¬ k.val + 2 < 50) :
    LInv m d L O W k.val ()
      ⊢ wp frame (wpE (defs₀ (F := F)) 𝒱₀ (thrL d L) none) Set.univ
          (k0_t1_body L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1 v5 c0 c50 k ())
          (LInv m d L O W (k.val + 1)) := by
  have k0_h2 : ¬ k0_cond2 k = 1#1 := fun h => h2 ((cond2_iff k).mp h)
  have hk50 : k.val < 50 := trip_lt k
  unfold k0_t1_body
  simp only [k0_h2, ↓reduceDIte, mslice_off8 _ k, mslice_off11 _ L k, sem_off10 _ k]
  unfold LInv Ring
  rw [split1 (F := F) (phase m d L k.val) ⟨k.val, hk50⟩,
    phase_gathering m d L k.val ⟨k.val, hk50⟩ (by show ¬ k.val + 2 ≤ k.val; omega) (le_refl _)]
  unfold gathering gFlight
  iintro ⟨#Hlv, ⟨⟨⟨⟨%fdB, %hfdB, HflB⟩, HchB, HssB⟩, Hrest⟩, Hfree⟩, %W', %hW', HO⟩
  ihave Hmw := (show levAts (K (F := F)).L (K (F := F)).lev ⊢ Transfers.MayWaits (thrL d L) (default : HIx 1) O from
    (K (F := F)).mayWaits_none (thr := thrL d L) hO) $$ Hlv
  sl_exec (disch := exact View.amount_pos _ _ (show 0 < S128x128.numel by decide))
  icases HflB_dst with ⟨HslB, HwinB⟩
  sl_exec (disch := exact View.amount_pos _ _ (show 0 < S128x128.numel by decide))
  sl_step
  have hsto : (chunkM L k.val hk50).view.read (Elt F)
      ((chunkM L k.val hk50).view.writes (Elt F) (m (outLoc d)) [⟨Rect.whole S128x128, region_last.sl.dma0 d L k hk50 fdB⟩]) = rowsOf m d L k.val hk50 :=
    (read_writes_whole _ _ _).trans hfdB
  have hrest_eq : (bigSep (Finset.univ.erase (⟨k.val, hk50⟩ : Fin 50)) (phase m d L (k.val + 1)) : sProp 𝕄)
      = bigSep (Finset.univ.erase (⟨k.val, hk50⟩ : Fin 50)) (phase m d L k.val) :=
    bigSep_congr fun j hj => phase_succ' m d L k.val (by omega) j (fun e => (Finset.mem_erase.mp hj).1 (Fin.ext e))
  have Epost : (bigSep Finset.univ (phase m d L (k.val + 1)) : sProp 𝕄)
      = iprop(storing m d L k.val hk50 (k.val % 6) (mod6 _) ∗ bigSep (Finset.univ.erase (⟨k.val, hk50⟩ : Fin 50)) (phase m d L k.val)) := by
    rw [split1 (F := F) (phase m d L (k.val + 1)) ⟨k.val, hk50⟩,
      phase_storing m d L (k.val + 1) ⟨k.val, hk50⟩ (by show ¬ k.val + 1 ≤ k.val; omega) (by show min (k.val + 1) 48 ≤ k.val + 4; omega),
      hrest_eq]
  have Efree : (bigSep Finset.univ (fun b : Fin 6 => if k.val + 1 + 2 ≤ b.val then freeSlot m d L b else iprop(emp)) : sProp 𝕄)
      = bigSep Finset.univ fun b : Fin 6 => if k.val + 2 ≤ b.val then freeSlot m d L b else iprop(emp) :=
    bigSep_congr fun b _ => by have := b.isLt; rw [if_neg (by omega), if_neg (by omega)]
  isplitr; · iexact Hlv
  isplitr [HO]
  · isplitr [Hfree]
    · iapply (Entails.of_eq Epost.symm)
      isplitl [HssB HwinB HflB HflB_src]
      · iapply (storing_intro m d L k.val hk50 (k.val % 6) (mod6 _) _ fdB hsto)
        isplitl [HssB]; · iexact HssB
        isplitl [HwinB]; · iexact HwinB
        isplitl [HflB]; · iexact HflB
        iexact HflB_src
      iexact Hrest
    · iapply (Entails.of_eq Efree.symm); iexact Hfree
  · iexists _; isplitr
    swap; · iexact HO
    ipureintro; intro p hp
    rcases Finset.mem_insert.mp hp with hp | hp; · exact .inr (.inl (hp ▸ rfl))
    exact hW' p hp

/-- A free slot, named at an equal slot number. -/
theorem freeSlot_eq (b : Fin 6) (b' : ℕ) (hb' : b' < 6) (e : b.val = b') :
    freeSlot m d L b = iprop((∃ f, slotPts d L b' hb' f) ∗ gSemPts d L b' hb' ∗ sSemPts d L b' hb' ∗ shPts m d L b') := by
  obtain ⟨bv, hbv⟩ := b
  have e' : bv = b' := e
  subst e'
  rfl

omit [FloatOps F] in
theorem splitSlot (Φ : Fin 6 → sProp 𝕄) (a : Fin 6) :
    bigSep Finset.univ Φ = iprop(Φ a ∗ bigSep (Finset.univ.erase a) Φ) := SparseCore.bigSep_erase' (Finset.mem_univ a)

set_option maxHeartbeats 4000000 in
/-- One of the first four trips (k < 4): nothing is waited for before the gather of chunk k + 2 starts in a slot not used
    yet; the gather of chunk k is waited for and its copy-out starts. -/
theorem region_low (hpre : IdxOK m) (O : CellTallies nD τ sig (HIx 1)) (W : Waits sig (HIx 1)) (hO : ∀ g, O g none = 0) (v5 c0 c50 : BitVec 32)
    (k : Fin k0_t1_loop.trips) (h3 : ¬ 4 ≤ k.val) :
    LInv m d L O W k.val ()
      ⊢ wp frame (wpE (defs₀ (F := F)) 𝒱₀ (thrL d L) none) Set.univ
          (k0_t1_body L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1 v5 c0 c50 k ())
          (LInv m d L O W (k.val + 1)) := by
  have h2 : k.val + 2 < 50 := by omega
  have hb6 : k.val + 2 < 6 := by omega
  have hmod : (k.val + 2) % 6 = k.val + 2 := Nat.mod_eq_of_lt hb6
  have k0_h2 : k0_cond2 k = 1#1 := (cond2_iff k).mpr h2
  have k0_h3 : ¬ k0_cond3 k = 1#1 := fun h => h3 ((cond3_iff k).mp h)
  have hk50 : k.val < 50 := trip_lt k
  unfold k0_t1_body
  simp only [k0_h2, k0_h3, ↓reduceDIte, mslice_off8 _ k, mslice_off9 _ k, mslice_off11 _ L k, sem_off10 _ k, mslice_off5 _ k k0_h2, mslice_off6 _ k k0_h2,
    sem_off7 _ k k0_h2]
  unfold LInv Ring
  rw [split2 (F := F) (phase m d L k.val) ⟨k.val, hk50⟩ ⟨k.val + 2, h2⟩ (by intro e; have := congrArg Fin.val e; simp at this),
    phase_gathering m d L k.val ⟨k.val, hk50⟩ (by show ¬ k.val + 2 ≤ k.val; omega) (le_refl _),
    phase_fresh m d L k.val ⟨k.val + 2, h2⟩ (le_refl _),
    splitSlot (F := F) (fun b : Fin 6 => if k.val + 2 ≤ b.val then freeSlot m d L b else iprop(emp)) ⟨k.val + 2, hb6⟩,
    if_pos (le_refl (k.val + 2)),
    freeSlot_eq m d L ⟨k.val + 2, hb6⟩ ((k.val + 2) % 6) (mod6 _) hmod.symm]
  unfold gathering gFlight fresh
  iintro ⟨#Hlv, ⟨⟨⟨⟨%fdB, %hfdB, HflB⟩, HchB, HssB⟩, ⟨HwinC, HchC⟩, Hrest⟩, ⟨⟨⟨%fdA, HslA⟩, HgsA, HflA, HshA⟩, Hfree⟩⟩, %W', %hW', HO⟩
  ihave Hmw := (show levAts (K (F := F)).L (K (F := F)).lev ⊢ Transfers.MayWaits (thrL d L) (default : HIx 1) O from
    (K (F := F)).mayWaits_none (thr := thrL d L) hO) $$ Hlv
  have hin := hin_win m d L hpre
  sl_exec (disch := exact View.amount_pos _ _ (show 0 < S128x128.numel by decide))
  icases HflB_dst with ⟨HslB, HwinB⟩
  sl_exec (disch := exact View.amount_pos _ _ (show 0 < S128x128.numel by decide))
  sl_step
  have hgat : (slotM ((k.val + 2) % 6) (mod6 _)).view.read (Elt F)
      ((slotM ((k.val + 2) % 6) (mod6 _)).view.writes (Elt F) fdA [⟨Rect.whole S128x128, region_low.sl.gather0 m d L k k0_h2 hin⟩]) = rowsOf m d L (k.val + 2) h2 :=
    (read_writes_whole _ _ _).trans (gather_rows m d L (k.val + 2) h2 rfl (hin _ _))
  have hsto : (chunkM L k.val hk50).view.read (Elt F)
      ((chunkM L k.val hk50).view.writes (Elt F) (m (outLoc d)) [⟨Rect.whole S128x128, region_low.sl.dma0 d L k hk50 fdB⟩]) = rowsOf m d L k.val hk50 :=
    (read_writes_whole _ _ _).trans hfdB
  have hrest_eq : (bigSep ((Finset.univ.erase (⟨k.val, hk50⟩ : Fin 50)).erase ⟨k.val + 2, h2⟩) (phase m d L (k.val + 1)) : sProp 𝕄)
      = bigSep ((Finset.univ.erase (⟨k.val, hk50⟩ : Fin 50)).erase ⟨k.val + 2, h2⟩) (phase m d L k.val) :=
    bigSep_congr fun j hj => by
      have h1 := (Finset.mem_erase.mp hj).1
      have h2' := (Finset.mem_erase.mp (Finset.mem_erase.mp hj).2).1
      exact phase_succ m d L k.val h2 j (fun e => h1 (Fin.ext e)) (fun e => h2' (Fin.ext e)) (by omega)
  have Epost : (bigSep Finset.univ (phase m d L (k.val + 1)) : sProp 𝕄)
      = iprop(storing m d L k.val hk50 (k.val % 6) (mod6 _) ∗ gathering m d L (k.val + 2) h2 ((k.val + 2) % 6) (mod6 _)
          ∗ bigSep ((Finset.univ.erase (⟨k.val, hk50⟩ : Fin 50)).erase ⟨k.val + 2, h2⟩) (phase m d L k.val)) := by
    rw [split2 (F := F) (phase m d L (k.val + 1)) ⟨k.val, hk50⟩ ⟨k.val + 2, h2⟩ (by intro e; have := congrArg Fin.val e; simp at this),
      phase_storing m d L (k.val + 1) ⟨k.val, hk50⟩ (by show ¬ k.val + 1 ≤ k.val; omega) (by show min (k.val + 1) 48 ≤ k.val + 4; omega),
      phase_gathering m d L (k.val + 1) ⟨k.val + 2, h2⟩ (by show ¬ k.val + 1 + 2 ≤ k.val + 2; omega) (by show k.val + 1 ≤ k.val + 2; omega),
      hrest_eq]
  have hfree_eq : (bigSep (Finset.univ.erase (⟨k.val + 2, hb6⟩ : Fin 6)) (fun b : Fin 6 => if k.val + 1 + 2 ≤ b.val then freeSlot m d L b else iprop(emp)) : sProp 𝕄)
      = bigSep (Finset.univ.erase (⟨k.val + 2, hb6⟩ : Fin 6)) fun b : Fin 6 => if k.val + 2 ≤ b.val then freeSlot m d L b else iprop(emp) :=
    bigSep_congr fun b hb => by
      have hne : b.val ≠ k.val + 2 := fun e => (Finset.mem_erase.mp hb).1 (Fin.ext e)
      by_cases h : k.val + 2 ≤ b.val
      · rw [if_pos h, if_pos (by omega)]
      · rw [if_neg h, if_neg (by omega)]
  have Efree : (bigSep Finset.univ (fun b : Fin 6 => if k.val + 1 + 2 ≤ b.val then freeSlot m d L b else iprop(emp)) : sProp 𝕄)
      = iprop(emp ∗ bigSep (Finset.univ.erase (⟨k.val + 2, hb6⟩ : Fin 6)) fun b : Fin 6 => if k.val + 2 ≤ b.val then freeSlot m d L b else iprop(emp)) := by
    rw [splitSlot (F := F) (fun b : Fin 6 => if k.val + 1 + 2 ≤ b.val then freeSlot m d L b else iprop(emp)) ⟨k.val + 2, hb6⟩,
      if_neg (by show ¬ k.val + 1 + 2 ≤ k.val + 2; omega), hfree_eq]
  iclear HshA
  isplitr; · iexact Hlv
  isplitr [HO]
  · isplitr [Hfree]
    · iapply (Entails.of_eq Epost.symm)
      isplitl [HssB HwinB HflB HflB_src]
      · iapply (storing_intro m d L k.val hk50 (k.val % 6) (mod6 _) _ fdB hsto)
        isplitl [HssB]; · iexact HssB
        isplitl [HwinB]; · iexact HwinB
        isplitl [HflB]; · iexact HflB
        iexact HflB_src
      isplitl [HgsA HchC HflA]
      · iapply (gathering_intro m d L (k.val + 2) h2 ((k.val + 2) % 6) (mod6 _) _ hgat)
        isplitl [HgsA]; · iexact HgsA
        isplitl [HchC]; · iexact HchC
        iexact HflA
      iexact Hrest
    · iapply (Entails.of_eq Efree.symm)
      isplitr; · iempintro
      iexact Hfree
  · iexists _; isplitr
    swap; · iexact HO
    ipureintro; intro p hp
    rcases Finset.mem_insert.mp hp with hp | hp; · exact .inr (.inl (hp ▸ rfl))
    exact hW' p hp

end Loop

end Cert.Proof.KN

end
-- ==== Proof.KNTileEnd.lean ====
/-
  The end of a tile's task: one wait for a copy out, and how the pieces regroup once every chunk is done.

  A wait for the copy out of chunk j from slot b turns the chunk from "storing" to "finished" and frees the slot. When all
  fifty chunks are finished and all six slots are free, the fifty chunks of the result are the tile's part of the flat
  result holding the looked-up rows (row 128 j + r of the part is the table row named by word 128 j + r of the tile's
  run, which is what the flat lookup holds at row 6400 w + 128 j + r); the fifty windows are the index buffer; the six
  slots are the row buffer; the six read tokens and the rest of the tile's read share are the share; and the fourteen
  semaphores are at zero.
-/
import proofs.«203285_g23708219474275_cont_8to1_227_19_alg».proof.Proof.KNCtx
import proofs.«203285_g23708219474275_cont_8to1_227_19_alg».proof.Proof.KNParts
import proofs.«203285_g23708219474275_cont_8to1_227_19_alg».proof.Proof.KNSems
import proofs.«203285_g23708219474275_cont_8to1_227_19_alg».proof.Proof.KNRows
import Idealize.ShloMosaic.Lib.Ring

noncomputable section

namespace Cert.Proof.KN

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iwV" => (Memref.whole Cert.Kernel.main_v1_scv : Memref Cert.Kernel.sig Kind.scVector Space.hbm Cert.Kernel.S32x6400 EltTy.i32)
local notation "tabV" => (Memref.whole Cert.Kernel.main_arg1_scv : Memref Cert.Kernel.sig Kind.scVector Space.hbm Cert.Kernel.S1002x128 EltTy.f32)
local notation "outV" => (Memref.whole Cert.Kernel.main_v2_scv : Memref Cert.Kernel.sig Kind.scVector Space.hbm Cert.Kernel.S204800x128 EltTy.f32)
local notation "shV" => (Memref.whole Cert.Kernel.cc0_scratch2 : Memref Cert.Kernel.sig Kind.scVector Space.shared Cert.Kernel.S1002x128 EltTy.f32)
local notation "ivV" => (Memref.whole Cert.Kernel.cc0_scratch0 : Memref Cert.Kernel.sig Kind.scVector Space.vmem Cert.Kernel.S6400 EltTy.i32)
local notation "rvV" => (Memref.whole Cert.Kernel.cc0_scratch1 : Memref Cert.Kernel.sig Kind.scVector Space.vmem Cert.Kernel.S6x128x128 EltTy.f32)

variable [FloatOps F]

section End

variable (d : Dev nD) (L : grid0.Coords)

/-! ## One wait -/

/-- The wait for the copy out of chunk `j` from slot `b`: the chunk is finished and the slot free again. The wait names
    the slot's copy-out semaphore and a destination of the chunk's credit; its source is not read. -/
theorem wait_store (j : ℕ) (hj : j < 50) (b : ℕ) (hb : b < 6) (O : CellTallies nD τ sig (HIx 1)) (W : Waits sig (HIx 1))
    {α : Type} (k : PUnit → Prog (TpuEff nD τ sig (Elt F) Λ₀ (thrL d L).2) α) (Q : α → sProp 𝕄)
    (srcw : Memref sig .scVector .vmem S128x128 .f32) (dstw : Memref sig .scVector .hbm S128x128 .f32)
    (hN : dstw.view.dmaCredit = (chunkM L j hj).view.dmaCredit) (hsrc : srcw.view.WordExact) (hdst : dstw.view.WordExact) :
    iprop(Transfers.MayWaits (thrL d L) (default : HIx 1) O ∗ storing m d L j hj b hb ∗ owes (thrL d L) O W)
      ⊢ iprop((iprop(finished m d L j hj ∗ freeSlot m d L ⟨b, hb⟩ ∗ owes (thrL d L) O (insert (SemLoc.dma (sSem b hb), (default : HIx 1)) W))
            -∗ wp frame (wpE (defs₀ (F := F)) 𝒱₀ (thrL d L) none) Set.univ (k ⟨⟩) Q)
          -∗ wp frame (wpE (defs₀ (F := F)) 𝒱₀ (thrL d L) none) Set.univ (.op (.waitDma2 (sSem b hb) srcw dstw hsrc hdst) k) Q) := by
  unfold storing sFlight
  iintro ⟨#Hmw, ⟨⟨%fo, %fd, %hfo, Hfl⟩, Hwin, Hg, Hsh⟩, HO⟩ Hk
  ihave Hmw1 := (Transfers.MayWaits.elim (c := thrL d L) (ι := (default : HIx 1)) (O := O) (SemLoc.dma (sSem b hb))) $$ Hmw
  iapply (Transfers.wp_waitLocalO countersEmb 𝒱₀ (thrL d L) none (default : HIx 1) hN) $$ [Hfl HO Hmw1]
  · isplitl [Hfl]; · iexact Hfl
    isplitl [HO]; · iexact HO
    iexact Hmw1
  iintro ⟨⟨Hch, Hsl⟩, Hs, HO⟩
  iapply Hk
  isplitl [Hch Hwin]
  · unfold finished chunkDone
    isplitl [Hch]
    · iexists fo; isplitr
      · ipureintro; exact hfo
      iexact Hch
    iexact Hwin
  isplitl [Hsl Hg Hs Hsh]
  · unfold freeSlot
    isplitl [Hsl]; · iexists fd; iexact Hsl
    isplitl [Hg]; · iexact Hg
    isplitl [Hs]; · iexact Hs
    iexact Hsh
  iexact HO

/-! ## A finished chunk holds the flat lookup -/

omit [FloatOps F] in
/-- Row `r` of chunk `j` of the tile's part is row 6400 w + 128 j + r of the flat result: what the flat lookup holds
    there is the table row named by word 128 j + r of the tile's run. -/
theorem out_at_chunk (j : ℕ) (hj : j < 50) (y : S128x128.Idx) :
    OUT m d ((chunkM L j hj).view.emb y) = rowsOf m d L j hj y := by
  have e0 := emb_chunkM_0 L j hj y
  have e1 := emb_chunkM_1 L j hj y
  have hy0 : (y 0).val < 128 := (y 0).isLt
  have hL0 : (L 0).val < 2 := (L 0).isLt
  have hL1 : (L 1).val < 16 := (L 1).isLt
  have hw : (wL L).val = 2 * (L 1).val + (L 0).val := rfl
  have key : ∀ (a a' : Fin 32) (p p' : Fin 6400) (c c' : Fin 128), a = a' → p = p' → c = c' →
      m (tabLoc d) (ix2 (Cert.Spec.rowOf (IW m d (ix2 a p))) c) = m (tabLoc d) (ix2 (Cert.Spec.rowOf (IW m d (ix2 a' p'))) c') := by
    rintro _ _ _ _ _ _ rfl rfl rfl; rfl
  unfold OUT rowsOf Cert.Spec.flatLookup
  refine key _ _ _ _ _ _ (Fin.ext ?_) (Fin.ext ?_) (Fin.ext e1)
  · show (((chunkM L j hj).view.emb y : S204800x128.Idx) 0).val / 6400 = (wL L).val
    rw [e0, hw]; omega
  · show (((chunkM L j hj).view.emb y : S204800x128.Idx) 0).val % 6400 = 128 * j + (y 0).val
    rw [e0]; omega

/-- A chunk whose rows are the chunk's table rows is held at the flat lookup. -/
theorem chunk_congr (j : ℕ) (hj : j < 50) (fo : Buf (Elt F) ((chunkM L j hj).view.loc (thrL d L)))
    (hfo : (chunkM L j hj).view.read (Elt F) fo = rowsOf m d L j hj) :
    (chunkPts d L j hj fo : sProp 𝕄) = chunkPts d L j hj (OUT m d) :=
  pointsTo_congr fun x hx => by
    obtain ⟨y, -, rfl⟩ := Finset.mem_map.mp hx
    have h : fo ((chunkM L j hj).view.emb y) = rowsOf m d L j hj y := congrFun hfo y
    exact h.trans (out_at_chunk m d L j hj y).symm

theorem chunkDone_out (j : ℕ) (hj : j < 50) : chunkDone m d L j hj ⊢ chunkPts d L j hj (OUT m d) := by
  unfold chunkDone
  iintro ⟨%fo, %hfo, H⟩
  iapply (Entails.of_eq (chunk_congr m d L j hj fo hfo))
  iexact H

/-- Fifty finished chunks are the tile's part of the flat result, holding the flat lookup. -/
theorem chunks_out :
    (bigSep Finset.univ fun j : Fin 50 => chunkDone m d L j.val j.isLt) ⊢ outPartPts d (wL L) (OUT m d) :=
  (bigSep_mono fun j _ => chunkDone_out m d L j.val j.isLt).trans
    (Entails.of_eq (pts_chunks (F := F) d L fullShare (OUT m d)).symm)

/-! ## The windows, the slots, the read share -/

/-- The fifty windows are the index buffer. -/
theorem wins_whole :
    (bigSep Finset.univ fun j : Fin 50 => winPts m d L j.val j.isLt) ⊢ iprop(∃ f, (thrL d L).loc cc0_scratch0 ↦{fullShare} f) := by
  iintro H
  iexists IVf m d L
  iapply (Entails.of_eq (pts_wins (F := F) d (cV L) (jV L) fullShare (IVf m d L)).symm)
  iexact H

/-- Six slots, each at some contents, are the row buffer at some contents. -/
theorem slots_whole :
    ((bigSep Finset.univ fun b : Fin 6 => iprop(∃ f, slotPts (F := F) d L b.val b.isLt f)) : sProp 𝕄)
      ⊢ iprop(∃ g : Buf (Elt F) ((thrL d L).loc cc0_scratch1), (thrL d L).loc cc0_scratch1 ↦{fullShare} g) :=
  Ring.pointsTo_blocks_join_exists (ℓ := (thrL d L).loc cc0_scratch1) slotSet
    (fun b b' h => slots_disjoint b (Finset.mem_univ _) b' (Finset.mem_univ _) h) slots_cover
    (fun _ => (FloatOps.ofBits .f32 0#32 : F .f32))

/-- The rest of the tile's read share and its six tokens are the read share. -/
theorem sh_whole :
    iprop(((shAllM).view.loc (thrL d L) ↦[(shAllM).view.set]{Transfers.shareDrop (shQ L) 6} TabS m d L)
        ∗ bigSep Finset.univ fun b : Fin 6 => shPts m d L b.val) ⊢ shTokPts m d (cV L) (jL L) := by
  refine (Transfers.pointsTo_toks_join (shQ L) 6).trans ?_
  rw [set_shAllM]
  exact BI.Entails.refl _

/-! ## Six and four at a time -/

/-- The chunks other than the last four. -/
abbrev early : Finset (Fin 50) := (((Finset.univ.erase (46 : Fin 50)).erase 47).erase 48).erase 49

omit [FloatOps F] in
theorem early_lt {j : Fin 50} (hj : j ∈ early) : j.val < 46 := by
  have h49 : j ≠ 49 := Finset.ne_of_mem_erase hj
  have h48 : j ≠ 48 := Finset.ne_of_mem_erase (Finset.mem_of_mem_erase hj)
  have h47 : j ≠ 47 := Finset.ne_of_mem_erase (Finset.mem_of_mem_erase (Finset.mem_of_mem_erase hj))
  have h46 : j ≠ 46 := Finset.ne_of_mem_erase (Finset.mem_of_mem_erase (Finset.mem_of_mem_erase (Finset.mem_of_mem_erase hj)))
  have hlt := j.isLt
  have a49 : j.val ≠ 49 := fun e => h49 (Fin.ext e)
  have a48 : j.val ≠ 48 := fun e => h48 (Fin.ext e)
  have a47 : j.val ≠ 47 := fun e => h47 (Fin.ext e)
  have a46 : j.val ≠ 46 := fun e => h46 (Fin.ext e)
  omega

omit [FloatOps F] in
/-- All fifty, as the last four and the others. -/
theorem bigSep_last4 (Φ : Fin 50 → sProp 𝕄) :
    bigSep Finset.univ Φ = iprop(Φ 46 ∗ Φ 47 ∗ Φ 48 ∗ Φ 49 ∗ bigSep early Φ) := by
  rw [SparseCore.bigSep_erase' (s := Finset.univ) (i := (46 : Fin 50)) (Finset.mem_univ _),
    SparseCore.bigSep_erase' (s := Finset.univ.erase (46 : Fin 50)) (i := (47 : Fin 50)) (by decide),
    SparseCore.bigSep_erase' (s := (Finset.univ.erase (46 : Fin 50)).erase 47) (i := (48 : Fin 50)) (by decide),
    SparseCore.bigSep_erase' (s := ((Finset.univ.erase (46 : Fin 50)).erase 47).erase 48) (i := (49 : Fin 50)) (by decide)]

/-- After the loop and `t ≥ 2` of the waits, every chunk but the last four is finished. -/
theorem early_finished (t : ℕ) (ht : 2 ≤ t) :
    (bigSep early fun j : Fin 50 => tailPhase m d L t j) = bigSep early fun j : Fin 50 => finished m d L j.val j.isLt :=
  bigSep_congr fun j hj => by
    have := early_lt hj
    unfold tailPhase
    rw [if_pos (by omega)]

/-- After two of the waits: chunks 46 … 49 are being copied out of slots 4, 5, 0, 1, the others are finished, and slots 2
    and 3 are free. -/
theorem tail2_eq :
    Tail m d L 2 = iprop((storing m d L 46 (by decide) 4 (by decide) ∗ storing m d L 47 (by decide) 5 (by decide)
        ∗ storing m d L 48 (by decide) 0 (by decide) ∗ storing m d L 49 (by decide) 1 (by decide)
        ∗ bigSep early fun j : Fin 50 => finished m d L j.val j.isLt)
      ∗ (freeSlot m d L 2 ∗ freeSlot m d L 3)) := by
  unfold Tail
  rw [bigSep_last4, early_finished m d L 2 (le_refl _), bigSep_fin6]
  have e46 : tailPhase m d L 2 46 = storing m d L 46 (by decide) 4 (by decide) := if_neg (by decide)
  have e47 : tailPhase m d L 2 47 = storing m d L 47 (by decide) 5 (by decide) := if_neg (by decide)
  have e48 : tailPhase m d L 2 48 = storing m d L 48 (by decide) 0 (by decide) := if_neg (by decide)
  have e49 : tailPhase m d L 2 49 = storing m d L 49 (by decide) 1 (by decide) := if_neg (by decide)
  rw [e46, e47, e48, e49]
  have s0 : (if ((0 : Fin 6).val + 4) % 6 < 2 then freeSlot m d L 0 else iprop(emp)) = (iprop(emp) : sProp 𝕄) := if_neg (by decide)
  have s1 : (if ((1 : Fin 6).val + 4) % 6 < 2 then freeSlot m d L 1 else iprop(emp)) = (iprop(emp) : sProp 𝕄) := if_neg (by decide)
  have s2 : (if ((2 : Fin 6).val + 4) % 6 < 2 then freeSlot m d L 2 else iprop(emp)) = freeSlot m d L 2 := if_pos (by decide)
  have s3 : (if ((3 : Fin 6).val + 4) % 6 < 2 then freeSlot m d L 3 else iprop(emp)) = freeSlot m d L 3 := if_pos (by decide)
  have s4 : (if ((4 : Fin 6).val + 4) % 6 < 2 then freeSlot m d L 4 else iprop(emp)) = (iprop(emp) : sProp 𝕄) := if_neg (by decide)
  have s5 : (if ((5 : Fin 6).val + 4) % 6 < 2 then freeSlot m d L 5 else iprop(emp)) = (iprop(emp) : sProp 𝕄) := if_neg (by decide)
  rw [s0, s1, s2, s3, s4, s5]
  have hs : (iprop(emp ∗ emp ∗ freeSlot m d L 2 ∗ freeSlot m d L 3 ∗ emp ∗ emp) : sProp 𝕄)
      = iprop(freeSlot m d L 2 ∗ freeSlot m d L 3) := by
    refine BI.equiv_iff.mp ⟨?_, ?_⟩
    · show (iprop(emp ∗ emp ∗ freeSlot m d L 2 ∗ freeSlot m d L 3 ∗ emp ∗ emp) : sProp 𝕄) ⊢ iprop(freeSlot m d L 2 ∗ freeSlot m d L 3)
      iintro ⟨-, -, H2, H3, -, -⟩; isplitl [H2]; · iexact H2
      iexact H3
    · show (iprop(freeSlot m d L 2 ∗ freeSlot m d L 3) : sProp 𝕄) ⊢ iprop(emp ∗ emp ∗ freeSlot m d L 2 ∗ freeSlot m d L 3 ∗ emp ∗ emp)
      iintro ⟨H2, H3⟩
      isplitr; · iempintro
      isplitr; · iempintro
      isplitl [H2]; · iexact H2
      isplitl [H3]; · iexact H3
      isplitr; · iempintro
      iempintro
  rw [hs]

/-- Fifty finished chunks, from the last four and the others. -/
theorem all_finished :
    iprop(finished m d L 46 (by decide) ∗ finished m d L 47 (by decide) ∗ finished m d L 48 (by decide) ∗ finished m d L 49 (by decide)
        ∗ bigSep early fun j : Fin 50 => finished m d L j.val j.isLt)
      = bigSep Finset.univ fun j : Fin 50 => finished m d L j.val j.isLt :=
  (bigSep_last4 (fun j : Fin 50 => finished m d L j.val j.isLt)).symm

/-! ## The regrouping -/

/-- Every chunk finished and every slot free: the tile's task is done. -/
theorem task_done (hF : (K (F := F)).Facts) (O : CellTallies nD τ sig (HIx 1)) (W : Waits sig (HIx 1)) :
    iprop((bigSep Finset.univ fun j : Fin 50 => finished m d L j.val j.isLt)
        ∗ (bigSep Finset.univ fun b : Fin 6 => freeSlot m d L b)
        ∗ Carry m d L
        ∗ ∃ W', ⌜∀ p ∈ W', p ∈ W ∨ p.2 = none ∨ p.2 = some (0 : Fin 1)⌝ ∗ owes (thrL d L) O W')
      ⊢ iprop(tdRes m d (cV L) (jL L) ∗ scopedBufs (thrL d L) ∗ scopedSems0 (thrL d L)
          ∗ ∃ W', ⌜∀ p ∈ W', p ∈ W ∨ p.2 = none ∨ p.2 = some (0 : Fin 1)⌝ ∗ owes (thrL d L) O W') := by
  rw [(K (F := F)).scopedBufs_V hF d (cV L) (jV L), SparseCore.Cfg.scopedSems0_V (Val := Elt F) d (cV L) (jV L),
    ownSems0_V_list, ownBufs_V2]
  have hfin : (bigSep Finset.univ fun j : Fin 50 => finished m d L j.val j.isLt)
      = iprop((bigSep Finset.univ fun j : Fin 50 => chunkDone m d L j.val j.isLt)
          ∗ bigSep Finset.univ fun j : Fin 50 => winPts m d L j.val j.isLt) := bigSep_sep' _ _ _
  have hfree : (bigSep Finset.univ fun b : Fin 6 => freeSlot m d L b)
      = iprop((bigSep Finset.univ fun b : Fin 6 => iprop(∃ f, slotPts d L b.val b.isLt f))
          ∗ (bigSep Finset.univ fun b : Fin 6 => gSemPts d L b.val b.isLt)
          ∗ (bigSep Finset.univ fun b : Fin 6 => sSemPts d L b.val b.isLt)
          ∗ bigSep Finset.univ fun b : Fin 6 => shPts m d L b.val) := by
    show (bigSep Finset.univ fun b : Fin 6 => iprop((∃ f, slotPts d L b.val b.isLt f) ∗ gSemPts d L b.val b.isLt
      ∗ sSemPts d L b.val b.isLt ∗ shPts m d L b.val)) = _
    rw [bigSep_sep', bigSep_sep', bigSep_sep']
  rw [hfin, hfree, bigSep_fin6 (fun b : Fin 6 => gSemPts d L b.val b.isLt), bigSep_fin6 (fun b : Fin 6 => sSemPts d L b.val b.isLt)]
  unfold Carry tdRes
  iintro ⟨⟨Hdone, Hwin⟩, ⟨Hslots, ⟨Hg0, Hg1, Hg2, Hg3, Hg4, Hg5⟩, ⟨Hs0, Hs1, Hs2, Hs3, Hs4, Hs5⟩, Hsh⟩, ⟨Hiw, Hlead, Hshr, Hc0, Hc1, Hrest⟩, HW⟩
  ihave Hout := (chunks_out m d L) $$ Hdone
  ihave Hiv := (wins_whole m d L) $$ Hwin
  ihave Hrv := (slots_whole (F := F) d L) $$ Hslots
  ihave Htok := (sh_whole m d L) $$ [Hshr Hsh]
  · isplitl [Hshr]; · iexact Hshr
    iexact Hsh
  isplitl [Hiw Hout Htok Hlead]
  · isplitl [Hiw]; · iexact Hiw
    isplitl [Hout]; · iexact Hout
    isplitl [Htok]; · iexact Htok
    iexact Hlead
  isplitl [Hiv Hrv Hrest]
  · isplitl [Hiv]; · iexact Hiv
    isplitl [Hrv]; · iexact Hrv
    iexact Hrest
  isplitr [HW]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hc0]; · iexact Hc0
    iexact Hc1
  iexact HW

end End

end Cert.Proof.KN

end
-- ==== Proof.KNLoopB.lean ====
/-
  The loop of a tile's program, and the two waits after it.
-/
import proofs.«203285_g23708219474275_cont_8to1_227_19_alg».proof.Proof.KNLoopA
import proofs.«203285_g23708219474275_cont_8to1_227_19_alg».proof.Proof.KNTileEnd

noncomputable section

namespace Cert.Proof.KN

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iwV" => (Memref.whole Cert.Kernel.main_v1_scv : Memref Cert.Kernel.sig Kind.scVector Space.hbm Cert.Kernel.S32x6400 EltTy.i32)
local notation "tabV" => (Memref.whole Cert.Kernel.main_arg1_scv : Memref Cert.Kernel.sig Kind.scVector Space.hbm Cert.Kernel.S1002x128 EltTy.f32)
local notation "outV" => (Memref.whole Cert.Kernel.main_v2_scv : Memref Cert.Kernel.sig Kind.scVector Space.hbm Cert.Kernel.S204800x128 EltTy.f32)
local notation "shV" => (Memref.whole Cert.Kernel.cc0_scratch2 : Memref Cert.Kernel.sig Kind.scVector Space.shared Cert.Kernel.S1002x128 EltTy.f32)
local notation "ivV" => (Memref.whole Cert.Kernel.cc0_scratch0 : Memref Cert.Kernel.sig Kind.scVector Space.vmem Cert.Kernel.S6400 EltTy.i32)
local notation "rvV" => (Memref.whole Cert.Kernel.cc0_scratch1 : Memref Cert.Kernel.sig Kind.scVector Space.vmem Cert.Kernel.S6x128x128 EltTy.f32)

variable [FloatOps F]

section Loop

variable (d : Dev nD) (L : grid0.Coords)

/-- After the last trip the ring is as the waits after the loop find it: the copies out of chunks 44 … 49 in flight. -/
theorem ring50_tail0 : Ring m d L 50 = Tail m d L 0 := by
  unfold Ring Tail
  rw [show (bigSep Finset.univ (phase m d L 50) : sProp 𝕄) = bigSep Finset.univ (tailPhase m d L 0) from
        bigSep_congr fun j _ => by
          have hj := j.isLt
          unfold phase tailPhase
          by_cases h : j.val < 44
          · rw [if_neg (by omega), if_neg (by omega), if_neg (by omega), if_pos (by omega)]
          · rw [if_neg (by omega), if_neg (by omega), if_pos (by omega), if_neg (by omega)],
      show (bigSep Finset.univ (fun b : Fin 6 => if 50 + 2 ≤ b.val then freeSlot m d L b else iprop(emp)) : sProp 𝕄)
          = bigSep Finset.univ fun b : Fin 6 => if (b.val + 4) % 6 < 0 then freeSlot m d L b else iprop(emp) from
        bigSep_congr fun b _ => by have := b.isLt; rw [if_neg (by omega), if_neg (by omega)]]

/-- The state before the wait for chunk 44 + t, opened at that chunk and at its slot. -/
theorem tail_open (t : ℕ) (ht : t < 6) :
    Tail m d L t = iprop((storing m d L (44 + t) (by omega) ((44 + t) % 6) (mod6 _) ∗ bigSep (Finset.univ.erase (⟨44 + t, by omega⟩ : Fin 50)) (tailPhase m d L t))
      ∗ (emp ∗ bigSep (Finset.univ.erase (⟨(44 + t) % 6, mod6 _⟩ : Fin 6)) fun b : Fin 6 => if (b.val + 4) % 6 < t then freeSlot m d L b else iprop(emp))) := by
  unfold Tail
  rw [split1 (F := F) (tailPhase m d L t) ⟨44 + t, by omega⟩,
    show tailPhase m d L t ⟨44 + t, by omega⟩ = storing m d L (44 + t) (by omega) ((44 + t) % 6) (mod6 _) from by
      unfold tailPhase; rw [if_neg (by show ¬ 44 + t < 44 + t; omega)],
    splitSlot (F := F) (fun b : Fin 6 => if (b.val + 4) % 6 < t then freeSlot m d L b else iprop(emp)) ⟨(44 + t) % 6, mod6 _⟩,
    if_neg (by show ¬ ((44 + t) % 6 + 4) % 6 < t; omega)]

/-- The state after it: the chunk done, its slot free. -/
theorem tail_close (t : ℕ) (ht : t < 6) :
    Tail m d L (t + 1) = iprop((finished m d L (44 + t) (by omega) ∗ bigSep (Finset.univ.erase (⟨44 + t, by omega⟩ : Fin 50)) (tailPhase m d L t))
      ∗ (freeSlot m d L ⟨(44 + t) % 6, mod6 _⟩ ∗ bigSep (Finset.univ.erase (⟨(44 + t) % 6, mod6 _⟩ : Fin 6)) fun b : Fin 6 => if (b.val + 4) % 6 < t then freeSlot m d L b else iprop(emp))) := by
  unfold Tail
  rw [split1 (F := F) (tailPhase m d L (t + 1)) ⟨44 + t, by omega⟩,
    show tailPhase m d L (t + 1) ⟨44 + t, by omega⟩ = finished m d L (44 + t) (by omega) from by
      unfold tailPhase; rw [if_pos (by show 44 + t < 44 + (t + 1); omega)],
    show (bigSep (Finset.univ.erase (⟨44 + t, by omega⟩ : Fin 50)) (tailPhase m d L (t + 1)) : sProp 𝕄)
        = bigSep (Finset.univ.erase (⟨44 + t, by omega⟩ : Fin 50)) (tailPhase m d L t) from
      bigSep_congr fun j hj => by
        have hne : j.val ≠ 44 + t := fun e => (Finset.mem_erase.mp hj).1 (Fin.ext e)
        unfold tailPhase
        by_cases h : j.val < 44 + t
        · rw [if_pos h, if_pos (by omega)]
        · rw [if_neg h, if_neg (by omega)],
    splitSlot (F := F) (fun b : Fin 6 => if (b.val + 4) % 6 < t + 1 then freeSlot m d L b else iprop(emp)) ⟨(44 + t) % 6, mod6 _⟩,
    if_pos (by show ((44 + t) % 6 + 4) % 6 < t + 1; omega),
    show (bigSep (Finset.univ.erase (⟨(44 + t) % 6, mod6 _⟩ : Fin 6)) (fun b : Fin 6 => if (b.val + 4) % 6 < t + 1 then freeSlot m d L b else iprop(emp)) : sProp 𝕄)
        = bigSep (Finset.univ.erase (⟨(44 + t) % 6, mod6 _⟩ : Fin 6)) fun b : Fin 6 => if (b.val + 4) % 6 < t then freeSlot m d L b else iprop(emp) from
      bigSep_congr fun b hb => by
        have hne : b.val ≠ (44 + t) % 6 := fun e => (Finset.mem_erase.mp hb).1 (Fin.ext e)
        have hb6 := b.isLt
        by_cases h : (b.val + 4) % 6 < t
        · rw [if_pos h, if_pos (by omega)]
        · rw [if_neg h, if_neg (by omega)]]

/-- One wait after the loop: the copy-out of chunk 44 + t ends. -/
theorem tail_wait (t : ℕ) (ht : t < 6) (O : CellTallies nD τ sig (HIx 1)) (W : Waits sig (HIx 1))
    {α : Type} (k : PUnit → Prog (TpuEff nD τ sig (Elt F) Λ₀ (thrL d L).2) α) (Q : α → sProp 𝕄)
    (srcw : Memref sig .scVector .vmem S128x128 .f32) (dstw : Memref sig .scVector .hbm S128x128 .f32)
    (hN : dstw.view.dmaCredit = (chunkM L (44 + t) (by omega)).view.dmaCredit) (hsrc : srcw.view.WordExact) (hdst : dstw.view.WordExact) :
    iprop(Transfers.MayWaits (thrL d L) (default : HIx 1) O ∗ Tail m d L t ∗ owes (thrL d L) O W)
      ⊢ iprop((iprop(Tail m d L (t + 1) ∗ owes (thrL d L) O (insert (SemLoc.dma (sSem ((44 + t) % 6) (mod6 _)), (default : HIx 1)) W))
            -∗ wp frame (wpE (defs₀ (F := F)) 𝒱₀ (thrL d L) none) Set.univ (k ⟨⟩) Q)
          -∗ wp frame (wpE (defs₀ (F := F)) 𝒱₀ (thrL d L) none) Set.univ (.op (.waitDma2 (sSem ((44 + t) % 6) (mod6 _)) srcw dstw hsrc hdst) k) Q) := by
  rw [tail_open m d L t ht, tail_close m d L t ht]
  iintro ⟨#Hmw, ⟨⟨Hst, HrP⟩, -, HrS⟩, HO⟩ Hk
  iapply (wait_store m d L (44 + t) (by omega) ((44 + t) % 6) (mod6 _) O W k Q srcw dstw hN hsrc hdst) $$ [Hst HO]
  · isplitr; · iexact Hmw
    isplitl [Hst]; · iexact Hst
    iexact HO
  iintro ⟨Hfin, Hfs, HO⟩
  iapply Hk
  isplitr [HO]
  · isplitl [Hfin HrP]
    · isplitl [Hfin]; · iexact Hfin
      iexact HrP
    · isplitl [Hfs]; · iexact Hfs
      iexact HrS
  · iexact HO

omit [FloatOps F] in
theorem c44 : (44 : ℕ) < 50 := by decide
omit [FloatOps F] in
theorem c45 : (45 : ℕ) < 50 := by decide
omit [FloatOps F] in
theorem s2 : (2 : ℕ) < 6 := by decide
omit [FloatOps F] in
theorem s3 : (3 : ℕ) < 6 := by decide

/-- A copy-out in flight, spelt out. -/
theorem storing_unfold (j : ℕ) (hj : j < 50) (b : ℕ) (hb : b < 6) :
    storing m d L j hj b hb
      = iprop((∃ (fo : Buf (Elt F) ((chunkM L j hj).view.loc (thrL d L))) (fd : Buf (Elt F) ((slotM b hb).view.loc (thrL d L))),
          ⌜(chunkM L j hj).view.read (Elt F) fo = rowsOf m d L j hj⌝
          ∗ Transfers.Flight countersEmb (thrL d L) (SemLoc.dma (sSem b hb)) (default : HIx 1) (chunkM L j hj).view.dmaCredit
              iprop(chunkPts d L j hj fo ∗ slotPts d L b hb fd))
        ∗ winPts m d L j hj ∗ gSemPts d L b hb ∗ shPts m d L b) := by
  unfold storing sFlight; rfl

theorem freeSlot_unfold (b : Fin 6) :
    freeSlot m d L b = iprop((∃ f, slotPts d L b.val b.isLt f) ∗ gSemPts d L b.val b.isLt ∗ sSemPts d L b.val b.isLt ∗ shPts m d L b.val) := rfl

omit [FloatOps F] in
theorem ne4445 : (⟨44, c44⟩ : Fin 50) ≠ ⟨45, c45⟩ := by decide

/-- After the loop: the copies out of chunks 44 and 45 (slots 2 and 3) taken out of the ring. -/
theorem tail0_open :
    Tail m d L 0 = iprop((storing m d L 44 c44 2 s2 ∗ storing m d L 45 c45 3 s3
        ∗ bigSep ((Finset.univ.erase (⟨44, c44⟩ : Fin 50)).erase ⟨45, c45⟩) (tailPhase m d L 0))
      ∗ (bigSep Finset.univ fun b : Fin 6 => if (b.val + 4) % 6 < 0 then freeSlot m d L b else iprop(emp))) := by
  unfold Tail
  rw [split2 (F := F) (tailPhase m d L 0) ⟨44, c44⟩ ⟨45, c45⟩ ne4445,
    show tailPhase m d L 0 ⟨44, c44⟩ = storing m d L 44 c44 2 s2 from by
      unfold tailPhase; rw [if_neg (by decide)]; exact storing_slot m d L 44 c44 (44 % 6) 2 (mod6 44) s2 (by decide),
    show tailPhase m d L 0 ⟨45, c45⟩ = storing m d L 45 c45 3 s3 from by
      unfold tailPhase; rw [if_neg (by decide)]; exact storing_slot m d L 45 c45 (45 % 6) 3 (mod6 45) s3 (by decide)]

/-- The slots other than 2 and 3 are not free after two waits. -/
theorem restSlots_emp :
    (bigSep ((Finset.univ.erase (⟨2, s2⟩ : Fin 6)).erase ⟨3, s3⟩) (fun b : Fin 6 => if (b.val + 4) % 6 < 2 then freeSlot m d L b else iprop(emp)) : sProp 𝕄)
      = iprop(emp) := by
  rw [show (bigSep ((Finset.univ.erase (⟨2, s2⟩ : Fin 6)).erase ⟨3, s3⟩) (fun b : Fin 6 => if (b.val + 4) % 6 < 2 then freeSlot m d L b else iprop(emp)) : sProp 𝕄)
      = bigSep ((Finset.univ.erase (⟨2, s2⟩ : Fin 6)).erase ⟨3, s3⟩) fun _ => iprop(emp) from
    bigSep_congr fun b hb => by
      have h1 : b.val ≠ 3 := fun e => (Finset.mem_erase.mp hb).1 (Fin.ext e)
      have h2 : b.val ≠ 2 := fun e => (Finset.mem_erase.mp (Finset.mem_erase.mp hb).2).1 (Fin.ext e)
      have hb6 := b.isLt
      exact if_neg (by omega)]
  exact bigSep_emp' _

/-- And with those two chunks done and their slots free again. -/
theorem tail2_close :
    Tail m d L 2 = iprop((finished m d L 44 c44 ∗ finished m d L 45 c45
        ∗ bigSep ((Finset.univ.erase (⟨44, c44⟩ : Fin 50)).erase ⟨45, c45⟩) (tailPhase m d L 0))
      ∗ (freeSlot m d L ⟨2, s2⟩ ∗ freeSlot m d L ⟨3, s3⟩
        ∗ bigSep ((Finset.univ.erase (⟨2, s2⟩ : Fin 6)).erase ⟨3, s3⟩) fun b : Fin 6 => if (b.val + 4) % 6 < 2 then freeSlot m d L b else iprop(emp))) := by
  unfold Tail
  rw [split2 (F := F) (tailPhase m d L 2) ⟨44, c44⟩ ⟨45, c45⟩ ne4445,
    show tailPhase m d L 2 ⟨44, c44⟩ = finished m d L 44 c44 from by unfold tailPhase; rw [if_pos (by decide)],
    show tailPhase m d L 2 ⟨45, c45⟩ = finished m d L 45 c45 from by unfold tailPhase; rw [if_pos (by decide)],
    show (bigSep ((Finset.univ.erase (⟨44, c44⟩ : Fin 50)).erase ⟨45, c45⟩) (tailPhase m d L 2) : sProp 𝕄)
        = bigSep ((Finset.univ.erase (⟨44, c44⟩ : Fin 50)).erase ⟨45, c45⟩) (tailPhase m d L 0) from
      bigSep_congr fun j hj => by
        have h1 : j.val ≠ 45 := fun e => (Finset.mem_erase.mp hj).1 (Fin.ext e)
        have h2 : j.val ≠ 44 := fun e => (Finset.mem_erase.mp (Finset.mem_erase.mp hj).2).1 (Fin.ext e)
        unfold tailPhase
        by_cases h : j.val < 44
        · rw [if_pos (by omega), if_pos (by omega)]
        · rw [if_neg (by omega), if_neg (by omega)],
    SparseCore.bigSep_erase' (Finset.mem_univ (⟨2, s2⟩ : Fin 6)) (Φ := fun b : Fin 6 => if (b.val + 4) % 6 < 2 then freeSlot m d L b else iprop(emp)),
    SparseCore.bigSep_erase' (Finset.mem_erase.mpr ⟨(by decide : (⟨3, s3⟩ : Fin 6) ≠ ⟨2, s2⟩), Finset.mem_univ (⟨3, s3⟩ : Fin 6)⟩)
      (Φ := fun b : Fin 6 => if (b.val + 4) % 6 < 2 then freeSlot m d L b else iprop(emp)),
    if_pos (by decide), if_pos (by decide)]

set_option maxHeartbeats 4000000 in
/-- The loop and the two waits after it. -/
theorem part2_proof (hpre : IdxOK m) (O : CellTallies nD τ sig (HIx 1)) (W : Waits sig (HIx 1)) (hO : ∀ g, O g none = 0) (v5 c0 c50 : BitVec 32) :
    Mid m d L (Ring m d L 0) O W
      ⊢ wp frame (wpE (defs₀ (F := F)) 𝒱₀ (thrL d L) none) Set.univ
          (k0_part2 L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1 v5 c0 c50)
          fun _ => Mid m d L (Tail m d L 2) O W := by
  simp only [k0_part2_eq_skeleton]; unfold k0_part2_skel
  unfold Mid
  iintro ⟨#Hlv, HR, HC, %W0, %hW0, HO⟩
  sl_for (LInv m d L O W) $$ [HR HO]
  case region =>
    intro k acc
    by_cases h2 : k.val + 2 < 50
    · by_cases h3 : 4 ≤ k.val
      · exact region_mid m d L hpre O W hO v5 c0 c50 k h2 h3
      · exact region_low m d L hpre O W hO v5 c0 c50 k h3
    · exact region_last m d L hpre O W hO v5 c0 c50 k h2
  · unfold LInv
    isplitr; · iexact Hlv
    isplitl [HR]; · iexact HR
    iexists W0; isplitr
    · ipureintro; exact hW0
    · iexact HO
  iintro %acc HI
  ihave HI' := (Entails.of_eq (show LInv m d L O W k0_t1_loop.trips acc
      = iprop(levAts (K (F := F)).L (K (F := F)).lev
          ∗ ((storing m d L 44 c44 2 s2 ∗ storing m d L 45 c45 3 s3
              ∗ bigSep ((Finset.univ.erase (⟨44, c44⟩ : Fin 50)).erase ⟨45, c45⟩) (tailPhase m d L 0))
            ∗ (bigSep Finset.univ fun b : Fin 6 => if (b.val + 4) % 6 < 0 then freeSlot m d L b else iprop(emp)))
          ∗ ∃ W', ⌜∀ p ∈ W', p ∈ W ∨ p.2 = none ∨ p.2 = some (0 : Fin 1)⌝ ∗ owes (thrL d L) O W') from by
    unfold LInv; rw [trips_eq, ring50_tail0, tail0_open])) $$ HI
  icases HI' with ⟨-, ⟨⟨HS44, HS45, HrP⟩, -⟩, %W1, %hW1, HO⟩
  ihave HS44' := (Entails.of_eq (storing_unfold m d L 44 c44 2 s2)) $$ HS44
  ihave HS45' := (Entails.of_eq (storing_unfold m d L 45 c45 3 s3)) $$ HS45
  icases HS44' with ⟨⟨%fo44, %fd44, %hfo44, Hfl44⟩, Hw44, Hg44, Hsh44⟩
  icases HS45' with ⟨⟨%fo45, %fd45, %hfo45, Hfl45⟩, Hw45, Hg45, Hsh45⟩
  ihave Hmw := (show levAts (K (F := F)).L (K (F := F)).lev ⊢ Transfers.MayWaits (thrL d L) (default : HIx 1) O from
    (K (F := F)).mayWaits_none (thr := thrL d L) hO) $$ Hlv
  sl_exec
  sl_step
  isplitr; · iexact Hlv
  isplitr [HC HO]
  · iapply (Entails.of_eq (tail2_close m d L).symm)
    isplitl [Hfl44_dst Hw44 Hfl45_dst Hw45 HrP]
    · isplitl [Hfl44_dst Hw44]
      · iapply (finished_intro m d L 44 c44 fo44 hfo44)
        isplitl [Hfl44_dst]; · iexact Hfl44_dst
        iexact Hw44
      isplitl [Hfl45_dst Hw45]
      · iapply (finished_intro m d L 45 c45 fo45 hfo45)
        isplitl [Hfl45_dst]; · iexact Hfl45_dst
        iexact Hw45
      iexact HrP
    · isplitl [Hfl44_src Hg44 Hfl44 Hsh44]
      · iapply (Entails.of_eq (freeSlot_unfold m d L ⟨2, s2⟩).symm)
        isplitl [Hfl44_src]; · iexists fd44; iexact Hfl44_src
        isplitl [Hg44]; · iexact Hg44
        isplitl [Hfl44]
        · iapply (Entails.of_eq (show (semVal (thrL d L, SemLoc.dma (⟨8, by decide⟩ : DmaSem sig)) 0 : sProp 𝕄) = sSemPts d L 2 s2 from rfl)); iexact Hfl44
        iexact Hsh44
      isplitl [Hfl45_src Hg45 Hfl45 Hsh45]
      · iapply (Entails.of_eq (freeSlot_unfold m d L ⟨3, s3⟩).symm)
        isplitl [Hfl45_src]; · iexists fd45; iexact Hfl45_src
        isplitl [Hg45]; · iexact Hg45
        isplitl [Hfl45]
        · iapply (Entails.of_eq (show (semVal (thrL d L, SemLoc.dma (⟨9, by decide⟩ : DmaSem sig)) 0 : sProp 𝕄) = sSemPts d L 3 s3 from rfl)); iexact Hfl45
        iexact Hsh45
      iapply (Entails.of_eq (restSlots_emp m d L).symm); iempintro
  · isplitl [HC]; · iexact HC
    iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    exact hW1 p hp

end Loop

end Cert.Proof.KN

end
-- ==== Proof.KNParts12.lean ====
/-
  The first two parts of a tile's program: up to the first two gathers (the fetches, the barrier), and the loop with the
  two waits after it.
-/
import proofs.«203285_g23708219474275_cont_8to1_227_19_alg».proof.Proof.KNPart1
import proofs.«203285_g23708219474275_cont_8to1_227_19_alg».proof.Proof.KNLoopB

noncomputable section

namespace Cert.Proof.KN

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iwV" => (Memref.whole Cert.Kernel.main_v1_scv : Memref Cert.Kernel.sig Kind.scVector Space.hbm Cert.Kernel.S32x6400 EltTy.i32)
local notation "tabV" => (Memref.whole Cert.Kernel.main_arg1_scv : Memref Cert.Kernel.sig Kind.scVector Space.hbm Cert.Kernel.S1002x128 EltTy.f32)
local notation "outV" => (Memref.whole Cert.Kernel.main_v2_scv : Memref Cert.Kernel.sig Kind.scVector Space.hbm Cert.Kernel.S204800x128 EltTy.f32)
local notation "shV" => (Memref.whole Cert.Kernel.cc0_scratch2 : Memref Cert.Kernel.sig Kind.scVector Space.shared Cert.Kernel.S1002x128 EltTy.f32)
local notation "ivV" => (Memref.whole Cert.Kernel.cc0_scratch0 : Memref Cert.Kernel.sig Kind.scVector Space.vmem Cert.Kernel.S6400 EltTy.i32)
local notation "rvV" => (Memref.whole Cert.Kernel.cc0_scratch1 : Memref Cert.Kernel.sig Kind.scVector Space.vmem Cert.Kernel.S6x128x128 EltTy.f32)

variable [FloatOps F]

section Parts

variable (d : Dev nD) (L : grid0.Coords)

theorem part1_spec (hF : (K (F := F)).Facts) (hpre : IdxOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goRes m d (cV L) (jL L)
        ∗ scopedBufs (thrL d L) ∗ scopedSems0 (thrL d L) ∗ owes (thrL d L) (O + oxV d (cV L)) W)
      ⊢ wp frame (wpE (defs₀ (F := F)) 𝒱₀ (thrL d L) none) Set.univ
          (k0_part1 L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1)
          fun _ => Mid m d L (Ring m d L 0) O W :=
  part1_proof m d L hF hpre O W hO hOlev

theorem part2_spec (hpre : IdxOK m) (O : CellTallies nD τ sig (HIx 1)) (W : Waits sig (HIx 1)) (hO : ∀ g, O g none = 0) (v5 c0 c50 : BitVec 32) :
    Mid m d L (Ring m d L 0) O W
      ⊢ wp frame (wpE (defs₀ (F := F)) 𝒱₀ (thrL d L) none) Set.univ
          (k0_part2 L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1 v5 c0 c50)
          fun _ => Mid m d L (Tail m d L 2) O W :=
  part2_proof m d L hpre O W hO v5 c0 c50

end Parts

end Cert.Proof.KN

end
-- ==== Proof.KNClaims.lean ====
/-
  The certificate's claim about the kernel as printed: it runs and leaves its arguments unchanged — the kernel's run (the
  launch, over a proof of one tile's task) with the value dropped, the precondition read as a bound on every index word.
-/
import proofs.«203285_g23708219474275_cont_8to1_227_19_alg».proof.Defs
import proofs.«203285_g23708219474275_cont_8to1_227_19_alg».proof.Proof.KNLaunch
import proofs.«203285_g23708219474275_cont_8to1_227_19_alg».proof.Proof.KNParts12
import proofs.«203285_g23708219474275_cont_8to1_227_19_alg».proof.Proof.PreDecode
import proofs.«203285_g23708219474275_cont_8to1_227_19_alg».proof.Proof.Gen.Kernel
import proofs.«203285_g23708219474275_cont_8to1_227_19_alg».proof.Proof.Gen.Pre_input_domain

noncomputable section

namespace Cert.Proof.KN

open Cert.Kernel Cert.Kernel.Gen

open Idealize.ShloMosaic
open Idealize.ShloMosaic.SparseCore (S V T)
open Idealize.SL.Sem

variable {F : FTy → Type}

variable (m : (ℓ : Loc nD τ sig) → Buf (Elt F) ℓ)

/-- Under the precondition every word of the rearranged index list names a row of the table: the rearranged list holds the
    words of the index list, each at some position. -/
theorem idxOK_of_pre [FloatOps F]
    (h : ∀ c : Dev nD, Cert.Pre_input_domain.fn (F := F) (m (a0Loc c)) (m (tabLoc c)) = fun _ => 1#1) : IdxOK m := by
  intro d p
  exact Cert.PreDecode.idx_toNat_lt (m (a0Loc d)) (m (tabLoc d)) (h d) _

/-- The kernel runs and leaves its arguments unchanged. -/
theorem frame_k (htile : ∀ m : (ℓ : Loc nD τ sig) → Buf (Elt Bits) ℓ, IdxOK m → (K (F := Bits)).TileObl (D (F := Bits)) 𝒱 (P m) v₀ 0) :
    Cert.frame_Kernel := fun m g hpre =>
  (θ_run Cert.Kernel.defs _ _).mono (fun _ h c => ⟨(h c).2.1, (h c).2.2⟩)
    (run_main (F := Bits) m g (htile m (idxOK_of_pre m hpre)))

end Cert.Proof.KN

end
-- ==== Proof.KITileBody.lean ====
/-
  One tile's task, whole: the first part (the fetches, the barrier, the first two gathers), the loop with its two waits,
  the last four waits, and the regrouping of the pieces into what the task hands back.
-/
import proofs.«203285_g23708219474275_cont_8to1_227_19_alg».proof.Proof.KIParts12
import proofs.«203285_g23708219474275_cont_8to1_227_19_alg».proof.Proof.KITileEnd

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iwV" => (Memref.whole Cert.KernelIdeal.main_v1_scv : Memref Cert.KernelIdeal.sig Kind.scVector Space.hbm Cert.KernelIdeal.S32x6400 EltTy.i32)
local notation "tabV" => (Memref.whole Cert.KernelIdeal.main_arg1_scv : Memref Cert.KernelIdeal.sig Kind.scVector Space.hbm Cert.KernelIdeal.S1002x128 EltTy.f32)
local notation "outV" => (Memref.whole Cert.KernelIdeal.main_v2_scv : Memref Cert.KernelIdeal.sig Kind.scVector Space.hbm Cert.KernelIdeal.S204800x128 EltTy.f32)
local notation "shV" => (Memref.whole Cert.KernelIdeal.cc0_scratch2 : Memref Cert.KernelIdeal.sig Kind.scVector Space.shared Cert.KernelIdeal.S1002x128 EltTy.f32)
local notation "ivV" => (Memref.whole Cert.KernelIdeal.cc0_scratch0 : Memref Cert.KernelIdeal.sig Kind.scVector Space.vmem Cert.KernelIdeal.S6400 EltTy.i32)
local notation "rvV" => (Memref.whole Cert.KernelIdeal.cc0_scratch1 : Memref Cert.KernelIdeal.sig Kind.scVector Space.vmem Cert.KernelIdeal.S6x128x128 EltTy.f32)

variable [FloatOps F]

section Tile

variable (d : Dev nD) (L : grid0.Coords)

omit [FloatOps F] in
theorem tb_c46 : (46 : ℕ) < 50 := by decide
omit [FloatOps F] in
theorem tb_c47 : (47 : ℕ) < 50 := by decide
omit [FloatOps F] in
theorem tb_c48 : (48 : ℕ) < 50 := by decide
omit [FloatOps F] in
theorem tb_c49 : (49 : ℕ) < 50 := by decide

/-- A chunk of the result holding the chunk's rows, with its window, is a finished chunk. -/
theorem tb_finished_intro (j : ℕ) (hj : j < 50) (fo : Buf (Elt F) ((chunkM L j hj).view.loc (thrL d L)))
    (hfo : (chunkM L j hj).view.read (Elt F) fo = rowsOf m d L j hj) :
    iprop(chunkPts d L j hj fo ∗ winPts m d L j hj) ⊢ finished m d L j hj := by
  unfold finished chunkDone
  iintro ⟨Hc, Hw⟩
  isplitl [Hc]
  · iexists fo; isplitr
    · ipureintro; exact hfo
    iexact Hc
  iexact Hw

/-- A slot at some contents, its two semaphores at zero and its read token are a free slot. -/
theorem tb_freeSlot_intro (b : Fin 6) (fd : Buf (Elt F) ((slotM b.val b.isLt).view.loc (thrL d L))) :
    iprop(slotPts d L b.val b.isLt fd ∗ gSemPts d L b.val b.isLt ∗ sSemPts d L b.val b.isLt ∗ shPts m d L b.val)
      ⊢ freeSlot m d L b := by
  unfold freeSlot
  iintro ⟨H1, H2, H3, H4⟩
  isplitl [H1]; · iexists fd; iexact H1
  isplitl [H2]; · iexact H2
  isplitl [H3]; · iexact H3
  iexact H4

set_option maxHeartbeats 4000000 in
set_option maxRecDepth 16384 in
/-- The task on vector subcore `(L 0, L 1)` of device `d`: from its run of the rearranged index list, its part of the
    flat result and (on tile 0) the table's share and the shared memory, to the part holding the looked-up rows. -/
theorem tile_body (hF : (K (F := F)).Facts) (hpre : IdxOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goRes m d (cV L) (jL L)
        ∗ scopedBufs (thrL d L) ∗ scopedSems0 (thrL d L) ∗ owes (thrL d L) (O + oxV d (cV L)) W)
      ⊢ wp frame (wpE (defs₀ (F := F)) 𝒱₀ (thrL d L) none) Set.univ
          (cc0__sc_gather L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1)
          fun _ => iprop(tdRes m d (cV L) (jL L) ∗ scopedBufs (thrL d L) ∗ scopedSems0 (thrL d L)
            ∗ ∃ W', ⌜∀ p ∈ W', p ∈ W ∨ p.2 = none ∨ p.2 = some (0 : Fin 1)⌝ ∗ owes (thrL d L) O W') := by
  simp only [cc0__sc_gather_eq_skeleton]; unfold cc0__sc_gather_skel
  simp only [k0_part3_eq_skeleton]; unfold k0_part3_skel
  rw [wp_bind, wp_bind]
  refine (part1_spec m d L hF hpre O W hO hOlev).trans (wp_mono _ _ _ fun r => ?_)
  obtain ⟨v5, c0, c50⟩ := r
  beta_reduce
  rw [wp_bind]
  refine (part2_spec m d L hpre O W hO v5 c0 c50).trans (wp_mono _ _ _ fun _ => ?_)
  beta_reduce
  unfold Mid
  rw [tail2_eq]
  unfold storing sFlight
  iintro ⟨#Hlv, ⟨⟨⟨⟨%fo46, %fd46, %hfo46, Hfl46⟩, Hw46, Hg46, Hsh46⟩, ⟨⟨%fo47, %fd47, %hfo47, Hfl47⟩, Hw47, Hg47, Hsh47⟩, ⟨⟨%fo48, %fd48, %hfo48, Hfl48⟩, Hw48, Hg48, Hsh48⟩, ⟨⟨%fo49, %fd49, %hfo49, Hfl49⟩, Hw49, Hg49, Hsh49⟩, Hearly⟩, Hf2, Hf3⟩, Hcarry, ⟨%W', %hW', HO⟩⟩
  ihave #Hmw := (show levAts (K (F := F)).L (K (F := F)).lev ⊢ Transfers.MayWaits (thrL d L) (default : HIx 1) O from
    (K (F := F)).mayWaits_none (thr := thrL d L) hO) $$ Hlv
  -- the copies out of chunks 46 … 49 are waited for, and the two returns
  sl_exec
  rw [wp_ret]; imodintro
  -- every chunk finished, every slot free
  iapply (task_done m d L hF O W)
  isplitl [Hfl46_dst Hw46 Hfl47_dst Hw47 Hfl48_dst Hw48 Hfl49_dst Hw49 Hearly]
  · iapply (Entails.of_eq (all_finished m d L))
    isplitl [Hfl46_dst Hw46]
    · iapply (tb_finished_intro m d L 46 tb_c46 fo46 hfo46)
      isplitl [Hfl46_dst]; · iexact Hfl46_dst
      iexact Hw46
    isplitl [Hfl47_dst Hw47]
    · iapply (tb_finished_intro m d L 47 tb_c47 fo47 hfo47)
      isplitl [Hfl47_dst]; · iexact Hfl47_dst
      iexact Hw47
    isplitl [Hfl48_dst Hw48]
    · iapply (tb_finished_intro m d L 48 tb_c48 fo48 hfo48)
      isplitl [Hfl48_dst]; · iexact Hfl48_dst
      iexact Hw48
    isplitl [Hfl49_dst Hw49]
    · iapply (tb_finished_intro m d L 49 tb_c49 fo49 hfo49)
      isplitl [Hfl49_dst]; · iexact Hfl49_dst
      iexact Hw49
    iexact Hearly
  isplitl [Hfl48_src Hg48 Hfl48 Hsh48 Hfl49_src Hg49 Hfl49 Hsh49 Hf2 Hf3 Hfl46_src Hg46 Hfl46 Hsh46 Hfl47_src Hg47 Hfl47 Hsh47]
  · rw [bigSep_fin6]
    isplitl [Hfl48_src Hg48 Hfl48 Hsh48]
    · iapply (tb_freeSlot_intro m d L 0 fd48)
      isplitl [Hfl48_src]; · iexact Hfl48_src
      isplitl [Hg48]; · iexact Hg48
      isplitl [Hfl48]; · iexact Hfl48
      iexact Hsh48
    isplitl [Hfl49_src Hg49 Hfl49 Hsh49]
    · iapply (tb_freeSlot_intro m d L 1 fd49)
      isplitl [Hfl49_src]; · iexact Hfl49_src
      isplitl [Hg49]; · iexact Hg49
      isplitl [Hfl49]; · iexact Hfl49
      iexact Hsh49
    isplitl [Hf2]; · iexact Hf2
    isplitl [Hf3]; · iexact Hf3
    isplitl [Hfl46_src Hg46 Hfl46 Hsh46]
    · iapply (tb_freeSlot_intro m d L 4 fd46)
      isplitl [Hfl46_src]; · iexact Hfl46_src
      isplitl [Hg46]; · iexact Hg46
      isplitl [Hfl46]; · iexact Hfl46
      iexact Hsh46
    iapply (tb_freeSlot_intro m d L 5 fd47)
    isplitl [Hfl47_src]; · iexact Hfl47_src
    isplitl [Hg47]; · iexact Hg47
    isplitl [Hfl47]; · iexact Hfl47
    iexact Hsh47
  isplitl [Hcarry]; · iexact Hcarry
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  exact hW' p hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          iwV (Memref.isWhole_whole _) tabV (Memref.isWhole_whole _) outV (Memref.isWhole_whole _) ivV (Memref.isWhole_whole _)
          rvV (Memref.isWhole_whole _) shV (Memref.isWhole_whole _) cc0_scratch3 cc0_scratch4 cc0_scoped0 cc0_scoped1) ⟨⟩ c s := rfl

set_option maxRecDepth 16384 in
/-- Every tile's task meets the launch theorem's obligation. -/
theorem tileObl (hF : (K (F := F)).Facts) (hpre : IdxOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO hOlev

end Tile

end Cert.Proof.KI

end
-- ==== Proof.KNTileBody.lean ====
/-
  One tile's task, whole: the first part (the fetches, the barrier, the first two gathers), the loop with its two waits,
  the last four waits, and the regrouping of the pieces into what the task hands back.
-/
import proofs.«203285_g23708219474275_cont_8to1_227_19_alg».proof.Proof.KNParts12
import proofs.«203285_g23708219474275_cont_8to1_227_19_alg».proof.Proof.KNTileEnd

noncomputable section

namespace Cert.Proof.KN

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iwV" => (Memref.whole Cert.Kernel.main_v1_scv : Memref Cert.Kernel.sig Kind.scVector Space.hbm Cert.Kernel.S32x6400 EltTy.i32)
local notation "tabV" => (Memref.whole Cert.Kernel.main_arg1_scv : Memref Cert.Kernel.sig Kind.scVector Space.hbm Cert.Kernel.S1002x128 EltTy.f32)
local notation "outV" => (Memref.whole Cert.Kernel.main_v2_scv : Memref Cert.Kernel.sig Kind.scVector Space.hbm Cert.Kernel.S204800x128 EltTy.f32)
local notation "shV" => (Memref.whole Cert.Kernel.cc0_scratch2 : Memref Cert.Kernel.sig Kind.scVector Space.shared Cert.Kernel.S1002x128 EltTy.f32)
local notation "ivV" => (Memref.whole Cert.Kernel.cc0_scratch0 : Memref Cert.Kernel.sig Kind.scVector Space.vmem Cert.Kernel.S6400 EltTy.i32)
local notation "rvV" => (Memref.whole Cert.Kernel.cc0_scratch1 : Memref Cert.Kernel.sig Kind.scVector Space.vmem Cert.Kernel.S6x128x128 EltTy.f32)

variable [FloatOps F]

section Tile

variable (d : Dev nD) (L : grid0.Coords)

omit [FloatOps F] in
theorem tb_c46 : (46 : ℕ) < 50 := by decide
omit [FloatOps F] in
theorem tb_c47 : (47 : ℕ) < 50 := by decide
omit [FloatOps F] in
theorem tb_c48 : (48 : ℕ) < 50 := by decide
omit [FloatOps F] in
theorem tb_c49 : (49 : ℕ) < 50 := by decide

/-- A chunk of the result holding the chunk's rows, with its window, is a finished chunk. -/
theorem tb_finished_intro (j : ℕ) (hj : j < 50) (fo : Buf (Elt F) ((chunkM L j hj).view.loc (thrL d L)))
    (hfo : (chunkM L j hj).view.read (Elt F) fo = rowsOf m d L j hj) :
    iprop(chunkPts d L j hj fo ∗ winPts m d L j hj) ⊢ finished m d L j hj := by
  unfold finished chunkDone
  iintro ⟨Hc, Hw⟩
  isplitl [Hc]
  · iexists fo; isplitr
    · ipureintro; exact hfo
    iexact Hc
  iexact Hw

/-- A slot at some contents, its two semaphores at zero and its read token are a free slot. -/
theorem tb_freeSlot_intro (b : Fin 6) (fd : Buf (Elt F) ((slotM b.val b.isLt).view.loc (thrL d L))) :
    iprop(slotPts d L b.val b.isLt fd ∗ gSemPts d L b.val b.isLt ∗ sSemPts d L b.val b.isLt ∗ shPts m d L b.val)
      ⊢ freeSlot m d L b := by
  unfold freeSlot
  iintro ⟨H1, H2, H3, H4⟩
  isplitl [H1]; · iexists fd; iexact H1
  isplitl [H2]; · iexact H2
  isplitl [H3]; · iexact H3
  iexact H4

set_option maxHeartbeats 4000000 in
set_option maxRecDepth 16384 in
/-- The task on vector subcore `(L 0, L 1)` of device `d`: from its run of the rearranged index list, its part of the
    flat result and (on tile 0) the table's share and the shared memory, to the part holding the looked-up rows. -/
theorem tile_body (hF : (K (F := F)).Facts) (hpre : IdxOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goRes m d (cV L) (jL L)
        ∗ scopedBufs (thrL d L) ∗ scopedSems0 (thrL d L) ∗ owes (thrL d L) (O + oxV d (cV L)) W)
      ⊢ wp frame (wpE (defs₀ (F := F)) 𝒱₀ (thrL d L) none) Set.univ
          (cc0__sc_gather L iwV (Memref.isWhole_whole _) tabV (Memref.isWhole_whole _) outV (Memref.isWhole_whole _) ivV (Memref.isWhole_whole _)
            rvV (Memref.isWhole_whole _) shV (Memref.isWhole_whole _) cc0_scratch3 cc0_scratch4 cc0_scoped0 cc0_scoped1)
          fun _ => iprop(tdRes m d (cV L) (jL L) ∗ scopedBufs (thrL d L) ∗ scopedSems0 (thrL d L)
            ∗ ∃ W', ⌜∀ p ∈ W', p ∈ W ∨ p.2 = none ∨ p.2 = some (0 : Fin 1)⌝ ∗ owes (thrL d L) O W') := by
  simp only [cc0__sc_gather_eq_skeleton]; unfold cc0__sc_gather_skel
  simp only [k0_part3_eq_skeleton]; unfold k0_part3_skel
  rw [wp_bind, wp_bind]
  refine (part1_spec m d L hF hpre O W hO hOlev).trans (wp_mono _ _ _ fun r => ?_)
  obtain ⟨v5, c0, c50⟩ := r
  beta_reduce
  rw [wp_bind]
  refine (part2_spec m d L hpre O W hO v5 c0 c50).trans (wp_mono _ _ _ fun _ => ?_)
  beta_reduce
  unfold Mid
  rw [tail2_eq]
  unfold storing sFlight
  iintro ⟨#Hlv, ⟨⟨⟨⟨%fo46, %fd46, %hfo46, Hfl46⟩, Hw46, Hg46, Hsh46⟩, ⟨⟨%fo47, %fd47, %hfo47, Hfl47⟩, Hw47, Hg47, Hsh47⟩, ⟨⟨%fo48, %fd48, %hfo48, Hfl48⟩, Hw48, Hg48, Hsh48⟩, ⟨⟨%fo49, %fd49, %hfo49, Hfl49⟩, Hw49, Hg49, Hsh49⟩, Hearly⟩, Hf2, Hf3⟩, Hcarry, ⟨%W', %hW', HO⟩⟩
  ihave #Hmw := (show levAts (K (F := F)).L (K (F := F)).lev ⊢ Transfers.MayWaits (thrL d L) (default : HIx 1) O from
    (K (F := F)).mayWaits_none (thr := thrL d L) hO) $$ Hlv
  -- the copies out of chunks 46 … 49 are waited for, and the two returns
  sl_exec
  rw [wp_ret]; imodintro
  -- every chunk finished, every slot free
  iapply (task_done m d L hF O W)
  isplitl [Hfl46_dst Hw46 Hfl47_dst Hw47 Hfl48_dst Hw48 Hfl49_dst Hw49 Hearly]
  · iapply (Entails.of_eq (all_finished m d L))
    isplitl [Hfl46_dst Hw46]
    · iapply (tb_finished_intro m d L 46 tb_c46 fo46 hfo46)
      isplitl [Hfl46_dst]; · iexact Hfl46_dst
      iexact Hw46
    isplitl [Hfl47_dst Hw47]
    · iapply (tb_finished_intro m d L 47 tb_c47 fo47 hfo47)
      isplitl [Hfl47_dst]; · iexact Hfl47_dst
      iexact Hw47
    isplitl [Hfl48_dst Hw48]
    · iapply (tb_finished_intro m d L 48 tb_c48 fo48 hfo48)
      isplitl [Hfl48_dst]; · iexact Hfl48_dst
      iexact Hw48
    isplitl [Hfl49_dst Hw49]
    · iapply (tb_finished_intro m d L 49 tb_c49 fo49 hfo49)
      isplitl [Hfl49_dst]; · iexact Hfl49_dst
      iexact Hw49
    iexact Hearly
  isplitl [Hfl48_src Hg48 Hfl48 Hsh48 Hfl49_src Hg49 Hfl49 Hsh49 Hf2 Hf3 Hfl46_src Hg46 Hfl46 Hsh46 Hfl47_src Hg47 Hfl47 Hsh47]
  · rw [bigSep_fin6]
    isplitl [Hfl48_src Hg48 Hfl48 Hsh48]
    · iapply (tb_freeSlot_intro m d L 0 fd48)
      isplitl [Hfl48_src]; · iexact Hfl48_src
      isplitl [Hg48]; · iexact Hg48
      isplitl [Hfl48]; · iexact Hfl48
      iexact Hsh48
    isplitl [Hfl49_src Hg49 Hfl49 Hsh49]
    · iapply (tb_freeSlot_intro m d L 1 fd49)
      isplitl [Hfl49_src]; · iexact Hfl49_src
      isplitl [Hg49]; · iexact Hg49
      isplitl [Hfl49]; · iexact Hfl49
      iexact Hsh49
    isplitl [Hf2]; · iexact Hf2
    isplitl [Hf3]; · iexact Hf3
    isplitl [Hfl46_src Hg46 Hfl46 Hsh46]
    · iapply (tb_freeSlot_intro m d L 4 fd46)
      isplitl [Hfl46_src]; · iexact Hfl46_src
      isplitl [Hg46]; · iexact Hg46
      isplitl [Hfl46]; · iexact Hfl46
      iexact Hsh46
    iapply (tb_freeSlot_intro m d L 5 fd47)
    isplitl [Hfl47_src]; · iexact Hfl47_src
    isplitl [Hg47]; · iexact Hg47
    isplitl [Hfl47]; · iexact Hfl47
    iexact Hsh47
  isplitl [Hcarry]; · iexact Hcarry
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  exact hW' p hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          iwV (Memref.isWhole_whole _) tabV (Memref.isWhole_whole _) outV (Memref.isWhole_whole _) ivV (Memref.isWhole_whole _)
          rvV (Memref.isWhole_whole _) shV (Memref.isWhole_whole _) cc0_scratch3 cc0_scratch4 cc0_scoped0 cc0_scoped1) ⟨⟩ c s := rfl

set_option maxRecDepth 16384 in
/-- Every tile's task meets the launch theorem's obligation. -/
theorem tileObl (hF : (K (F := F)).Facts) (hpre : IdxOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO hOlev

end Tile

end Cert.Proof.KN

end
-- ==== Proof.lean ====
/-
  The certificate's claim: an embedding lookup on the SparseCores against the same lookup on the host.

  The inputs are a list of index words idx : [4096, 50], each in [0, 999] by the precondition, and a table tab : [1002, 128].
  Both programs produce the array whose position (b, h, q) holds entry q of table row idx(b, h). The reference reads that row
  by a gather whose in-range mask is all ones under the precondition. The kernel transposes the index list, cuts its 204800
  words into 32 runs of 6400, has each of 32 tiles (sixteen on each of two SparseCores) look up its run out of a copy of the
  table in its SparseCore's shared memory, and reads the 204800 rows so produced back as [50, 4096, 128], transposed to
  [4096, 50, 128]; row 4096 h + b of the flat result is the table row named by the word at the same row-major position of
  the transposed list, which is idx(b, h). So the two results are equal entry by entry, with no arithmetic on the entries.

  The kernel's frames (it runs to the end, faults nowhere, leaves its arguments unchanged) and its value come from one run
  theorem per instance: the launch theorem applied to the program, over a proof of one tile's task at a symbolic tile — the
  fetch of its run of index words, the copy of the table into shared memory by tile 0 handed to the others at the subcore
  barrier, and the ring of gathers and copies out, proved by a loop invariant that says which rows of the tile's part of the
  flat result already hold their table rows. The kernel as printed and the idealized kernel are the same text at two float
  instances and move entries without computing on them, so the idealization has nothing to preserve.
-/
import proofs.«203285_g23708219474275_cont_8to1_227_19_alg».proof.Defs
import proofs.«203285_g23708219474275_cont_8to1_227_19_alg».proof.Proof.Gen.Kernel
import proofs.«203285_g23708219474275_cont_8to1_227_19_alg».proof.Proof.Gen.Kernel.Skeleton
import proofs.«203285_g23708219474275_cont_8to1_227_19_alg».proof.Proof.Gen.KernelIdeal
import proofs.«203285_g23708219474275_cont_8to1_227_19_alg».proof.Proof.Gen.KernelIdeal.Skeleton
import proofs.«203285_g23708219474275_cont_8to1_227_19_alg».proof.Proof.Gen.ReferenceIdeal
import proofs.«203285_g23708219474275_cont_8to1_227_19_alg».proof.Proof.Gen.Pre_input_domain
import proofs.«203285_g23708219474275_cont_8to1_227_19_alg».proof.Proof.KIClaims
import proofs.«203285_g23708219474275_cont_8to1_227_19_alg».proof.Proof.KNClaims
import proofs.«203285_g23708219474275_cont_8to1_227_19_alg».proof.Proof.KITileBody
import proofs.«203285_g23708219474275_cont_8to1_227_19_alg».proof.Proof.KNTileBody
import Idealize.ShloMosaic.Adequacy
import Idealize.ShloMosaic.Init

noncomputable section

namespace Cert.Proof

open Idealize.ShloMosaic Idealize.SL.Sem

/-- The five conjuncts: the kernel's frame at the two instances (its run with the value dropped), the reference's frame
    (its run with the value dropped), the idealization (no operation was rewritten), and the agreement of the idealized
    kernel with the reference (both end with the lookup of the arguments). -/
theorem claim : Cert.Claim := ⟨Cert.Kernel.Gen.facts, Cert.KernelIdeal.Gen.facts, Cert.ReferenceIdeal.Gen.facts, Cert.Pre_input_domain.Gen.facts,
  KN.frame_k (fun m h => KN.tileObl m KN.facts h),
  KI.frame_ki (fun m h => KI.tileObl m KI.facts h),
  KI.frame_ri,
  trivial,
  KI.algebraic (fun m h => KI.tileObl m KI.facts h)⟩

end Cert.Proof

end
